-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S128x1x100000 : Shape := ⟨3, ![128, 1, 100000]⟩
abbrev S1x128x1024 : Shape := ⟨3, ![1, 128, 1024]⟩
abbrev S5000 : Shape := ⟨1, ![5000]⟩
abbrev S1x1024 : Shape := ⟨2, ![1, 1024]⟩
abbrev S1 : Shape := ⟨1, ![1]⟩
abbrev S_ : Shape := ⟨0, ![]⟩

class Facts : Prop where
  bcast_S_S128x1x100000 : S_.BroadcastsInDim S128x1x100000 (![] : Fin 0 → Fin S128x1x100000.rank)
  reducesTo_S128x1x100000_S_d0_1_2 : S128x1x100000.ReducesTo [0, 1, 2] S_
  h_S_ : 0 < S_.numel
  bcast_S_S1x128x1024 : S_.BroadcastsInDim S1x128x1024 (![] : Fin 0 → Fin S1x128x1024.rank)
  reducesTo_S1x128x1024_S_d0_1_2 : S1x128x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_
  bcast_S_S5000 : S_.BroadcastsInDim S5000 (![] : Fin 0 → Fin S5000.rank)
  reducesTo_S5000_S_d0 : S5000.ReducesTo [0] S_

variable [Facts]

def fn_part1 {F : FTy → Type} [FloatOps F] (main_arg2 : IVec S5000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S5000 32 := broadcastInDim S5000 ![] bcast_S_S5000 main_c_6
  let main_v20 : IVec S5000 1 := cmpi .sge main_arg2 main_v19
  let main_c_7 : IVec S_ 32 := constantI S_ 32 99999#32
  let main_v21 : IVec S5000 32 := broadcastInDim S5000 ![] bcast_S_S5000 main_c_7
  let main_v22 : IVec S5000 1 := cmpi .sle main_arg2 main_v21
  let main_v23 : IVec S5000 1 := andi main_v20 main_v22
  let main_c_8 : IVec S_ 1 := constantI S_ 1 1#1
  let main_v24 : IVec S_ 1 := (fun x v => Host.reduce IntOp.andi x v reducesTo_S5000_S_d0 h_S_) main_v23 main_c_8
  let main_v25 : IVec S_ 1 := andi main_v18 main_v24
  main_v25

def fn {F : FTy → Type} [FloatOps F] (main_arg0 : FVec F S128x1x100000 .f32) (main_arg1 : FVec F S1x128x1024 .f32) (main_arg2 : IVec S5000 32) (main_arg3 : FVec F S1x1024 .f32) (main_arg4 : FVec F S1 .f32) : IVec S_ 1 :=
  let main_v0 : FVec F S128x1x100000 .f32 := Host.absf main_arg0
  let main_cst : FVec F S_ .f32 := constant S_ .f32 0x7F800000#32
  let main_v1 : FVec F S128x1x100000 .f32 := broadcastInDim S128x1x100000 ![] bcast_S_S128x1x100000 main_cst
  let main_v2 : IVec S128x1x100000 1 := cmpf .olt main_v0 main_v1
  let main_c : IVec S_ 1 := constantI S_ 1 1#1
  let main_v3 : IVec S_ 1 := (fun x v => Host.reduce IntOp.andi x v reducesTo_S128x1x100000_S_d0_1_2 h_S_) main_v2 main_c
  let main_v4 : FVec F S1x128x1024 .f32 := Host.absf main_arg1
  let main_cst_0 : FVec F S_ .f32 := constant S_ .f32 0x7F800000#32
  let main_v5 : FVec F S1x128x1024 .f32 := broadcastInDim S1x128x1024 ![] bcast_S_S1x128x1024 main_cst_0
  let main_v6 : IVec S1x128x1024 1 := cmpf .olt main_v4 main_v5
  let main_c_1 : IVec S_ 1 := constantI S_ 1 1#1
  let main_v7 : IVec S_ 1 := (fun x v => Host.reduce IntOp.andi x v reducesTo_S1x128x1024_S_d0_1_2 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_v13 main_v16
-- ==== Kernel.lean ====
abbrev S128x1x100000 : Shape := ⟨3, ![128, 1, 100000]⟩
abbrev S1x128x1024 : Shape := ⟨3, ![1, 128, 1024]⟩
abbrev S5000 : Shape := ⟨1, ![5000]⟩
abbrev S1x1024 : Shape := ⟨2, ![1, 1024]⟩
abbrev S1 : Shape := ⟨1, ![1]⟩
abbrev S_ : Shape := ⟨0, ![]⟩
abbrev S120 : Shape := ⟨1, ![120]⟩
abbrev S5120 : Shape := ⟨1, ![5120]⟩
abbrev S40x128 : Shape := ⟨2, ![40, 128]⟩
abbrev S1024x128 : Shape := ⟨2, ![1024, 128]⟩
abbrev S32x128 : Shape := ⟨2, ![32, 128]⟩
abbrev S16 : Shape := ⟨1, ![16]⟩
abbrev S1x16 : Shape := ⟨2, ![1, 16]⟩
abbrev S1x100000x128 : Shape := ⟨3, ![1, 100000, 128]⟩
abbrev S100000x128 : Shape := ⟨2, ![100000, 128]⟩
abbrev S128x1024 : Shape := ⟨2, ![128, 1024]⟩
abbrev S1x1 : Shape := ⟨2, ![1, 1]⟩
abbrev S14336x128 : Shape := ⟨2, ![14336, 128]⟩
abbrev S1x128 : Shape := ⟨2, ![1, 128]⟩
abbrev S7x128x112 : Shape := ⟨3, ![7, 128, 112]⟩
abbrev S112x128 : Shape := ⟨2, ![112, 128]⟩
abbrev S128x112 : Shape := ⟨2, ![128, 112]⟩
abbrev S1x128x112 : Shape := ⟨3, ![1, 128, 112]⟩
abbrev S128x1 : Shape := ⟨2, ![128, 1]⟩
abbrev S128x128 : Shape := ⟨2, ![128, 128]⟩

abbrev nBuf : Table → Nat
  | .hbm => 17
  | .local .tc .vmem => 10
  | .local .scVector .vmem => 2
  | _ => 0

abbrev bufTy : (tb : Table) → Fin (nBuf tb) → BufTy
  | .hbm, ⟨0, _⟩ => ⟨S128x1x100000, .f32⟩
  | .hbm, ⟨1, _⟩ => ⟨S1x128x1024, .f32⟩
  | .hbm, ⟨2, _⟩ => ⟨S5000, .i32⟩
  | .hbm, ⟨3, _⟩ => ⟨S1x1024, .f32⟩
  | .hbm, ⟨4, _⟩ => ⟨S1, .f32⟩
  | .hbm, ⟨5, _⟩ => ⟨S_, .i32⟩
  | .hbm, ⟨6, _⟩ => ⟨S120, .i32⟩
  | .hbm, ⟨7, _⟩ => ⟨S5120, .i32⟩
  | .hbm, ⟨8, _⟩ => ⟨S40x128, .i32⟩
  | .hbm, ⟨9, _⟩ => ⟨S1024x128, .f32⟩
  | .hbm, ⟨10, _⟩ => ⟨S1x100000x128, .f32⟩
  | .hbm, ⟨11, _⟩ => ⟨S100000x128, .f32⟩
  | .hbm, ⟨12, _⟩ => ⟨S128x1024, .f32⟩
  | .hbm, ⟨13, _⟩ => ⟨S1x1, .f32⟩
  | .hbm, ⟨14, _⟩ => ⟨S100000x128, .f32⟩
  | .hbm, ⟨15, _⟩ => ⟨S1x100000x128, .f32⟩
  | .hbm, ⟨16, _⟩ => ⟨S128x1x100000, .f32⟩
  | .local .tc .vmem, ⟨0, _⟩ => ⟨S128x1024, .f32⟩
  | .local .tc .vmem, ⟨1, _⟩ => ⟨S1x1024, .f32⟩
  | .local .tc .vmem, ⟨2, _⟩ => ⟨S1x1, .f32⟩
  | .local .tc .vmem, ⟨3, _⟩ => ⟨S14336x128, .f32⟩
  | .local .tc .vmem, ⟨4, _⟩ => ⟨S14336x128, .f32⟩
  | .local .tc .vmem, ⟨5, _⟩ => ⟨S1024x128, .f32⟩
  | .local .tc .vmem, ⟨6, _⟩ => ⟨S14336x128, .f32⟩
  | .local .tc .vmem, ⟨7, _⟩ => ⟨S14336x128, .f32⟩
  | .local .tc .vmem, ⟨8, _⟩ => ⟨S1x128, .f32⟩
  | .local .tc .vmem, ⟨9, _⟩ => ⟨S7x128x112, .f32⟩
  | .local .scVector .vmem, ⟨0, _⟩ => ⟨S40x128, .i32⟩
  | .local .scVector .vmem, ⟨1, _⟩ => ⟨S32x128, .f32⟩
  | _, _ => ⟨S128x1x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v2_scv : Ref sig .scVector := ⟨.hbm, 8, rfl⟩
abbrev main_v3_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc1_scratch0 : Ref sig .tc := ⟨.vmem, 8, rfl⟩
abbrev cc1_scratch1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem3_1 : DmaSem sig := 6
abbrev cc1_sem4_0 : DmaSem sig := 7
abbrev cc1_sem5_0 : DmaSem sig := 8
abbrev cc1_sem5_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off1 (k0_t1 : Fin k0_t1_loop.trips) : Fin 2 → Nat :=
  let c0_i32_0 : BitVec 32 := 0#32
  let c1_i32 : BitVec 32 := 1#32
  let arg7 : BitVec 32 := Scf.iv c0_i32_0 c1_i32 k0_t1
  let c0_i32_7 : BitVec 32 := 0#32
  let v9 : BitVec 1 := Scalar.cmpi .sgt arg7 c0_i32_7
  let v10 : BitVec 32 := Scalar.extui v9
  let c0_i32_8 : BitVec 32 := 0#32
  let v11 : BitVec 1 := Scalar.cmpi .slt arg7 c0_i32_8
  let v12 : BitVec 32 := Scalar.extui v11
  let v13 : BitVec 32 := Scalar.subi v10 v12
  let c8_i32 : BitVec 32 := 8#32
  let c0_i32_9 : BitVec 32 := 0#32
  let v14 : BitVec 1 := Scalar.cmpi .sgt c8_i32 c0_i32_9
  let v15 : BitVec 32 := Scalar.extui v14
  let c0_i32_10 : BitVec 32 := 0#32
  let v16 : BitVec 1 := Scalar.cmpi .slt c8_i32 c0_i32_10
  let v17 : BitVec 32 := Scalar.extui v16
  let v18 : BitVec 32 := Scalar.subi v15 v17
  let v19 : BitVec 1 := Scalar.cmpi .ne v13 v18
  let v20 : BitVec 32 := Scalar.remsi arg7 c8_i32
  let c0_i32_11 : BitVec 32 := 0#32
  let v21 : BitVec 1 := Scalar.cmpi .ne v20 c0_i32_11
  let v22 : BitVec 1 := Scalar.andi v19 v21
  let v8 : BitVec 32 := Scalar.divsi arg7 c8_i32
  let c1_i32_12 : BitVec 32 := 1#32
  let v23 : BitVec 32 := Scalar.subi v8 c1_i32_12
  let v24 : BitVec 32 := Scalar.select v22 v23 v8
  let v36 : Index := Scalar.indexCast v24
  let c8_i32_13 : BitVec 32 := 8#32
  let c0_i32_14 : BitVec 32 := 0#32
  let v25 : BitVec 1 := Scalar.cmpi .eq c8_i32_13 c0_i32_14
  let c1_i32_15 : BitVec 32 := 1#32
  let v26 : BitVec 32 := Scalar.select v25 c1_i32_15 c8_i32_13
  let v27 : BitVec 32 := Scalar.remsi arg7 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c16_i32 : BitVec 32 := 16#32
  let v35 : BitVec 32 := Scalar.muli v34 c16_i32
  let v37 : Index := Scalar.indexCast v35
  ![v36.toNat, v37.toNat]
@[reducible] def k0_t2_loop : Scf.Loop 32 :=
  let c0_i32_4 : BitVec 32 := 0#32
  let c320_i32 : BitVec 32 := 320#32
  let v6 : BitVec 32 := Scalar.addi c0_i32_4 c320_i32
  let c1_i32_5 : BitVec 32 := 1#32
  ⟨c0_i32_4, v6, c1_i32_5⟩
def k0_off2 (k0_t2 : Fin k0_t2_loop.trips) : Fin 2 → Nat :=
  let c0_i32_4 : BitVec 32 := 0#32
  let c1_i32_5 : BitVec 32 := 1#32
  let arg7 : BitVec 32 := Scf.iv c0_i32_4 c1_i32_5 k0_t2
  let c0_i32_7 : BitVec 32 := 0#32
  let v9 : BitVec 1 := Scalar.cmpi .sgt arg7 c0_i32_7
  let v10 : BitVec 32 := Scalar.extui v9
  let c0_i32_8 : BitVec 32 := 0#32
  let v11 : BitVec 1 := Scalar.cmpi .slt arg7 c0_i32_8
  let v12 : BitVec 32 := Scalar.extui v11
  let v13 : BitVec 32 := Scalar.subi v10 v12
  let c8_i32 : BitVec 32 := 8#32
  let c0_i32_9 : BitVec 32 := 0#32
  let v14 : BitVec 1 := Scalar.cmpi .sgt c8_i32 c0_i32_9
  let v15 : BitVec 32 := Scalar.extui v14
  let c0_i32_10 : BitVec 32 := 0#32
  let v16 : BitVec 1 := Scalar.cmpi .slt c8_i32 c0_i32_10
  let v17 : BitVec 32 := Scalar.extui v16
  let v18 : BitVec 32 := Scalar.subi v15 v17
  let v19 : BitVec 1 := Scalar.cmpi .ne v13 v18
  let v20 : BitVec 32 := Scalar.remsi arg7 c8_i32
  let c0_i32_11 : BitVec 32 := 0#32
  let v21 : BitVec 1 := Scalar.cmpi .ne v20 c0_i32_11
  let v22 : BitVec 1 := Scalar.andi v19 v21
  let v8 : BitVec 32 := Scalar.divsi arg7 c8_i32
  let c1_i32_12 : BitVec 32 := 1#32
  let v23 : BitVec 32 := Scalar.subi v8 c1_i32_12
  let v24 : BitVec 32 := Scalar.select v22 v23 v8
  let v36 : Index := Scalar.indexCast v24
  let c8_i32_13 : BitVec 32 := 8#32
  let c0_i32_14 : BitVec 32 := 0#32
  let v25 : BitVec 1 := Scalar.cmpi .eq c8_i32_13 c0_i32_14
  let c1_i32_15 : BitVec 32 := 1#32
  let v26 : BitVec 32 := Scalar.select v25 c1_i32_15 c8_i32_13
  let v27 : BitVec 32 := Scalar.remsi arg7 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c16_i32 : BitVec 32 := 16#32
  let v35 : BitVec 32 := Scalar.muli v34 c16_i32
  let v37 : Index := Scalar.indexCast v35
  ![v36.toNat, v37.toNat]

def k0_chk1 (v50 : IVec S16 32) (v52 : IVec S16 32) : Prop :=
  (∀ a x, ((![v50, v52] : Fin 2 → IVec S16 32) a x).toNat < S32x128.size a)
instance k0_chk1.dec : ∀ (v50 : IVec S16 32) (v52 : IVec S16 32), Decidable (k0_chk1 v50 v52) := fun v50 v52 => decidable_of_iff' _ (Iff.of_eq (k0_chk1.eq_1 v50 v52))
theorem k0_idx1_inb : ∀ (v50 : IVec S16 32) (v52 : IVec S16 32) (k0_hw1 : k0_chk1 v50 v52), ∀ a x, ((![v50, v52] : Fin 2 → IVec S16 32) a x).toNat < S32x128.size a := fun v50 v52 k0_hw1 => k0_hw1
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.muli v1 c32_i32
  let c0_i32_7_r0 : BitVec 32 := 0#32
  ![v7.toNat, 0]
abbrev grid1 : Pipeline.Grid := ⟨1, ![7], ![false]⟩

def k1_off1 (i : grid1.Coords) : Fin 3 → Nat :=
  let arg0 : BitVec 32 := BitVec.ofNat 32 (i 0).val
  let v4 : Index := Scalar.indexCast arg0
  let c0_2 : Index := 0#32
  let c0_3 : Index := 0#32
  ![v4.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S14336x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S14336x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S120 : S_.BroadcastsInDim S120 (![] : Fin 0 → Fin S120.rank)
  concatenates_S5000_S120_S5120_d0 : Shape.Concatenates [S5000, S120] S5120 0
  shapeCasts_S5120_S40x128 : S5120.ShapeCasts S40x128
  h_S1x16 : 0 < S1x16.numel
  shapeCasts_S1x16_S16 : S1x16.ShapeCasts S16
  shapeCasts_S16_S1x16 : S16.ShapeCasts S1x16
  h_S32x128 : 0 < S32x128.numel
  transposes_S128x1x100000_S1x100000x128_1_2_0 : S128x1x100000.Transposes [1, 2, 0] S1x100000x128
  shapeCasts_S1x100000x128_S100000x128 : S1x100000x128.ShapeCasts S100000x128
  shapeCasts_S1x128x1024_S128x1024 : S1x128x1024.ShapeCasts S128x1024
  shapeCasts_S1_S1x1 : S1.ShapeCasts S1x1
  inb_S1x1024_S1x1024_0_0 : ∀ a, (![0, 0] : Fin 2 → Nat) a + S1x1024.size a ≤ S1x1024.size a
  h_S1x1024 : 0 < S1x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x128_S112x128_0_0 : ∀ a, (![0, 0] : Fin 2 → Nat) a + S112x128.size a ≤ S1024x128.size a
  h_S112x128 : 0 < S112x128.numel
  shapeCasts_S112x128_S112x128 : S112x128.ShapeCasts S112x128
  transposes_S112x128_p1_0_S128x112 : S112x128.Transposes [1, 0] S128x112
  inb_S7x128x112_S1x128x112_0_0_0 : ∀ a, (![0, 0, 0] : Fin 3 → Nat) a + S1x128x112.size a ≤ S7x128x112.size a
  h_S1x128x112 : 0 < S1x128x112.numel
  shapeCasts_S1x128x112_S128x112 : S1x128x112.ShapeCasts S128x112
  shapeCasts_S128x112_S1x128x112 : S128x112.ShapeCasts S1x128x112
  inb_S1024x128_S112x128_112_0 : ∀ a, (![112, 0] : Fin 2 → Nat) a + S112x128.size a ≤ S1024x128.size a
  inb_S7x128x112_S1x128x112_1_0_0 : ∀ a, (![1, 0, 0] : Fin 3 → Nat) a + S1x128x112.size a ≤ S7x128x112.size a
  inb_S1024x128_S112x128_224_0 : ∀ a, (![224, 0] : Fin 2 → Nat) a + S112x128.size a ≤ S1024x128.size a
  inb_S7x128x112_S1x128x112_2_0_0 : ∀ a, (![2, 0, 0] : Fin 3 → Nat) a + S1x128x112.size a ≤ S7x128x112.size a
  inb_S1024x128_S112x128_336_0 : ∀ a, (![336, 0] : Fin 2 → Nat) a + S112x128.size a ≤ S1024x128.size a
  inb_S7x128x112_S1x128x112_3_0_0 : ∀ a, (![3, 0, 0] : Fin 3 → Nat) a + S1x128x112.size a ≤ S7x128x112.size a
  inb_S1024x128_S112x128_448_0 : ∀ a, (![448, 0] : Fin 2 → Nat) a + S112x128.size a ≤ S1024x128.size a
  inb_S7x128x112_S1x128x112_4_0_0 : ∀ a, (![4, 0, 0] : Fin 3 → Nat) a + S1x128x112.size a ≤ S7x128x112.size a
  inb_S1024x128_S112x128_560_0 : ∀ a, (![560, 0] : Fin 2 → Nat) a + S112x128.size a ≤ S1024x128.size a
  inb_S7x128x112_S1x128x112_5_0_0 : ∀ a, (![5, 0, 0] : Fin 3 → Nat) a + S1x128x112.size a ≤ S7x128x112.size a
  inb_S1024x128_S112x128_672_0 : ∀ a, (![672, 0] : Fin 2 → Nat) a + S112x128.size a ≤ S1024x128.size a
  inb_S7x128x112_S1x128x112_6_0_0 : ∀ a, (![6, 0, 0] : Fin 3 → Nat) a + S1x128x112.size a ≤ S7x128x112.size a
  slices_S128x112_o0_0_S128x1 : S128x112.Slices ![0, 0] S128x1
  inb_S14336x128_S128x128_0_0 : ∀ a, (![0, 0] : Fin 2 → Nat) a + S128x128.size a ≤ S14336x128.size a
  h_S128x128 : 0 < S128x128.numel
  shapeCasts_S128x128_S128x128 : S128x128.ShapeCasts S128x128
  broadcasts_S1x128_S128x128 : S1x128.Broadcasts S128x128
  shapeCasts_S128x1_S128x1 : S128x1.ShapeCasts S128x1
  broadcasts_S128x1_S128x128 : S128x1.Broadcasts S128x128
  slices_S128x112_o0_1_S128x1 : S128x112.Slices ![0, 1] S128x1
  inb_S14336x128_S128x128_128_0 : ∀ a, (![128, 0] : Fin 2 → Nat) a + S128x128.size a ≤ S14336x128.size a
  slices_S128x112_o0_2_S128x1 : S128x112.Slices ![0, 2] S128x1
  inb_S14336x128_S128x128_256_0 : ∀ a, (![256, 0] : Fin 2 → Nat) a + S128x128.size a ≤ S14336x128.size a
  slices_S128x112_o0_3_S128x1 : S128x112.Slices ![0, 3] S128x1
  inb_S14336x128_S128x128_384_0 : ∀ a, (![384, 0] : Fin 2 → Nat) a + S128x128.size a ≤ S14336x128.size a
  slices_S128x112_o0_4_S128x1 : S128x112.Slices ![0, 4] S128x1
  inb_S14336x128_S128x128_512_0 : ∀ a, (![512, 0] : Fin 2 → Nat) a + S128x128.size a ≤ S14336x128.size a
  slices_S128x112_o0_5_S128x1 : S128x112.Slices ![0, 5] S128x1
  inb_S14336x128_S128x128_640_0 : ∀ a, (![640, 0] : Fin 2 → Nat) a + S128x128.size a ≤ S14336x128.size a
  slices_S128x112_o0_6_S128x1 : S128x112.Slices ![0, 6] S128x1
  inb_S14336x128_S128x128_768_0 : ∀ a, (![768, 0] : Fin 2 → Nat) a + S128x128.size a ≤ S14336x128.size a
  slices_S128x112_o0_7_S128x1 : S128x112.Slices ![0, 7] S128x1
  inb_S14336x128_S128x128_896_0 : ∀ a, (![896, 0] : Fin 2 → Nat) a + S128x128.size a ≤ S14336x128.size a
  slices_S128x112_o0_8_S128x1 : S128x112.Slices ![0, 8] S128x1
  inb_S14336x128_S128x128_1024_0 : ∀ a, (![1024, 0] : Fin 2 → Nat) a + S128x128.size a ≤ S14336x128.size a
  slices_S128x112_o0_9_S128x1 : S128x112.Slices ![0, 9] S128x1
  inb_S14336x128_S128x128_1152_0 : ∀ a, (![1152, 0] : Fin 2 → Nat) a + S128x128.size a ≤ S14336x128.size a
  slices_S128x112_o0_10_S128x1 : S128x112.Slices ![0, 10] S128x1
  inb_S14336x128_S128x128_1280_0 : ∀ a, (![1280, 0] : Fin 2 → Nat) a + S128x128.size a ≤ S14336x128.size a
  slices_S128x112_o0_11_S128x1 : S128x112.Slices ![0, 11] S128x1
  inb_S14336x128_S128x128_1408_0 : ∀ a, (![1408, 0] : Fin 2 → Nat) a + S128x128.size a ≤ S14336x128.size a
  slices_S128x112_o0_12_S128x1 : S128x112.Slices ![0, 12] S128x1
  inb_S14336x128_S128x128_1536_0 : ∀ a, (![1536, 0] : Fin 2 → Nat) a + S128x128.size a ≤ S14336x128.size a
  slices_S128x112_o0_13_S128x1 : S128x112.Slices ![0, 13] S128x1
  inb_S14336x128_S128x128_1664_0 : ∀ a, (![1664, 0] : Fin 2 → Nat) a + S128x128.size a ≤ S14336x128.size a
  slices_S128x112_o0_14_S128x1 : S128x112.Slices ![0, 14] S128x1
  inb_S14336x128_S128x128_1792_0 : ∀ a, (![1792, 0] : Fin 2 → Nat) a + S128x128.size a ≤ S14336x128.size a
  slices_S128x112_o0_15_S128x1 : S128x112.Slices ![0, 15] S128x1
  inb_S14336x128_S128x128_1920_0 : ∀ a, (![1920, 0] : Fin 2 → Nat) a + S128x128.size a ≤ S14336x128.size a
  slices_S128x112_o0_16_S128x1 : S128x112.Slices ![0, 16] S128x1
  inb_S14336x128_S128x128_2048_0 : ∀ a, (![2048, 0] : Fin 2 → Nat) a + S128x128.size a ≤ S14336x128.size a
  slices_S128x112_o0_17_S128x1 : S128x112.Slices ![0, 17] S128x1
  inb_S14336x128_S128x128_2176_0 : ∀ a, (![2176, 0] : Fin 2 → Nat) a + S128x128.size a ≤ S14336x128.size a
  slices_S128x112_o0_18_S128x1 : S128x112.Slices ![0, 18] S128x1
  inb_S14336x128_S128x128_2304_0 : ∀ a, (![2304, 0] : Fin 2 → Nat) a + S128x128.size a ≤ S14336x128.size a
  slices_S128x112_o0_19_S128x1 : S128x112.Slices ![0, 19] S128x1
  inb_S14336x128_S128x128_2432_0 : ∀ a, (![2432, 0] : Fin 2 → Nat) a + S128x128.size a ≤ S14336x128.size a
  slices_S128x112_o0_20_S128x1 : S128x112.Slices ![0, 20] S128x1
  inb_S14336x128_S128x128_2560_0 : ∀ a, (![2560, 0] : Fin 2 → Nat) a + S128x128.size a ≤ S14336x128.size a
  slices_S128x112_o0_21_S128x1 : S128x112.Slices ![0, 21] S128x1
  inb_S14336x128_S128x128_2688_0 : ∀ a, (![2688, 0] : Fin 2 → Nat) a + S128x128.size a ≤ S14336x128.size a
  slices_S128x112_o0_22_S128x1 : S128x112.Slices ![0, 22] S128x1
  inb_S14336x128_S128x128_2816_0 : ∀ a, (![2816, 0] : Fin 2 → Nat) a + S128x128.size a ≤ S14336x128.size a
  slices_S128x112_o0_23_S128x1 : S128x112.Slices ![0, 23] S128x1
  inb_S14336x128_S128x128_2944_0 : ∀ a, (![2944, 0] : Fin 2 → Nat) a + S128x128.size a ≤ S14336x128.size a
  slices_S128x112_o0_24_S128x1 : S128x112.Slices ![0, 24] S128x1
  inb_S14336x128_S128x128_3072_0 : ∀ a, (![3072, 0] : Fin 2 → Nat) a + S128x128.size a ≤ S14336x128.size a
  slices_S128x112_o0_25_S128x1 : S128x112.Slices ![0, 25] S128x1
  inb_S14336x128_S128x128_3200_0 : ∀ a, (![3200, 0] : Fin 2 → Nat) a + S128x128.size a ≤ S14336x128.size a
  slices_S128x112_o0_26_S128x1 : S128x112.Slices ![0, 26] S128x1
  inb_S14336x128_S128x128_3328_0 : ∀ a, (![3328, 0] : Fin 2 → Nat) a + S128x128.size a ≤ S14336x128.size a
  slices_S128x112_o0_27_S128x1 : S128x112.Slices ![0, 27] S128x1
  inb_S14336x128_S128x128_3456_0 : ∀ a, (![3456, 0] : Fin 2 → Nat) a + S128x128.size a ≤ S14336x128.size a
  slices_S128x112_o0_28_S128x1 : S128x112.Slices ![0, 28] S128x1
  inb_S14336x128_S128x128_3584_0 : ∀ a, (![3584, 0] : Fin 2 → Nat) a + S128x128.size a ≤ S14336x128.size a
  slices_S128x112_o0_29_S128x1 : S128x112.Slices ![0, 29] S128x1
  inb_S14336x128_S128x128_3712_0 : ∀ a, (![3712, 0] : Fin 2 → Nat) a + S128x128.size a ≤ S14336x128.size a
  slices_S128x112_o0_30_S128x1 : S128x112.Slices ![0, 30] S128x1
  inb_S14336x128_S128x128_3840_0 : ∀ a, (![3840, 0] : Fin 2 → Nat) a + S128x128.size a ≤ S14336x128.size a
  slices_S128x112_o0_31_S128x1 : S128x112.Slices ![0, 31] S128x1
  inb_S14336x128_S128x128_3968_0 : ∀ a, (![3968, 0] : Fin 2 → Nat) a + S128x128.size a ≤ S14336x128.size a
  slices_S128x112_o0_32_S128x1 : S128x112.Slices ![0, 32] S128x1
  inb_S14336x128_S128x128_4096_0 : ∀ a, (![4096, 0] : Fin 2 → Nat) a + S128x128.size a ≤ S14336x128.size a
  slices_S128x112_o0_33_S128x1 : S128x112.Slices ![0, 33] S128x1
  inb_S14336x128_S128x128_4224_0 : ∀ a, (![4224, 0] : Fin 2 → Nat) a + S128x128.size a ≤ S14336x128.size a
  slices_S128x112_o0_34_S128x1 : S128x112.Slices ![0, 34] S128x1
  inb_S14336x128_S128x128_4352_0 : ∀ a, (![4352, 0] : Fin 2 → Nat) a + S128x128.size a ≤ S14336x128.size a
  slices_S128x112_o0_35_S128x1 : S128x112.Slices ![0, 35] S128x1
  inb_S14336x128_S128x128_4480_0 : ∀ a, (![4480, 0] : Fin 2 → Nat) a + S128x128.size a ≤ S14336x128.size a
  slices_S128x112_o0_36_S128x1 : S128x112.Slices ![0, 36] S128x1
  inb_S14336x128_S128x128_4608_0 : ∀ a, (![4608, 0] : Fin 2 → Nat) a + S128x128.size a ≤ S14336x128.size a
  slices_S128x112_o0_37_S128x1 : S128x112.Slices ![0, 37] S128x1
  inb_S14336x128_S128x128_4736_0 : ∀ a, (![4736, 0] : Fin 2 → Nat) a + S128x128.size a ≤ S14336x128.size a
  slices_S128x112_o0_38_S128x1 : S128x112.Slices ![0, 38] S128x1
  inb_S14336x128_S128x128_4864_0 : ∀ a, (![4864, 0] : Fin 2 → Nat) a + S128x128.size a ≤ S14336x128.size a
  slices_S128x112_o0_39_S128x1 : S128x112.Slices ![0, 39] S128x1
  inb_S14336x128_S128x128_4992_0 : ∀ a, (![4992, 0] : Fin 2 → Nat) a + S128x128.size a ≤ S14336x128.size a
  slices_S128x112_o0_40_S128x1 : S128x112.Slices ![0, 40] S128x1
  inb_S14336x128_S128x128_5120_0 : ∀ a, (![5120, 0] : Fin 2 → Nat) a + S128x128.size a ≤ S14336x128.size a
  slices_S128x112_o0_41_S128x1 : S128x112.Slices ![0, 41] S128x1
  inb_S14336x128_S128x128_5248_0 : ∀ a, (![5248, 0] : Fin 2 → Nat) a + S128x128.size a ≤ S14336x128.size a
  slices_S128x112_o0_42_S128x1 : S128x112.Slices ![0, 42] S128x1
  inb_S14336x128_S128x128_5376_0 : ∀ a, (![5376, 0] : Fin 2 → Nat) a + S128x128.size a ≤ S14336x128.size a
  slices_S128x112_o0_43_S128x1 : S128x112.Slices ![0, 43] S128x1
  inb_S14336x128_S128x128_5504_0 : ∀ a, (![5504, 0] : Fin 2 → Nat) a + S128x128.size a ≤ S14336x128.size a
  slices_S128x112_o0_44_S128x1 : S128x112.Slices ![0, 44] S128x1
  inb_S14336x128_S128x128_5632_0 : ∀ a, (![5632, 0] : Fin 2 → Nat) a + S128x128.size a ≤ S14336x128.size a
  slices_S128x112_o0_45_S128x1 : S128x112.Slices ![0, 45] S128x1
  inb_S14336x128_S128x128_5760_0 : ∀ a, (![5760, 0] : Fin 2 → Nat) a + S128x128.size a ≤ S14336x128.size a
  slices_S128x112_o0_46_S128x1 : S128x112.Slices ![0, 46] S128x1
  inb_S14336x128_S128x128_5888_0 : ∀ a, (![5888, 0] : Fin 2 → Nat) a + S128x128.size a ≤ S14336x128.size a
  slices_S128x112_o0_47_S128x1 : S128x112.Slices ![0, 47] S128x1
  inb_S14336x128_S128x128_6016_0 : ∀ a, (![6016, 0] : Fin 2 → Nat) a + S128x128.size a ≤ S14336x128.size a
  slices_S128x112_o0_48_S128x1 : S128x112.Slices ![0, 48] S128x1
  inb_S14336x128_S128x128_6144_0 : ∀ a, (![6144, 0] : Fin 2 → Nat) a + S128x128.size a ≤ S14336x128.size a
  slices_S128x112_o0_49_S128x1 : S128x112.Slices ![0, 49] S128x1
  inb_S14336x128_S128x128_6272_0 : ∀ a, (![6272, 0] : Fin 2 → Nat) a + S128x128.size a ≤ S14336x128.size a
  slices_S128x112_o0_50_S128x1 : S128x112.Slices ![0, 50] S128x1
  inb_S14336x128_S128x128_6400_0 : ∀ a, (![6400, 0] : Fin 2 → Nat) a + S128x128.size a ≤ S14336x128.size a
  slices_S128x112_o0_51_S128x1 : S128x112.Slices ![0, 51] S128x1
  inb_S14336x128_S128x128_6528_0 : ∀ a, (![6528, 0] : Fin 2 → Nat) a + S128x128.size a ≤ S14336x128.size a
  slices_S128x112_o0_52_S128x1 : S128x112.Slices ![0, 52] S128x1
  inb_S14336x128_S128x128_6656_0 : ∀ a, (![6656, 0] : Fin 2 → Nat) a + S128x128.size a ≤ S14336x128.size a
  slices_S128x112_o0_53_S128x1 : S128x112.Slices ![0, 53] S128x1
  inb_S14336x128_S128x128_6784_0 : ∀ a, (![6784, 0] : Fin 2 → Nat) a + S128x128.size a ≤ S14336x128.size a
  slices_S128x112_o0_54_S128x1 : S128x112.Slices ![0, 54] S128x1
  inb_S14336x128_S128x128_6912_0 : ∀ a, (![6912, 0] : Fin 2 → Nat) a + S128x128.size a ≤ S14336x128.size a
  slices_S128x112_o0_55_S128x1 : S128x112.Slices ![0, 55] S128x1
  inb_S14336x128_S128x128_7040_0 : ∀ a, (![7040, 0] : Fin 2 → Nat) a + S128x128.size a ≤ S14336x128.size a
  slices_S128x112_o0_56_S128x1 : S128x112.Slices ![0, 56] S128x1
  inb_S14336x128_S128x128_7168_0 : ∀ a, (![7168, 0] : Fin 2 → Nat) a + S128x128.size a ≤ S14336x128.size a
  slices_S128x112_o0_57_S128x1 : S128x112.Slices ![0, 57] S128x1
  inb_S14336x128_S128x128_7296_0 : ∀ a, (![7296, 0] : Fin 2 → Nat) a + S128x128.size a ≤ S14336x128.size a
  slices_S128x112_o0_58_S128x1 : S128x112.Slices ![0, 58] S128x1
  inb_S14336x128_S128x128_7424_0 : ∀ a, (![7424, 0] : Fin 2 → Nat) a + S128x128.size a ≤ S14336x128.size a
  slices_S128x112_o0_59_S128x1 : S128x112.Slices ![0, 59] S128x1
  inb_S14336x128_S128x128_7552_0 : ∀ a, (![7552, 0] : Fin 2 → Nat) a + S128x128.size a ≤ S14336x128.size a
  slices_S128x112_o0_60_S128x1 : S128x112.Slices ![0, 60] S128x1
  inb_S14336x128_S128x128_7680_0 : ∀ a, (![7680, 0] : Fin 2 → Nat) a + S128x128.size a ≤ S14336x128.size a
  slices_S128x112_o0_61_S128x1 : S128x112.Slices ![0, 61] S128x1
  inb_S14336x128_S128x128_7808_0 : ∀ a, (![7808, 0] : Fin 2 → Nat) a + S128x128.size a ≤ S14336x128.size a
  slices_S128x112_o0_62_S128x1 : S128x112.Slices ![0, 62] S128x1
  inb_S14336x128_S128x128_7936_0 : ∀ a, (![7936, 0] : Fin 2 → Nat) a + S128x128.size a ≤ S14336x128.size a
  slices_S128x112_o0_63_S128x1 : S128x112.Slices ![0, 63] S128x1
  inb_S14336x128_S128x128_8064_0 : ∀ a, (![8064, 0] : Fin 2 → Nat) a + S128x128.size a ≤ S14336x128.size a
  slices_S128x112_o0_64_S128x1 : S128x112.Slices ![0, 64] S128x1
  inb_S14336x128_S128x128_8192_0 : ∀ a, (![8192, 0] : Fin 2 → Nat) a + S128x128.size a ≤ S14336x128.size a
  slices_S128x112_o0_65_S128x1 : S128x112.Slices ![0, 65] S128x1
  inb_S14336x128_S128x128_8320_0 : ∀ a, (![8320, 0] : Fin 2 → Nat) a + S128x128.size a ≤ S14336x128.size a
  slices_S128x112_o0_66_S128x1 : S128x112.Slices ![0, 66] S128x1
  inb_S14336x128_S128x128_8448_0 : ∀ a, (![8448, 0] : Fin 2 → Nat) a + S128x128.size a ≤ S14336x128.size a
  slices_S128x112_o0_67_S128x1 : S128x112.Slices ![0, 67] S128x1
  inb_S14336x128_S128x128_8576_0 : ∀ a, (![8576, 0] : Fin 2 → Nat) a + S128x128.size a ≤ S14336x128.size a
  slices_S128x112_o0_68_S128x1 : S128x112.Slices ![0, 68] S128x1
  inb_S14336x128_S128x128_8704_0 : ∀ a, (![8704, 0] : Fin 2 → Nat) a + S128x128.size a ≤ S14336x128.size a
  slices_S128x112_o0_69_S128x1 : S128x112.Slices ![0, 69] S128x1
  inb_S14336x128_S128x128_8832_0 : ∀ a, (![8832, 0] : Fin 2 → Nat) a + S128x128.size a ≤ S14336x128.size a
  slices_S128x112_o0_70_S128x1 : S128x112.Slices ![0, 70] S128x1
  inb_S14336x128_S128x128_8960_0 : ∀ a, (![8960, 0] : Fin 2 → Nat) a + S128x128.size a ≤ S14336x128.size a
  slices_S128x112_o0_71_S128x1 : S128x112.Slices ![0, 71] S128x1
  inb_S14336x128_S128x128_9088_0 : ∀ a, (![9088, 0] : Fin 2 → Nat) a + S128x128.size a ≤ S14336x128.size a
  slices_S128x112_o0_72_S128x1 : S128x112.Slices ![0, 72] S128x1
  inb_S14336x128_S128x128_9216_0 : ∀ a, (![9216, 0] : Fin 2 → Nat) a + S128x128.size a ≤ S14336x128.size a
  slices_S128x112_o0_73_S128x1 : S128x112.Slices ![0, 73] S128x1
  inb_S14336x128_S128x128_9344_0 : ∀ a, (![9344, 0] : Fin 2 → Nat) a + S128x128.size a ≤ S14336x128.size a
  slices_S128x112_o0_74_S128x1 : S128x112.Slices ![0, 74] S128x1
  inb_S14336x128_S128x128_9472_0 : ∀ a, (![9472, 0] : Fin 2 → Nat) a + S128x128.size a ≤ S14336x128.size a
  slices_S128x112_o0_75_S128x1 : S128x112.Slices ![0, 75] S128x1
  inb_S14336x128_S128x128_9600_0 : ∀ a, (![9600, 0] : Fin 2 → Nat) a + S128x128.size a ≤ S14336x128.size a
  slices_S128x112_o0_76_S128x1 : S128x112.Slices ![0, 76] S128x1
  inb_S14336x128_S128x128_9728_0 : ∀ a, (![9728, 0] : Fin 2 → Nat) a + S128x128.size a ≤ S14336x128.size a
  slices_S128x112_o0_77_S128x1 : S128x112.Slices ![0, 77] S128x1
  inb_S14336x128_S128x128_9856_0 : ∀ a, (![9856, 0] : Fin 2 → Nat) a + S128x128.size a ≤ S14336x128.size a
  slices_S128x112_o0_78_S128x1 : S128x112.Slices ![0, 78] S128x1
  inb_S14336x128_S128x128_9984_0 : ∀ a, (![9984, 0] : Fin 2 → Nat) a + S128x128.size a ≤ S14336x128.size a
  slices_S128x112_o0_79_S128x1 : S128x112.Slices ![0, 79] S128x1
  inb_S14336x128_S128x128_10112_0 : ∀ a, (![10112, 0] : Fin 2 → Nat) a + S128x128.size a ≤ S14336x128.size a
  slices_S128x112_o0_80_S128x1 : S128x112.Slices ![0, 80] S128x1
  inb_S14336x128_S128x128_10240_0 : ∀ a, (![10240, 0] : Fin 2 → Nat) a + S128x128.size a ≤ S14336x128.size a
  slices_S128x112_o0_81_S128x1 : S128x112.Slices ![0, 81] S128x1
  inb_S14336x128_S128x128_10368_0 : ∀ a, (![10368, 0] : Fin 2 → Nat) a + S128x128.size a ≤ S14336x128.size a
  slices_S128x112_o0_82_S128x1 : S128x112.Slices ![0, 82] S128x1
  inb_S14336x128_S128x128_10496_0 : ∀ a, (![10496, 0] : Fin 2 → Nat) a + S128x128.size a ≤ S14336x128.size a
  slices_S128x112_o0_83_S128x1 : S128x112.Slices ![0, 83] S128x1
  inb_S14336x128_S128x128_10624_0 : ∀ a, (![10624, 0] : Fin 2 → Nat) a + S128x128.size a ≤ S14336x128.size a
  slices_S128x112_o0_84_S128x1 : S128x112.Slices ![0, 84] S128x1
  inb_S14336x128_S128x128_10752_0 : ∀ a, (![10752, 0] : Fin 2 → Nat) a + S128x128.size a ≤ S14336x128.size a
  slices_S128x112_o0_85_S128x1 : S128x112.Slices ![0, 85] S128x1
  inb_S14336x128_S128x128_10880_0 : ∀ a, (![10880, 0] : Fin 2 → Nat) a + S128x128.size a ≤ S14336x128.size a
  slices_S128x112_o0_86_S128x1 : S128x112.Slices ![0, 86] S128x1
  inb_S14336x128_S128x128_11008_0 : ∀ a, (![11008, 0] : Fin 2 → Nat) a + S128x128.size a ≤ S14336x128.size a
  slices_S128x112_o0_87_S128x1 : S128x112.Slices ![0, 87] S128x1
  inb_S14336x128_S128x128_11136_0 : ∀ a, (![11136, 0] : Fin 2 → Nat) a + S128x128.size a ≤ S14336x128.size a
  slices_S128x112_o0_88_S128x1 : S128x112.Slices ![0, 88] S128x1
  inb_S14336x128_S128x128_11264_0 : ∀ a, (![11264, 0] : Fin 2 → Nat) a + S128x128.size a ≤ S14336x128.size a
  slices_S128x112_o0_89_S128x1 : S128x112.Slices ![0, 89] S128x1
  inb_S14336x128_S128x128_11392_0 : ∀ a, (![11392, 0] : Fin 2 → Nat) a + S128x128.size a ≤ S14336x128.size a
  slices_S128x112_o0_90_S128x1 : S128x112.Slices ![0, 90] S128x1
  inb_S14336x128_S128x128_11520_0 : ∀ a, (![11520, 0] : Fin 2 → Nat) a + S128x128.size a ≤ S14336x128.size a
  slices_S128x112_o0_91_S128x1 : S128x112.Slices ![0, 91] S128x1
  inb_S14336x128_S128x128_11648_0 : ∀ a, (![11648, 0] : Fin 2 → Nat) a + S128x128.size a ≤ S14336x128.size a
  slices_S128x112_o0_92_S128x1 : S128x112.Slices ![0, 92] S128x1
  inb_S14336x128_S128x128_11776_0 : ∀ a, (![11776, 0] : Fin 2 → Nat) a + S128x128.size a ≤ S14336x128.size a
  slices_S128x112_o0_93_S128x1 : S128x112.Slices ![0, 93] S128x1
  inb_S14336x128_S128x128_11904_0 : ∀ a, (![11904, 0] : Fin 2 → Nat) a + S128x128.size a ≤ S14336x128.size a
  slices_S128x112_o0_94_S128x1 : S128x112.Slices ![0, 94] S128x1
  inb_S14336x128_S128x128_12032_0 : ∀ a, (![12032, 0] : Fin 2 → Nat) a + S128x128.size a ≤ S14336x128.size a
  slices_S128x112_o0_95_S128x1 : S128x112.Slices ![0, 95] S128x1
  inb_S14336x128_S128x128_12160_0 : ∀ a, (![12160, 0] : Fin 2 → Nat) a + S128x128.size a ≤ S14336x128.size a
  slices_S128x112_o0_96_S128x1 : S128x112.Slices ![0, 96] S128x1
  inb_S14336x128_S128x128_12288_0 : ∀ a, (![12288, 0] : Fin 2 → Nat) a + S128x128.size a ≤ S14336x128.size a
  slices_S128x112_o0_97_S128x1 : S128x112.Slices ![0, 97] S128x1
  inb_S14336x128_S128x128_12416_0 : ∀ a, (![12416, 0] : Fin 2 → Nat) a + S128x128.size a ≤ S14336x128.size a
  slices_S128x112_o0_98_S128x1 : S128x112.Slices ![0, 98] S128x1
  inb_S14336x128_S128x128_12544_0 : ∀ a, (![12544, 0] : Fin 2 → Nat) a + S128x128.size a ≤ S14336x128.size a
  slices_S128x112_o0_99_S128x1 : S128x112.Slices ![0, 99] S128x1
  inb_S14336x128_S128x128_12672_0 : ∀ a, (![12672, 0] : Fin 2 → Nat) a + S128x128.size a ≤ S14336x128.size a
  slices_S128x112_o0_100_S128x1 : S128x112.Slices ![0, 100] S128x1
  inb_S14336x128_S128x128_12800_0 : ∀ a, (![12800, 0] : Fin 2 → Nat) a + S128x128.size a ≤ S14336x128.size a
  slices_S128x112_o0_101_S128x1 : S128x112.Slices ![0, 101] S128x1
  inb_S14336x128_S128x128_12928_0 : ∀ a, (![12928, 0] : Fin 2 → Nat) a + S128x128.size a ≤ S14336x128.size a
  slices_S128x112_o0_102_S128x1 : S128x112.Slices ![0, 102] S128x1
  inb_S14336x128_S128x128_13056_0 : ∀ a, (![13056, 0] : Fin 2 → Nat) a + S128x128.size a ≤ S14336x128.size a
  slices_S128x112_o0_103_S128x1 : S128x112.Slices ![0, 103] S128x1
  inb_S14336x128_S128x128_13184_0 : ∀ a, (![13184, 0] : Fin 2 → Nat) a + S128x128.size a ≤ S14336x128.size a
  slices_S128x112_o0_104_S128x1 : S128x112.Slices ![0, 104] S128x1
  inb_S14336x128_S128x128_13312_0 : ∀ a, (![13312, 0] : Fin 2 → Nat) a + S128x128.size a ≤ S14336x128.size a
  slices_S128x112_o0_105_S128x1 : S128x112.Slices ![0, 105] S128x1
  inb_S14336x128_S128x128_13440_0 : ∀ a, (![13440, 0] : Fin 2 → Nat) a + S128x128.size a ≤ S14336x128.size a
  slices_S128x112_o0_106_S128x1 : S128x112.Slices ![0, 106] S128x1
  inb_S14336x128_S128x128_13568_0 : ∀ a, (![13568, 0] : Fin 2 → Nat) a + S128x128.size a ≤ S14336x128.size a
  slices_S128x112_o0_107_S128x1 : S128x112.Slices ![0, 107] S128x1
  inb_S14336x128_S128x128_13696_0 : ∀ a, (![13696, 0] : Fin 2 → Nat) a + S128x128.size a ≤ S14336x128.size a
  slices_S128x112_o0_108_S128x1 : S128x112.Slices ![0, 108] S128x1
  inb_S14336x128_S128x128_13824_0 : ∀ a, (![13824, 0] : Fin 2 → Nat) a + S128x128.size a ≤ S14336x128.size a
  slices_S128x112_o0_109_S128x1 : S128x112.Slices ![0, 109] S128x1
  inb_S14336x128_S128x128_13952_0 : ∀ a, (![13952, 0] : Fin 2 → Nat) a + S128x128.size a ≤ S14336x128.size a
  slices_S128x112_o0_110_S128x1 : S128x112.Slices ![0, 110] S128x1
  inb_S14336x128_S128x128_14080_0 : ∀ a, (![14080, 0] : Fin 2 → Nat) a + S128x128.size a ≤ S14336x128.size a
  slices_S128x112_o0_111_S128x1 : S128x112.Slices ![0, 111] S128x1
  inb_S14336x128_S128x128_14208_0 : ∀ a, (![14208, 0] : Fin 2 → Nat) a + S128x128.size a ≤ S14336x128.size a
  shapeCasts_S100000x128_S1x100000x128 : S100000x128.ShapeCasts S1x100000x128
  transposes_S1x100000x128_S128x1x100000_2_0_1 : S1x100000x128.Transposes [2, 0, 1] S128x1x100000
  dot_S1x1024_S128x1024_S1x128_1_1_0_0_n_n_wf : DotDims.WF S1x1024 S128x1024 S1x128 [1] [1] [0] [0] [] []
  hcc0_scratch2 : 0 + S_.numel ≤ 10
  hcc0_scoped0 : 1 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S32x128.size a
  k0_t2_ok : k0_t2_loop.OK
  k0_off2_inb : ∀ k0_t2 : Fin k0_t2_loop.trips, ∀ a, (k0_off2 k0_t2) a + S1x16.size a ≤ S40x128.size a
  k0_off3_inb : ∀ i : grid0.Coords, ∀ a, (k0_off3 i) a + S32x128.size a ≤ S1024x128.size a
  hrank1 : 0 < grid1.rank
  k1_off1_inb : ∀ i : grid1.Coords, ∀ a, (k1_off1 i) a + S1x128x112.size a ≤ S7x128x112.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S14336x128.size a < S100000x128.size a
  hwx1_3 : ∀ i : grid1.Coords, EltTy.bits .f32 = 32 ∨ (Rect.unit (s := S100000x128) (fun a => cc1_transform_3 i a * S14336x128.size a) (fun a => (Pipeline.Clip.of (cc1_transform_3 i a) (S14336x128.size a) (S100000x128.size a)).extent (S14336x128.size a)) fun a => Pipeline.Clip.inb (Pipeline.Clip.ok_of (hstart1_3 i a))).WholeWords (EltTy.packing .f32)
  hwxs1_3 : ∀ i : grid1.Coords, EltTy.bits .f32 = 32 ∨ (Rect.unit (s := S14336x128) (fun _ => 0) (fun a => (Pipeline.Clip.of (cc1_transform_3 i a) (S14336x128.size a) (S100000x128.size a)).extent (S14336x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .f32 = 32 ∨ (Rect.block (s := S1024x128) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S14336x128.size a < S100000x128.size a
  hwx1_5 : ∀ i : grid1.Coords, EltTy.bits .f32 = 32 ∨ (Rect.unit (s := S100000x128) (fun a => cc1_transform_5 i a * S14336x128.size a) (fun a => (Pipeline.Clip.of (cc1_transform_5 i a) (S14336x128.size a) (S100000x128.size a)).extent (S14336x128.size a)) fun a => Pipeline.Clip.inb (Pipeline.Clip.ok_of (hstart1_5 i a))).WholeWords (EltTy.packing .f32)
  hwxs1_5 : ∀ i : grid1.Coords, EltTy.bits .f32 = 32 ∨ (Rect.unit (s := S14336x128) (fun _ => 0) (fun a => (Pipeline.Clip.of (cc1_transform_5 i a) (S14336x128.size a) (S100000x128.size a)).extent (S14336x128.size a)) fun a => (Nat.zero_add _).trans_le (Pipeline.Clip.extent_le (Pipeline.Clip.ok_of (hstart1_5 i a)))).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
def dot_S1x1024_S128x1024_S1x128_1_1_0_0_n_n : DotDims S1x1024 S128x1024 S1x128 where
  lhsContracting := [1]
  rhsContracting := [1]
  lhsNonContracting := [0]
  rhsNonContracting := [0]
  lhsBatch := []
  rhsBatch := []
  wf := dot_S1x1024_S128x1024_S1x128_1_1_0_0_n_n_wf

abbrev win1_0 : Pipeline.Window sig grid1 :=
  Pipeline.Window.ofSpec (Memref.whole main_v6) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v5) S14336x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_v3) S1024x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v8) S14336x128.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x1x100000 : Shape := ⟨3, ![128, 1, 100000]⟩
abbrev S1x128x1024 : Shape := ⟨3, ![1, 128, 1024]⟩
abbrev S5000 : Shape := ⟨1, ![5000]⟩
abbrev S1x1024 : Shape := ⟨2, ![1, 1024]⟩
abbrev S1 : Shape := ⟨1, ![1]⟩
abbrev S128x1x1024 : Shape := ⟨3, ![128, 1, 1024]⟩
abbrev S128x1x1 : Shape := ⟨3, ![128, 1, 1]⟩
abbrev S1x1x1 : Shape := ⟨3, ![1, 1, 1]⟩
abbrev S_ : Shape := ⟨0, ![]⟩
abbrev S100000 : Shape := ⟨1, ![100000]⟩
abbrev S5000x1 : Shape := ⟨2, ![5000, 1]⟩
abbrev S1x1x100000 : Shape := ⟨3, ![1, 1, 100000]⟩

abbrev nBuf : Space → Nat
  | .hbm => 41
  | .vmem => 0
  | .smem => 0
  | _ => 0

abbrev bufTy : (tb : Table) → Fin (tcTables nBuf tb) → BufTy
  | .hbm, ⟨0, _⟩ => ⟨S128x1x100000, .f32⟩
  | .hbm, ⟨1, _⟩ => ⟨S1x128x1024, .f32⟩
  | .hbm, ⟨2, _⟩ => ⟨S5000, .i32⟩
  | .hbm, ⟨3, _⟩ => ⟨S1x1024, .f32⟩
  | .hbm, ⟨4, _⟩ => ⟨S1, .f32⟩
  | .hbm, ⟨5, _⟩ => ⟨S128x1x1024, .f32⟩
  | .hbm, ⟨6, _⟩ => ⟨S128x1x1, .f32⟩
  | .hbm, ⟨7, _⟩ => ⟨S1x1x1, .f32⟩
  | .hbm, ⟨8, _⟩ => ⟨S128x1x1, .f32⟩
  | .hbm, ⟨9, _⟩ => ⟨S128x1x1, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S_, .f32⟩
  | .hbm, ⟨19, _⟩ => ⟨S100000, .f32⟩
  | .hbm, ⟨20, _⟩ => ⟨S_, .i32⟩
  | .hbm, ⟨21, _⟩ => ⟨S5000, .i32⟩
  | .hbm, ⟨22, _⟩ => ⟨S5000, .i1⟩
  | .hbm, ⟨23, _⟩ => ⟨S_, .i32⟩
  | .hbm, ⟨24, _⟩ => ⟨S5000, .i32⟩
  | .hbm, ⟨25, _⟩ => ⟨S5000, .i32⟩
  | .hbm, ⟨26, _⟩ => ⟨S5000, .i32⟩
  | .hbm, ⟨27, _⟩ => ⟨S5000x1, .i32⟩
  | .hbm, ⟨28, _⟩ => ⟨S_, .f32⟩
  | .hbm, ⟨29, _⟩ => ⟨S5000, .f32⟩
  | .hbm, ⟨30, _⟩ => ⟨S100000, .f32⟩
  | .hbm, ⟨31, _⟩ => ⟨S1x1x100000, .f32⟩
  | .hbm, ⟨32, _⟩ => ⟨S128x1x100000, .f32⟩
  | .hbm, ⟨33, _⟩ => ⟨S_, .f32⟩
  | .hbm, ⟨34, _⟩ => ⟨S128x1x100000, .f32⟩
  | .hbm, ⟨35, _⟩ => ⟨S128x1x100000, .f32⟩
  | .hbm, ⟨36, _⟩ => ⟨S128x1x100000, .f32⟩
  | .hbm, ⟨37, _⟩ => ⟨S128x1x100000, .f32⟩
  | .hbm, ⟨38, _⟩ => ⟨S128x1x100000, .f32⟩
  | .hbm, ⟨39, _⟩ => ⟨S128x1x100000, .f32⟩
  | .hbm, ⟨40, _⟩ => ⟨S128x1x100000, .f32⟩
  | _, _ => ⟨S128x1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S1x128x1024_S128x1x1024_1_0_2 : S1x128x1024.Transposes [1, 0, 2] S128x1x1024
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  bcast_S_S128x1x1 : S_.BroadcastsInDim S128x1x1 (![] : Fin 0 → Fin S128x1x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S100000_S1x1x100000_2 : S100000.BroadcastsInDim S1x1x100000 (![2] : Fin 1 → Fin S1x1x100000.rank)
  bcast_S1x1x100000_S128x1x100000_0_1_2 : S1x1x100000.BroadcastsInDim S128x1x100000 (![0, 1, 2] : Fin 3 → Fin S128x1x100000.rank)
  bcast_S_S128x1x100000 : S_.BroadcastsInDim S128x1x100000 (![] : Fin 0 → Fin S128x1x100000.rank)
  bcast_S128x1x1_S128x1x100000_0_1_2 : S128x1x1.BroadcastsInDim S128x1x100000 (![0, 1, 2] : Fin 3 → Fin S128x1x100000.rank)
  dot_S128x1x1024_S1x1024_S128x1x1_2_1_01_0_n_n_wf : DotDims.WF S128x1x1024 S1x1024 S128x1x1 [2] [1] [0, 1] [0] [] []
  scatter_S100000_S5000x1_S5000_n_0_0_1_wf : ScatterDims.WF S100000 S5000x1 S5000 [] [0] [0] 1

variable [Facts₀]

def dot_S128x1x1024_S1x1024_S128x1x1_2_1_01_0_n_n : DotDims S128x1x1024 S1x1024 S128x1x1 where
  lhsContracting := [2]
  rhsContracting := [1]
  lhsNonContracting := [0, 1]
  rhsNonContracting := [0]
  lhsBatch := []
  rhsBatch := []
  wf := dot_S128x1x1024_S1x1024_S128x1x1_2_1_01_0_n_n_wf
def scatter_S100000_S5000x1_S5000_n_0_0_1 : ScatterDims S100000 S5000x1 S5000 where
  updateWindowDims := []
  insertedWindowDims := [0]
  scatterDimsToOperandDims := [0]
  indexVectorDim := 1
  wf := scatter_S100000_S5000x1_S5000_n_0_0_1_wf

class Facts : Prop extends Facts₀ where

variable [Facts]
-- ==== Proof.KBCommon.lean ====
/-
  Shared set-up for the run of the kernel as printed: the program as the SparseCore launch theorem sees it, the ghost
  state (the handshakes' rounds beside the pipeline's rounds and the local transfers' counters), the mask as one
  function of the padded grammar words, and what the one SparseCore call hands its tiles and takes back.
-/
import proofs.«207473_g17575006175289_fold_wed_c4_317_29_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207473_g17575006175289_fold_wed_c4_317_29_alg».proof.Proof.Gen.Kernel
import proofs.«207473_g17575006175289_fold_wed_c4_317_29_alg».proof.Proof.Gen.Kernel.Skeleton
import proofs.«207473_g17575006175289_fold_wed_c4_317_29_alg».proof.Proof.Gen.Kernel.Launch
import proofs.«207473_g17575006175289_fold_wed_c4_317_29_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev URC : Type := UP × Counters
abbrev UU : Type := UH × URC

/-- The handshakes' rounds: the left factor. -/
abbrev EH : Emb UH (MT nD τ sig (HIx 1) (Elt F) ℕ UU ℕ) := embL
/-- The pipeline's rounds: the left factor of the right factor. -/
def EP : Emb UP (MT nD τ sig (HIx 1) (Elt F) ℕ UU ℕ) :=
  ((Emb.inl : Emb UP URC).trans (Emb.inr : Emb URC UU)).trans (uEmb (nD := nD) (sig := sig) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by unfold EP; infer_instance

/-! ## The arrays -/

abbrev gLoc (d : Dev nD) : Loc nD τ sig := (SparseCore.T d).loc main_v2
abbrev kLoc (d : Dev nD) : Loc nD τ sig := (SparseCore.T d).loc main_v3

/-- The flat position of an entry of the [1024,128] mask. -/
def flat (j : S1024x128.Idx) : ℤ := ((j 0).val * 128 + (j 1).val : ℕ)

open Classical in
/-- The mask as one function of the padded words: one where some word, read signed, is the entry's flat position,
    zero elsewhere. -/
def maskOf [FloatOps F] (gp : S40x128.Idx → BitVec 32) : S1024x128.Idx → F .f32 :=
  fun j => if ∃ e, (gp e).toInt = flat j then Scalar.ofBits .f32 0x3F800000#32 else Scalar.ofBits .f32 0x00000000#32

/-- The read share of the words that tile `i` of SparseCore `c` is lent. -/
abbrev coreShare (c : Fin 2) : PosShare TreeShare := Transfers.shareTok fullShare 2 c
abbrev tileShare (c : Fin 2) (i : Fin 16) : PosShare TreeShare := Transfers.shareTok (coreShare c) 16 i

theorem hdiv32 : 32 ∣ S1024x128.size 0 := ⟨32, rfl⟩
/-- The rows of the mask that worker `w = 2 i + c` writes: block `w` of thirty-two. -/
abbrev wid (c : Fin 2) (i : Fin 16) : Fin 32 := ⟨2 * i.val + c.val, by omega⟩
abbrev rowsRect (w : Fin 32) : Rect S1024x128 := Rect.part (s := S1024x128) (a₀ := 0) hdiv32 w
abbrev rowsSet (w : Fin 32) : Finset S1024x128.Idx := ((Memref.whole main_v3_scv : Memref sig .scVector .hbm S1024x128 .f32).view.slice (rowsRect w)).set

/-! ## What the one SparseCore call carries -/

section Pay

variable [FloatOps F] (gp : (d : Dev nD) → Buf (Elt F) (gLoc d))

local notation "𝕄" => MT nD τ sig (HIx 1) (Elt F) ℕ UU ℕ

/-- What a tile is lent and handed: a read share of the padded words, and its thirty-two rows of the mask at
    whatever they hold. -/
def tileGo (d : Dev nD) (c : Fin 2) (i : Fin 16) : sProp 𝕄 :=
  iprop((gLoc d ↦{tileShare c i} gp d) ∗ ∃ f, kLoc d ↦[rowsSet (wid c i)]{fullShare} f)
/-- What it gives back: the share, and its rows at the mask of the words. -/
def tileTd (d : Dev nD) (c : Fin 2) (i : Fin 16) : sProp 𝕄 :=
  iprop((gLoc d ↦{tileShare c i} gp d) ∗ kLoc d ↦[rowsSet (wid c i)]{fullShare} (maskOf (F := F) (gp d)))

/-- The call hands each SparseCore its sixteen tiles' parts as they are, and takes them back so. -/
def P : (K (F := F)).Pay (nD := nD) (Val := Elt F) (Name := ℕ) (U := UU) where
  st := fun q d c => match q with | 0 => bigSep Finset.univ fun i : Fin 16 => tileGo gp d (Fin.cast nCore_zero c) i
  dn := fun q d c => match q with | 0 => bigSep Finset.univ fun i : Fin 16 => tileTd gp d (Fin.cast nCore_zero c) i
  go := fun q d c i => match q with | 0 => tileGo gp d (Fin.cast nCore_zero c) (Fin.cast nSub_zero i)
  td := fun q d c i => match q with | 0 => tileTd gp d (Fin.cast nCore_zero c) (Fin.cast nSub_zero i)
  x := fun _ _ => iprop(emp)

instance P_storable : (P (F := F) gp).IsStorable where
  st q d c := match q with | 0 => by unfold P tileGo; infer_instance
  dn q d c := match q with | 0 => by unfold P tileTd; infer_instance
  go q d c i := match q with | 0 => by unfold P tileGo; infer_instance
  td q d c i := match q with | 0 => by unfold P tileTd; infer_instance

end Pay

end Cert.Proof.KB

end
-- ==== Proof.KBSplit.lean ====
/-
  How the one SparseCore call's operands are dealt: the padded words' array as thirty-two read shares, the mask
  array as thirty-two blocks of thirty-two rows; and the blocks and shares put together again.
-/
import proofs.«207473_g17575006175289_fold_wed_c4_317_29_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (gp : (d : Dev nD) → Buf (Elt F) (gLoc d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles' parts side by side: nothing to split. -/
theorem vecSplit : (K (F := F)).VecSplit' (P gp) 0 := by
  intro d c
  show (bigSep Finset.univ fun i : Fin 16 => tileGo gp d (Fin.cast nCore_zero c) i) ⊢ |={Set.univ}=> iprop(
      (bigSep Finset.univ fun i : Fin ((K (F := F)).nSub 0) => tileGo gp d (Fin.cast nCore_zero c) (Fin.cast nSub_zero i))
      ∗ ((bigSep Finset.univ fun i : Fin ((K (F := F)).nSub 0) => tileTd gp d (Fin.cast nCore_zero c) (Fin.cast nSub_zero i))
          -∗ bigSep Finset.univ fun i : Fin 16 => tileTd gp d (Fin.cast nCore_zero c) i))
  rw [bigSep_tasks (F := F) (fun i => tileGo gp d (Fin.cast nCore_zero c) i), bigSep_tasks (F := F) (fun i => tileTd gp d (Fin.cast nCore_zero c) i)]
  iintro H; imodintro
  isplitl [H]; · iexact H
  iintro H; iexact H

/-! ## The mask's rows -/

omit [FloatOps F] in
theorem rowsSet_eq (w : Fin 32) : rowsSet w = (rowsRect w).set := by
  show ((View.whole (main_v3_scv : Ref sig .scVector)).slice (rowsRect w)).set = _
  rw [View.set_slice]; exact Finset.map_refl
omit [FloatOps F] in
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv32 h
omit [FloatOps F] in
theorem rows_cover : (Finset.univ : Finset (Fin 32)).biUnion rowsSet = Finset.univ :=
  (Finset.biUnion_congr rfl fun i _ => rowsSet_eq i).trans (Rect.biUnion_part hdiv32)

omit [FloatOps F] in
theorem kPts_rows (d : Dev nD) (f : Buf (Elt F) (kLoc d)) :
    (kLoc d ↦{fullShare} f : sProp 𝕄) = bigSep Finset.univ fun w : Fin 32 => kLoc d ↦[rowsSet w]{fullShare} f := by
  rw [← pointsTo_biUnion Finset.univ (ℓ := kLoc d) rowsSet rows_disjoint, rows_cover]; try rfl

end Cert.Proof.KB

end
-- ==== Proof.KBDeal.lean ====
/-
  The one SparseCore call's operands dealt from the two whole arrays and gathered back: the padded words' array as
  read shares (two for the SparseCores, each again sixteen for its tiles, the remainders kept aside), the mask array
  as its thirty-two blocks of rows, block 2 i + c to tile i of SparseCore c.
-/
import proofs.«207473_g17575006175289_fold_wed_c4_317_29_alg».proof.Proof.KBCommon
import proofs.«207473_g17575006175289_fold_wed_c4_317_29_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (gp : (d : Dev nD) → Buf (Elt F) (gLoc d))

/-- The blocks of rows, numbered by worker, are the blocks numbered by SparseCore and tile. -/
theorem bigSep_workers (Φ : Fin 32 → sProp 𝕄) :
    bigSep Finset.univ Φ = bigSep Finset.univ fun c : Fin 2 => bigSep Finset.univ fun i : Fin 16 => Φ (wid c i) := by
  have himg : (Finset.univ : Finset (Fin 32)) = ((Finset.univ : Finset (Fin 2)) ×ˢ (Finset.univ : Finset (Fin 16))).image fun p => wid p.1 p.2 := by
    ext w
    simp only [Finset.mem_univ, Finset.mem_image, Finset.mem_product, true_and, Prod.exists, true_iff]
    exact ⟨⟨w.val % 2, by omega⟩, ⟨w.val / 2, by omega⟩, Fin.ext (by simp only [wid]; omega)⟩
  have hinj : Set.InjOn (fun p : Fin 2 × Fin 16 => wid p.1 p.2) (↑((Finset.univ : Finset (Fin 2)) ×ˢ (Finset.univ : Finset (Fin 16))) : Set (Fin 2 × Fin 16)) := by
    rintro ⟨c, i⟩ - ⟨c', i'⟩ - e
    have e' : 2 * i.val + c.val = 2 * i'.val + c'.val := Fin.mk.inj e
    exact Prod.ext (Fin.ext (show c.val = c'.val by omega)) (Fin.ext (show i.val = i'.val by omega))
  rw [himg, SparseCore.bigSep_image_of_injOn hinj, SparseCore.bigSep_product]

/-- What is kept aside of the words' array while the tiles hold their shares. -/
def Rem (d : Dev nD) : sProp 𝕄 :=
  iprop((gLoc d ↦{Transfers.shareDrop fullShare 2} gp d) ∗ bigSep Finset.univ fun c : Fin 2 => gLoc d ↦{Transfers.shareDrop (coreShare c) 16} gp d)

theorem words_split (d : Dev nD) :
    (gLoc d ↦{fullShare} gp d : sProp 𝕄)
      ⊢ iprop((bigSep Finset.univ fun c : Fin 2 => bigSep Finset.univ fun i : Fin 16 => gLoc d ↦{tileShare c i} gp d) ∗ Rem gp d) := by
  have h1 : (gLoc d ↦{fullShare} gp d : sProp 𝕄)
      ⊢ iprop((gLoc d ↦{Transfers.shareDrop fullShare 2} gp d) ∗ bigSep Finset.univ fun c : Fin 2 => gLoc d ↦{coreShare c} gp d) :=
    Transfers.pointsTo_toks_split fullShare 2
  have h2 : (bigSep Finset.univ fun c : Fin 2 => (gLoc d ↦{coreShare c} gp d : sProp 𝕄))
      ⊢ bigSep Finset.univ fun c : Fin 2 => iprop((gLoc d ↦{Transfers.shareDrop (coreShare c) 16} gp d) ∗ bigSep Finset.univ fun i : Fin 16 => gLoc d ↦{tileShare c i} gp d) :=
    bigSep_mono fun c _ => Transfers.pointsTo_toks_split (coreShare c) 16
  rw [bigSep_sep'] at h2
  unfold Rem
  iintro Hwd
  ihave Hsp := h1 $$ Hwd
  icases Hsp with ⟨Hr, Hcs⟩
  ihave Hcs' := h2 $$ Hcs
  icases Hcs' with ⟨Hrc, Hts⟩
  isplitl [Hts]; · iexact Hts
  isplitl [Hr] <;> iassumption

theorem words_join (d : Dev nD) :
    iprop((bigSep Finset.univ fun c : Fin 2 => bigSep Finset.univ fun i : Fin 16 => gLoc d ↦{tileShare c i} gp d) ∗ Rem gp d)
      ⊢ (gLoc d ↦{fullShare} gp d : sProp 𝕄) := by
  have h1 : iprop((gLoc d ↦{Transfers.shareDrop fullShare 2} gp d) ∗ bigSep Finset.univ fun c : Fin 2 => gLoc d ↦{coreShare c} gp d)
      ⊢ (gLoc d ↦{fullShare} gp d : sProp 𝕄) :=
    Transfers.pointsTo_toks_join fullShare 2
  have h2 : (bigSep Finset.univ fun c : Fin 2 => iprop((gLoc d ↦{Transfers.shareDrop (coreShare c) 16} gp d) ∗ bigSep Finset.univ fun i : Fin 16 => gLoc d ↦{tileShare c i} gp d))
      ⊢ bigSep Finset.univ fun c : Fin 2 => (gLoc d ↦{coreShare c} gp d : sProp 𝕄) :=
    bigSep_mono fun c _ => Transfers.pointsTo_toks_join (coreShare c) 16
  rw [bigSep_sep'] at h2
  unfold Rem
  iintro ⟨Hts, Hr, Hrc⟩
  iapply h1
  isplitl [Hr]; · iexact Hr
  iapply h2
  isplitl [Hrc] <;> iassumption

theorem deal (d : Dev nD) (f0 : Buf (Elt F) (kLoc d)) :
    iprop((gLoc d ↦{fullShare} gp d) ∗ kLoc d ↦{fullShare} f0)
      ⊢ (iprop((bigSep Finset.univ fun c : Fin 2 => bigSep Finset.univ fun i : Fin 16 => tileGo gp d c i) ∗ Rem gp d) : sProp 𝕄) := by
  have hk : (bigSep Finset.univ fun c : Fin 2 => bigSep Finset.univ fun i : Fin 16 => (kLoc d ↦[rowsSet (wid c i)]{fullShare} f0 : sProp 𝕄))
      ⊢ bigSep Finset.univ fun c : Fin 2 => bigSep Finset.univ fun i : Fin 16 => iprop(∃ f, kLoc d ↦[rowsSet (wid c i)]{fullShare} f) :=
    bigSep_mono fun c _ => bigSep_mono fun i _ => show (kLoc d ↦[rowsSet (wid c i)]{fullShare} f0 : sProp 𝕄) ⊢ iprop(∃ f, kLoc d ↦[rowsSet (wid c i)]{fullShare} f) from by
      iintro H; iexists f0; iexact H
  unfold tileGo
  simp only [bigSep_sep']
  rw [kPts_rows, bigSep_workers]
  iintro ⟨Hwd, Hk⟩
  ihave Hsp := (words_split gp d) $$ Hwd
  icases Hsp with ⟨Hts, Hrem⟩
  isplitl [Hts Hk]
  · isplitl [Hts]; · iexact Hts
    iapply hk; iexact Hk
  · iexact Hrem

theorem gather (d : Dev nD) :
    iprop((bigSep Finset.univ fun c : Fin 2 => bigSep Finset.univ fun i : Fin 16 => tileTd gp d c i) ∗ Rem gp d)
      ⊢ (iprop((gLoc d ↦{fullShare} gp d) ∗ kLoc d ↦{fullShare} (maskOf (F := F) (gp d))) : sProp 𝕄) := by
  unfold tileTd
  simp only [bigSep_sep']
  rw [kPts_rows, bigSep_workers]
  iintro ⟨⟨Hts, Hk⟩, Hrem⟩
  isplitl [Hts Hrem]
  · iapply (words_join gp d)
    isplitl [Hts] <;> iassumption
  · iexact Hk

end Cert.Proof.KB

end
-- ==== Proof.KBMain.lean ====
/-
  @main on the TensorCore: the host operations before the SparseCore call, the call, the host operations after it,
  the TensorCore kernel region and the two layout operations that close the program.
-/
import proofs.«207473_g17575006175289_fold_wed_c4_317_29_alg».proof.Proof.KBCommon
import proofs.«207473_g17575006175289_fold_wed_c4_317_29_alg».proof.Proof.KBSplit
import proofs.«207473_g17575006175289_fold_wed_c4_317_29_alg».proof.Proof.KBDeal
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]

/-- The four operations that pad the grammar's words to [40,128]. -/
abbrev ops1 : List (HloOp τ sig (Elt F)) :=
  [ nullary main_c (constantI S_ 32 4294967295#32),
    unary main_c main_v0 (broadcastInDim S120 ![] bcast_S_S120 : (⟨S_, .i32⟩ : BufTy).Contents (Elt F) → (⟨S120, .i32⟩ : BufTy).Contents (Elt F)),
    binary main_arg2 main_v0 main_v1 ((fun a b => concatenate S5120 0 [⟨S5000, a⟩, ⟨S120, b⟩] concatenates_S5000_S120_S5120_d0) : (⟨S5000, .i32⟩ : BufTy).Contents (Elt F) → (⟨S120, .i32⟩ : BufTy).Contents (Elt F) → (⟨S5120, .i32⟩ : BufTy).Contents (Elt F)),
    StableHlo.reshape main_v1 main_v2 rfl shapeCasts_S5120_S40x128 ]
/-- The four layout operations between the SparseCore call and the TensorCore kernel. -/
abbrev ops2 : List (HloOp τ sig (Elt F)) :=
  [ unary main_arg0 main_v4 ((transpose S1x100000x128 [1, 2, 0] · transposes_S128x1x100000_S1x100000x128_1_2_0) : (⟨S128x1x100000, .f32⟩ : BufTy).Contents (Elt F) → (⟨S1x100000x128, .f32⟩ : BufTy).Contents (Elt F)),
    StableHlo.reshape main_v4 main_v5 rfl shapeCasts_S1x100000x128_S100000x128,
    StableHlo.reshape main_arg1 main_v6 rfl shapeCasts_S1x128x1024_S128x1024,
    StableHlo.reshape main_arg4 main_v7 rfl shapeCasts_S1_S1x1 ]
/-- The two layout operations after it. -/
abbrev ops3 : List (HloOp τ sig (Elt F)) :=
  [ StableHlo.reshape main_v8 main_v9 rfl shapeCasts_S100000x128_S1x100000x128,
    unary main_v9 main_v10 ((transpose S128x1x100000 [2, 0, 1] · transposes_S1x100000x128_S128x1x100000_2_0_1) : (⟨S1x100000x128, .f32⟩ : BufTy).Contents (Elt F) → (⟨S128x1x100000, .f32⟩ : BufTy).Contents (Elt F)) ]

theorem main_eq (d : Dev nD) :
    main (F := F) d = (seq ops1 >>= fun _ => sc.run d 0 >>= fun _ => seq ops2 >>= fun _ =>
      (Prog.lift (.customCall (SparseCore.inner (Pipeline.entry 0)) ()) >>= fun _ => seq ops3 >>= fun _ => pure ⟨⟩)) := rfl

/-! ## The arrays along @main -/

variable (m : (ℓ : Loc nD τ sig) → Buf (Elt F) ℓ) (ρ : Dev nD → PrngReg)

abbrev g' : DevRef τ sig := Proc.devRef .tc (main_v2 : Ref sig .tc)
abbrev k' : DevRef τ sig := Proc.devRef .tc (main_v3 : Ref sig .tc)
abbrev o' : DevRef τ sig := Proc.devRef .tc (main_v8 : Ref sig .tc)

/-- The arrays at the launch; after the padding; -/
abbrev V0 (d : Dev nD) : Valuation τ sig (Elt F) := launchContents m d
abbrev V1 (d : Dev nD) : Valuation τ sig (Elt F) := after ops1 (V0 m d)
/-- the padded words; -/
abbrev gpad (d : Dev nD) : Buf (Elt F) (gLoc d) := V1 m d g'
/-- after the SparseCore call, the mask array at the mask of the padded words; after the layout operations; -/
abbrev V2 (d : Dev nD) : Valuation τ sig (Elt F) := Function.update (V1 m d) k' (maskOf (F := F) (gpad m d))
abbrev V3 (d : Dev nD) : Valuation τ sig (Elt F) := after ops2 (V2 m d)

variable (blend : Valuation τ sig (Elt F) → (⟨S100000x128, .f32⟩ : BufTy).Contents (Elt F))

/-- after the TensorCore kernel, its result array at `blend` of the arrays it read; at the end. -/
abbrev V4 (d : Dev nD) : Valuation τ sig (Elt F) := Function.update (V3 m d) o' (blend (V3 m d))
abbrev V5 (d : Dev nD) : Valuation τ sig (Elt F) := after ops3 (V4 m blend d)

/-- What the TensorCore kernel's region is asked to do, continuation-passing: from the boundary, the unscoped arrays
    at any contents, the core owing nothing, the level facts and the pipeline's ghost state, the call runs on to the
    boundary, the arrays unchanged but the result array, which holds `blend` of them, the core owing nothing and
    having recorded waits at no index of a call. -/
def RegionSpec (Gst : Dev nD → sProp 𝕄) : Prop :=
  ∀ (d : Dev nD) (V : Valuation τ sig (Elt F)) (W : Waits sig (HIx 1)) {α : Type}
    (k : PUnit → Prog (TpuEff nD τ sig (Elt F) (SparseCore.Sig (ΛP (F := F)) 1) .tc) α) (Q : α → sProp 𝕄),
    iprop((iprop(boundary (T d) ∗ held (T d) (Pipeline.ucRefs τ sig) (Function.update V o' (blend V))
            ∗ ∃ W', ⌜∀ p ∈ W', p ∈ W ∨ p.2 = none⌝ ∗ owes (T d) (0 : CellTallies nD τ sig (HIx 1)) W')
          -∗ wp frame (wpE ((K (F := F)).defs (D (F := F))) 𝒱 (T d) none) Set.univ (k ⟨⟩) Q)
        ∗ boundary (T d) ∗ held (T d) (Pipeline.ucRefs τ sig) V ∗ owes (T d) (0 : CellTallies nD τ sig (HIx 1)) W
        ∗ levAts (K (F := F)).L (K (F := F)).lev ∗ Gst d)
      ⊢ wp frame (wpE ((K (F := F)).defs (D (F := F))) 𝒱 (T d) none) Set.univ
          (.op (.customCall (SparseCore.inner (Pipeline.entry 0)) ()) k) Q

theorem ops1_sub : ∀ op ∈ (ops1 : List (HloOp τ sig (Elt F))), op.bufs ⊆ Pipeline.ucRefs τ sig := by
  intro op hop
  simp only [ops1, List.mem_cons, List.mem_nil_iff, _root_.or_false] at hop
  rcases hop with rfl | rfl | rfl | rfl
  · exact Pipeline.sub_ucRefs _ (nullary_bufs_sub ..)
  · exact Pipeline.sub_ucRefs _ (unary_bufs_sub ..)
  · exact Pipeline.sub_ucRefs _ (binary_bufs_sub ..)
  · exact Pipeline.sub_ucRefs _ (reshape_bufs_sub ..)
theorem ops2_sub : ∀ op ∈ (ops2 : List (HloOp τ sig (Elt F))), op.bufs ⊆ Pipeline.ucRefs τ sig := by
  intro op hop
  simp only [ops2, List.mem_cons, List.mem_nil_iff, _root_.or_false] at hop
  rcases hop with rfl | rfl | rfl | rfl
  · exact Pipeline.sub_ucRefs _ (unary_bufs_sub ..)
  · exact Pipeline.sub_ucRefs _ (reshape_bufs_sub ..)
  · exact Pipeline.sub_ucRefs _ (reshape_bufs_sub ..)
  · exact Pipeline.sub_ucRefs _ (reshape_bufs_sub ..)
theorem ops3_sub : ∀ op ∈ (ops3 : List (HloOp τ sig (Elt F))), op.bufs ⊆ Pipeline.ucRefs τ sig := by
  intro op hop
  simp only [ops3, List.mem_cons, List.mem_nil_iff, _root_.or_false] at hop
  rcases hop with rfl | rfl
  · exact Pipeline.sub_ucRefs _ (reshape_bufs_sub ..)
  · exact Pipeline.sub_ucRefs _ (unary_bufs_sub ..)
theorem ops1_fresh : ∀ op ∈ (ops1 : List (HloOp τ sig (Elt F))), op.fresh = ∅ := by
  intro op hop
  simp only [ops1, List.mem_cons, List.mem_nil_iff, _root_.or_false] at hop
  rcases hop with rfl | rfl | rfl | rfl <;> rfl
theorem ops2_fresh : ∀ op ∈ (ops2 : List (HloOp τ sig (Elt F))), op.fresh = ∅ := by
  intro op hop
  simp only [ops2, List.mem_cons, List.mem_nil_iff, _root_.or_false] at hop
  rcases hop with rfl | rfl | rfl | rfl <;> rfl
theorem ops3_fresh : ∀ op ∈ (ops3 : List (HloOp τ sig (Elt F))), op.fresh = ∅ := by
  intro op hop
  simp only [ops3, List.mem_cons, List.mem_nil_iff, _root_.or_false] at hop
  rcases hop with rfl | rfl <;> rfl

/-! ## The pieces of the TensorCore's state that @main opens -/

theorem pair_sub : ({g', k'} : Finset (DevRef τ sig)) ⊆ Pipeline.ucRefs τ sig := by decide

omit [FloatOps F] in
theorem held_pair (d : Dev nD) (V : Valuation τ sig (Elt F)) :
    (held (T d) ({g', k'} : Finset (DevRef τ sig)) V : sProp 𝕄) = iprop((gLoc d ↦{fullShare} V g') ∗ kLoc d ↦{fullShare} V k') := by
  unfold held
  rw [SparseCore.bigSep_insert' (by decide), bigSep_singleton]

omit [FloatOps F] in
theorem held_rest (d : Dev nD) (V : Valuation τ sig (Elt F)) (f : Buf (Elt F) (kLoc d)) :
    (held (T d) (Pipeline.ucRefs τ sig \ {g', k'}) (Function.update V k' f) : sProp 𝕄) = held (T d) (Pipeline.ucRefs τ sig \ {g', k'}) V :=
  held_congr (T d) fun b hb => Function.update_of_ne (fun e => (Finset.mem_sdiff.mp hb).2 (by subst e; decide)) _ _

theorem st0_eq (gp : (d : Dev nD) → Buf (Elt F) (gLoc d)) (d : Dev nD) :
    (bigSep Finset.univ fun c : Fin ((K (F := F)).nCore 0) => (P gp).st 0 d c)
      = bigSep Finset.univ fun c : Fin 2 => bigSep Finset.univ fun i : Fin 16 => tileGo gp d c i :=
  bigSep_cores (F := F) fun c => bigSep Finset.univ fun i : Fin 16 => tileGo gp d c i
theorem dn0_eq (gp : (d : Dev nD) → Buf (Elt F) (gLoc d)) (d : Dev nD) :
    (bigSep Finset.univ fun c : Fin ((K (F := F)).nCore 0) => (P gp).dn 0 d c)
      = bigSep Finset.univ fun c : Fin 2 => bigSep Finset.univ fun i : Fin 16 => tileTd gp d c i :=
  bigSep_cores (F := F) fun c => bigSep Finset.univ fun i : Fin 16 => tileTd gp d c i

/-- What is left of the TensorCore's handshake state after the one call, beside what it owes. -/
def tcRest (gp : (d : Dev nD) → Buf (Elt F) (gLoc d)) (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (gp : (d : Dev nD) → Buf (Elt F) (gLoc d)) (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcRest gp d) := by
  unfold SparseCore.Cfg.tcSt tcRest
  rw [(K (F := F)).Otc_end d (le_refl 1)]

theorem held_V2 (d : Dev nD) :
    (held (T d) (Pipeline.ucRefs τ sig) (V2 m d) : sProp 𝕄)
      = iprop(((gLoc d ↦{fullShare} gpad m d) ∗ kLoc d ↦{fullShare} (maskOf (F := F) (gpad m d))) ∗ held (T d) (Pipeline.ucRefs τ sig \ {g', k'}) (V1 m d)) := by
  rw [held_sub_split (T d) pair_sub (V2 m d), held_pair, held_rest,
    show V2 m d g' = gpad m d from Function.update_of_ne (by decide) _ _,
    show V2 m d k' = maskOf (F := F) (gpad m d) from Function.update_self _ _ _]

theorem tcSt_one' (gp : (d : Dev nD) → Buf (Elt F) (gLoc d)) (d : Dev nD) :
    ((K (F := F)).tcSt EH d ((0 : Fin 1).val + 1) : sProp 𝕄)
      = iprop((∃ W, ⌜(K (F := F)).WBelow (T d) W (8 * 1)⌝ ∗ owes (T d) (0 : CellTallies nD τ sig (HIx 1)) W) ∗ tcRest gp d) :=
  tcSt_one gp d

/-! ## @main -/

/-- @main on the TensorCore: the padding, the SparseCore call (the words' array dealt as read shares, the mask
    array as blocks of rows, both gathered back), the layout operations, the kernel region, the closing layout
    operations; every unscoped array ends at the composed contents. -/
theorem hmain (Gst : Dev nD → sProp 𝕄) (hreg : RegionSpec blend Gst) (κ : GSem nD τ sig → ℕ) (d : Dev nD) :
    iprop((K (F := F)).ctx EH (P (gpad m)) κ ∗ (K (F := F)).tcSt EH d 0 ∗ (K (F := F)).tcRes m ρ d ∗ Gst d)
      ⊢ wp frame (wpE ((K (F := F)).defs (D (F := F))) 𝒱 (SparseCore.T d) none) Set.univ (main d)
          fun _ => iprop((K (F := F)).tcSt EH d 1 ∗ held (T d) (Pipeline.ucRefs τ sig) (V5 m blend d)) := by
  unfold SparseCore.Cfg.tcRes
  rw [show (unscopedBufs d (fun b => m ((SparseCore.T d).loc b)) : sProp 𝕄) = held (T d) (Pipeline.ucRefs τ sig) (V0 m d)
      from Pipeline.unscopedBufs_held d (launchContents m d), main_eq]
  iintro ⟨#Hctx, Hst, ⟨Hb, Hheld, -, -⟩, HG⟩
  -- the padding
  iapply (wp_seq 𝒱 none Set.univ d (Pipeline.ucRefs τ sig) _ ops1 ops1_sub ops1_fresh (V0 m d)) $$ [Hb Hheld]
  · isplitl [Hb] <;> iassumption
  iintro ⟨Hb, Hheld⟩
  -- the SparseCore call
  rw [wp_bind]
  ihave Hsp := (Entails.of_eq (held_sub_split (T d) pair_sub (V1 m d))) $$ Hheld
  icases Hsp with ⟨Hpair, Hrest⟩
  ihave Hp := (Entails.of_eq (held_pair d (V1 m d))) $$ Hpair
  icases Hp with ⟨Hwd, Hk⟩
  ihave Hdl := (deal (gpad m) d (V1 m d k')) $$ [Hwd Hk]
  · isplitl [Hwd] <;> iassumption
  icases Hdl with ⟨Hgo, Hrem⟩
  iapply ((K (F := F)).wp_run (D (F := F)) 𝒱 (EH := EH) (P := P (gpad m)) κ d 0) $$ [Hst Hgo Hb Hrest Hrem HG]
  isplitr; · iexact Hctx
  isplitl [Hst]; · iexact Hst
  isplitl [Hgo]; · iapply (Entails.of_eq (st0_eq (gpad m) d).symm); iexact Hgo
  iintro ⟨Hst, Hdn⟩
  ihave Hdn' := (Entails.of_eq (dn0_eq (gpad m) d)) $$ Hdn
  ihave Hga := (gather (gpad m) d) $$ [Hdn' Hrem]
  · isplitl [Hdn'] <;> iassumption
  ihave Hheld := (Entails.of_eq (held_V2 m d).symm) $$ [Hga Hrest]
  · isplitl [Hga] <;> iassumption
  -- the layout operations
  iapply (wp_seq 𝒱 none Set.univ d (Pipeline.ucRefs τ sig) _ ops2 ops2_sub ops2_fresh (V2 m d)) $$ [Hb Hheld]
  · isplitl [Hb] <;> iassumption
  iintro ⟨Hb, Hheld⟩
  -- the kernel region
  ihave Hst' := (Entails.of_eq (tcSt_one' (gpad m) d)) $$ Hst
  icases Hst' with ⟨⟨%W, %hW, HO⟩, Hrst⟩
  ihave Hlev := ((K (F := F)).ctx_levAts κ) $$ Hctx
  iapply (hreg d (V3 m d) W _ _) $$ [Hb Hheld HO HG Hrst]
  isplitl [Hrst]
  · iintro ⟨Hb, Hheld, %W', %hW', HO⟩
    iapply (wp_seq 𝒱 none Set.univ d (Pipeline.ucRefs τ sig) _ ops3 ops3_sub ops3_fresh (V4 m blend d)) $$ [Hb Hheld]
    · isplitl [Hb] <;> iassumption
    iintro ⟨Hb, Hheld⟩
    rw [wp_pure]
    imodintro
    isplitl [HO Hrst]
    · iapply (Entails.of_eq (tcSt_one (gpad m) d).symm)
      isplitl [HO]
      · iexists W'; isplitr
        · ipureintro
          intro p hp
          rcases hW' p hp with h | h
          · exact hW p h
          · rw [h, (K (F := F)).lev_none]; exact Nat.zero_le _
        · iexact HO
      · iexact Hrst
    · iexact Hheld
  · isplitl [Hb]; · iexact Hb
    isplitl [Hheld]; · iexact Hheld
    isplitl [HO]; · iexact HO
    isplitr; · iexact Hlev
    iexact HG

end Cert.Proof.KB

end
-- ==== Proof.KBRun.lean ====
/-
  The program's run: the launch element of the ghost state (the handshakes' rounds, the pipeline's staging cells
  funded, the counters dropped), what the final memory is read to hold, and the launch theorem applied.
-/
import proofs.«207473_g17575006175289_fold_wed_c4_317_29_alg».proof.Proof.KBCommon
import proofs.«207473_g17575006175289_fold_wed_c4_317_29_alg».proof.Proof.KBSplit
import proofs.«207473_g17575006175289_fold_wed_c4_317_29_alg».proof.Proof.KBDeal
import proofs.«207473_g17575006175289_fold_wed_c4_317_29_alg».proof.Proof.KBMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]
variable (a : (p : Fin 1) → (pcfgs (F := F) p).Adm)
  (hinj : Function.Injective (Pipeline.cellOf (nD := nD) (τ := τ) (Pipeline.pin (pcfgs (F := F)) a)))

/-- The pipeline's ghost state on a core: its staging cells' and its duty tokens. -/
def Gst (d : Dev nD) : sProp 𝕄 :=
  iprop(Pipeline.cellsGhost (Pipeline.pin (pcfgs (F := F)) a) EP 0 d ∗ Pipeline.toksInit (Pipeline.pin (pcfgs (F := F)) a) EP 0 d)

def u₀ : UU :=
  (initOf (K (F := F)).hsCells (K (F := F)).hsToks,
    (initOf (Pipeline.cells (Pipeline.pin (pcfgs (F := F)) a) hinj) (Pipeline.launchToks (Pipeline.pin (pcfgs (F := F)) a) hinj), 1))

omit [FloatOps F] in
theorem bigSep_emp' {I : Type} (s : Finset I) : (bigSep s fun _ => iprop(emp)) = (iprop(emp) : sProp 𝕄) := bigSep_emp_const s

theorem bigSep_fin1 (Φ : Fin 1 → sProp 𝕄) : bigSep Finset.univ Φ = Φ 0 := by
  rw [show (Finset.univ : Finset (Fin 1)) = {0} by decide, bigSep_singleton]

theorem hu₀ (gp : (d : Dev nD) → Buf (Elt F) (gLoc d)) : (ownU (u₀ (F := F) a hinj) : sProp 𝕄)
    ⊢ |={Set.univ}=> iprop(BI.own (EH (initOf (K (F := F)).hsCells (K (F := F)).hsToks)) ∗ (bigSep Finset.univ fun d : Dev nD => Gst a d)
        ∗ bigSep Finset.univ fun thr : Thread nD τ => bigSep Finset.univ fun q : Fin 1 => (P gp).x q thr) := by
  unfold u₀
  iintro Hu
  ihave H := (ownU_pair _ _) $$ Hu
  icases H with ⟨HH, HR⟩
  have hsplit : (BI.own ((embR : Emb URC 𝕄)
        (initOf (Pipeline.cells (Pipeline.pin (pcfgs (F := F)) a) hinj) (Pipeline.launchToks (Pipeline.pin (pcfgs (F := F)) a) hinj), (1 : Counters))) : sProp 𝕄)
      ⊢ iprop(BI.own ((EP (F := F)) (initOf (Pipeline.cells (Pipeline.pin (pcfgs (F := F)) a) hinj) (Pipeline.launchToks (Pipeline.pin (pcfgs (F := F)) a) hinj)))
          ∗ BI.own (((Emb.inr : Emb Counters URC).trans (embR : Emb URC 𝕄)) 1)) :=
    own_pair_emb (embR : Emb URC 𝕄) _ _
  ihave HR' := (hsplit) $$ HR
  icases HR' with ⟨HP, -⟩
  imod (Pipeline.fund_ghost (Pipeline.pin (pcfgs (F := F)) a) (EP (F := F)) hinj) $$ HP with ⟨Hg, Ht⟩
  imodintro
  isplitl [HH]; · iexact HH
  isplitl [Hg Ht]
  · unfold Gst
    rw [bigSep_sep']
    isplitl [Hg]
    · iapply (Entails.of_eq (show (bigSep Finset.univ fun c : Dev nD => bigSep Finset.univ fun p : Fin 1 => (Pipeline.cellsGhost (Pipeline.pin (pcfgs (F := F)) a) EP p c : sProp 𝕄))
          = bigSep Finset.univ fun c : Dev nD => Pipeline.cellsGhost (Pipeline.pin (pcfgs (F := F)) a) EP 0 c from bigSep_congr fun c _ => bigSep_fin1 _))
      iexact Hg
    · iapply (Entails.of_eq (show (bigSep Finset.univ fun c : Dev nD => bigSep Finset.univ fun p : Fin 1 => (Pipeline.toksInit (Pipeline.pin (pcfgs (F := F)) a) EP p c : sProp 𝕄))
          = bigSep Finset.univ fun c : Dev nD => Pipeline.toksInit (Pipeline.pin (pcfgs (F := F)) a) EP 0 c from bigSep_congr fun c _ => bigSep_fin1 _))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

/-- Arrays held at contents `V`, beside the state interpretation of a final state, are that state's. -/
theorem held_read (d : Dev nD) (V : Valuation τ sig (Elt F)) (s' : Phys nD τ sig (Elt F)) :
    ∀ S : Finset (DevRef τ sig), iprop(held (T d) S V ∗ SI s') ⊢ (⌜∀ b ∈ S, s'.mem.mem (d, b) = V b⌝ : sProp 𝕄) := by
  intro S
  induction S using Finset.induction_on with
  | empty => iintro -; ipureintro; exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (d, b)) (I := Finset.univ) (q := fullShare) (f := V b))) $$ [HSI Hb]
    · isplitl [HSI] <;> iassumption
    icases H with ⟨%h1, HSI, Hb⟩
    ihave %h2 := (ih) $$ [HS HSI]
    · isplitl [HS] <;> iassumption
    ipureintro
    intro b' hb'
    rcases Finset.mem_insert.mp hb' with rfl | hb'
    · exact funext fun i => h1 i (Finset.mem_univ i)
    · exact h2 b' hb'

variable (m : (ℓ : Loc nD τ sig) → Buf (Elt F) ℓ) (ρ : Dev nD → PrngReg)
variable (blend : Valuation τ sig (Elt F) → (⟨S100000x128, .f32⟩ : BufTy).Contents (Elt F))

/-- What @main leaves: every unscoped array at the composed contents. -/
abbrev FIN (d : Dev nD) : sProp 𝕄 := held (T d) (Pipeline.ucRefs τ sig) (V5 m blend d)
def fq (d : Dev nD) (s' : Phys nD τ sig (Elt F)) : Prop := ∀ b ∈ Pipeline.ucRefs τ sig, s'.mem.mem (d, b) = V5 m blend d b
theorem hfin (d : Dev nD) (s' : Phys nD τ sig (Elt F)) : iprop(FIN m blend d ∗ SI s') ⊢ (⌜fq m blend d s'⌝ : sProp 𝕄) :=
  held_read d _ s' _

/-- The run's post: on every device every unscoped array holds the composed contents. -/
def QC : PUnit × MemSt nD τ sig (Elt F) → Prop := fun r => ∀ c : Dev nD, ∀ b ∈ Pipeline.ucRefs τ sig, r.2.mem (c, b) = V5 m blend c b

include hinj in
/-- The launch theorem, from the tile's task and the kernel region. -/
theorem run_main [∀ e, Nonempty (Elt F e)] (htile : (K (F := F)).TileObl (D (F := F)) 𝒱 (P (gpad m)) v₀ 0) (hreg : RegionSpec blend (Gst a)) :
    θ_run (Cert.Kernel.defs (F := F)) (Cert.Kernel.threads (F := F)) ⟨m, fun _ => 0, ρ⟩ (QC m blend) :=
  SparseCore.Cfg.θ_run_sc (K := K (F := F)) (D := D (F := F)) (𝒱 := 𝒱) (EH := EH) (P := P (gpad m)) facts v₀
    (fun q hq => match q with | 0 => nomatch hq)
    (fun q _ => match q with | 0 => htile)
    (fun q _ => match q with | 0 => SparseCore.Cfg.VecSplit.of_plain (vecSplit (gpad m)))
    m ρ main (Gst a) (FIN m blend) (u₀ a hinj) (sep_elim_left.trans (hu₀ a hinj (gpad m))) (hmain m ρ blend (Gst a) hreg)
    (fq m blend) (hfin m blend) (QC m blend) (fun _ h => h)

end Cert.Proof.KB

end
-- ==== Proof.KBVals.lean ====
/-
  The arrays along @main as terms of the arrays before: each stretch of host operations read off, over any contents
  it starts from.
-/
import proofs.«207473_g17575006175289_fold_wed_c4_317_29_alg».proof.Proof.KBCommon
import proofs.«207473_g17575006175289_fold_wed_c4_317_29_alg».proof.Proof.KBMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v10' : DevRef τ sig := Proc.devRef .tc (main_v10 : Ref sig .tc)

variable (W : Valuation τ sig (Elt F))

/-! ### The padding -/
theorem ops1_g : (after ops1 W g' : (⟨S40x128, .i32⟩ : BufTy).Contents (Elt F))
    = shapeCast S40x128 (concatenate S5120 0 [⟨S5000, W a2'⟩, ⟨S120, broadcastInDim S120 ![] bcast_S_S120 (constantI S_ 32 4294967295#32)⟩] concatenates_S5000_S120_S5120_d0) shapeCasts_S5120_S40x128 := by
  after_results; rfl
theorem ops1_a0 : after ops1 W a0' = W a0' := by after_results
theorem ops1_a1 : after ops1 W a1' = W a1' := by after_results
theorem ops1_a2 : after ops1 W a2' = W a2' := by after_results
theorem ops1_a3 : after ops1 W a3' = W a3' := by after_results
theorem ops1_a4 : after ops1 W a4' = W a4' := by after_results

/-! ### The layout operations before the kernel -/
theorem ops2_v5 : (after ops2 W v5' : (⟨S100000x128, .f32⟩ : BufTy).Contents (Elt F))
    = shapeCast S100000x128 (transpose S1x100000x128 [1, 2, 0] (W a0') transposes_S128x1x100000_S1x100000x128_1_2_0) shapeCasts_S1x100000x128_S100000x128 := by
  after_results; rfl
theorem ops2_v6 : (after ops2 W v6' : (⟨S128x1024, .f32⟩ : BufTy).Contents (Elt F)) = shapeCast S128x1024 (W a1') shapeCasts_S1x128x1024_S128x1024 := by
  after_results; rfl
theorem ops2_v7 : (after ops2 W v7' : (⟨S1x1, .f32⟩ : BufTy).Contents (Elt F)) = shapeCast S1x1 (W a4') shapeCasts_S1_S1x1 := by
  after_results; rfl
theorem ops2_k : after ops2 W k' = W k' := by after_results
theorem ops2_a0 : after ops2 W a0' = W a0' := by after_results
theorem ops2_a1 : after ops2 W a1' = W a1' := by after_results
theorem ops2_a2 : after ops2 W a2' = W a2' := by after_results
theorem ops2_a3 : after ops2 W a3' = W a3' := by after_results
theorem ops2_a4 : after ops2 W a4' = W a4' := by after_results

/-! ### The layout operations after it -/
theorem ops3_v10 : (after ops3 W v10' : (⟨S128x1x100000, .f32⟩ : BufTy).Contents (Elt F))
    = transpose S128x1x100000 [2, 0, 1] (shapeCast S1x100000x128 (W o') shapeCasts_S100000x128_S1x100000x128) transposes_S1x100000x128_S128x1x100000_2_0_1 := by
  after_results; rfl
theorem ops3_a0 : after ops3 W a0' = W a0' := by after_results
theorem ops3_a1 : after ops3 W a1' = W a1' := by after_results
theorem ops3_a2 : after ops3 W a2' = W a2' := by after_results
theorem ops3_a3 : after ops3 W a3' = W a3' := by after_results
theorem ops3_a4 : after ops3 W a4' = W a4' := by after_results

/-! ### The arrays at the end -/

variable (m : (ℓ : Loc nD τ sig) → Buf (Elt F) ℓ)
variable (blend : Valuation τ sig (Elt F) → (⟨S100000x128, .f32⟩ : BufTy).Contents (Elt F))

theorem V5_a0 (d : Dev nD) : V5 m blend d a0' = m (d, a0') := by
  rw [show V5 m blend d a0' = V4 m blend d a0' from ops3_a0 _, show V4 m blend d a0' = V3 m d a0' from Function.update_of_ne (by decide) _ _,
    show V3 m d a0' = V2 m d a0' from ops2_a0 _, show V2 m d a0' = V1 m d a0' from Function.update_of_ne (by decide) _ _,
    show V1 m d a0' = V0 m d a0' from ops1_a0 _]
theorem V5_a1 (d : Dev nD) : V5 m blend d a1' = m (d, a1') := by
  rw [show V5 m blend d a1' = V4 m blend d a1' from ops3_a1 _, show V4 m blend d a1' = V3 m d a1' from Function.update_of_ne (by decide) _ _,
    show V3 m d a1' = V2 m d a1' from ops2_a1 _, show V2 m d a1' = V1 m d a1' from Function.update_of_ne (by decide) _ _,
    show V1 m d a1' = V0 m d a1' from ops1_a1 _]
theorem V5_a2 (d : Dev nD) : V5 m blend d a2' = m (d, a2') := by
  rw [show V5 m blend d a2' = V4 m blend d a2' from ops3_a2 _, show V4 m blend d a2' = V3 m d a2' from Function.update_of_ne (by decide) _ _,
    show V3 m d a2' = V2 m d a2' from ops2_a2 _, show V2 m d a2' = V1 m d a2' from Function.update_of_ne (by decide) _ _,
    show V1 m d a2' = V0 m d a2' from ops1_a2 _]
theorem V5_a3 (d : Dev nD) : V5 m blend d a3' = m (d, a3') := by
  rw [show V5 m blend d a3' = V4 m blend d a3' from ops3_a3 _, show V4 m blend d a3' = V3 m d a3' from Function.update_of_ne (by decide) _ _,
    show V3 m d a3' = V2 m d a3' from ops2_a3 _, show V2 m d a3' = V1 m d a3' from Function.update_of_ne (by decide) _ _,
    show V1 m d a3' = V0 m d a3' from ops1_a3 _]
theorem V5_a4 (d : Dev nD) : V5 m blend d a4' = m (d, a4') := by
  rw [show V5 m blend d a4' = V4 m blend d a4' from ops3_a4 _, show V4 m blend d a4' = V3 m d a4' from Function.update_of_ne (by decide) _ _,
    show V3 m d a4' = V2 m d a4' from ops2_a4 _, show V2 m d a4' = V1 m d a4' from Function.update_of_ne (by decide) _ _,
    show V1 m d a4' = V0 m d a4' from ops1_a4 _]

end Cert.Proof.KB

end
-- ==== Proof.KBWords.lean ====
/-
  Word arithmetic of the mask kernel's tile body: the trips' offsets in closed form, the indexed store of one
  constant read at one element, and what one lane of a trip decides: a word read signed lies in the tile's
  window of 4096 flat positions exactly when the lane's mask bit is set, and then its row and column words are
  the position's quotient and remainder by 128.
-/
import proofs.«207473_g17575006175289_fold_wed_c4_317_29_alg».proof.Proof.KBCommon

noncomputable section

namespace Cert.Proof.KB

open Cert.Kernel Cert.Kernel.Gen

open Idealize.ShloMosaic

variable {F : FTy → Type}

/-! ## The loops' trip counts and offsets, closed -/

theorem trips1 : k0_t1_loop.trips = 256 := by decide +kernel
theorem trips2 : k0_t2_loop.trips = 320 := by decide +kernel
theorem k0_off1_cf : ∀ t : Fin k0_t1_loop.trips, k0_off1 t = ![t.val / 8, (t.val % 8) * 16] := by decide +kernel
theorem k0_off2_cf : ∀ t : Fin k0_t2_loop.trips, k0_off2 t = ![t.val / 8, (t.val % 8) * 16] := by decide +kernel

/-- The first flat position of the tile's window, as the body computes it. -/
def baseW (L : grid0.Coords) : BitVec 32 :=
  Scalar.muli (Scalar.addi (Scalar.muli (BitVec.ofNat 32 (L 1).val) 2#32) (BitVec.ofNat 32 (L 0).val)) 4096#32

theorem baseW_toNat : ∀ L : grid0.Coords, (baseW L).toNat = (2 * (L 1).val + (L 0).val) * 4096 := by decide +kernel

/-! ## The indexed store of one constant -/

section StoreIdx

variable [FloatOps F] {s : Shape} {e : EltTy} {d : Fin 1 → Nat}

/-- Storing one value at every enabled lane's index: an element holds that value if some enabled lane names it,
    else what it held. -/
theorem storeIdx_const (f : Vec F s e) (idxs : Fin s.rank → IVec ⟨1, d⟩ 32) (y : Elt F e) (mask : IVec ⟨1, d⟩ 1)
    (h : ∀ a x, (idxs a x).toNat < s.size a) (j : s.Idx) :
    storeIdx f idxs (fun _ => y) mask false h j
      = if ∃ k : Fin (d 0), mask (Shape.ofLane k) = 1 ∧ ∀ a, (j a).val = (idxs a (Shape.ofLane k)).toNat then y else f j := by
  have key : ∀ (l : List (Fin (d 0))) (g : Vec F s e),
      (l.foldl (fun (g : Vec F s e) (k : Fin (d 0)) =>
        if mask (Shape.ofLane k) = 1 then
          (fun j' : s.Idx => if (∀ a, (j' a).val = (idxs a (Shape.ofLane k)).toNat) then y else g j')
        else g) g) j
        = if ∃ k ∈ l, mask (Shape.ofLane k) = 1 ∧ ∀ a, (j a).val = (idxs a (Shape.ofLane k)).toNat then y else g j := by
    intro l
    induction l with
    | nil => intro g; simp
    | cons k l ih =>
      intro g
      rw [List.foldl_cons, ih]
      by_cases hl : ∃ k' ∈ l, mask (Shape.ofLane k') = 1 ∧ ∀ a, (j a).val = (idxs a (Shape.ofLane k')).toNat
      · have hl' : ∃ k' ∈ k :: l, mask (Shape.ofLane k') = 1 ∧ ∀ a, (j a).val = (idxs a (Shape.ofLane k')).toNat := by
          obtain ⟨k', hk', hc⟩ := hl
          exact ⟨k', List.mem_cons_of_mem _ hk', hc⟩
        rw [if_pos hl, if_pos hl']
      · rw [if_neg hl]
        by_cases hm : mask (Shape.ofLane k) = 1
        · rw [if_pos hm]
          by_cases hj : ∀ a, (j a).val = (idxs a (Shape.ofLane k)).toNat
          · have hl' : ∃ k' ∈ k :: l, mask (Shape.ofLane k') = 1 ∧ ∀ a, (j a).val = (idxs a (Shape.ofLane k')).toNat :=
              ⟨k, List.mem_cons_self, hm, hj⟩
            rw [if_pos hl']
            exact if_pos hj
          · have hl' : ¬ ∃ k' ∈ k :: l, mask (Shape.ofLane k') = 1 ∧ ∀ a, (j a).val = (idxs a (Shape.ofLane k')).toNat := by
              rintro ⟨k', hk', hm', hj'⟩
              rcases List.mem_cons.mp hk' with rfl | hk'
              · exact hj hj'
              · exact hl ⟨k', hk', hm', hj'⟩
            rw [if_neg hl']
            exact if_neg hj
        · rw [if_neg hm]
          have hl' : ¬ ∃ k' ∈ k :: l, mask (Shape.ofLane k') = 1 ∧ ∀ a, (j a).val = (idxs a (Shape.ofLane k')).toNat := by
            rintro ⟨k', hk', hm', hj'⟩
            rcases List.mem_cons.mp hk' with rfl | hk'
            · exact hm hm'
            · exact hl ⟨k', hk', hm', hj'⟩
          rw [if_neg hl']
  have h0 : storeIdx f idxs (fun _ => y) mask false h
      = (List.finRange (d 0)).foldl (fun (g : Vec F s e) (k : Fin (d 0)) =>
        if mask (Shape.ofLane k) = 1 then
          (fun j' : s.Idx => if (∀ a, (j' a).val = (idxs a (Shape.ofLane k)).toNat) then y else g j')
        else g) f := by
    unfold storeIdx idxAt
    simp only [Bool.false_eq_true, if_false]
  rw [h0, key]
  simp only [List.mem_finRange, true_and]

end StoreIdx

/-! ## One lane of a trip -/

/-- One lane's mask bit, window offset, row word and column word, from the window's first position and the lane's word. -/
def laneM (b idx : BitVec 32) : BitVec 1 := IntOp.andi (IntOp.cmpi .sge idx b) (IntOp.cmpi .slt idx (Scalar.addi b 4096#32))
def laneLoc (b idx : BitVec 32) : BitVec 32 := Scalar.select (laneM b idx) (IntOp.subi idx b) 0#32
def laneRow (b idx : BitVec 32) : BitVec 32 := IntOp.shrui .vector (laneLoc b idx) 7#32
def laneCol (b idx : BitVec 32) : BitVec 32 := IntOp.andi (laneLoc b idx) 127#32

theorem toNat_shr7 (x : BitVec 32) : (IntOp.shrui .vector x 7#32).toNat = x.toNat / 128 := by
  unfold IntOp.shrui
  rw [if_pos (by decide)]
  rw [BitVec.ushiftRight_eq', BitVec.toNat_ushiftRight, Nat.shiftRight_eq_div_pow]
  rfl

theorem toNat_and127 (x : BitVec 32) : (IntOp.andi x 127#32).toNat = x.toNat % 128 := by
  unfold IntOp.andi
  rw [BitVec.toNat_and]
  exact Nat.and_two_pow_sub_one_eq_mod x.toNat 7

/-- The mask bit is set exactly when the word, read signed, lies in the window. -/
theorem laneM_iff (b idx : BitVec 32) (w : ℕ) (hw : w < 32) (hb : b.toNat = w * 4096) :
    laneM b idx = 1 ↔ ((w * 4096 : ℕ) : ℤ) ≤ idx.toInt ∧ idx.toInt < ((w * 4096 + 4096 : ℕ) : ℤ) := by
  have hbI : b.toInt = ((w * 4096 : ℕ) : ℤ) := by
    rw [BitVec.toInt_eq_toNat_cond, hb]; split <;> omega
  have hb4 : (b + 4096#32).toInt = ((w * 4096 + 4096 : ℕ) : ℤ) := by
    rw [BitVec.toInt_eq_toNat_cond, BitVec.toNat_add, hb]
    simp only [BitVec.toNat_ofNat]
    split <;> omega
  rw [← hbI, ← hb4, ← BitVec.sle_iff_toInt_le, ← BitVec.slt_iff_toInt_lt]
  show (BitVec.ofBool (b.sle idx) &&& BitVec.ofBool (idx.slt (b + 4096#32))) = 1#1 ↔ _
  cases b.sle idx <;> cases idx.slt (b + 4096#32) <;> decide

/-- The window offset is below 4096, and in the window it is the word's distance from the window's first position. -/
theorem laneLoc_lt (b idx : BitVec 32) (w : ℕ) (hw : w < 32) (hb : b.toNat = w * 4096) : (laneLoc b idx).toNat < 4096 := by
  unfold laneLoc Scalar.select
  split
  · rename_i hm
    obtain ⟨h1, h2⟩ := (laneM_iff b idx w hw hb).mp hm
    rw [BitVec.toInt_eq_toNat_cond] at h1 h2
    show (idx - b).toNat < 4096
    rw [BitVec.toNat_sub, hb]
    split at h1 <;> omega
  · show (0#32).toNat < 4096; decide

theorem laneLoc_eq (b idx : BitVec 32) (w : ℕ) (hw : w < 32) (hb : b.toNat = w * 4096) (hm : laneM b idx = 1) :
    ((laneLoc b idx).toNat : ℤ) = idx.toInt - ((w * 4096 : ℕ) : ℤ) := by
  obtain ⟨h1, h2⟩ := (laneM_iff b idx w hw hb).mp hm
  unfold laneLoc Scalar.select
  rw [if_pos hm]
  show (((idx - b).toNat : ℕ) : ℤ) = _
  rw [BitVec.toInt_eq_toNat_cond] at h1 h2 ⊢
  rw [BitVec.toNat_sub, hb]
  split at h1 <;> omega

theorem laneRow_lt (b idx : BitVec 32) (w : ℕ) (hw : w < 32) (hb : b.toNat = w * 4096) : (laneRow b idx).toNat < 32 := by
  unfold laneRow; rw [toNat_shr7]; have := laneLoc_lt b idx w hw hb; omega
theorem laneCol_lt (b idx : BitVec 32) : (laneCol b idx).toNat < 128 := by
  unfold laneCol; rw [toNat_and127]; omega

/-- An enabled lane names element (r, q) of the tile's rows exactly when its word, read signed, is that element's flat
    position. -/
theorem lane_iff (b idx : BitVec 32) (w : ℕ) (hw : w < 32) (hb : b.toNat = w * 4096) (r q : ℕ) (hr : r < 32) (hq : q < 128) :
    (laneM b idx = 1 ∧ r = (laneRow b idx).toNat ∧ q = (laneCol b idx).toNat) ↔ idx.toInt = ((w * 4096 + r * 128 + q : ℕ) : ℤ) := by
  constructor
  · rintro ⟨hm, hr', hq'⟩
    have hl := laneLoc_eq b idx w hw hb hm
    unfold laneRow at hr'; unfold laneCol at hq'
    rw [toNat_shr7] at hr'; rw [toNat_and127] at hq'
    omega
  · intro hX
    have hm : laneM b idx = 1 := (laneM_iff b idx w hw hb).mpr (by omega)
    have hl := laneLoc_eq b idx w hw hb hm
    refine ⟨hm, ?_, ?_⟩
    · unfold laneRow; rw [toNat_shr7]; omega
    · unfold laneCol; rw [toNat_and127]; omega

/-! ## The payloads of a trip, lane by lane -/

section Pay
variable [FloatOps F]

def zeroF : F .f32 := Scalar.ofBits .f32 0x00000000#32
def oneF : F .f32 := Scalar.ofBits .f32 0x3F800000#32

theorem pay1_apply (x : S16.Idx) : k0_pay1 (F := F) x = zeroF := rfl
theorem pay2_eq : k0_pay2 (F := F) = fun _ => oneF := rfl
theorem pay6_apply (v2 : BitVec 32) (ld : Vec F S1x16 .i32) (x : S16.Idx) : k0_pay6 v2 ld x = laneM v2 (k0_pay5 ld x) := rfl
theorem pay3_apply (v2 : BitVec 32) (ld : Vec F S1x16 .i32) (x : S16.Idx) : k0_pay3 (k0_pay7 v2 ld) 7#32 x = laneRow v2 (k0_pay5 ld x) := rfl
theorem pay4_apply (v2 : BitVec 32) (ld : Vec F S1x16 .i32) (x : S16.Idx) : k0_pay4 (k0_pay7 v2 ld) x = laneCol v2 (k0_pay5 ld x) := rfl
theorem pay5_apply (ld : Vec F S1x16 .i32) (x : S16.Idx) : k0_pay5 ld x = ld (Shape.reshapeEquiv shapeCasts_S1x16_S16 x) := rfl

/-- The side condition the body assumes holds of every word: the row words are below 32, the column words below 128. -/
theorem chk_holds (v2 : BitVec 32) (w : ℕ) (hw : w < 32) (hb : v2.toNat = w * 4096) (ld : Vec F S1x16 .i32) :
    k0_chk1 (k0_pay3 (k0_pay7 v2 ld) 7#32) (k0_pay4 (k0_pay7 v2 ld)) := by
  intro a x
  match a with
  | 0 => exact laneRow_lt v2 _ w hw hb
  | 1 => exact laneCol_lt v2 _

end Pay

/-! ## Positions -/

/-- The 16-lane piece an element of the words, or of the tile's rows, lies in. -/
def piece40 (e : S40x128.Idx) : ℕ := (e 0).val * 8 + (e 1).val / 16
def piece32 (j : S32x128.Idx) : ℕ := (j 0).val * 8 + (j 1).val / 16

theorem piece40_lt (e : S40x128.Idx) : piece40 e < 320 := by
  have h0 : (e 0).val < 40 := (e 0).isLt
  have h1 : (e 1).val < 128 := (e 1).isLt
  unfold piece40; omega
theorem piece32_lt (j : S32x128.Idx) : piece32 j < 256 := by
  have h0 : (j 0).val < 32 := (j 0).isLt
  have h1 : (j 1).val < 128 := (j 1).isLt
  unfold piece32; omega

/-- Lane lane of piece k of the words. -/
def laneIdx (k : ℕ) (hk : k < 320) (lane : Fin 16) : S40x128.Idx := fun a =>
  ⟨(![k / 8, (k % 8) * 16 + lane.val] : Fin 2 → ℕ) a, by
    match a with
    | 0 => show k / 8 < 40; omega
    | 1 => show (k % 8) * 16 + lane.val < 128; omega⟩

theorem piece_split (k : ℕ) (hk : k < 320) (Q : S40x128.Idx → Prop) :
    (∃ e, piece40 e < k + 1 ∧ Q e) ↔ (∃ e, piece40 e < k ∧ Q e) ∨ ∃ lane : Fin 16, Q (laneIdx k hk lane) := by
  constructor
  · rintro ⟨e, he, hQ⟩
    by_cases h : piece40 e < k
    · exact .inl ⟨e, h, hQ⟩
    · right
      have hek : piece40 e = k := by omega
      have h0 : (e 0).val < 40 := (e 0).isLt
      have h1 : (e 1).val < 128 := (e 1).isLt
      unfold piece40 at hek
      refine ⟨⟨(e 1).val % 16, Nat.mod_lt _ (by decide)⟩, ?_⟩
      have : laneIdx k hk ⟨(e 1).val % 16, Nat.mod_lt _ (by decide)⟩ = e := by
        funext a; apply Fin.ext
        match a with
        | 0 => show k / 8 = (e 0).val; omega
        | 1 => show (k % 8) * 16 + (e 1).val % 16 = (e 1).val; omega
      rw [this]; exact hQ
  · rintro (⟨e, he, hQ⟩ | ⟨lane, hQ⟩)
    · exact ⟨e, by omega, hQ⟩
    · refine ⟨laneIdx k hk lane, ?_, hQ⟩
      have : piece40 (laneIdx k hk lane) = k := by
        show (k / 8) * 8 + ((k % 8) * 16 + lane.val) / 16 = k
        have := lane.isLt; omega
      omega

/-- The flat position of element j of the tile's rows, the window beginning at base. -/
def tgt (base : ℕ) (j : S32x128.Idx) : ℤ := ((base + (j 0).val * 128 + (j 1).val : ℕ) : ℤ)

/-- One trip of the second loop, on values: the elements that a word of piece k names are set, the rest kept. -/
theorem Z2_step {α : Type} (gpd : S40x128.Idx → BitVec 32) (base : ℕ) (k : ℕ) (hk : k < 320) (f f' : S32x128.Idx → α) (one zero : α)
    (hf : ∀ j, f j = open Classical in if ∃ e, piece40 e < k ∧ (gpd e).toInt = tgt base j then one else zero)
    (hf' : ∀ j, f' j = open Classical in if ∃ lane : Fin 16, (gpd (laneIdx k hk lane)).toInt = tgt base j then one else f j) :
    ∀ j, f' j = open Classical in if ∃ e, piece40 e < k + 1 ∧ (gpd e).toInt = tgt base j then one else zero := by
  intro j
  rw [hf', hf]
  by_cases hA : ∃ lane : Fin 16, (gpd (laneIdx k hk lane)).toInt = tgt base j
  · rw [if_pos hA, if_pos ((piece_split k hk _).mpr (.inr hA))]
  · rw [if_neg hA]
    by_cases hB : ∃ e, piece40 e < k ∧ (gpd e).toInt = tgt base j
    · rw [if_pos hB, if_pos ((piece_split k hk _).mpr (.inl hB))]
    · rw [if_neg hB, if_neg]
      intro h
      rcases (piece_split k hk _).mp h with h | h
      · exact hB h
      · exact hA h

end Cert.Proof.KB

end
-- ==== Proof.KBTile.lean ====
/-
  The mask kernel as one vector subcore's task. The tile fetches the padded words whole into its word scratch, zeroes
  its mask scratch in 256 stores of sixteen lanes while the fetch is in flight, waits for the fetch, and then, sixteen
  words at a time, stores one at every element of the mask scratch whose flat position in the tile's window of 4096
  some word names (a word read signed; the window begins at 4096 times the tile's number, twice its subcore coordinate plus its core coordinate); at last it writes the mask
  scratch out into its thirty-two rows of the mask and waits for that. The value is carried in the two loops'
  invariants: after k trips of the first the first k pieces are zero; after k trips of the second an element is one
  exactly when some word of the first k pieces names it. At the end that is the mask of the words on the tile's rows.
-/
import proofs.«207473_g17575006175289_fold_wed_c4_317_29_alg».proof.Proof.KBCommon
import proofs.«207473_g17575006175289_fold_wed_c4_317_29_alg».proof.Proof.KBWords

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable [FloatOps F] (gp : (d : Dev nD) → Buf (Elt F) (gLoc d))

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

local notation "gW" => (Memref.whole Cert.Kernel.main_v2_scv : Memref Cert.Kernel.sig Kind.scVector Space.hbm Cert.Kernel.S40x128 EltTy.i32)
local notation "kW" => (Memref.whole Cert.Kernel.main_v3_scv : Memref Cert.Kernel.sig Kind.scVector Space.hbm Cert.Kernel.S1024x128 EltTy.f32)
local notation "s0W" => (Memref.whole Cert.Kernel.cc0_scratch0 : Memref Cert.Kernel.sig Kind.scVector Space.vmem Cert.Kernel.S40x128 EltTy.i32)
local notation "s1W" => (Memref.whole Cert.Kernel.cc0_scratch1 : Memref Cert.Kernel.sig Kind.scVector Space.vmem Cert.Kernel.S32x128 EltTy.f32)

abbrev rowsK (L : grid0.Coords) : Rect S1024x128 := Rect.unit (s := S1024x128) (k0_off3 L) S32x128.size (k0_off3_inb L)
abbrev kRows (L : grid0.Coords) : Memref sig .scVector .hbm S32x128 .f32 := (kW).slice (rowsK L) (fun _ => rfl)

omit [FloatOps F] in
theorem rowsK_eq (L : grid0.Coords) : rowsK L = rowsRect (wid (cL L) (sL L)) := by
  unfold rowsK rowsRect Rect.part Rect.block
  congr 1 <;> funext a
  · rw [k0_off3_eq]
    match a with
    | 0 => simp [Shape.partIx, Shape.partSize]; omega
    | 1 => simp [Shape.partIx, Shape.partSize]
  · match a with
    | 0 => simp [Shape.partSize]
    | 1 => simp [Shape.partSize]

omit [FloatOps F] in
theorem set_kRows (L : grid0.Coords) : (kRows L).view.set = rowsSet (wid (cL L) (sL L)) := by
  show ((kW).view.slice (rowsK L)).set = ((kW).view.slice (rowsRect (wid (cL L) (sL L)))).set
  rw [rowsK_eq]

abbrev aCell (d : Dev nD) (L : grid0.Coords) : GSem nD τ sig := (V d (cV L) (jV L), .dma cc0_scratch2.sem)
abbrev bCell (d : Dev nD) (L : grid0.Coords) : GSem nD τ sig := (V d (cV L) (jV L), .dma cc0_scoped0.sem)

omit [FloatOps F] in
theorem ownSems0_V (d : Dev nD) (L : grid0.Coords) :
    (ownSems0 (V d (cV L) (jV L)) : sProp 𝕄)
      = iprop(semVal (aCell d L) 0 ∗ semVal (bCell d L) 0
          ∗ bigSep (((ownCells (V d (cV L) (jV L))).erase (aCell d L)).erase (bCell d L)) fun g => semVal g 0) := by
  unfold SparseCore.Cfg.ownSems0
  rw [SparseCore.bigSep_erase' ((mem_ownCells (g := aCell d L)).mpr ⟨rfl, by
      show (SemLoc.dma cc0_scratch2.sem : SemLoc sig).isScoped .scVector = true; decide⟩),
    SparseCore.bigSep_erase' (Finset.mem_erase.mpr ⟨by simp [aCell, bCell]; decide, (mem_ownCells (g := bCell d L)).mpr ⟨rfl, by
      show (SemLoc.dma cc0_scoped0.sem : SemLoc sig).isScoped .scVector = true; decide⟩⟩)]

omit [FloatOps F] in
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_g (d : Dev nD) (L : grid0.Coords) (q : PosShare TreeShare) (f : Buf (Elt F) (gLoc d)) :
    ((gW).view.loc (V d (cV L) (jV L)) ↦{q} f : sProp 𝕄) = gLoc d ↦{q} f := by
  simp only [Memref.view_whole, View.set_whole]
omit [FloatOps F] in
theorem pts_kRows (d : Dev nD) (L : grid0.Coords) (f : Buf (Elt F) (kLoc d)) :
    ((kRows L).view.loc (V d (cV L) (jV L)) ↦[(kRows L).view.set]{fullShare} f : sProp 𝕄) = kLoc d ↦[rowsSet (wid (cL L) (sL L))]{fullShare} f := by
  rw [set_kRows]
omit [FloatOps F] in
theorem pts_s0 (d : Dev nD) (L : grid0.Coords) (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] in
theorem pts_s1 (d : Dev nD) (L : grid0.Coords) (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl

/-! ## The scratch's value, trip by trip -/

/-- The tile's number, twice its subcore coordinate plus its core coordinate: the window's first flat position divided by 4096. -/
def wN (L : grid0.Coords) : ℕ := 2 * (L 1).val + (L 0).val
omit [FloatOps F] in
theorem wN_lt (L : grid0.Coords) : wN L < 32 := by
  have h0 : (L 0).val < 2 := (L 0).isLt
  have h1 : (L 1).val < 16 := (L 1).isLt
  unfold wN; omega

/-- After k trips of the first loop the first k pieces of the mask scratch are zero. -/
def Z1 (d : Dev nD) (L : grid0.Coords) (k : ℕ) (f : Buf (Elt F) ((V d (cV L) (jV L)).loc cc0_scratch1)) : Prop :=
  ∀ j : S32x128.Idx, piece32 j < k → f j = zeroF (F := F)

open Classical in
/-- After k trips of the second loop an element of the mask scratch is one exactly when some word of the first k pieces,
    read signed, is its flat position. -/
def Z2 (gpd : S40x128.Idx → BitVec 32) (d : Dev nD) (L : grid0.Coords) (k : ℕ) (f : Buf (Elt F) ((V d (cV L) (jV L)).loc cc0_scratch1)) : Prop :=
  ∀ j : S32x128.Idx, f j = if ∃ e, piece40 e < k ∧ (gpd e).toInt = tgt (wN L * 4096) j then oneF (F := F) else zeroF

theorem Z2_zero (gpd : S40x128.Idx → BitVec 32) (d : Dev nD) (L : grid0.Coords) (f : Buf (Elt F) ((V d (cV L) (jV L)).loc cc0_scratch1))
    (h : Z1 d L 256 f) : Z2 gpd d L 0 f := by
  intro j
  rw [h j (piece32_lt j), if_neg]
  rintro ⟨e, he, -⟩
  exact absurd he (Nat.not_lt_zero _)

/-- One trip of the first loop: the piece stored is zero, the rest kept. -/
theorem trip1_val (d : Dev nD) (L : grid0.Coords) (k : Fin k0_t1_loop.trips) (f : Buf (Elt F) ((V d (cV L) (jV L)).loc cc0_scratch1))
    (hf : Z1 d L k.val f) :
    Z1 d L (k.val + 1) ((s1W).view.writes (Elt F) f
      [⟨Rect.unit (s := S32x128) (k0_off1 k) S1x16.size (k0_off1_inb k), shapeCast S1x16 (k0_pay1 (F := F)) shapeCasts_S16_S1x16⟩]) := by
  intro j hj
  by_cases hm : j ∈ (Rect.unit (s := S32x128) (k0_off1 k) S1x16.size (k0_off1_inb k)).set
  · obtain ⟨x, rfl⟩ := (Rect.unit (s := S32x128) (k0_off1 k) S1x16.size (k0_off1_inb k)).exists_idx_of_mem hm
    exact View.read_writes_cons_emb (s1W).view f (Rect.unit (s := S32x128) (k0_off1 k) S1x16.size (k0_off1_inb k))
      (shapeCast S1x16 (k0_pay1 (F := F)) shapeCasts_S16_S1x16) [] x
  · have h1 := View.read_writes_apply_of_forall_not_mem (s1W).view f j
      [⟨Rect.unit (s := S32x128) (k0_off1 k) S1x16.size (k0_off1_inb k), shapeCast S1x16 (k0_pay1 (F := F)) shapeCasts_S16_S1x16⟩]
      (by intro p hp; rw [List.mem_singleton] at hp; subst hp; exact hm)
    refine h1.trans (hf j ?_)
    by_contra hlt
    apply hm
    rw [Rect.mem_set_unit, k0_off1_cf]
    have h0 : (j 0).val < 32 := (j 0).isLt
    have h1 : (j 1).val < 128 := (j 1).isLt
    have hp : piece32 j = k.val := by omega
    unfold piece32 at hp
    intro a
    match a with
    | 0 => show k.val / 8 ≤ (j 0).val ∧ (j 0).val < k.val / 8 + 1; omega
    | 1 => show (k.val % 8) * 16 ≤ (j 1).val ∧ (j 1).val < (k.val % 8) * 16 + 16; omega

omit [FloatOps F] in
/-- The index vectors' re-indexing from a row of sixteen to sixteen lanes keeps the lane. -/
theorem reshape_lane : ∀ x : S16.Idx, ((Shape.reshapeEquiv shapeCasts_S1x16_S16 x) 0).val = 0
    ∧ ((Shape.reshapeEquiv shapeCasts_S1x16_S16 x) 1).val = (x 0).val := by decide +kernel

/-- The word a trip's lane reads off the word scratch. -/
theorem lane_word (c0 : S40x128.Idx → BitVec 32) (k : Fin k0_t2_loop.trips) (hk : k.val < 320) (lane : Fin 16) :
    k0_pay5 (F := F) ((s0W).view.readAt (Elt F) (Rect.unit (s := S40x128) (k0_off2 k) S1x16.size (k0_off2_inb k)).toLoadRect c0) (Shape.ofLane lane)
      = c0 (laneIdx k.val hk lane) := by
  have hidx : (Rect.unit (s := S40x128) (k0_off2 k) S1x16.size (k0_off2_inb k)).toLoadRect.idx
      (Shape.reshapeEquiv shapeCasts_S1x16_S16 (Shape.ofLane lane)) = laneIdx k.val hk lane := by
    obtain ⟨h0, h1⟩ := reshape_lane (Shape.ofLane lane)
    funext a; apply Fin.ext
    match a with
    | 0 =>
      show k0_off2 k 0 + 1 * ((Shape.reshapeEquiv shapeCasts_S1x16_S16 (Shape.ofLane lane)) 0).val = k.val / 8
      rw [h0, k0_off2_cf]; rfl
    | 1 =>
      show k0_off2 k 1 + 1 * ((Shape.reshapeEquiv shapeCasts_S1x16_S16 (Shape.ofLane lane)) 1).val = (k.val % 8) * 16 + lane.val
      rw [h1, k0_off2_cf]
      show (k.val % 8) * 16 + 1 * lane.val = (k.val % 8) * 16 + lane.val
      omega
  rw [pay5_apply, View.readAt_apply]
  show c0 _ = c0 _
  exact congrArg c0 hidx

/-- One trip of the second loop: the elements the trip's enabled lanes name are set to one, the rest kept. -/
theorem trip2_val (gpd : S40x128.Idx → BitVec 32) (d : Dev nD) (L : grid0.Coords) (k : Fin k0_t2_loop.trips)
    (c0 : Buf (Elt F) ((V d (cV L) (jV L)).loc cc0_scratch0)) (hc0 : ∀ e : S40x128.Idx, c0 e = gpd e)
    (f : Buf (Elt F) ((V d (cV L) (jV L)).loc cc0_scratch1)) (hf : Z2 gpd d L k.val f)
    (v50 v52 : IVec S16 32) (v44 : IVec S16 1)
    (h50 : v50 = k0_pay3 (k0_pay7 (baseW L) ((s0W).view.readAt (Elt F) (Rect.unit (s := S40x128) (k0_off2 k) S1x16.size (k0_off2_inb k)).toLoadRect c0)) 7#32)
    (h52 : v52 = k0_pay4 (k0_pay7 (baseW L) ((s0W).view.readAt (Elt F) (Rect.unit (s := S40x128) (k0_off2 k) S1x16.size (k0_off2_inb k)).toLoadRect c0)))
    (h44 : v44 = k0_pay6 (baseW L) ((s0W).view.readAt (Elt F) (Rect.unit (s := S40x128) (k0_off2 k) S1x16.size (k0_off2_inb k)).toLoadRect c0))
    (h : ∀ a x, ((![v50, v52] : Fin 2 → IVec S16 32) a x).toNat < S32x128.size a) :
    Z2 gpd d L (k.val + 1) ((s1W).view.writes (Elt F) f
      [⟨Rect.whole S32x128, storeIdx ((s1W).view.readAt (Elt F) (LoadRect.whole S32x128) f) ![v50, v52] (k0_pay2 (F := F)) v44 false h⟩]) := by
  have hk : k.val < 320 := Nat.lt_of_lt_of_eq k.isLt trips2
  refine Z2_step gpd (wN L * 4096) k.val hk f _ oneF zeroF hf ?_
  intro j
  have h1 := View.read_writes_cons_emb (s1W).view f (Rect.whole S32x128)
    (storeIdx ((s1W).view.readAt (Elt F) (LoadRect.whole S32x128) f) ![v50, v52] (k0_pay2 (F := F)) v44 false h) [] j
  have hw : (Rect.whole S32x128).emb j = j := Rect.emb_whole_apply S32x128 j
  refine ((congrArg (fun y : S32x128.Idx => View.read (Elt F) (s1W).view ((s1W).view.writes (Elt F) f
    [⟨Rect.whole S32x128, storeIdx ((s1W).view.readAt (Elt F) (LoadRect.whole S32x128) f) ![v50, v52] (k0_pay2 (F := F)) v44 false h⟩]) y)
    hw.symm).trans h1).trans ?_
  have hread : (s1W).view.readAt (Elt F) (LoadRect.whole S32x128) f j = f j := by
    rw [View.readAt_apply]
    show f ((Rect.whole S32x128).emb j) = f j
    exact congrArg f hw
  rw [pay2_eq, storeIdx_const, hread]
  have hj0 : (j 0).val < 32 := (j 0).isLt
  have hj1 : (j 1).val < 128 := (j 1).isLt
  have key : ∀ lane : Fin 16,
      (v44 (Shape.ofLane (d := ![16]) lane) = 1 ∧ ∀ a, (j a).val = ((![v50, v52] : Fin 2 → IVec S16 32) a (Shape.ofLane (d := ![16]) lane)).toNat)
        ↔ (gpd (laneIdx k.val hk lane)).toInt = tgt (wN L * 4096) j := by
    intro lane
    have e44 : v44 (Shape.ofLane (d := ![16]) lane) = laneM (baseW L) (gpd (laneIdx k.val hk lane)) := by
      rw [h44, pay6_apply, lane_word (F := F) c0 k hk lane, hc0]
    have e50 : (v50 (Shape.ofLane (d := ![16]) lane)).toNat = (laneRow (baseW L) (gpd (laneIdx k.val hk lane))).toNat := by
      rw [h50, pay3_apply, lane_word (F := F) c0 k hk lane, hc0]
    have e52 : (v52 (Shape.ofLane (d := ![16]) lane)).toNat = (laneCol (baseW L) (gpd (laneIdx k.val hk lane))).toNat := by
      rw [h52, pay4_apply, lane_word (F := F) c0 k hk lane, hc0]
    refine Iff.trans ?_ (lane_iff (baseW L) (gpd (laneIdx k.val hk lane)) (wN L) (wN_lt L) (baseW_toNat L) (j 0).val (j 1).val hj0 hj1)
    constructor
    · rintro ⟨hm, ha⟩
      exact ⟨e44 ▸ hm, (ha 0).trans e50, (ha 1).trans e52⟩
    · rintro ⟨hm, h0, h1⟩
      refine ⟨e44.trans hm, fun a => ?_⟩
      match a with
      | 0 => exact h0.trans e50.symm
      | 1 => exact h1.trans e52.symm
  exact if_congr ⟨fun ⟨lane, hl⟩ => ⟨lane, (key lane).mp hl⟩, fun ⟨lane, hl⟩ => ⟨lane, (key lane).mpr hl⟩⟩ rfl rfl

/-- What the write-out lands in the tile's rows of the mask: the mask of the words. -/
theorem final_val (d : Dev nD) (L : grid0.Coords) (fk : Buf (Elt F) (kLoc d)) (f : Buf (Elt F) ((V d (cV L) (jV L)).loc cc0_scratch1))
    (hf : Z2 (gp d) d L 320 f) :
    ∀ i ∈ (kRows L).view.set,
      ((kRows L).view.writes (Elt F) fk [⟨Rect.whole S32x128, ReadAs.same.apply ((s1W).view.read (Elt F) f)⟩]) i = maskOf (F := F) (gp d) i := by
  intro i hi
  obtain ⟨y, -, rfl⟩ := Finset.mem_map.mp hi
  have h1 := View.read_writes_cons_emb (kRows L).view fk (Rect.whole S32x128) (ReadAs.same.apply ((s1W).view.read (Elt F) f)) [] y
  have hw : (Rect.whole S32x128).emb y = y := Rect.emb_whole_apply S32x128 y
  have h2 := (View.read_apply (v := (kRows L).view)
    ((kRows L).view.writes (Elt F) fk [⟨Rect.whole S32x128, ReadAs.same.apply ((s1W).view.read (Elt F) f)⟩]) y).trans (cast_eq _ _)
  refine (h2.symm.trans ((congrArg (fun z : S32x128.Idx => View.read (Elt F) (kRows L).view ((kRows L).view.writes (Elt F) fk
    [⟨Rect.whole S32x128, ReadAs.same.apply ((s1W).view.read (Elt F) f)⟩]) z) hw.symm).trans h1)).trans ?_
  show f y = maskOf (F := F) (gp d) ((kRows L).view.emb y)
  have hflat : flat ((kRows L).view.emb y) = tgt (wN L * 4096) y := by
    unfold flat tgt wN
    have e0 : (((kRows L).view.emb y) 0).val = 64 * (L 1).val + 32 * (L 0).val + (y 0).val := by
      show k0_off3 L 0 + 1 * (y 0).val = _
      rw [k0_off3_eq]
      show (64 * (L 1).val + 32 * (L 0).val) + 1 * (y 0).val = _
      omega
    have e1 : (((kRows L).view.emb y) 1).val = (y 1).val := by
      show k0_off3 L 1 + 1 * (y 1).val = _
      rw [k0_off3_eq]
      show 0 + 1 * (y 1).val = _
      omega
    rw [e0, e1]
    congr 1
    omega
  rw [hf y]
  unfold maskOf
  rw [hflat]
  refine if_congr ?_ rfl rfl
  exact ⟨fun ⟨e, _, h⟩ => ⟨e, h⟩, fun ⟨e, h⟩ => ⟨e, piece40_lt e, h⟩⟩

/-! ## The task of one vector subcore -/

/-- The first loop's invariant: the mask scratch, its first pieces zero. -/
def inv1 (d : Dev nD) (L : grid0.Coords) (k : ℕ) (_ : Unit) : sProp 𝕄 :=
  iprop(∃ f : Buf (Elt F) ((V d (cV L) (jV L)).loc cc0_scratch1), ((s1W).view.loc (V d (cV L) (jV L)) ↦{fullShare} f) ∗ ⌜Z1 d L k f⌝)

/-- The second loop's invariant: the word scratch at the words, the mask scratch at the mask of the words read so far. -/
def inv2 (d : Dev nD) (L : grid0.Coords) (k : ℕ) (_ : Unit) : sProp 𝕄 :=
  iprop(∃ (f : Buf (Elt F) ((V d (cV L) (jV L)).loc cc0_scratch1)) (c0 : Buf (Elt F) ((V d (cV L) (jV L)).loc cc0_scratch0)),
    ((s1W).view.loc (V d (cV L) (jV L)) ↦{fullShare} f) ∗ ((s0W).view.loc (V d (cV L) (jV L)) ↦{fullShare} c0)
      ∗ ⌜(∀ e : S40x128.Idx, c0 e = gp d e) ∧ Z2 (gp d) d L k f⌝)

theorem tile_body (d : Dev nD) (L : grid0.Coords) (O : CellTallies nD τ sig (HIx 1)) (W : Waits sig (HIx 1)) (hO : ∀ g, O g none = 0) :
    iprop(levAts (K (F := F)).L (K (F := F)).lev ∗ emp ∗ tileGo gp d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_mask_kernel L gW (Memref.isWhole_whole _) kW (Memref.isWhole_whole _) s0W (Memref.isWhole_whole _) s1W (Memref.isWhole_whole _) cc0_scratch2 cc0_scoped0)
          fun _ => iprop(tileTd gp d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_mask_kernel_eq_skeleton]; unfold cc0_mask_kernel_skel
  rw [(K (F := F)).scopedBufs_V facts d (cV L) (jV L), SparseCore.Cfg.scopedSems0_V (Val := Elt F) d (cV L) (jV L), ownSems0_V, ownBufs_V]
  unfold tileGo
  iintro ⟨#Hlv, -, ⟨Hg, %fk, Hk⟩, ⟨⟨%f0, Hs0⟩, ⟨%f1, Hs1⟩, Hbufs⟩, ⟨HsemA, HsemB, Hsems⟩, HO⟩
  ihave Hmw := ((K (F := F)).mayWaits_none (thr := V d (cV L) (jV L)) hO) $$ Hlv
  ihave Hg' := (Entails.of_eq (pts_g (F := F) d L _ _).symm) $$ Hg
  ihave Hk' := (Entails.of_eq (pts_kRows (F := F) d L _).symm) $$ Hk
  ihave Hs0' := (Entails.of_eq (pts_s0 (F := F) d L _).symm) $$ Hs0
  ihave Hs1' := (Entails.of_eq (pts_s1 (F := F) d L _).symm) $$ Hs1
  -- the fetch of the words is issued
  sl_exec
  -- the first loop zeroes the mask scratch, piece by piece
  sl_for (inv1 (F := F) d L) $$ [Hs1']
  case region =>
    intro k _
    unfold inv1
    iintro ⟨%f, Hs, %hf⟩
    sl_exec
    sl_step
    iexists _
    isplitl [Hs]
    · iexact Hs
    · ipureintro; exact trip1_val d L k f hf
  · unfold inv1
    iexists f1
    isplitl [Hs1']
    · iexact Hs1'
    · ipureintro; intro j hj; exact absurd hj (Nat.not_lt_zero _)
  iintro %_ HI
  unfold inv1
  icases HI with ⟨%f1', Hs1, %hf1⟩
  have hf1' : Z1 d L 256 f1' := by
    have h := hf1
    rw [show Scf.trips k0_t1_loop.lb k0_t1_loop.ub k0_t1_loop.st = 256 from trips1] at h
    exact h
  -- the fetch is waited for: the word scratch holds the words
  sl_exec
  have hc0 : ∀ e : S40x128.Idx, View.write (Elt F) (s0W).view f0 (tile_body.sl.dma0 gp d) Finset.univ e = gp d e := by
    intro e; unfold tile_body.sl.dma0; rw [View.write_whole_univ]; rfl
  -- the second loop sets the elements its words name
  sl_for (inv2 (F := F) gp d L) $$ [Hs1 Hs0']
  case region =>
    intro k _
    unfold inv2
    iintro ⟨%f, %c0, Hs1, Hs0, %hh⟩
    obtain ⟨hc0, hf⟩ := hh
    sl_exec
    have hchk : k0_chk1 (tile_body.sl.v50 d L k c0) (tile_body.sl.v52 d L k c0) :=
      chk_holds (baseW L) (wN L) (wN_lt L) (baseW_toNat L)
        ((s0W).view.readAt (Elt F) (Rect.unit (s := S40x128) (k0_off2 k) S1x16.size (k0_off2_inb k)).toLoadRect c0)
    rw [wp_assume_of _ _ _ _ hchk]
    rw [SparseCore.vectorStoreIdx_bind (V d (cV L) (jV L))]
    sl_exec
    sl_step
    iexists _, c0
    isplitl [Hs1]; · iexact Hs1
    isplitl [Hs0]; · iexact Hs0
    ipureintro; exact ⟨hc0, trip2_val (gp d) d L k c0 hc0 f hf _ _ _ rfl rfl rfl _⟩
  · unfold inv2
    iexists f1', _
    isplitl [Hs1]; · iexact Hs1
    isplitl [Hs0']; · iexact Hs0'
    ipureintro; exact ⟨hc0, Z2_zero (gp d) d L f1' hf1'⟩
  iintro %_ HI
  unfold inv2
  icases HI with ⟨%f1'', %c0, Hs1, Hs0, %hh⟩
  obtain ⟨-, hf2⟩ := hh
  have hf2' : Z2 (gp d) d L 320 f1'' := by
    have h := hf2
    rw [show Scf.trips k0_t2_loop.lb k0_t2_loop.ub k0_t2_loop.st = 320 from trips2] at h
    exact h
  -- the write-out of the mask scratch into the tile's rows, and its wait
  sl_exec
  sl_step
  have hfv : ∀ i ∈ (kRows L).view.set,
      ((kRows L).view.writes (Elt F) fk [⟨Rect.whole S32x128, tile_body.sl.dma0_1 d L f1''⟩]) i = maskOf (F := F) (gp d) i :=
    final_val gp d L fk f1'' hf2'
  ihave Hk := (Entails.of_eq ((pointsTo_congr hfv).trans (pts_kRows (F := F) d L _))) $$ Hk'
  ihave Hg := (Entails.of_eq (pts_g (F := F) d L _ _)) $$ Hg'
  unfold tileTd
  isplitl [Hg Hk]
  · isplitl [Hg]; · iexact Hg
    iexact Hk
  isplitl [Hs0 Hs1 Hbufs]
  · isplitl [Hs0]; · iexists _; iexact Hs0
    isplitl [Hs1]; · iexists _; iexact Hs1
    iexact Hbufs
  isplitl [HsemA HsemB Hsems]
  · isplitl [HsemA]; · iexact HsemA
    isplitl [HsemB]; · iexact HsemB
    iexact Hsems
  iexists _; isplitr
  rotate_left
  · iexact HO
  ipureintro; intro p hp
  rcases Finset.mem_insert.mp hp with hp | hp
  · exact .inr (by subst hp; rfl)
  rcases Finset.mem_insert.mp hp with hp | hp
  · exact .inr (by subst hp; rfl)
  · exact .inl hp

/-! ## The launch theorem's obligation -/

theorem defs₀_vector (c : Fin τ.nSC) (s : Fin τ.nSub) :
    defs₀ (F := F) (.scVector c s) 0 ()
      = SparseCore.onTile hcore0 hsub0 (fun c s => cc0_mask_kernel (coordsV c s)
          gW (Memref.isWhole_whole _) kW (Memref.isWhole_whole _) s0W (Memref.isWhole_whole _) s1W (Memref.isWhole_whole _) cc0_scratch2 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The mask kernel as one vector subcore's task: from a read share of the words and the tile's rows of the mask at
    anything, to the share back and the rows at the mask of the words. -/
theorem tileObl : (K (F := F)).TileObl (D (F := F)) 𝒱 (P gp) v₀ 0 := by
  intro d c i O W hO _ _
  simp only [show (P gp).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body gp d (coordsV ⟨_, hc.1⟩ ⟨_, hc.2⟩) O W hO).trans (wp_mono frame _ _ fun _ => obl_post)

end Tile

end Cert.Proof.KB

end
-- ==== Proof.KBRegionDefs.lean ====
/-
  The TensorCore call of the kernel as printed: the functions its result is stated with (the gate, one block's blend,
  the whole blended array), the operations of its body read at an index, and a tactic that opens the names a run
  of the body introduces.
-/
import proofs.«207473_g17575006175289_fold_wed_c4_317_29_alg».proof.Proof.KBCommon
import Idealize.ShloMosaic.Lib.WholeRead
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## What the call computes -/

/-- The gate: the logistic of the weights against every batch row of the state, plus the bias; one entry per batch row. -/
def gate (A6 : Vec F S128x1024 .f32) (A3 : Vec F S1x1024 .f32) (A7 : Vec F S1x1 .f32) : FVec F S1x128 .f32 :=
  logistic (addf (matmul dot_S1x1024_S128x1024_S1x128_1_1_0_0_n_n none A3 A6 (constant S1x128 .f32 0x00000000#32))
    (broadcastTo S1x128 A7 broadcasts_S1x1_S1x128))

theorem hrow (v : Fin 100000) : v.val / 128 < 1024 := by omega
theorem hcol (v : Fin 100000) : v.val % 128 < 128 := by omega

/-- The blended array, entry by entry: where the mask at the entry's row (read as row / 128, row % 128) is not zero the
    input scaled by the gate of its column, elsewhere the input. -/
def blendOut (A6 : Vec F S128x1024 .f32) (A3 : Vec F S1x1024 .f32) (A7 : Vec F S1x1 .f32)
    (A5 : Vec F S100000x128 .f32) (Am : Vec F S1024x128 .f32) : Vec F S100000x128 .f32 := fun y =>
  Scalar.select (FloatOps.cmpf .one (Am (ix2 (⟨(y 0).val / 128, hrow (y 0)⟩ : Fin 1024) (⟨(y 0).val % 128, hcol (y 0)⟩ : Fin 128))) (Scalar.ofBits .f32 0x00000000#32))
    (FloatOps.mulf (A5 y) (gate A6 A3 A7 (ix2 (0 : Fin 1) (y 1)))) (A5 y)

/-- The one admissible contents of each pipeline (none has a prefetched table). -/
abbrev adm : (p : Fin 1) → (pcfgs (F := F) p).Adm := fun p => (cfgs p).toPCfg_adm

/-- The valuation after the call: the result array at the blend of the five inputs as `V` holds them. -/
def VAfter (V : Valuation τ sig (Elt F)) : Valuation τ sig (Elt F) :=
  Function.update V (Proc.devRef .tc main_v8)
    (blendOut (V (Proc.devRef .tc main_v6)) (V (Proc.devRef .tc main_arg3)) (V (Proc.devRef .tc main_v7))
      (V (Proc.devRef .tc main_v5)) (V (Proc.devRef .tc main_v3)))

theorem hq128 (v : Fin 14336) : v.val / 128 < 112 := by omega
theorem hr128 (v : Fin 14336) : v.val % 128 < 128 := by omega

/-- One block's blend, entry by entry: `v3` the gate, `v6` the block's mask columns (entry (j, t) speaks for the
    block's row 128 t + j), `X` the block's inputs. -/
def blendBlk (v3 : S1x128.Idx → F .f32) (v6 : S128x112.Idx → F .f32) (X : S14336x128.Idx → F .f32) : S14336x128.Idx → F .f32 := fun y =>
  Scalar.select (FloatOps.cmpf .one (v6 (ix2 (⟨(y 0).val % 128, hr128 (y 0)⟩ : Fin 128) (⟨(y 0).val / 128, hq128 (y 0)⟩ : Fin 112))) (Scalar.ofBits .f32 0x00000000#32))
    (FloatOps.mulf (X y) (v3 (ix2 (0 : Fin 1) (y 1)))) (X y)

/-- The block's blend under the 128 rows from row 128 t. -/
theorem blendBlk_idx (v3 : S1x128.Idx → F .f32) (v6 : S128x112.Idx → F .f32) (X : S14336x128.Idx → F .f32) (t : ℕ) (ht : t < 112)
    (inb : ∀ a, (![128 * t, 0] : Fin 2 → ℕ) a + S128x128.size a ≤ S14336x128.size a) (x : S128x128.Idx) :
    blendBlk v3 v6 X ((Rect.unit (s := S14336x128) ![128 * t, 0] S128x128.size inb).toLoadRect.idx x)
      = Scalar.select (FloatOps.cmpf .one (v6 (ix2 (x 0) (⟨t, ht⟩ : Fin 112))) (Scalar.ofBits .f32 0x00000000#32))
          (FloatOps.mulf (X ((Rect.unit (s := S14336x128) ![128 * t, 0] S128x128.size inb).toLoadRect.idx x)) (v3 (ix2 (0 : Fin 1) (x 1))))
          (X ((Rect.unit (s := S14336x128) ![128 * t, 0] S128x128.size inb).toLoadRect.idx x)) := by
  have hx0 := idx2_lt0 x
  have h0 : (((Rect.unit (s := S14336x128) ![128 * t, 0] S128x128.size inb).toLoadRect.idx x) 0).val = 128 * t + (x 0).val := by
    show 128 * t + 1 * (x 0).val = _; omega
  have h1 : ((Rect.unit (s := S14336x128) ![128 * t, 0] S128x128.size inb).toLoadRect.idx x) 1 = x 1 :=
    Fin.ext (by show 0 + 1 * (x 1).val = _; omega)
  have em : (ix2 (⟨(((Rect.unit (s := S14336x128) ![128 * t, 0] S128x128.size inb).toLoadRect.idx x) 0).val % 128, hr128 _⟩ : Fin 128)
      (⟨(((Rect.unit (s := S14336x128) ![128 * t, 0] S128x128.size inb).toLoadRect.idx x) 0).val / 128, hq128 _⟩ : Fin 112) : S128x112.Idx)
      = ix2 (x 0) (⟨t, ht⟩ : Fin 112) := by
    funext a
    match a with
    | ⟨0, _⟩ => exact Fin.ext (by show _ % 128 = (x 0).val; rw [h0]; omega)
    | ⟨1, _⟩ => exact Fin.ext (by show _ / 128 = t; rw [h0]; omega)
  unfold blendBlk
  rw [em, h1]
  try rfl

/-! ## The body's operations read at an index -/

theorem mulf_at {s : Shape} {φ : FTy} (a b : FVec F s φ) (i : s.Idx) : mulf a b i = FloatOps.mulf (a i) (b i) := rfl

theorem bcast_row {α : Type} (v : S1x128.Idx → α) (h : S1x128.Broadcasts S128x128) (j : S128x128.Idx) :
    broadcastTo S128x128 v h j = v (ix2 (0 : Fin 1) (j 1)) :=
  broadcastTo_apply v h j _ fun a => match a with | ⟨0, _⟩ => rfl | ⟨1, _⟩ => rfl

theorem bcast_col {α : Type} (v : S128x1.Idx → α) (h : S128x1.Broadcasts S128x128) (j : S128x128.Idx) :
    broadcastTo S128x128 v h j = v (ix2 (j 0) (0 : Fin 1)) :=
  broadcastTo_apply v h j _ fun a => match a with | ⟨0, _⟩ => rfl | ⟨1, _⟩ => rfl

theorem slice_lt {t : ℕ} (h : S128x112.Slices ![0, t] S128x1) : t < 112 := by
  have := h.2 (1 : Fin 2); change t + 1 ≤ 112 at this; omega

theorem slice_col {α : Type} (t : ℕ) (v : S128x112.Idx → α) (h : S128x112.Slices ![0, t] S128x1) (j : S128x1.Idx) :
    extractStridedSlice S128x1 ![0, t] v h j = v (ix2 (j 0) (⟨t, slice_lt h⟩ : Fin 112)) :=
  extractStridedSlice_apply _ v h j _ fun a => match a with
    | ⟨0, _⟩ => by show (j 0).val = 0 + (j 0).val; omega
    | ⟨1, _⟩ => by have := idx2_lt1 j; show t = t + (j 1).val; omega

/-! ## Opening a run's names -/

open Lean Elab Tactic Meta in
/-- Unfold, in the goal, every auxiliary constant a run of the body introduced (those under a `.sl.` name),
    through nested ones. -/
elab "sl_delta" : tactic => do
  let g ← getMainGoal
  let t ← instantiateMVars (← g.getType)
  let t' ← Meta.deltaExpand t (fun n => (n.toString.splitOn ".sl.").length > 1)
  let g' ← g.replaceTargetDefEq t'
  replaceMainGoal [g']

/-! ## The body's conditional -/

/-- The condition of the body's conditional, from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 7 = 0 :=
  (by decide +kernel : ∀ t : Fin grid1.N, cond1_0 (grid1.coords t) ↔ t.val % 7 = 0)

end Cert.Proof.KB

end
-- ==== Proof.KBBlend.lean ====
/-
  The kernel region's result array as one function of the arrays it reads.
-/
import proofs.«207473_g17575006175289_fold_wed_c4_317_29_alg».proof.Proof.KBCommon
import proofs.«207473_g17575006175289_fold_wed_c4_317_29_alg».proof.Proof.KBMain
import proofs.«207473_g17575006175289_fold_wed_c4_317_29_alg».proof.Proof.KBVals
import proofs.«207473_g17575006175289_fold_wed_c4_317_29_alg».proof.Proof.KBRegionDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The region's result array from the contents of the state, weight, bias, input and mask arrays. -/
abbrev blendV : Valuation τ sig (Elt F) → (⟨S100000x128, .f32⟩ : BufTy).Contents (Elt F) :=
  fun V => blendOut (V v6') (V a3') (V v7') (V v5') (V k')

end Cert.Proof.KB

end
-- ==== Proof.KBRegionRunB.lean ====
/-
  The body of the TensorCore call run at a grid point that is not the first: the two scratches are read, the
  hundred and twelve row tiles of the input block are blended into the result block.
-/
import proofs.«207473_g17575006175289_fold_wed_c4_317_29_alg».proof.Proof.KBCommon
import Idealize.ShloMosaic.Lib.WholeRead
import proofs.«207473_g17575006175289_fold_wed_c4_317_29_alg».proof.Proof.KBRegionDefs
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- Every payload of the body and the operations they are made of, read at an index. -/
macro "kpay_simp" : tactic => `(tactic| simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, shapeCast_self, select_apply, cmpf_apply, mulf_at, broadcast_apply, bcast_row, bcast_col, slice_col, Memref.IsWhole.readAt_unread])

/-- The mask columns of block `i`: the scratch's slab at the block's coordinate, its leading unit axis dropped. -/
def mcols (xs1 : Vec F S7x128x112 .f32) (i : grid1.Coords) : FVec F S128x112 .f32 :=
  k1_pay11 (View.ld xs1 (Rect.unit (s := S7x128x112) (k1_off1 i) S1x128x112.size (Gen.k1_off1_inb i)))

set_option maxHeartbeats 8000000 in
/-- At a later point: the inputs' buffers and the two scratches stay as they are; the result's buffer ends at the
    blend of the input block by the gate scratch and the block's mask columns. -/
theorem runB (c : Dev nD) (i : grid1.Coords) (arg1 : Memref sig .tc .vmem S128x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S14336x128 .f32) (harg4 : arg4.IsWhole) (arg5 : Memref sig .tc .vmem S1024x128 .f32) (harg5 : arg5.IsWhole) (arg6 : Memref sig .tc .vmem S14336x128 .f32) (harg6 : arg6.IsWhole) (arg7 : Memref sig .tc .vmem S1x128 .f32) (harg7 : arg7.IsWhole) (arg8 : Memref sig .tc .vmem S7x128x112 .f32) (harg8 : arg8.IsWhole)
    (hc0 : ¬cond1_0 i)
    (x0 : Vec F S128x1024 .f32) (x1 : Vec F S1x1024 .f32) (x2 : Vec F S1x1 .f32) (x3 : Vec F S14336x128 .f32) (x4 : Vec F S1024x128 .f32)
    (xs0 : Vec F S1x128 .f32) (xs1 : Vec F S7x128x112 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blendBlk xs0 (mcols xs1 i) x3)
            ∗ owns (c : Thread nD τ) arg7 fullShare xs0 ∗ owns (c : Thread nD τ) arg8 fullShare xs1) -∗ K ⟨⟩))
      ⊢ wp frame (wpE (defs₀ (F := F)) Variants.none c none) E (cc1__blend_body i arg1 harg1 arg2 harg2 arg3 harg3 arg4 harg4 arg5 harg5 arg6 harg6 arg7 harg7 arg8 harg8) K := by
  simp only [cc1__blend_body_eq_skeleton]; unfold cc1__blend_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6; obtain rfl := harg8.eq_unread hf7
  sl_exec_parts (disch := first | exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitr [H6 H7]
  swap
  · isplitl [H6]; · iexists _; isplitr; · ipureintro; exact hf6
                    iexact H6
    iexists _; isplitr; · ipureintro; exact hf7
    iexact H7
  iexists _; isplitr
  swap; · iexact H5
  ipureintro
  sl_delta
  have hV3 : View.readAt (Elt F) arg7.view (Rect.unit (s := S1x128) ![0, 0] S1x128.size inb_S1x128_S1x128_0_0).toLoadRect (harg7.unread xs0) = xs0 := by
    rw [View.readAt_eq_ld, hf6]; exact View.ld_unit_zero (funext fun a => by fin_cases a <;> rfl) _ _
  have hV5 : View.readAt (Elt F) arg8.view (Rect.unit (s := S7x128x112) (k1_off1 i) S1x128x112.size (Gen.k1_off1_inb i)).toLoadRect (harg8.unread xs1)
      = View.ld xs1 (Rect.unit (s := S7x128x112) (k1_off1 i) S1x128x112.size (Gen.k1_off1_inb i)) := by
    rw [View.readAt_eq_ld, hf7]
  have hG : blendBlk xs0 (mcols xs1 i) x3
      = blendBlk (View.readAt (Elt F) arg7.view (Rect.unit (s := S1x128) ![0, 0] S1x128.size inb_S1x128_S1x128_0_0).toLoadRect (harg7.unread xs0))
          (k1_pay11 (View.readAt (Elt F) arg8.view (Rect.unit (s := S7x128x112) (k1_off1 i) S1x128x112.size (Gen.k1_off1_inb i)).toLoadRect (harg8.unread xs1))) x3 := by
    rw [hV3, hV5]; rfl
  rw [hG]
  funext y
  refine View.read_writes_apply_of_pieces _ _ _ _ ?pieces y ?cover
  case cover => exact View.cover_of_tiledL (s := S14336x128) _ S128x128.size (by sl_kernel_rfl) y
  case pieces =>
    refine List.forall_mem_cons.2 ⟨?_, ?_⟩
    · intro x; refine Eq.trans ?_ (blendBlk_idx _ _ _ 111 (by omega) (by decide) x).symm; kpay_simp
    refine List.forall_mem_cons.2 ⟨?_, ?_⟩
    · intro x; refine Eq.trans ?_ (blendBlk_idx _ _ _ 110 (by omega) (by decide) x).symm; kpay_simp
    refine List.forall_mem_cons.2 ⟨?_, ?_⟩
    · intro x; refine Eq.trans ?_ (blendBlk_idx _ _ _ 109 (by omega) (by decide) x).symm; kpay_simp
    refine List.forall_mem_cons.2 ⟨?_, ?_⟩
    · intro x; refine Eq.trans ?_ (blendBlk_idx _ _ _ 108 (by omega) (by decide) x).symm; kpay_simp
    refine List.forall_mem_cons.2 ⟨?_, ?_⟩
    · intro x; refine Eq.trans ?_ (blendBlk_idx _ _ _ 107 (by omega) (by decide) x).symm; kpay_simp
    refine List.forall_mem_cons.2 ⟨?_, ?_⟩
    · intro x; refine Eq.trans ?_ (blendBlk_idx _ _ _ 106 (by omega) (by decide) x).symm; kpay_simp
    refine List.forall_mem_cons.2 ⟨?_, ?_⟩
    · intro x; refine Eq.trans ?_ (blendBlk_idx _ _ _ 105 (by omega) (by decide) x).symm; kpay_simp
    refine List.forall_mem_cons.2 ⟨?_, ?_⟩
    · intro x; refine Eq.trans ?_ (blendBlk_idx _ _ _ 104 (by omega) (by decide) x).symm; kpay_simp
    refine List.forall_mem_cons.2 ⟨?_, ?_⟩
    · intro x; refine Eq.trans ?_ (blendBlk_idx _ _ _ 103 (by omega) (by decide) x).symm; kpay_simp
    refine List.forall_mem_cons.2 ⟨?_, ?_⟩
    · intro x; refine Eq.trans ?_ (blendBlk_idx _ _ _ 102 (by omega) (by decide) x).symm; kpay_simp
    refine List.forall_mem_cons.2 ⟨?_, ?_⟩
    · intro x; refine Eq.trans ?_ (blendBlk_idx _ _ _ 101 (by omega) (by decide) x).symm; kpay_simp
    refine List.forall_mem_cons.2 ⟨?_, ?_⟩
    · intro x; refine Eq.trans ?_ (blendBlk_idx _ _ _ 100 (by omega) (by decide) x).symm; kpay_simp
    refine List.forall_mem_cons.2 ⟨?_, ?_⟩
    · intro x; refine Eq.trans ?_ (blendBlk_idx _ _ _ 99 (by omega) (by decide) x).symm; kpay_simp
    refine List.forall_mem_cons.2 ⟨?_, ?_⟩
    · intro x; refine Eq.trans ?_ (blendBlk_idx _ _ _ 98 (by omega) (by decide) x).symm; kpay_simp
    refine List.forall_mem_cons.2 ⟨?_, ?_⟩
    · intro x; refine Eq.trans ?_ (blendBlk_idx _ _ _ 97 (by omega) (by decide) x).symm; kpay_simp
    refine List.forall_mem_cons.2 ⟨?_, ?_⟩
    · intro x; refine Eq.trans ?_ (blendBlk_idx _ _ _ 96 (by omega) (by decide) x).symm; kpay_simp
    refine List.forall_mem_cons.2 ⟨?_, ?_⟩
    · intro x; refine Eq.trans ?_ (blendBlk_idx _ _ _ 95 (by omega) (by decide) x).symm; kpay_simp
    refine List.forall_mem_cons.2 ⟨?_, ?_⟩
    · intro x; refine Eq.trans ?_ (blendBlk_idx _ _ _ 94 (by omega) (by decide) x).symm; kpay_simp
    refine List.forall_mem_cons.2 ⟨?_, ?_⟩
    · intro x; refine Eq.trans ?_ (blendBlk_idx _ _ _ 93 (by omega) (by decide) x).symm; kpay_simp
    refine List.forall_mem_cons.2 ⟨?_, ?_⟩
    · intro x; refine Eq.trans ?_ (blendBlk_idx _ _ _ 92 (by omega) (by decide) x).symm; kpay_simp
    refine List.forall_mem_cons.2 ⟨?_, ?_⟩
    · intro x; refine Eq.trans ?_ (blendBlk_idx _ _ _ 91 (by omega) (by decide) x).symm; kpay_simp
    refine List.forall_mem_cons.2 ⟨?_, ?_⟩
    · intro x; refine Eq.trans ?_ (blendBlk_idx _ _ _ 90 (by omega) (by decide) x).symm; kpay_simp
    refine List.forall_mem_cons.2 ⟨?_, ?_⟩
    · intro x; refine Eq.trans ?_ (blendBlk_idx _ _ _ 89 (by omega) (by decide) x).symm; kpay_simp
    refine List.forall_mem_cons.2 ⟨?_, ?_⟩
    · intro x; refine Eq.trans ?_ (blendBlk_idx _ _ _ 88 (by omega) (by decide) x).symm; kpay_simp
    refine List.forall_mem_cons.2 ⟨?_, ?_⟩
    · intro x; refine Eq.trans ?_ (blendBlk_idx _ _ _ 87 (by omega) (by decide) x).symm; kpay_simp
    refine List.forall_mem_cons.2 ⟨?_, ?_⟩
    · intro x; refine Eq.trans ?_ (blendBlk_idx _ _ _ 86 (by omega) (by decide) x).symm; kpay_simp
    refine List.forall_mem_cons.2 ⟨?_, ?_⟩
    · intro x; refine Eq.trans ?_ (blendBlk_idx _ _ _ 85 (by omega) (by decide) x).symm; kpay_simp
    refine List.forall_mem_cons.2 ⟨?_, ?_⟩
    · intro x; refine Eq.trans ?_ (blendBlk_idx _ _ _ 84 (by omega) (by decide) x).symm; kpay_simp
    refine List.forall_mem_cons.2 ⟨?_, ?_⟩
    · intro x; refine Eq.trans ?_ (blendBlk_idx _ _ _ 83 (by omega) (by decide) x).symm; kpay_simp
    refine List.forall_mem_cons.2 ⟨?_, ?_⟩
    · intro x; refine Eq.trans ?_ (blendBlk_idx _ _ _ 82 (by omega) (by decide) x).symm; kpay_simp
    refine List.forall_mem_cons.2 ⟨?_, ?_⟩
    · intro x; refine Eq.trans ?_ (blendBlk_idx _ _ _ 81 (by omega) (by decide) x).symm; kpay_simp
    refine List.forall_mem_cons.2 ⟨?_, ?_⟩
    · intro x; refine Eq.trans ?_ (blendBlk_idx _ _ _ 80 (by omega) (by decide) x).symm; kpay_simp
    refine List.forall_mem_cons.2 ⟨?_, ?_⟩
    · intro x; refine Eq.trans ?_ (blendBlk_idx _ _ _ 79 (by omega) (by decide) x).symm; kpay_simp
    refine List.forall_mem_cons.2 ⟨?_, ?_⟩
    · intro x; refine Eq.trans ?_ (blendBlk_idx _ _ _ 78 (by omega) (by decide) x).symm; kpay_simp
    refine List.forall_mem_cons.2 ⟨?_, ?_⟩
    · intro x; refine Eq.trans ?_ (blendBlk_idx _ _ _ 77 (by omega) (by decide) x).symm; kpay_simp
    refine List.forall_mem_cons.2 ⟨?_, ?_⟩
    · intro x; refine Eq.trans ?_ (blendBlk_idx _ _ _ 76 (by omega) (by decide) x).symm; kpay_simp
    refine List.forall_mem_cons.2 ⟨?_, ?_⟩
    · intro x; refine Eq.trans ?_ (blendBlk_idx _ _ _ 75 (by omega) (by decide) x).symm; kpay_simp
    refine List.forall_mem_cons.2 ⟨?_, ?_⟩
    · intro x; refine Eq.trans ?_ (blendBlk_idx _ _ _ 74 (by omega) (by decide) x).symm; kpay_simp
    refine List.forall_mem_cons.2 ⟨?_, ?_⟩
    · intro x; refine Eq.trans ?_ (blendBlk_idx _ _ _ 73 (by omega) (by decide) x).symm; kpay_simp
    refine List.forall_mem_cons.2 ⟨?_, ?_⟩
    · intro x; refine Eq.trans ?_ (blendBlk_idx _ _ _ 72 (by omega) (by decide) x).symm; kpay_simp
    refine List.forall_mem_cons.2 ⟨?_, ?_⟩
    · intro x; refine Eq.trans ?_ (blendBlk_idx _ _ _ 71 (by omega) (by decide) x).symm; kpay_simp
    refine List.forall_mem_cons.2 ⟨?_, ?_⟩
    · intro x; refine Eq.trans ?_ (blendBlk_idx _ _ _ 70 (by omega) (by decide) x).symm; kpay_simp
    refine List.forall_mem_cons.2 ⟨?_, ?_⟩
    · intro x; refine Eq.trans ?_ (blendBlk_idx _ _ _ 69 (by omega) (by decide) x).symm; kpay_simp
    refine List.forall_mem_cons.2 ⟨?_, ?_⟩
    · intro x; refine Eq.trans ?_ (blendBlk_idx _ _ _ 68 (by omega) (by decide) x).symm; kpay_simp
    refine List.forall_mem_cons.2 ⟨?_, ?_⟩
    · intro x; refine Eq.trans ?_ (blendBlk_idx _ _ _ 67 (by omega) (by decide) x).symm; kpay_simp
    refine List.forall_mem_cons.2 ⟨?_, ?_⟩
    · intro x; refine Eq.trans ?_ (blendBlk_idx _ _ _ 66 (by omega) (by decide) x).symm; kpay_simp
    refine List.forall_mem_cons.2 ⟨?_, ?_⟩
    · intro x; refine Eq.trans ?_ (blendBlk_idx _ _ _ 65 (by omega) (by decide) x).symm; kpay_simp
    refine List.forall_mem_cons.2 ⟨?_, ?_⟩
    · intro x; refine Eq.trans ?_ (blendBlk_idx _ _ _ 64 (by omega) (by decide) x).symm; kpay_simp
    refine List.forall_mem_cons.2 ⟨?_, ?_⟩
    · intro x; refine Eq.trans ?_ (blendBlk_idx _ _ _ 63 (by omega) (by decide) x).symm; kpay_simp
    refine List.forall_mem_cons.2 ⟨?_, ?_⟩
    · intro x; refine Eq.trans ?_ (blendBlk_idx _ _ _ 62 (by omega) (by decide) x).symm; kpay_simp
    refine List.forall_mem_cons.2 ⟨?_, ?_⟩
    · intro x; refine Eq.trans ?_ (blendBlk_idx _ _ _ 61 (by omega) (by decide) x).symm; kpay_simp
    refine List.forall_mem_cons.2 ⟨?_, ?_⟩
    · intro x; refine Eq.trans ?_ (blendBlk_idx _ _ _ 60 (by omega) (by decide) x).symm; kpay_simp
    refine List.forall_mem_cons.2 ⟨?_, ?_⟩
    · intro x; refine Eq.trans ?_ (blendBlk_idx _ _ _ 59 (by omega) (by decide) x).symm; kpay_simp
    refine List.forall_mem_cons.2 ⟨?_, ?_⟩
    · intro x; refine Eq.trans ?_ (blendBlk_idx _ _ _ 58 (by omega) (by decide) x).symm; kpay_simp
    refine List.forall_mem_cons.2 ⟨?_, ?_⟩
    · intro x; refine Eq.trans ?_ (blendBlk_idx _ _ _ 57 (by omega) (by decide) x).symm; kpay_simp
    refine List.forall_mem_cons.2 ⟨?_, ?_⟩
    · intro x; refine Eq.trans ?_ (blendBlk_idx _ _ _ 56 (by omega) (by decide) x).symm; kpay_simp
    refine List.forall_mem_cons.2 ⟨?_, ?_⟩
    · intro x; refine Eq.trans ?_ (blendBlk_idx _ _ _ 55 (by omega) (by decide) x).symm; kpay_simp
    refine List.forall_mem_cons.2 ⟨?_, ?_⟩
    · intro x; refine Eq.trans ?_ (blendBlk_idx _ _ _ 54 (by omega) (by decide) x).symm; kpay_simp
    refine List.forall_mem_cons.2 ⟨?_, ?_⟩
    · intro x; refine Eq.trans ?_ (blendBlk_idx _ _ _ 53 (by omega) (by decide) x).symm; kpay_simp
    refine List.forall_mem_cons.2 ⟨?_, ?_⟩
    · intro x; refine Eq.trans ?_ (blendBlk_idx _ _ _ 52 (by omega) (by decide) x).symm; kpay_simp
    refine List.forall_mem_cons.2 ⟨?_, ?_⟩
    · intro x; refine Eq.trans ?_ (blendBlk_idx _ _ _ 51 (by omega) (by decide) x).symm; kpay_simp
    refine List.forall_mem_cons.2 ⟨?_, ?_⟩
    · intro x; refine Eq.trans ?_ (blendBlk_idx _ _ _ 50 (by omega) (by decide) x).symm; kpay_simp
    refine List.forall_mem_cons.2 ⟨?_, ?_⟩
    · intro x; refine Eq.trans ?_ (blendBlk_idx _ _ _ 49 (by omega) (by decide) x).symm; kpay_simp
    refine List.forall_mem_cons.2 ⟨?_, ?_⟩
    · intro x; refine Eq.trans ?_ (blendBlk_idx _ _ _ 48 (by omega) (by decide) x).symm; kpay_simp
    refine List.forall_mem_cons.2 ⟨?_, ?_⟩
    · intro x; refine Eq.trans ?_ (blendBlk_idx _ _ _ 47 (by omega) (by decide) x).symm; kpay_simp
    refine List.forall_mem_cons.2 ⟨?_, ?_⟩
    · intro x; refine Eq.trans ?_ (blendBlk_idx _ _ _ 46 (by omega) (by decide) x).symm; kpay_simp
    refine List.forall_mem_cons.2 ⟨?_, ?_⟩
    · intro x; refine Eq.trans ?_ (blendBlk_idx _ _ _ 45 (by omega) (by decide) x).symm; kpay_simp
    refine List.forall_mem_cons.2 ⟨?_, ?_⟩
    · intro x; refine Eq.trans ?_ (blendBlk_idx _ _ _ 44 (by omega) (by decide) x).symm; kpay_simp
    refine List.forall_mem_cons.2 ⟨?_, ?_⟩
    · intro x; refine Eq.trans ?_ (blendBlk_idx _ _ _ 43 (by omega) (by decide) x).symm; kpay_simp
    refine List.forall_mem_cons.2 ⟨?_, ?_⟩
    · intro x; refine Eq.trans ?_ (blendBlk_idx _ _ _ 42 (by omega) (by decide) x).symm; kpay_simp
    refine List.forall_mem_cons.2 ⟨?_, ?_⟩
    · intro x; refine Eq.trans ?_ (blendBlk_idx _ _ _ 41 (by omega) (by decide) x).symm; kpay_simp
    refine List.forall_mem_cons.2 ⟨?_, ?_⟩
    · intro x; refine Eq.trans ?_ (blendBlk_idx _ _ _ 40 (by omega) (by decide) x).symm; kpay_simp
    refine List.forall_mem_cons.2 ⟨?_, ?_⟩
    · intro x; refine Eq.trans ?_ (blendBlk_idx _ _ _ 39 (by omega) (by decide) x).symm; kpay_simp
    refine List.forall_mem_cons.2 ⟨?_, ?_⟩
    · intro x; refine Eq.trans ?_ (blendBlk_idx _ _ _ 38 (by omega) (by decide) x).symm; kpay_simp
    refine List.forall_mem_cons.2 ⟨?_, ?_⟩
    · intro x; refine Eq.trans ?_ (blendBlk_idx _ _ _ 37 (by omega) (by decide) x).symm; kpay_simp
    refine List.forall_mem_cons.2 ⟨?_, ?_⟩
    · intro x; refine Eq.trans ?_ (blendBlk_idx _ _ _ 36 (by omega) (by decide) x).symm; kpay_simp
    refine List.forall_mem_cons.2 ⟨?_, ?_⟩
    · intro x; refine Eq.trans ?_ (blendBlk_idx _ _ _ 35 (by omega) (by decide) x).symm; kpay_simp
    refine List.forall_mem_cons.2 ⟨?_, ?_⟩
    · intro x; refine Eq.trans ?_ (blendBlk_idx _ _ _ 34 (by omega) (by decide) x).symm; kpay_simp
    refine List.forall_mem_cons.2 ⟨?_, ?_⟩
    · intro x; refine Eq.trans ?_ (blendBlk_idx _ _ _ 33 (by omega) (by decide) x).symm; kpay_simp
    refine List.forall_mem_cons.2 ⟨?_, ?_⟩
    · intro x; refine Eq.trans ?_ (blendBlk_idx _ _ _ 32 (by omega) (by decide) x).symm; kpay_simp
    refine List.forall_mem_cons.2 ⟨?_, ?_⟩
    · intro x; refine Eq.trans ?_ (blendBlk_idx _ _ _ 31 (by omega) (by decide) x).symm; kpay_simp
    refine List.forall_mem_cons.2 ⟨?_, ?_⟩
    · intro x; refine Eq.trans ?_ (blendBlk_idx _ _ _ 30 (by omega) (by decide) x).symm; kpay_simp
    refine List.forall_mem_cons.2 ⟨?_, ?_⟩
    · intro x; refine Eq.trans ?_ (blendBlk_idx _ _ _ 29 (by omega) (by decide) x).symm; kpay_simp
    refine List.forall_mem_cons.2 ⟨?_, ?_⟩
    · intro x; refine Eq.trans ?_ (blendBlk_idx _ _ _ 28 (by omega) (by decide) x).symm; kpay_simp
    refine List.forall_mem_cons.2 ⟨?_, ?_⟩
    · intro x; refine Eq.trans ?_ (blendBlk_idx _ _ _ 27 (by omega) (by decide) x).symm; kpay_simp
    refine List.forall_mem_cons.2 ⟨?_, ?_⟩
    · intro x; refine Eq.trans ?_ (blendBlk_idx _ _ _ 26 (by omega) (by decide) x).symm; kpay_simp
    refine List.forall_mem_cons.2 ⟨?_, ?_⟩
    · intro x; refine Eq.trans ?_ (blendBlk_idx _ _ _ 25 (by omega) (by decide) x).symm; kpay_simp
    refine List.forall_mem_cons.2 ⟨?_, ?_⟩
    · intro x; refine Eq.trans ?_ (blendBlk_idx _ _ _ 24 (by omega) (by decide) x).symm; kpay_simp
    refine List.forall_mem_cons.2 ⟨?_, ?_⟩
    · intro x; refine Eq.trans ?_ (blendBlk_idx _ _ _ 23 (by omega) (by decide) x).symm; kpay_simp
    refine List.forall_mem_cons.2 ⟨?_, ?_⟩
    · intro x; refine Eq.trans ?_ (blendBlk_idx _ _ _ 22 (by omega) (by decide) x).symm; kpay_simp
    refine List.forall_mem_cons.2 ⟨?_, ?_⟩
    · intro x; refine Eq.trans ?_ (blendBlk_idx _ _ _ 21 (by omega) (by decide) x).symm; kpay_simp
    refine List.forall_mem_cons.2 ⟨?_, ?_⟩
    · intro x; refine Eq.trans ?_ (blendBlk_idx _ _ _ 20 (by omega) (by decide) x).symm; kpay_simp
    refine List.forall_mem_cons.2 ⟨?_, ?_⟩
    · intro x; refine Eq.trans ?_ (blendBlk_idx _ _ _ 19 (by omega) (by decide) x).symm; kpay_simp
    refine List.forall_mem_cons.2 ⟨?_, ?_⟩
    · intro x; refine Eq.trans ?_ (blendBlk_idx _ _ _ 18 (by omega) (by decide) x).symm; kpay_simp
    refine List.forall_mem_cons.2 ⟨?_, ?_⟩
    · intro x; refine Eq.trans ?_ (blendBlk_idx _ _ _ 17 (by omega) (by decide) x).symm; kpay_simp
    refine List.forall_mem_cons.2 ⟨?_, ?_⟩
    · intro x; refine Eq.trans ?_ (blendBlk_idx _ _ _ 16 (by omega) (by decide) x).symm; kpay_simp
    refine List.forall_mem_cons.2 ⟨?_, ?_⟩
    · intro x; refine Eq.trans ?_ (blendBlk_idx _ _ _ 15 (by omega) (by decide) x).symm; kpay_simp
    refine List.forall_mem_cons.2 ⟨?_, ?_⟩
    · intro x; refine Eq.trans ?_ (blendBlk_idx _ _ _ 14 (by omega) (by decide) x).symm; kpay_simp
    refine List.forall_mem_cons.2 ⟨?_, ?_⟩
    · intro x; refine Eq.trans ?_ (blendBlk_idx _ _ _ 13 (by omega) (by decide) x).symm; kpay_simp
    refine List.forall_mem_cons.2 ⟨?_, ?_⟩
    · intro x; refine Eq.trans ?_ (blendBlk_idx _ _ _ 12 (by omega) (by decide) x).symm; kpay_simp
    refine List.forall_mem_cons.2 ⟨?_, ?_⟩
    · intro x; refine Eq.trans ?_ (blendBlk_idx _ _ _ 11 (by omega) (by decide) x).symm; kpay_simp
    refine List.forall_mem_cons.2 ⟨?_, ?_⟩
    · intro x; refine Eq.trans ?_ (blendBlk_idx _ _ _ 10 (by omega) (by decide) x).symm; kpay_simp
    refine List.forall_mem_cons.2 ⟨?_, ?_⟩
    · intro x; refine Eq.trans ?_ (blendBlk_idx _ _ _ 9 (by omega) (by decide) x).symm; kpay_simp
    refine List.forall_mem_cons.2 ⟨?_, ?_⟩
    · intro x; refine Eq.trans ?_ (blendBlk_idx _ _ _ 8 (by omega) (by decide) x).symm; kpay_simp
    refine List.forall_mem_cons.2 ⟨?_, ?_⟩
    · intro x; refine Eq.trans ?_ (blendBlk_idx _ _ _ 7 (by omega) (by decide) x).symm; kpay_simp
    refine List.forall_mem_cons.2 ⟨?_, ?_⟩
    · intro x; refine Eq.trans ?_ (blendBlk_idx _ _ _ 6 (by omega) (by decide) x).symm; kpay_simp
    refine List.forall_mem_cons.2 ⟨?_, ?_⟩
    · intro x; refine Eq.trans ?_ (blendBlk_idx _ _ _ 5 (by omega) (by decide) x).symm; kpay_simp
    refine List.forall_mem_cons.2 ⟨?_, ?_⟩
    · intro x; refine Eq.trans ?_ (blendBlk_idx _ _ _ 4 (by omega) (by decide) x).symm; kpay_simp
    refine List.forall_mem_cons.2 ⟨?_, ?_⟩
    · intro x; refine Eq.trans ?_ (blendBlk_idx _ _ _ 3 (by omega) (by decide) x).symm; kpay_simp
    refine List.forall_mem_cons.2 ⟨?_, ?_⟩
    · intro x; refine Eq.trans ?_ (blendBlk_idx _ _ _ 2 (by omega) (by decide) x).symm; kpay_simp
    refine List.forall_mem_cons.2 ⟨?_, ?_⟩
    · intro x; refine Eq.trans ?_ (blendBlk_idx _ _ _ 1 (by omega) (by decide) x).symm; kpay_simp
    refine List.forall_mem_cons.2 ⟨?_, ?_⟩
    · intro x; refine Eq.trans ?_ (blendBlk_idx _ _ _ 0 (by omega) (by decide) x).symm; kpay_simp
    exact fun _ h => absurd h List.not_mem_nil

end Cert.Proof.KB

end
-- ==== Proof.KBRegionRunA.lean ====
/-
  The body of the TensorCore call run at the first grid point: the gate and the transposed mask are computed into
  the two scratches, read back, and the hundred and twelve row tiles of the input block are blended.
-/
import proofs.«207473_g17575006175289_fold_wed_c4_317_29_alg».proof.Proof.KBCommon
import Idealize.ShloMosaic.Lib.WholeRead
import proofs.«207473_g17575006175289_fold_wed_c4_317_29_alg».proof.Proof.KBRegionRunB
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- What the first point stores in the gate scratch. -/
def gateS (x1 : Vec F S1x1024 .f32) (x0 : Vec F S128x1024 .f32) (x2 : Vec F S1x1 .f32) : Vec F S1x128 .f32 := k1_pay3 x1 x0 x2

theorem hmt (j : S7x128x112.Idx) : 112 * (j 0).val + (j 2).val < 1024 := by
  have h0 : (j 0).val < 7 := (j 0).isLt
  have h2 : (j 2).val < 112 := (j 2).isLt
  omega

/-- What the first point leaves in the mask scratch: slab `ib` is rows 112 ib … 112 ib + 111 of the mask, transposed. -/
def mtS (x4 : Vec F S1024x128 .f32) : Vec F S7x128x112 .f32 := fun j =>
  x4 (ix2 (⟨112 * (j 0).val + (j 2).val, hmt j⟩ : Fin 1024) (j 1))

/-- The scratch's slab `ib` under the slab's own indices. -/
theorem mtS_idx (x4 : Vec F S1024x128 .f32) (ib : ℕ) (hib : ib < 7)
    (inb : ∀ a, (![ib, 0, 0] : Fin 3 → ℕ) a + S1x128x112.size a ≤ S7x128x112.size a)
    (inb' : ∀ a, (![112 * ib, 0] : Fin 2 → ℕ) a + S112x128.size a ≤ S1024x128.size a) (x : S1x128x112.Idx) :
    mtS x4 ((Rect.unit (s := S7x128x112) ![ib, 0, 0] S1x128x112.size inb).toLoadRect.idx x)
      = x4 ((Rect.unit (s := S1024x128) ![112 * ib, 0] S112x128.size inb').toLoadRect.idx (ix2 (x 2) (x 1))) := by
  have hx0 : (x 0).val = 0 := by have : (x 0).val < 1 := (x 0).isLt; omega
  unfold mtS
  congr 1
  funext a
  match a with
  | ⟨0, _⟩ => exact Fin.ext (by show 112 * (ib + 1 * (x 0).val) + (0 + 1 * (x 2).val) = 112 * ib + 1 * (x 2).val; rw [hx0]; omega)
  | ⟨1, _⟩ => exact Fin.ext (by show 0 + 1 * (x 1).val = 0 + 1 * (x 1).val; rfl)

/-- A tile of the mask transposed and given a leading unit axis, read at an index. -/
theorem tr_at {α : Type} (v : S112x128.Idx → α) (h1 : S112x128.ShapeCasts S112x128) (h2 : S112x128.Transposes [1, 0] S128x112)
    (h3 : S128x112.ShapeCasts S1x128x112) (x : S1x128x112.Idx) :
    shapeCast S1x128x112 (transpose S128x112 [1, 0] (shapeCast S112x128 v h1) h2) h3 x = v (ix2 (x 2) (x 1)) := by
  rw [shapeCast_self]
  refine (shapeCast_addUnit_apply ![128, 112] _ h3 x).trans ?_
  exact transpose_apply [1, 0] v h2 _ (ix2 (x 2) (x 1)) fun b => match b with | ⟨0, _⟩ => rfl | ⟨1, _⟩ => rfl

/-- A load of what listed stores left over junk reads, where the stores all agree with one function of the buffer's
    index and cover it, that function at the load's indices. -/
theorem readAt_writes_junk {sig' : RefSig} {κ : Kind} {sp : Space} {s : Shape} {e : EltTy} (v : View sig' κ sp s e)
    (L : List (View.Piece (Elt F) s e)) (G : s.Idx → Elt F e)
    (hp : ∀ p ∈ L, ∀ x : p.1.shape.Idx, p.2 x = G (p.1.emb x)) (hc : ∀ y : s.Idx, ∃ p ∈ L, y ∈ p.1.set) (B : LoadRect s) :
    v.readAt (Elt F) B (v.writes (Elt F) v.junk L) = fun x => G (B.idx x) :=
  funext fun x => View.read_writes_apply_of_pieces v _ G L hp (B.idx x) (hc _)

open Lean Elab Tactic Meta in
/-- Name, in the goal, the gate as the run read it back from its scratch (`V3`) and the mask slab as the run loaded
    it from its scratch (`V5`). -/
elab "gen_scr" : tactic => withMainContext do
  let g ← getMainGoal
  let t ← instantiateMVars (← g.getType)
  let some e3 := t.find? (fun e => e.isAppOf ``Idealize.ShloMosaic.View.readCov && !e.hasLooseBVars)
    | throwError "gen_scr: no covered read"
  let (_, g) ← g.generalize #[{ expr := e3, xName? := `V3, hName? := `hV3 }]
  let t ← instantiateMVars (← g.getType)
  let some e5 := t.find? (fun e => e.isAppOf ``Idealize.ShloMosaic.View.readAt && e.getAppNumArgs > 0 && e.appArg!.isAppOf ``Idealize.ShloMosaic.View.writes && !e.hasLooseBVars)
    | throwError "gen_scr: no load of written contents"
  let (_, g) ← g.generalize #[{ expr := e5, xName? := `V5, hName? := `hV5 }]
  replaceMainGoal [g]

set_option maxHeartbeats 16000000 in
/-- At the first point: the inputs' buffers stay as they are; the scratches end at the gate and the transposed mask;
    the result's buffer at the blend of the input block by them. -/
theorem runA (c : Dev nD) (i : grid1.Coords) (arg1 : Memref sig .tc .vmem S128x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S14336x128 .f32) (harg4 : arg4.IsWhole) (arg5 : Memref sig .tc .vmem S1024x128 .f32) (harg5 : arg5.IsWhole) (arg6 : Memref sig .tc .vmem S14336x128 .f32) (harg6 : arg6.IsWhole) (arg7 : Memref sig .tc .vmem S1x128 .f32) (harg7 : arg7.IsWhole) (arg8 : Memref sig .tc .vmem S7x128x112 .f32) (harg8 : arg8.IsWhole)
    (hc0 : cond1_0 i)
    (x0 : Vec F S128x1024 .f32) (x1 : Vec F S1x1024 .f32) (x2 : Vec F S1x1 .f32) (x3 : Vec F S14336x128 .f32) (x4 : Vec F S1024x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blendBlk (gateS x1 x0 x2) (mcols (mtS x4) i) x3)
            ∗ owns (c : Thread nD τ) arg7 fullShare (gateS x1 x0 x2) ∗ owns (c : Thread nD τ) arg8 fullShare (mtS x4)) -∗ K ⟨⟩))
      ⊢ wp frame (wpE (defs₀ (F := F)) Variants.none c none) E (cc1__blend_body i arg1 harg1 arg2 harg2 arg3 harg3 arg4 harg4 arg5 harg5 arg6 harg6 arg7 harg7 arg8 harg8) K := by
  simp only [cc1__blend_body_eq_skeleton]; unfold cc1__blend_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4
  sl_exec_parts (disch := first | exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  have hz2 : (![0, 0] : Fin 2 → ℕ) = fun _ => 0 := funext fun a => by fin_cases a <;> rfl
  have hW1 : View.readAt (Elt F) arg2.view (Rect.unit (s := S1x1024) ![0, 0] S1x1024.size inb_S1x1024_S1x1024_0_0).toLoadRect (harg2.unread x1) = x1 := by
    rw [View.readAt_eq_ld, hf1]; exact View.ld_unit_zero hz2 _ _
  have hW0 : View.readAt (Elt F) arg1.view (Rect.unit (s := S128x1024) ![0, 0] S128x1024.size inb_S128x1024_S128x1024_0_0).toLoadRect (harg1.unread x0) = x0 := by
    rw [View.readAt_eq_ld, hf0]; exact View.ld_unit_zero hz2 _ _
  have hW2 : View.readAt (Elt F) arg3.view (Rect.unit (s := S1x1) ![0, 0] S1x1.size inb_S1x1_S1x1_0_0).toLoadRect (harg3.unread x2) = x2 := by
    rw [View.readAt_eq_ld, hf2]; exact View.ld_unit_zero hz2 _ _
  isplitl [H5]
  · iexists _; isplitr
    swap; · iexact H5
    ipureintro
    sl_delta
    gen_scr
    have e3 : V3 = gateS x1 x0 x2 := by
      rw [← hV3, View.readCov_unit_zero _ hz2, hW1, hW0, hW2]; rfl
    have e5 : (fun x => mtS x4 ((Rect.unit (s := S7x128x112) (k1_off1 i) S1x128x112.size (Gen.k1_off1_inb i)).toLoadRect.idx x)) = V5 := by
      refine (readAt_writes_junk arg8.view _ (mtS x4) ?p8 ?c8 _).symm.trans hV5
      case c8 => exact View.cover_of_tiledL (s := S7x128x112) _ S1x128x112.size (by sl_kernel_rfl)
      case p8 =>
        refine List.forall_mem_cons.2 ⟨?_, ?_⟩
        · intro x; refine Eq.trans ?_ (mtS_idx _ 6 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 5 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 4 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 3 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 2 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 1 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 0 (by omega) (by decide) (by decide) x).symm; simp only [k1_pay4, k1_pay5, k1_pay6, k1_pay7, k1_pay8, k1_pay9, k1_pay10]; refine (tr_at _ _ _ _ x).trans ?_; exact harg5.readAt_unread x4 _ _
        exact fun _ h => absurd h List.not_mem_nil
    have hG : blendBlk (gateS x1 x0 x2) (mcols (mtS x4) i) x3 = blendBlk V3 (k1_pay11 V5) x3 := by
      rw [e3, ← e5]; rfl
    rw [hG]
    clear hV3 hV5 e3 e5 hG
    funext y
    refine View.read_writes_apply_of_pieces _ _ _ _ ?pieces y ?cover
    case cover => exact View.cover_of_tiledL (s := S14336x128) _ S128x128.size (by sl_kernel_rfl) y
    case pieces =>
      refine List.forall_mem_cons.2 ⟨?_, ?_⟩
      · intro x; refine Eq.trans ?_ (blendBlk_idx _ _ _ 111 (by omega) (by decide) x).symm; kpay_simp
      refine List.forall_mem_cons.2 ⟨?_, ?_⟩
      · intro x; refine Eq.trans ?_ (blendBlk_idx _ _ _ 110 (by omega) (by decide) x).symm; kpay_simp
      refine List.forall_mem_cons.2 ⟨?_, ?_⟩
      · intro x; refine Eq.trans ?_ (blendBlk_idx _ _ _ 109 (by omega) (by decide) x).symm; kpay_simp
      refine List.forall_mem_cons.2 ⟨?_, ?_⟩
      · intro x; refine Eq.trans ?_ (blendBlk_idx _ _ _ 108 (by omega) (by decide) x).symm; kpay_simp
      refine List.forall_mem_cons.2 ⟨?_, ?_⟩
      · intro x; refine Eq.trans ?_ (blendBlk_idx _ _ _ 107 (by omega) (by decide) x).symm; kpay_simp
      refine List.forall_mem_cons.2 ⟨?_, ?_⟩
      · intro x; refine Eq.trans ?_ (blendBlk_idx _ _ _ 106 (by omega) (by decide) x).symm; kpay_simp
      refine List.forall_mem_cons.2 ⟨?_, ?_⟩
      · intro x; refine Eq.trans ?_ (blendBlk_idx _ _ _ 105 (by omega) (by decide) x).symm; kpay_simp
      refine List.forall_mem_cons.2 ⟨?_, ?_⟩
      · intro x; refine Eq.trans ?_ (blendBlk_idx _ _ _ 104 (by omega) (by decide) x).symm; kpay_simp
      refine List.forall_mem_cons.2 ⟨?_, ?_⟩
      · intro x; refine Eq.trans ?_ (blendBlk_idx _ _ _ 103 (by omega) (by decide) x).symm; kpay_simp
      refine List.forall_mem_cons.2 ⟨?_, ?_⟩
      · intro x; refine Eq.trans ?_ (blendBlk_idx _ _ _ 102 (by omega) (by decide) x).symm; kpay_simp
      refine List.forall_mem_cons.2 ⟨?_, ?_⟩
      · intro x; refine Eq.trans ?_ (blendBlk_idx _ _ _ 101 (by omega) (by decide) x).symm; kpay_simp
      refine List.forall_mem_cons.2 ⟨?_, ?_⟩
      · intro x; refine Eq.trans ?_ (blendBlk_idx _ _ _ 100 (by omega) (by decide) x).symm; kpay_simp
      refine List.forall_mem_cons.2 ⟨?_, ?_⟩
      · intro x; refine Eq.trans ?_ (blendBlk_idx _ _ _ 99 (by omega) (by decide) x).symm; kpay_simp
      refine List.forall_mem_cons.2 ⟨?_, ?_⟩
      · intro x; refine Eq.trans ?_ (blendBlk_idx _ _ _ 98 (by omega) (by decide) x).symm; kpay_simp
      refine List.forall_mem_cons.2 ⟨?_, ?_⟩
      · intro x; refine Eq.trans ?_ (blendBlk_idx _ _ _ 97 (by omega) (by decide) x).symm; kpay_simp
      refine List.forall_mem_cons.2 ⟨?_, ?_⟩
      · intro x; refine Eq.trans ?_ (blendBlk_idx _ _ _ 96 (by omega) (by decide) x).symm; kpay_simp
      refine List.forall_mem_cons.2 ⟨?_, ?_⟩
      · intro x; refine Eq.trans ?_ (blendBlk_idx _ _ _ 95 (by omega) (by decide) x).symm; kpay_simp
      refine List.forall_mem_cons.2 ⟨?_, ?_⟩
      · intro x; refine Eq.trans ?_ (blendBlk_idx _ _ _ 94 (by omega) (by decide) x).symm; kpay_simp
      refine List.forall_mem_cons.2 ⟨?_, ?_⟩
      · intro x; refine Eq.trans ?_ (blendBlk_idx _ _ _ 93 (by omega) (by decide) x).symm; kpay_simp
      refine List.forall_mem_cons.2 ⟨?_, ?_⟩
      · intro x; refine Eq.trans ?_ (blendBlk_idx _ _ _ 92 (by omega) (by decide) x).symm; kpay_simp
      refine List.forall_mem_cons.2 ⟨?_, ?_⟩
      · intro x; refine Eq.trans ?_ (blendBlk_idx _ _ _ 91 (by omega) (by decide) x).symm; kpay_simp
      refine List.forall_mem_cons.2 ⟨?_, ?_⟩
      · intro x; refine Eq.trans ?_ (blendBlk_idx _ _ _ 90 (by omega) (by decide) x).symm; kpay_simp
      refine List.forall_mem_cons.2 ⟨?_, ?_⟩
      · intro x; refine Eq.trans ?_ (blendBlk_idx _ _ _ 89 (by omega) (by decide) x).symm; kpay_simp
      refine List.forall_mem_cons.2 ⟨?_, ?_⟩
      · intro x; refine Eq.trans ?_ (blendBlk_idx _ _ _ 88 (by omega) (by decide) x).symm; kpay_simp
      refine List.forall_mem_cons.2 ⟨?_, ?_⟩
      · intro x; refine Eq.trans ?_ (blendBlk_idx _ _ _ 87 (by omega) (by decide) x).symm; kpay_simp
      refine List.forall_mem_cons.2 ⟨?_, ?_⟩
      · intro x; refine Eq.trans ?_ (blendBlk_idx _ _ _ 86 (by omega) (by decide) x).symm; kpay_simp
      refine List.forall_mem_cons.2 ⟨?_, ?_⟩
      · intro x; refine Eq.trans ?_ (blendBlk_idx _ _ _ 85 (by omega) (by decide) x).symm; kpay_simp
      refine List.forall_mem_cons.2 ⟨?_, ?_⟩
      · intro x; refine Eq.trans ?_ (blendBlk_idx _ _ _ 84 (by omega) (by decide) x).symm; kpay_simp
      refine List.forall_mem_cons.2 ⟨?_, ?_⟩
      · intro x; refine Eq.trans ?_ (blendBlk_idx _ _ _ 83 (by omega) (by decide) x).symm; kpay_simp
      refine List.forall_mem_cons.2 ⟨?_, ?_⟩
      · intro x; refine Eq.trans ?_ (blendBlk_idx _ _ _ 82 (by omega) (by decide) x).symm; kpay_simp
      refine List.forall_mem_cons.2 ⟨?_, ?_⟩
      · intro x; refine Eq.trans ?_ (blendBlk_idx _ _ _ 81 (by omega) (by decide) x).symm; kpay_simp
      refine List.forall_mem_cons.2 ⟨?_, ?_⟩
      · intro x; refine Eq.trans ?_ (blendBlk_idx _ _ _ 80 (by omega) (by decide) x).symm; kpay_simp
      refine List.forall_mem_cons.2 ⟨?_, ?_⟩
      · intro x; refine Eq.trans ?_ (blendBlk_idx _ _ _ 79 (by omega) (by decide) x).symm; kpay_simp
      refine List.forall_mem_cons.2 ⟨?_, ?_⟩
      · intro x; refine Eq.trans ?_ (blendBlk_idx _ _ _ 78 (by omega) (by decide) x).symm; kpay_simp
      refine List.forall_mem_cons.2 ⟨?_, ?_⟩
      · intro x; refine Eq.trans ?_ (blendBlk_idx _ _ _ 77 (by omega) (by decide) x).symm; kpay_simp
      refine List.forall_mem_cons.2 ⟨?_, ?_⟩
      · intro x; refine Eq.trans ?_ (blendBlk_idx _ _ _ 76 (by omega) (by decide) x).symm; kpay_simp
      refine List.forall_mem_cons.2 ⟨?_, ?_⟩
      · intro x; refine Eq.trans ?_ (blendBlk_idx _ _ _ 75 (by omega) (by decide) x).symm; kpay_simp
      refine List.forall_mem_cons.2 ⟨?_, ?_⟩
      · intro x; refine Eq.trans ?_ (blendBlk_idx _ _ _ 74 (by omega) (by decide) x).symm; kpay_simp
      refine List.forall_mem_cons.2 ⟨?_, ?_⟩
      · intro x; refine Eq.trans ?_ (blendBlk_idx _ _ _ 73 (by omega) (by decide) x).symm; kpay_simp
      refine List.forall_mem_cons.2 ⟨?_, ?_⟩
      · intro x; refine Eq.trans ?_ (blendBlk_idx _ _ _ 72 (by omega) (by decide) x).symm; kpay_simp
      refine List.forall_mem_cons.2 ⟨?_, ?_⟩
      · intro x; refine Eq.trans ?_ (blendBlk_idx _ _ _ 71 (by omega) (by decide) x).symm; kpay_simp
      refine List.forall_mem_cons.2 ⟨?_, ?_⟩
      · intro x; refine Eq.trans ?_ (blendBlk_idx _ _ _ 70 (by omega) (by decide) x).symm; kpay_simp
      refine List.forall_mem_cons.2 ⟨?_, ?_⟩
      · intro x; refine Eq.trans ?_ (blendBlk_idx _ _ _ 69 (by omega) (by decide) x).symm; kpay_simp
      refine List.forall_mem_cons.2 ⟨?_, ?_⟩
      · intro x; refine Eq.trans ?_ (blendBlk_idx _ _ _ 68 (by omega) (by decide) x).symm; kpay_simp
      refine List.forall_mem_cons.2 ⟨?_, ?_⟩
      · intro x; refine Eq.trans ?_ (blendBlk_idx _ _ _ 67 (by omega) (by decide) x).symm; kpay_simp
      refine List.forall_mem_cons.2 ⟨?_, ?_⟩
      · intro x; refine Eq.trans ?_ (blendBlk_idx _ _ _ 66 (by omega) (by decide) x).symm; kpay_simp
      refine List.forall_mem_cons.2 ⟨?_, ?_⟩
      · intro x; refine Eq.trans ?_ (blendBlk_idx _ _ _ 65 (by omega) (by decide) x).symm; kpay_simp
      refine List.forall_mem_cons.2 ⟨?_, ?_⟩
      · intro x; refine Eq.trans ?_ (blendBlk_idx _ _ _ 64 (by omega) (by decide) x).symm; kpay_simp
      refine List.forall_mem_cons.2 ⟨?_, ?_⟩
      · intro x; refine Eq.trans ?_ (blendBlk_idx _ _ _ 63 (by omega) (by decide) x).symm; kpay_simp
      refine List.forall_mem_cons.2 ⟨?_, ?_⟩
      · intro x; refine Eq.trans ?_ (blendBlk_idx _ _ _ 62 (by omega) (by decide) x).symm; kpay_simp
      refine List.forall_mem_cons.2 ⟨?_, ?_⟩
      · intro x; refine Eq.trans ?_ (blendBlk_idx _ _ _ 61 (by omega) (by decide) x).symm; kpay_simp
      refine List.forall_mem_cons.2 ⟨?_, ?_⟩
      · intro x; refine Eq.trans ?_ (blendBlk_idx _ _ _ 60 (by omega) (by decide) x).symm; kpay_simp
      refine List.forall_mem_cons.2 ⟨?_, ?_⟩
      · intro x; refine Eq.trans ?_ (blendBlk_idx _ _ _ 59 (by omega) (by decide) x).symm; kpay_simp
      refine List.forall_mem_cons.2 ⟨?_, ?_⟩
      · intro x; refine Eq.trans ?_ (blendBlk_idx _ _ _ 58 (by omega) (by decide) x).symm; kpay_simp
      refine List.forall_mem_cons.2 ⟨?_, ?_⟩
      · intro x; refine Eq.trans ?_ (blendBlk_idx _ _ _ 57 (by omega) (by decide) x).symm; kpay_simp
      refine List.forall_mem_cons.2 ⟨?_, ?_⟩
      · intro x; refine Eq.trans ?_ (blendBlk_idx _ _ _ 56 (by omega) (by decide) x).symm; kpay_simp
      refine List.forall_mem_cons.2 ⟨?_, ?_⟩
      · intro x; refine Eq.trans ?_ (blendBlk_idx _ _ _ 55 (by omega) (by decide) x).symm; kpay_simp
      refine List.forall_mem_cons.2 ⟨?_, ?_⟩
      · intro x; refine Eq.trans ?_ (blendBlk_idx _ _ _ 54 (by omega) (by decide) x).symm; kpay_simp
      refine List.forall_mem_cons.2 ⟨?_, ?_⟩
      · intro x; refine Eq.trans ?_ (blendBlk_idx _ _ _ 53 (by omega) (by decide) x).symm; kpay_simp
      refine List.forall_mem_cons.2 ⟨?_, ?_⟩
      · intro x; refine Eq.trans ?_ (blendBlk_idx _ _ _ 52 (by omega) (by decide) x).symm; kpay_simp
      refine List.forall_mem_cons.2 ⟨?_, ?_⟩
      · intro x; refine Eq.trans ?_ (blendBlk_idx _ _ _ 51 (by omega) (by decide) x).symm; kpay_simp
      refine List.forall_mem_cons.2 ⟨?_, ?_⟩
      · intro x; refine Eq.trans ?_ (blendBlk_idx _ _ _ 50 (by omega) (by decide) x).symm; kpay_simp
      refine List.forall_mem_cons.2 ⟨?_, ?_⟩
      · intro x; refine Eq.trans ?_ (blendBlk_idx _ _ _ 49 (by omega) (by decide) x).symm; kpay_simp
      refine List.forall_mem_cons.2 ⟨?_, ?_⟩
      · intro x; refine Eq.trans ?_ (blendBlk_idx _ _ _ 48 (by omega) (by decide) x).symm; kpay_simp
      refine List.forall_mem_cons.2 ⟨?_, ?_⟩
      · intro x; refine Eq.trans ?_ (blendBlk_idx _ _ _ 47 (by omega) (by decide) x).symm; kpay_simp
      refine List.forall_mem_cons.2 ⟨?_, ?_⟩
      · intro x; refine Eq.trans ?_ (blendBlk_idx _ _ _ 46 (by omega) (by decide) x).symm; kpay_simp
      refine List.forall_mem_cons.2 ⟨?_, ?_⟩
      · intro x; refine Eq.trans ?_ (blendBlk_idx _ _ _ 45 (by omega) (by decide) x).symm; kpay_simp
      refine List.forall_mem_cons.2 ⟨?_, ?_⟩
      · intro x; refine Eq.trans ?_ (blendBlk_idx _ _ _ 44 (by omega) (by decide) x).symm; kpay_simp
      refine List.forall_mem_cons.2 ⟨?_, ?_⟩
      · intro x; refine Eq.trans ?_ (blendBlk_idx _ _ _ 43 (by omega) (by decide) x).symm; kpay_simp
      refine List.forall_mem_cons.2 ⟨?_, ?_⟩
      · intro x; refine Eq.trans ?_ (blendBlk_idx _ _ _ 42 (by omega) (by decide) x).symm; kpay_simp
      refine List.forall_mem_cons.2 ⟨?_, ?_⟩
      · intro x; refine Eq.trans ?_ (blendBlk_idx _ _ _ 41 (by omega) (by decide) x).symm; kpay_simp
      refine List.forall_mem_cons.2 ⟨?_, ?_⟩
      · intro x; refine Eq.trans ?_ (blendBlk_idx _ _ _ 40 (by omega) (by decide) x).symm; kpay_simp
      refine List.forall_mem_cons.2 ⟨?_, ?_⟩
      · intro x; refine Eq.trans ?_ (blendBlk_idx _ _ _ 39 (by omega) (by decide) x).symm; kpay_simp
      refine List.forall_mem_cons.2 ⟨?_, ?_⟩
      · intro x; refine Eq.trans ?_ (blendBlk_idx _ _ _ 38 (by omega) (by decide) x).symm; kpay_simp
      refine List.forall_mem_cons.2 ⟨?_, ?_⟩
      · intro x; refine Eq.trans ?_ (blendBlk_idx _ _ _ 37 (by omega) (by decide) x).symm; kpay_simp
      refine List.forall_mem_cons.2 ⟨?_, ?_⟩
      · intro x; refine Eq.trans ?_ (blendBlk_idx _ _ _ 36 (by omega) (by decide) x).symm; kpay_simp
      refine List.forall_mem_cons.2 ⟨?_, ?_⟩
      · intro x; refine Eq.trans ?_ (blendBlk_idx _ _ _ 35 (by omega) (by decide) x).symm; kpay_simp
      refine List.forall_mem_cons.2 ⟨?_, ?_⟩
      · intro x; refine Eq.trans ?_ (blendBlk_idx _ _ _ 34 (by omega) (by decide) x).symm; kpay_simp
      refine List.forall_mem_cons.2 ⟨?_, ?_⟩
      · intro x; refine Eq.trans ?_ (blendBlk_idx _ _ _ 33 (by omega) (by decide) x).symm; kpay_simp
      refine List.forall_mem_cons.2 ⟨?_, ?_⟩
      · intro x; refine Eq.trans ?_ (blendBlk_idx _ _ _ 32 (by omega) (by decide) x).symm; kpay_simp
      refine List.forall_mem_cons.2 ⟨?_, ?_⟩
      · intro x; refine Eq.trans ?_ (blendBlk_idx _ _ _ 31 (by omega) (by decide) x).symm; kpay_simp
      refine List.forall_mem_cons.2 ⟨?_, ?_⟩
      · intro x; refine Eq.trans ?_ (blendBlk_idx _ _ _ 30 (by omega) (by decide) x).symm; kpay_simp
      refine List.forall_mem_cons.2 ⟨?_, ?_⟩
      · intro x; refine Eq.trans ?_ (blendBlk_idx _ _ _ 29 (by omega) (by decide) x).symm; kpay_simp
      refine List.forall_mem_cons.2 ⟨?_, ?_⟩
      · intro x; refine Eq.trans ?_ (blendBlk_idx _ _ _ 28 (by omega) (by decide) x).symm; kpay_simp
      refine List.forall_mem_cons.2 ⟨?_, ?_⟩
      · intro x; refine Eq.trans ?_ (blendBlk_idx _ _ _ 27 (by omega) (by decide) x).symm; kpay_simp
      refine List.forall_mem_cons.2 ⟨?_, ?_⟩
      · intro x; refine Eq.trans ?_ (blendBlk_idx _ _ _ 26 (by omega) (by decide) x).symm; kpay_simp
      refine List.forall_mem_cons.2 ⟨?_, ?_⟩
      · intro x; refine Eq.trans ?_ (blendBlk_idx _ _ _ 25 (by omega) (by decide) x).symm; kpay_simp
      refine List.forall_mem_cons.2 ⟨?_, ?_⟩
      · intro x; refine Eq.trans ?_ (blendBlk_idx _ _ _ 24 (by omega) (by decide) x).symm; kpay_simp
      refine List.forall_mem_cons.2 ⟨?_, ?_⟩
      · intro x; refine Eq.trans ?_ (blendBlk_idx _ _ _ 23 (by omega) (by decide) x).symm; kpay_simp
      refine List.forall_mem_cons.2 ⟨?_, ?_⟩
      · intro x; refine Eq.trans ?_ (blendBlk_idx _ _ _ 22 (by omega) (by decide) x).symm; kpay_simp
      refine List.forall_mem_cons.2 ⟨?_, ?_⟩
      · intro x; refine Eq.trans ?_ (blendBlk_idx _ _ _ 21 (by omega) (by decide) x).symm; kpay_simp
      refine List.forall_mem_cons.2 ⟨?_, ?_⟩
      · intro x; refine Eq.trans ?_ (blendBlk_idx _ _ _ 20 (by omega) (by decide) x).symm; kpay_simp
      refine List.forall_mem_cons.2 ⟨?_, ?_⟩
      · intro x; refine Eq.trans ?_ (blendBlk_idx _ _ _ 19 (by omega) (by decide) x).symm; kpay_simp
      refine List.forall_mem_cons.2 ⟨?_, ?_⟩
      · intro x; refine Eq.trans ?_ (blendBlk_idx _ _ _ 18 (by omega) (by decide) x).symm; kpay_simp
      refine List.forall_mem_cons.2 ⟨?_, ?_⟩
      · intro x; refine Eq.trans ?_ (blendBlk_idx _ _ _ 17 (by omega) (by decide) x).symm; kpay_simp
      refine List.forall_mem_cons.2 ⟨?_, ?_⟩
      · intro x; refine Eq.trans ?_ (blendBlk_idx _ _ _ 16 (by omega) (by decide) x).symm; kpay_simp
      refine List.forall_mem_cons.2 ⟨?_, ?_⟩
      · intro x; refine Eq.trans ?_ (blendBlk_idx _ _ _ 15 (by omega) (by decide) x).symm; kpay_simp
      refine List.forall_mem_cons.2 ⟨?_, ?_⟩
      · intro x; refine Eq.trans ?_ (blendBlk_idx _ _ _ 14 (by omega) (by decide) x).symm; kpay_simp
      refine List.forall_mem_cons.2 ⟨?_, ?_⟩
      · intro x; refine Eq.trans ?_ (blendBlk_idx _ _ _ 13 (by omega) (by decide) x).symm; kpay_simp
      refine List.forall_mem_cons.2 ⟨?_, ?_⟩
      · intro x; refine Eq.trans ?_ (blendBlk_idx _ _ _ 12 (by omega) (by decide) x).symm; kpay_simp
      refine List.forall_mem_cons.2 ⟨?_, ?_⟩
      · intro x; refine Eq.trans ?_ (blendBlk_idx _ _ _ 11 (by omega) (by decide) x).symm; kpay_simp
      refine List.forall_mem_cons.2 ⟨?_, ?_⟩
      · intro x; refine Eq.trans ?_ (blendBlk_idx _ _ _ 10 (by omega) (by decide) x).symm; kpay_simp
      refine List.forall_mem_cons.2 ⟨?_, ?_⟩
      · intro x; refine Eq.trans ?_ (blendBlk_idx _ _ _ 9 (by omega) (by decide) x).symm; kpay_simp
      refine List.forall_mem_cons.2 ⟨?_, ?_⟩
      · intro x; refine Eq.trans ?_ (blendBlk_idx _ _ _ 8 (by omega) (by decide) x).symm; kpay_simp
      refine List.forall_mem_cons.2 ⟨?_, ?_⟩
      · intro x; refine Eq.trans ?_ (blendBlk_idx _ _ _ 7 (by omega) (by decide) x).symm; kpay_simp
      refine List.forall_mem_cons.2 ⟨?_, ?_⟩
      · intro x; refine Eq.trans ?_ (blendBlk_idx _ _ _ 6 (by omega) (by decide) x).symm; kpay_simp
      refine List.forall_mem_cons.2 ⟨?_, ?_⟩
      · intro x; refine Eq.trans ?_ (blendBlk_idx _ _ _ 5 (by omega) (by decide) x).symm; kpay_simp
      refine List.forall_mem_cons.2 ⟨?_, ?_⟩
      · intro x; refine Eq.trans ?_ (blendBlk_idx _ _ _ 4 (by omega) (by decide) x).symm; kpay_simp
      refine List.forall_mem_cons.2 ⟨?_, ?_⟩
      · intro x; refine Eq.trans ?_ (blendBlk_idx _ _ _ 3 (by omega) (by decide) x).symm; kpay_simp
      refine List.forall_mem_cons.2 ⟨?_, ?_⟩
      · intro x; refine Eq.trans ?_ (blendBlk_idx _ _ _ 2 (by omega) (by decide) x).symm; kpay_simp
      refine List.forall_mem_cons.2 ⟨?_, ?_⟩
      · intro x; refine Eq.trans ?_ (blendBlk_idx _ _ _ 1 (by omega) (by decide) x).symm; kpay_simp
      refine List.forall_mem_cons.2 ⟨?_, ?_⟩
      · intro x; refine Eq.trans ?_ (blendBlk_idx _ _ _ 0 (by omega) (by decide) x).symm; kpay_simp
      exact fun _ h => absurd h List.not_mem_nil
  isplitl [H6]
  · iexists _; isplitr
    swap; · iexact H6
    ipureintro
    sl_delta
    rw [hW1, hW0, hW2]
    funext y
    refine View.read_writes_apply_of_pieces _ _ (gateS x1 x0 x2) _ ?p7 y ?c7
    case c7 => exact ⟨_, List.mem_singleton_self _, View.mem_set_unit_zero hz2 inb_S1x128_S1x128_0_0 y⟩
    case p7 =>
      refine List.forall_mem_cons.2 ⟨?_, fun _ h => absurd h List.not_mem_nil⟩
      intro x
      exact (congrFun (View.ld_unit_zero hz2 inb_S1x128_S1x128_0_0 (gateS x1 x0 x2)) x).symm
  · iexists _; isplitr
    swap; · iexact H7
    ipureintro
    sl_delta
    funext y
    refine View.read_writes_apply_of_pieces _ _ (mtS x4) _ ?p8 y ?c8
    case c8 => exact View.cover_of_tiledL (s := S7x128x112) _ S1x128x112.size (by sl_kernel_rfl) y
    case p8 =>
      refine List.forall_mem_cons.2 ⟨?_, ?_⟩
      · intro x; refine Eq.trans ?_ (mtS_idx _ 6 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 5 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 4 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 3 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 2 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 1 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 0 (by omega) (by decide) (by decide) x).symm; simp only [k1_pay4, k1_pay5, k1_pay6, k1_pay7, k1_pay8, k1_pay9, k1_pay10]; refine (tr_at _ _ _ _ x).trans ?_; exact harg5.readAt_unread x4 _ _
      exact fun _ h => absurd h List.not_mem_nil

end Cert.Proof.KB

end
-- ==== Proof.KBRegionDat.lean ====
/-
  The proof data of the TensorCore call's pipeline on one device: the arrays as the call finds them, what each
  window's staging buffer holds after the body at each grid point, the two scratches between points, and the body
  obligation at every point.
-/
import proofs.«207473_g17575006175289_fold_wed_c4_317_29_alg».proof.Proof.KBCommon
import Idealize.ShloMosaic.Lib.WholeRead
import proofs.«207473_g17575006175289_fold_wed_c4_317_29_alg».proof.Proof.KBRegionRunA
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : Valuation τ sig (Elt F)) (W : Waits sig (HIx 1))

/-- Device `d`'s TensorCore buffers when the call is entered. -/
abbrev Vtc (d : Dev nD) (b : Ref sig .tc) : Buf (Elt F) ((d.tc : Thread nD τ).loc b) := V b

/-- Window `w`'s block at point `t`, read off its array as the call finds it. -/
def iblk (d : Dev nD) (w : Fin cfg1.W) (t : Fin cfg1.N) : ((cfg1.win w).xblock (cfg1.grid.coords t)).Idx → Elt F (cfg1.win w).elt :=
  ((cfg1.win w).blk t).view.read (Elt F) (Vtc V d (Pipeline.arrRef spec1 w))

/-- What the first point leaves in the two scratches: the gate, and the mask's tiles transposed. -/
def gateV (d : Dev nD) : Vec F S1x128 .f32 := gateS (iblk V d 1 t1_0) (iblk V d 0 t1_0) (iblk V d 2 t1_0)
def mtV (d : Dev nD) : Vec F S7x128x112 .f32 := mtS (iblk V d 4 t1_0)

/-- The input block at point `t` as a whole staging buffer: the block's rows inside the array, a fixed word past them. -/
def xblk (d : Dev nD) (t : Fin cfg1.N) : S14336x128.Idx → Elt F .f32 :=
  win1_3.fill (grid1.coords t) (fun _ => Scalar.ofBits .f32 0#32) (iblk V d 3 t)

/-- The result block at point `t`. -/
def outBlk (d : Dev nD) (t : Fin cfg1.N) : S14336x128.Idx → Elt F .f32 :=
  blendBlk (gateV V d) (mcols (mtV V d) (grid1.coords t)) (xblk V d t)

/-- The two scratches at what the first point leaves in them. -/
def scr (d : Dev nD) : sProp 𝕄 :=
  iprop(owns (d : Thread nD τ) (Memref.whole cc1_scratch0) fullShare (gateV V d) ∗ owns (d : Thread nD τ) (Memref.whole cc1_scratch1) fullShare (mtV V d))

/-- The proof data: the inputs' buffers keep their blocks, the result's holds the blend; between points the scratches
    hold the gate and the transposed mask (before the first point, anything); nothing owed; full shares. -/
def rdat (d : Dev nD) : Dat τ (Elt F) (HIx 1) ℕ UU ℕ cfg1 d where
  A w := Vtc V d (Pipeline.arrRef spec1 w)
  after w t := match w with
    | ⟨0, _⟩ => iblk V d 0 t
    | ⟨1, _⟩ => iblk V d 1 t
    | ⟨2, _⟩ => iblk V d 2 t
    | ⟨3, _⟩ => xblk V d t
    | ⟨4, _⟩ => iblk V d 4 t
    | ⟨5, _⟩ => outBlk V d t
  Φ t := if t.val = 0 then Pipeline.scopedRest spec1 d else scr V d
  q _ := fullShare
  owed _ := 0
  recorded _ := (↑W : Set (SemLoc sig × HIx 1))

theorem A_eq (d : Dev nD) (w : Fin cfg1.W) : (rdat V W d).A w = Vtc V d (Pipeline.arrRef spec1 w) := by dsimp only [rdat]
theorem after_0 (d : Dev nD) (t : Fin cfg1.N) : (rdat V W d).after 0 t = iblk V d 0 t := by dsimp only [rdat]
theorem after_1 (d : Dev nD) (t : Fin cfg1.N) : (rdat V W d).after 1 t = iblk V d 1 t := by dsimp only [rdat]
theorem after_2 (d : Dev nD) (t : Fin cfg1.N) : (rdat V W d).after 2 t = iblk V d 2 t := by dsimp only [rdat]
theorem after_3 (d : Dev nD) (t : Fin cfg1.N) : (rdat V W d).after 3 t = xblk V d t := by dsimp only [rdat]
theorem after_4 (d : Dev nD) (t : Fin cfg1.N) : (rdat V W d).after 4 t = iblk V d 4 t := by dsimp only [rdat]
theorem after_5 (d : Dev nD) (t : Fin cfg1.N) : (rdat V W d).after 5 t = outBlk V d t := by dsimp only [rdat]

/-- Each whole-array input's staging buffer holds its block at every point, fetched there or not. -/
theorem before_0 (d : Dev nD) (t : Fin cfg1.N) (x) : (rdat V W d).before 0 t x = iblk V d 0 t :=
  ((rdat V W d).before_in_eq_fetched 0 rfl (fun _ => rfl) (fun _ _ _ => rfl) (fun t => by rw [after_0]; unfold Dat.blockOf iblk; rw [A_eq]; try rfl) t x).trans
    (by unfold Dat.fetched Dat.blockOf iblk; rw [A_eq]; try rfl)
theorem before_1 (d : Dev nD) (t : Fin cfg1.N) (x) : (rdat V W d).before 1 t x = iblk V d 1 t :=
  ((rdat V W d).before_in_eq_fetched 1 rfl (fun _ => rfl) (fun _ _ _ => rfl) (fun t => by rw [after_1]; unfold Dat.blockOf iblk; rw [A_eq]; try rfl) t x).trans
    (by unfold Dat.fetched Dat.blockOf iblk; rw [A_eq]; try rfl)
theorem before_2 (d : Dev nD) (t : Fin cfg1.N) (x) : (rdat V W d).before 2 t x = iblk V d 2 t :=
  ((rdat V W d).before_in_eq_fetched 2 rfl (fun _ => rfl) (fun _ _ _ => rfl) (fun t => by rw [after_2]; unfold Dat.blockOf iblk; rw [A_eq]; try rfl) t x).trans
    (by unfold Dat.fetched Dat.blockOf iblk; rw [A_eq]; try rfl)
theorem before_4 (d : Dev nD) (t : Fin cfg1.N) (x) : (rdat V W d).before 4 t x = iblk V d 4 t :=
  ((rdat V W d).before_in_eq_fetched 4 rfl (fun _ => rfl) (fun _ _ _ => rfl) (fun t => by rw [after_4]; unfold Dat.blockOf iblk; rw [A_eq]; try rfl) t x).trans
    (by unfold Dat.fetched Dat.blockOf iblk; rw [A_eq]; try rfl)

/-- The input block's buffer, fetched at every point: the block on the rows inside the array, what it held elsewhere. -/
theorem before_3 (d : Dev nD) (t : Fin cfg1.N) (x) : (rdat V W d).before 3 t x = win1_3.fill (grid1.coords t) x (iblk V d 3 t) := by
  unfold Dat.before; rw [if_pos (fetch1_3 t)]; unfold Dat.fetched Dat.blockOf iblk; rw [A_eq]; try rfl

theorem fetch1_5 : ∀ t : Fin cfg1.N, (cfg1.win 5).fetch t = false :=
  (by decide +kernel : ∀ t : Fin grid1.N, win1_5.fetch t = false)

/-- The result's buffer at contents nothing names: never fetched, written back at every point. -/
theorem before_5 (d : Dev nD) (t : Fin cfg1.N) (x) : (rdat V W d).before 5 t x = x := by
  unfold Dat.before
  rw [if_neg (by rw [fetch1_5 t]; exact Bool.false_ne_true)]
  by_cases h0 : t.val = 0
  · rw [if_pos h0]
  · rw [if_neg h0]; exact if_pos (flush1_5 _)

/-- Past the array's end the blend reads only the input buffer's own rows: two input buffers that agree inside the
    array give result buffers that agree there. -/
theorem cut_blend (v3 : S1x128.Idx → F .f32) (v6 : S128x112.Idx → F .f32) (i : grid1.Coords) (x x' : S14336x128.Idx → Elt F .f32)
    (g : (win1_3.xblock i).Idx → Elt F .f32) :
    win1_5.cut i (blendBlk v3 v6 (win1_3.fill i x g)) = win1_5.cut i (blendBlk v3 v6 (win1_3.fill i x' g)) := by
  funext j
  have e : win1_3.fill i x g (win1_3.xinj i j) = win1_3.fill i x' g (win1_3.xinj i j) :=
    (win1_3.fill_xinj i x g j).trans (win1_3.fill_xinj i x' g j).symm
  show blendBlk v3 v6 (win1_3.fill i x g) (win1_3.xinj i j) = blendBlk v3 v6 (win1_3.fill i x' g) (win1_3.xinj i j)
  unfold blendBlk
  simp only [e]

/-! ## The body obligation -/

/-- What the body is called with at point `t`, the windows one by one, -/
def bodyPre (d : Dev nD) (t : Fin cfg1.N) : sProp 𝕄 :=
  iprop((rdat V W d).Φ t.castSucc ∗ (rdat V W d).owesAt (none : HIx 1) t.castSucc
    ∗ (∃ x, owns (d : Thread nD τ) (win1_0.stage (cfg1.slots t 0)) fullShare ((rdat V W d).before 0 t x))
    ∗ (∃ x, owns (d : Thread nD τ) (win1_1.stage (cfg1.slots t 1)) fullShare ((rdat V W d).before 1 t x))
    ∗ (∃ x, owns (d : Thread nD τ) (win1_2.stage (cfg1.slots t 2)) fullShare ((rdat V W d).before 2 t x))
    ∗ (∃ x, owns (d : Thread nD τ) (win1_3.stage (cfg1.slots t 3)) fullShare ((rdat V W d).before 3 t x))
    ∗ (∃ x, owns (d : Thread nD τ) (win1_4.stage (cfg1.slots t 4)) fullShare ((rdat V W d).before 4 t x))
    ∗ (∃ x, owns (d : Thread nD τ) (win1_5.stage (cfg1.slots t 5)) fullShare ((rdat V W d).before 5 t x)))

/-- and what it returns: the two clipped windows' buffers stated on the rows inside the array. -/
def bodyPost (d : Dev nD) (t : Fin cfg1.N) : sProp 𝕄 :=
  iprop((rdat V W d).Φ t.succ ∗ (rdat V W d).owesAt (none : HIx 1) t.succ
    ∗ owns (d : Thread nD τ) (win1_0.stage (cfg1.slots t 0)) fullShare ((rdat V W d).after 0 t)
    ∗ owns (d : Thread nD τ) (win1_1.stage (cfg1.slots t 1)) fullShare ((rdat V W d).after 1 t)
    ∗ owns (d : Thread nD τ) (win1_2.stage (cfg1.slots t 2)) fullShare ((rdat V W d).after 2 t)
    ∗ (∃ x, owns (d : Thread nD τ) (win1_3.stage (cfg1.slots t 3)) fullShare (win1_3.fill (grid1.coords t) x (win1_3.cut (grid1.coords t) ((rdat V W d).after 3 t))))
    ∗ owns (d : Thread nD τ) (win1_4.stage (cfg1.slots t 4)) fullShare ((rdat V W d).after 4 t)
    ∗ (∃ x, owns (d : Thread nD τ) (win1_5.stage (cfg1.slots t 5)) fullShare (win1_5.fill (grid1.coords t) x (win1_5.cut (grid1.coords t) ((rdat V W d).after 5 t)))))

theorem Φ_zero (d : Dev nD) (t : Fin (cfg1.N + 1)) (h : t.val = 0) : (rdat V W d).Φ t = Pipeline.scopedRest spec1 d := by
  dsimp only [rdat]; exact if_pos h
theorem Φ_pos (d : Dev nD) (t : Fin (cfg1.N + 1)) (h : ¬t.val = 0) : (rdat V W d).Φ t = scr V d := by
  dsimp only [rdat]; exact if_neg h

set_option maxHeartbeats 1600000 in
/-- The body at any point: at the first, the scratches are filled and read back; at a later one, they hold what the
    first left; either way the result's buffer ends at the blend on the rows inside the array. -/
theorem sound_body (d : Dev nD) (t : Fin cfg1.N) :
    bodyPre V W d t ⊢ wp frame (wpE (defs₀ (F := F)) Variants.none d none) Set.univ (bodyAt1 t) (fun _ => bodyPost V W d t) := by
  unfold bodyPre bodyPost bodyAt1
  simp only [before_0, before_1, before_2, before_3, before_4, before_5]
  rw [show (rdat V W d).owesAt (none : HIx 1) t.succ = (rdat V W d).owesAt (none : HIx 1) t.castSucc from rfl,
    after_0, after_1, after_2, after_3, after_4, after_5]
  have hN : t.val < 7 := lt_of_lt_of_eq t.isLt (show cfg1.N = 7 from N_1)
  have hcut3 : win1_3.cut (grid1.coords t) (xblk V d t) = iblk V d 3 t := win1_3.cut_fill _ _ _
  by_cases h0 : t.val % 7 = 0
  · have ht0 : t.val = 0 := by omega
    obtain rfl : t = t1_0 := Fin.ext ht0
    rw [Φ_zero V W d _ rfl, Φ_pos V W d t1_0.succ (by decide), scopedRest1_eq]
    iintro ⟨⟨⟨%g0, Hs0⟩, ⟨%g1, Hs1⟩⟩, Ho, ⟨%d0, H0⟩, ⟨%d1, H1⟩, ⟨%d2, H2⟩, ⟨%d3, H3⟩, ⟨%d4, H4⟩, ⟨%d5, H5⟩⟩
    iapply (runA d (grid1.coords t1_0) _ _ _ _ _ _ _ _ _ _ _ _ _ _ _ _ ((hcond1_0 t1_0).mpr h0)
      (iblk V d 0 t1_0) (iblk V d 1 t1_0) (iblk V d 2 t1_0) (win1_3.fill (grid1.coords t1_0) d3 (iblk V d 3 t1_0)) (iblk V d 4 t1_0) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs0]
    · iexists g0; rw [owns_whole_eq]; iexists g0; isplitr; · ipureintro; rfl
      iexact Hs0
    isplitl [Hs1]
    · iexists g1; rw [owns_whole_eq]; iexists g1; isplitr; · ipureintro; rfl
      iexact Hs1
    iintro ⟨H0, H1, H2, H3, H4, H5, H6, H7⟩
    isplitl [H6 H7]
    · unfold scr gateV mtV; isplitl [H6]; · iexact H6
      iexact H7
    isplitl [Ho]; · iexact Ho
    isplitl [H0]; · iexact H0
    isplitl [H1]; · iexact H1
    isplitl [H2]; · iexact H2
    isplitl [H3]
    · iexists d3; rw [hcut3]; iexact H3
    isplitl [H4]; · iexact H4
    iexists _
    rw [win1_5.fill_congr_cut (grid1.coords t1_0) (show win1_5.cut (grid1.coords t1_0) (blendBlk (gateS (iblk V d 1 t1_0) (iblk V d 0 t1_0) (iblk V d 2 t1_0)) (mcols (mtS (iblk V d 4 t1_0)) (grid1.coords t1_0)) (win1_3.fill (grid1.coords t1_0) d3 (iblk V d 3 t1_0)))
        = win1_5.cut (grid1.coords t1_0) (outBlk V d t1_0) from cut_blend _ _ _ _ _ _)]
    iexact H5
  · have ht0 : ¬t.val = 0 := by omega
    rw [Φ_pos V W d t.castSucc ht0, Φ_pos V W d t.succ (Nat.succ_ne_zero _)]
    unfold scr
    iintro ⟨⟨Hs0, Hs1⟩, Ho, ⟨%d0, H0⟩, ⟨%d1, H1⟩, ⟨%d2, H2⟩, ⟨%d3, H3⟩, ⟨%d4, H4⟩, ⟨%d5, H5⟩⟩
    iapply (runB d (grid1.coords t) _ _ _ _ _ _ _ _ _ _ _ _ _ _ _ _ (fun h => h0 ((hcond1_0 t).mp h))
      (iblk V d 0 t) (iblk V d 1 t) (iblk V d 2 t) (win1_3.fill (grid1.coords t) d3 (iblk V d 3 t)) (iblk V d 4 t) (gateV V d) (mtV V d) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs0]; · iexact Hs0
    isplitl [Hs1]; · iexact Hs1
    iintro ⟨H0, H1, H2, H3, H4, H5, H6, H7⟩
    isplitl [H6 H7]
    · isplitl [H6]; · iexact H6
      iexact H7
    isplitl [Ho]; · iexact Ho
    isplitl [H0]; · iexact H0
    isplitl [H1]; · iexact H1
    isplitl [H2]; · iexact H2
    isplitl [H3]
    · iexists d3; rw [hcut3]; iexact H3
    isplitl [H4]; · iexact H4
    iexists _
    rw [win1_5.fill_congr_cut (grid1.coords t) (show win1_5.cut (grid1.coords t) (blendBlk (gateV V d) (mcols (mtV V d) (grid1.coords t)) (win1_3.fill (grid1.coords t) d3 (iblk V d 3 t)))
        = win1_5.cut (grid1.coords t) (outBlk V d t) from cut_blend _ _ _ _ _ _)]
    iexact H5

/-- The library's body obligation, at every point. -/
theorem body_obligation (d : Dev nD) : BodyObligationLoose (rdat V W d) (defs₀ (F := F)) Variants.none (none : HIx 1) Set.univ := fun t => by
  rw [bigSep_W1, bigSep_W1]
  exact sound_body V W d t

end Cert.Proof.KB

end
-- ==== Proof.KBRegion.lean ====
/-
  The TensorCore call as one step of the TensorCore thread's proof: the region record of the pipeline library
  (the layout, the body obligation, how the call's resources are sorted on entry and put back on exit), and the
  call's rule under the SparseCore program's table.
-/
import proofs.«207473_g17575006175289_fold_wed_c4_317_29_alg».proof.Proof.KBCommon
import Idealize.ShloMosaic.Lib.WholeRead
import proofs.«207473_g17575006175289_fold_wed_c4_317_29_alg».proof.Proof.KBRegionDat
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : Valuation τ sig (Elt F)) (W : Waits sig (HIx 1))

/-- What the write-backs leave in the windowed arrays: each input as it was, the result at the blend. -/
abbrev ArrFinal : Prop := ∀ (d : Dev nD) (w : Fin cfg1.W), (rdat V W d).arrAt w cfg1.N = VAfter V (Pipeline.arrRef spec1 w)

/-- The proof data of the program's one pipeline. -/
def dats (p : Fin 1) (d : Dev nD) : Dat τ (Elt F) (HIx 1) ℕ UU ℕ (Pipeline.pin (pcfgs (F := F)) (adm (F := F)) p) d := rdat V W d

theorem share_full (d : Dev nD) (w : Fin cfg1.W) : (rdat V W d).share w = fullShare := (rdat V W d).share_full (fun _ => rfl) w

/-- The valuation after the call agrees with the one before it off the result array. -/
theorem VAfter_ne (b : DevRef τ sig) (h : b ≠ Proc.devRef .tc main_v8) : VAfter V b = V b := by
  unfold VAfter; exact Function.update_of_ne h _ _

/-- What the core owes after the call: nothing; its recorded waits are those it had and the pipeline's own. -/
def owesAfter (d : Dev nD) : sProp 𝕄 :=
  iprop(∃ W' : Waits sig (HIx 1), ⌜∀ p ∈ W', p ∈ W ∨ p.2 = none⌝ ∗ owes (T d : Thread nD τ) 0 W')

/-- On exit: the windowed arrays after the write-backs and the other unscoped buffers are the unscoped buffers at the
    valuation after the call. -/
theorem exit_bufs (harr : ArrFinal V W) (d : Dev nD) :
    iprop((dats V W 0 d).arrays ((dats V W 0 d).arrAt · (Pipeline.pin (pcfgs (F := F)) (adm (F := F)) 0).N) ∗ Pipeline.unscopedRest spec1 d (fun b => V b))
      ⊢ (unscopedBufs d (fun b => VAfter V b) : sProp 𝕄) := by
  rw [Pipeline.unscopedBufs_split (Pipeline.pin (pcfgs (F := F)) (adm (F := F))) 0 winFacts1.arr_unscoped winFacts1.arr_inj d (fun b => VAfter V b),
    Pipeline.arrays_eq (Pipeline.pin (pcfgs (F := F)) (adm (F := F))) (dats V W) 0 d arr_whole1 (share_full V W d)]
  refine sep_mono (Entails.of_eq (bigSep_congr fun w _ => ?_)) (Entails.of_eq ?_)
  · exact congrArg _ (harr d w)
  · show Pipeline.unscopedRest spec1 d (fun b => V b) = Pipeline.unscopedRest spec1 d (fun b => VAfter V b)
    rw [unscopedRest1_eq, unscopedRest1_eq]
    rw [VAfter_ne V main_arg0 (by decide), VAfter_ne V main_arg1 (by decide), VAfter_ne V main_arg2 (by decide), VAfter_ne V main_arg4 (by decide),
      VAfter_ne V main_c (by decide), VAfter_ne V main_v0 (by decide), VAfter_ne V main_v1 (by decide), VAfter_ne V main_v2 (by decide),
      VAfter_ne V main_v4 (by decide), VAfter_ne V main_v9 (by decide), VAfter_ne V main_v10 (by decide)]

set_option maxHeartbeats 1600000 in
/-- The region record. -/
def seg (harr : ArrFinal V W) : Pipeline.RegionSeg (pcfgs (F := F)) (adm (F := F)) (dats V W) (none : HIx 1) (defs₀ (F := F)) 𝒱₀ (K (F := F)).L (K (F := F)).lev (0 : Fin 1) where
  win := winFacts1.to₀
  block_pos := block_pos1
  stage_whole := stage_whole1
  K := PEmpty
  osem := fun k => k.elim
  ho := Pipeline.OwnSemFacts.none _
  hbody := fun d => body_obligation V W d
  hwaits := Pipeline.hwaits_of_owed_zero (pcfgs (F := F)) (adm (F := F)) (dats V W) (none : HIx 1) (K (F := F)).L (K (F := F)).lev 0 (fun _ _ => rfl)
  pre := fun d => iprop(unscopedBufs d (fun b => V b) ∗ owes (T d : Thread nD τ) 0 W)
  post := fun d => iprop(unscopedBufs d (fun b => VAfter V b) ∗ owesAfter W d)
  X := fun _ => iprop(emp)
  Y := fun _ => iprop(emp)
  Z := fun d => Pipeline.unscopedRest spec1 d (fun b => V b)
  hentry := fun d => by
    iintro ⟨⟨Hb, Ho⟩, -, -⟩
    imodintro
    ihave Ha := (Pipeline.arrays_of_unscopedBufs (pcfgs (F := F)) (adm (F := F)) (dats V W) (p := 0) winFacts1 arr_whole1 d (share_full V W d) (fun b => V b) (fun w => A_eq V W d w)) $$ Hb
    icases Ha with ⟨Ha, Hr⟩
    isplitl [Ha]; · iexact Ha
    isplitr
    · unfold Pipeline.prefHeld; rw [Finset.univ_eq_empty, BI.bigSep_empty]; iempintro
    isplitl [Ho]
    · iexists W; isplitr
      · ipureintro; exact fun p hp => Or.inl hp
      iexact Ho
    isplitr; · iempintro
    iexact Hr
  hin := fun d => by
    show _ ⊢ (rdat V W d).Φ 0
    rw [Φ_zero V W d 0 rfl]
    iintro ⟨-, -, Hr⟩; iexact Hr
  hout := fun d => by
    show (rdat V W d).Φ (Fin.last cfg1.N) ⊢ _
    rw [Pipeline.ownSems0_none, Φ_pos V W d _ (by decide), scopedRest1_eq]
    unfold scr
    rw [owns_whole_eq, owns_whole_eq]
    iintro ⟨⟨%f0, -, H0⟩, ⟨%f1, -, H1⟩⟩
    isplitr; · iempintro
    isplitr; · iempintro
    isplitl [H0]; · iexists f0; iexact H0
    iexists f1; iexact H1
  hexit := fun d => by
    iintro ⟨Ha, Ho, -, Hr⟩
    imodintro
    isplitl [Ha Hr]
    · iapply (exit_bufs V W harr d)
      isplitl [Ha]; · iexact Ha
      iexact Hr
    · icases Ho with ⟨%W', %hW', Ho⟩
      unfold owesAfter
      iexists W'; isplitr
      · ipureintro
        intro p hp
        rcases hW' hp with h | ⟨w, s, rfl⟩
        · exact Or.inl h
        · exact Or.inr rfl
      iexact Ho

set_option backward.isDefEq.respectTransparency.types false in
/-- THE CALL. From the region boundary, the TensorCore's unscoped buffers at a valuation, the core owing nothing, the
    level facts and the pipeline's ghost state, the call runs to the boundary and the buffers at the valuation with the
    result array at the blend, the core owing nothing with its recorded waits its own and the pipeline's. -/
theorem region_wp_of (harr : ArrFinal V W) (d : Dev nD) {α : Type}
    (k : PUnit → Prog (TpuEff nD τ sig (Elt F) (SparseCore.Sig (ΛP (F := F)) 1) .tc) α) (Q : α → sProp 𝕄) :
    iprop((iprop(boundary (T d : Thread nD τ) ∗ StableHlo.held (T d : Thread nD τ) (Pipeline.ucRefs τ sig) (VAfter V)
              ∗ (∃ W' : Waits sig (HIx 1), ⌜∀ p ∈ W', p ∈ W ∨ p.2 = none⌝ ∗ owes (T d : Thread nD τ) 0 W'))
            -∗ wp frame (wpE ((K (F := F)).defs D) 𝒱 (T d : Thread nD τ) none) Set.univ (k ⟨⟩) Q)
        ∗ boundary (T d : Thread nD τ) ∗ StableHlo.held (T d : Thread nD τ) (Pipeline.ucRefs τ sig) V
        ∗ owes (T d : Thread nD τ) 0 W ∗ levAts (K (F := F)).L (K (F := F)).lev
        ∗ Pipeline.cellsGhost (Pipeline.pin (pcfgs (F := F)) (adm (F := F))) EP 0 d ∗ Pipeline.toksInit (Pipeline.pin (pcfgs (F := F)) (adm (F := F))) EP 0 d)
      ⊢ wp frame (wpE ((K (F := F)).defs D) 𝒱 (T d : Thread nD τ) none) Set.univ
          (.op (.customCall (SparseCore.inner (Pipeline.entry 0)) ()) k) Q := by
  rw [show (Prog.op (.customCall (SparseCore.inner (Pipeline.entry (0 : Fin 1))) ()) k
        : Prog (TpuEff nD τ sig (Elt F) (SparseCore.Sig (ΛP (F := F)) 1) .tc) α)
      = (SparseCore.liftProg (Q := 1) (Prog.op (.customCall (Pipeline.entry (0 : Fin 1)) ()) fun _ => .ret PUnit.unit)) >>= k from rfl,
    wp_bind]
  iintro ⟨Hk, Hbd, Hh, Ho, #Hla, Hg, Ht⟩
  iapply (wp_wand_r frame _ Set.univ)
  isplitr [Hk]
  · iapply ((K (F := F)).wp_liftProg D 𝒱 (T d) Set.univ none _ _)
    iapply (Pipeline.RegionSeg.wp (pcfgs (F := F)) (adm (F := F)) (dats V W) (none : HIx 1) cellOf_inj EP (defs₀ (F := F)) 𝒱₀ (K (F := F)).L (K (F := F)).lev
      (seg V W harr) d none (fun _ h => nomatch h) (fun _ => .ret PUnit.unit)
      (fun _ => iprop(boundary (T d : Thread nD τ) ∗ StableHlo.held (T d : Thread nD τ) (Pipeline.ucRefs τ sig) (VAfter V) ∗ owesAfter W d)))
    isplitr [Hbd Hh Ho Hg Ht]
    · iintro ⟨Hbd, Hpost⟩
      iapply (le_wp_ret frame _ Set.univ PUnit.unit _)
      isplitl [Hbd]; · iexact Hbd
      ihave Hp := (show (seg V W harr).post d ⊢ iprop(unscopedBufs d (fun b => VAfter V b) ∗ owesAfter W d) from BI.Entails.refl _) $$ Hpost
      icases Hp with ⟨Hb, Ho⟩
      isplitl [Hb]
      · rw [← Pipeline.unscopedBufs_held]; iexact Hb
      iexact Ho
    isplitl [Hbd]; · iexact Hbd
    isplitl [Hh Ho]
    · iapply (show iprop(unscopedBufs d (fun b => V b) ∗ owes (T d : Thread nD τ) 0 W) ⊢ (seg V W harr).pre d from BI.Entails.refl _)
      isplitl [Hh]
      · rw [Pipeline.unscopedBufs_held]; iexact Hh
      iexact Ho
    isplitr; · iexact Hla
    isplitl [Hg]; · iexact Hg
    iexact Ht
  · iintro %_ Hpost
    iapply Hk
    iexact Hpost

end Cert.Proof.KB

end
-- ==== Proof.KBRegionVal.lean ====
/-
  What the pipeline's write-backs leave in the result array: the blend of the five input arrays, entry by entry;
  every other windowed array as the call found it.
-/
import proofs.«207473_g17575006175289_fold_wed_c4_317_29_alg».proof.Proof.KBCommon
import Idealize.ShloMosaic.Lib.WholeRead
import proofs.«207473_g17575006175289_fold_wed_c4_317_29_alg».proof.Proof.KBRegionDat
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : Valuation τ sig (Elt F)) (W : Waits sig (HIx 1))

/-! ## The windows' blocks as entries of their arrays -/

theorem index_0 : ∀ (t : Fin grid1.N) (a : Fin 2), win1_0.index t a = 0 := by decide +kernel
theorem index_1 : ∀ (t : Fin grid1.N) (a : Fin 2), win1_1.index t a = 0 := by decide +kernel
theorem index_2 : ∀ (t : Fin grid1.N) (a : Fin 2), win1_2.index t a = 0 := by decide +kernel
theorem index_4 : ∀ (t : Fin grid1.N) (a : Fin 2), win1_4.index t a = 0 := by decide +kernel
theorem index_3 : ∀ (t : Fin grid1.N), win1_3.index t 0 = t.val ∧ win1_3.index t 1 = 0 := by decide +kernel
theorem index_5 : ∀ (t : Fin grid1.N), win1_5.index t 0 = t.val ∧ win1_5.index t 1 = 0 := by decide +kernel
theorem coords_0 : ∀ (t : Fin grid1.N), (grid1.coords t 0).val = t.val := by decide +kernel

/-- A whole-array window's block is the array. -/
theorem iblk_0 (d : Dev nD) (t : Fin cfg1.N) : iblk V d 0 t = V (Proc.devRef .tc main_v6) := by
  funext j
  show V (Proc.devRef .tc main_v6) ((win1_0.rect t).emb j) = V (Proc.devRef .tc main_v6) j
  congr 1; funext a; exact Fin.ext (win1_0.rect_emb_val_of_index_zero t a (index_0 t a) j)
theorem iblk_1 (d : Dev nD) (t : Fin cfg1.N) : iblk V d 1 t = V (Proc.devRef .tc main_arg3) := by
  funext j
  show V (Proc.devRef .tc main_arg3) ((win1_1.rect t).emb j) = V (Proc.devRef .tc main_arg3) j
  congr 1; funext a; exact Fin.ext (win1_1.rect_emb_val_of_index_zero t a (index_1 t a) j)
theorem iblk_2 (d : Dev nD) (t : Fin cfg1.N) : iblk V d 2 t = V (Proc.devRef .tc main_v7) := by
  funext j
  show V (Proc.devRef .tc main_v7) ((win1_2.rect t).emb j) = V (Proc.devRef .tc main_v7) j
  congr 1; funext a; exact Fin.ext (win1_2.rect_emb_val_of_index_zero t a (index_2 t a) j)
theorem iblk_4 (d : Dev nD) (t : Fin cfg1.N) : iblk V d 4 t = V (Proc.devRef .tc main_v3) := by
  funext j
  show V (Proc.devRef .tc main_v3) ((win1_4.rect t).emb j) = V (Proc.devRef .tc main_v3) j
  congr 1; funext a; exact Fin.ext (win1_4.rect_emb_val_of_index_zero t a (index_4 t a) j)

/-- The gate scratch holds the gate of the arrays. -/
theorem gateV_eq (d : Dev nD) : gateV V d = gate (V (Proc.devRef .tc main_v6)) (V (Proc.devRef .tc main_arg3)) (V (Proc.devRef .tc main_v7)) := by
  unfold gateV gateS k1_pay3 gate
  rw [iblk_0, iblk_1, iblk_2]
  simp only [shapeCast_self]

/-- The mask columns the body reads at block `i`, as entries of the mask scratch's source. -/
theorem mcols_mtS (x4 : Vec F S1024x128 .f32) (i : grid1.Coords) (a : Fin 128) (b : Fin 112) (h : 112 * (i 0).val + b.val < 1024) :
    mcols (mtS x4) i (ix2 a b) = x4 (ix2 (⟨112 * (i 0).val + b.val, h⟩ : Fin 1024) a) := by
  unfold mcols k1_pay11
  refine (shapeCast_dropUnit_apply ![128, 112] _ _ (ix2 a b)).trans ?_
  have h0 : k1_off1 i 0 = (i 0).val := congrFun (k1_off1_eq i) 0
  have h1 : k1_off1 i 1 = 0 := congrFun (k1_off1_eq i) 1
  have h2 : k1_off1 i 2 = 0 := congrFun (k1_off1_eq i) 2
  show mtS x4 ((Rect.unit (s := S7x128x112) (k1_off1 i) S1x128x112.size (Gen.k1_off1_inb i)).toLoadRect.idx (Fin.cons ⟨0, Nat.one_pos⟩ (ix2 a b))) = _
  unfold mtS
  congr 1
  funext a'
  match a' with
  | ⟨0, _⟩ => exact Fin.ext (by show 112 * (k1_off1 i 0 + 1 * 0) + (k1_off1 i 2 + 1 * b.val) = 112 * (i 0).val + b.val; rw [h0, h2]; omega)
  | ⟨1, _⟩ => exact Fin.ext (by show k1_off1 i 1 + 1 * a.val = a.val; rw [h1]; omega)

/-! ## The result array -/

/-- The blend of the arrays as `V` holds them. -/
abbrev outV : Vec F S100000x128 .f32 :=
  blendOut (V (Proc.devRef .tc main_v6)) (V (Proc.devRef .tc main_arg3)) (V (Proc.devRef .tc main_v7))
    (V (Proc.devRef .tc main_v5)) (V (Proc.devRef .tc main_v3))

/-- What each point writes back is its block of the blend. -/
theorem flushed_5 (d : Dev nD) (t : Fin cfg1.N) :
    (rdat V W d).flushed 5 t = ((cfg1.win 5).blk t).view.read (Elt F) (outV V) := by
  funext j
  have hN : t.val < 7 := lt_of_lt_of_eq t.isLt (show cfg1.N = 7 from N_1)
  have hj0 : (j 0).val < 14336 := lt_of_lt_of_le (j 0).isLt (win1_5.xsize_le (grid1.coords t) 0)
  -- the entry of the array under the block's index
  have hI0 : (((win1_5.rect t).emb j) 0).val = 14336 * t.val + (j 0).val := by
    rw [win1_5.rect_emb_val t j 0, (index_5 t).1]; show t.val * 14336 + _ = _; omega
  have hI1 : (((win1_5.rect t).emb j) 1).val = (j 1).val := by
    rw [win1_5.rect_emb_val t j 1, (index_5 t).2]; show 0 * 128 + _ = _; omega
  have h30 : (((win1_3.rect t).emb j) 0).val = 14336 * t.val + (j 0).val := by
    refine (win1_3.rect_emb_val t j 0).trans ?_
    rw [(index_3 t).1]; show t.val * 14336 + (j 0).val = _; omega
  have h31 : (((win1_3.rect t).emb j) 1).val = (j 1).val := by
    refine (win1_3.rect_emb_val t j 1).trans ?_
    rw [(index_3 t).2]; show 0 * 128 + (j 1).val = _; omega
  have hI3 : (win1_3.rect t).emb j = (win1_5.rect t).emb j := by
    funext a
    match a with
    | ⟨0, _⟩ => exact Fin.ext (h30.trans hI0.symm)
    | ⟨1, _⟩ => exact Fin.ext (h31.trans hI1.symm)
  show outBlk V d t (win1_3.xinj (grid1.coords t) j) = outV V ((win1_5.rect t).emb j)
  unfold outBlk outV blendBlk blendOut
  -- the input entry
  have hx : xblk V d t (win1_3.xinj (grid1.coords t) j) = V (Proc.devRef .tc main_v5) ((win1_5.rect t).emb j) := by
    unfold xblk
    refine (win1_3.fill_xinj (grid1.coords t) _ _ j).trans ?_
    show V (Proc.devRef .tc main_v5) ((win1_3.rect t).emb j) = _
    rw [hI3]
  -- the gate entry
  have hg : (ix2 (0 : Fin 1) ((win1_3.xinj (grid1.coords t) j) 1) : S1x128.Idx) = ix2 (0 : Fin 1) (((win1_5.rect t).emb j) 1) := by
    congr 1; exact Fin.ext hI1.symm
  -- the mask entry
  have hm : mcols (mtV V d) (grid1.coords t) (ix2 (⟨((win1_3.xinj (grid1.coords t) j) 0).val % 128, hr128 _⟩ : Fin 128) (⟨((win1_3.xinj (grid1.coords t) j) 0).val / 128, hq128 _⟩ : Fin 112))
      = V (Proc.devRef .tc main_v3) (ix2 (⟨(((win1_5.rect t).emb j) 0).val / 128, hrow _⟩ : Fin 1024) (⟨(((win1_5.rect t).emb j) 0).val % 128, hcol _⟩ : Fin 128)) := by
    unfold mtV
    rw [mcols_mtS _ _ _ _ (by show 112 * (grid1.coords t 0).val + (j 0).val / 128 < 1024; rw [coords_0 t]; omega), iblk_4]
    congr 1
    funext a
    match a with
    | ⟨0, _⟩ => exact Fin.ext (by show 112 * (grid1.coords t 0).val + (j 0).val / 128 = (((win1_5.rect t).emb j) 0).val / 128; rw [coords_0 t, hI0]; omega)
    | ⟨1, _⟩ => exact Fin.ext (by show (j 0).val % 128 = (((win1_5.rect t).emb j) 0).val % 128; rw [hI0]; omega)
  rw [hx, hg, hm, gateV_eq]
  rfl

/-- The points' blocks cover the array. -/
theorem cover_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 14336 < cfg1.N := by rw [show cfg1.N = 7 from N_1]; omega
  refine ⟨⟨(i 0).val / 14336, hlt⟩, flush1_5 _, ?_⟩
  show i ∈ ((View.whole main_v8).slice (win1_5.rect ⟨(i 0).val / 14336, hlt⟩)).set
  rw [View.set_slice_whole, Rect.mem_set_unit]
  intro a
  have hx : ∀ t : Fin grid1.N, win1_5.xsize (grid1.coords t) 0 = (if t.val = 6 then 13984 else 14336) ∧ win1_5.xsize (grid1.coords t) 1 = 128 := by decide +kernel
  match a with
  | ⟨0, _⟩ =>
    show win1_5.index ⟨(i 0).val / 14336, hlt⟩ 0 * 14336 ≤ (i 0).val ∧ (i 0).val < win1_5.index ⟨(i 0).val / 14336, hlt⟩ 0 * 14336 + win1_5.xsize (grid1.coords ⟨(i 0).val / 14336, hlt⟩) 0
    rw [(index_5 _).1, (hx _).1]
    show (i 0).val / 14336 * 14336 ≤ (i 0).val ∧ (i 0).val < (i 0).val / 14336 * 14336 + (if (i 0).val / 14336 = 6 then 13984 else 14336)
    split <;> omega
  | ⟨1, _⟩ =>
    show win1_5.index ⟨(i 0).val / 14336, hlt⟩ 1 * 128 ≤ (i 1).val ∧ (i 1).val < win1_5.index ⟨(i 0).val / 14336, hlt⟩ 1 * 128 + win1_5.xsize (grid1.coords ⟨(i 0).val / 14336, hlt⟩) 1
    rw [(index_5 _).2, (hx _).2]; omega

/-- The result array ends at the blend. -/
theorem arrAt_5 (d : Dev nD) : (rdat V W d).arrAt 5 cfg1.N = outV V :=
  (rdat V W d).arrAt_eq_of_cover 5 (outV V) (fun t _ => flushed_5 V W d t) (cover_5)

/-- Every windowed array after the call: an input as it was, the result at the blend. -/
theorem arrAt_final (d : Dev nD) (w : Fin cfg1.W) : (rdat V W d).arrAt w cfg1.N = VAfter V (Pipeline.arrRef spec1 w) := by
  have hne : ∀ b : DevRef τ sig, b ≠ Proc.devRef .tc main_v8 → VAfter V b = V b := fun b h => by
    unfold VAfter; exact Function.update_of_ne h _ _
  match w with
  | ⟨0, _⟩ => exact ((rdat V W d).arrAt_in 0 rfl _).trans (hne _ (by decide)).symm
  | ⟨1, _⟩ => exact ((rdat V W d).arrAt_in 1 rfl _).trans (hne _ (by decide)).symm
  | ⟨2, _⟩ => exact ((rdat V W d).arrAt_in 2 rfl _).trans (hne _ (by decide)).symm
  | ⟨3, _⟩ => exact ((rdat V W d).arrAt_in 3 rfl _).trans (hne _ (by decide)).symm
  | ⟨4, _⟩ => exact ((rdat V W d).arrAt_in 4 rfl _).trans (hne _ (by decide)).symm
  | ⟨5, _⟩ =>
    refine (arrAt_5 V W d).trans ?_
    unfold VAfter outV
    show _ = Function.update V (Proc.devRef .tc main_v8) _ (Proc.devRef .tc main_v8)
    rw [Function.update_self]

end Cert.Proof.KB

end
-- ==== Proof.KBClaims.lean ====
/-
  The program's run with the tile's task and the kernel region put in, and its two readings: the frame (the
  arguments end unchanged) and the named result.
-/
import proofs.«207473_g17575006175289_fold_wed_c4_317_29_alg».proof.Proof.KBCommon
import proofs.«207473_g17575006175289_fold_wed_c4_317_29_alg».proof.Proof.KBMain
import proofs.«207473_g17575006175289_fold_wed_c4_317_29_alg».proof.Proof.KBRun
import proofs.«207473_g17575006175289_fold_wed_c4_317_29_alg».proof.Proof.KBVals
import proofs.«207473_g17575006175289_fold_wed_c4_317_29_alg».proof.Proof.KBTile
import proofs.«207473_g17575006175289_fold_wed_c4_317_29_alg».proof.Proof.KBRegionDefs
import proofs.«207473_g17575006175289_fold_wed_c4_317_29_alg».proof.Proof.KBBlend
import proofs.«207473_g17575006175289_fold_wed_c4_317_29_alg».proof.Proof.KBRegion
import proofs.«207473_g17575006175289_fold_wed_c4_317_29_alg».proof.Proof.KBRegionVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]

theorem hinj_adm : Function.Injective (Pipeline.cellOf (nD := nD) (τ := τ) (Pipeline.pin (pcfgs (F := F)) adm)) := cellOf_inj

theorem hreg : RegionSpec (F := F) blendV (Gst adm) := fun d V W _ k Q => region_wp_of V W (fun d w => arrAt_final V W d w) d k Q

variable (m : (ℓ : Loc nD τ sig) → Buf (Elt F) ℓ) (ρ : Dev nD → PrngReg)

/-- Every weakly fair execution of the device's threads terminates, nothing faulting, every unscoped array at its
    composed contents. -/
theorem run [∀ e, Nonempty (Elt F e)] :
    θ_run (Cert.Kernel.defs (F := F)) (Cert.Kernel.threads (F := F)) ⟨m, fun _ => 0, ρ⟩ (QC m blendV) :=
  run_main adm hinj_adm m ρ blendV (tileObl (gpad m)) hreg

/-- The frame: the five arguments end as they began. -/
theorem frame_of_run [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.Kernel.defs (F := F)) _ _).mono (fun r h c =>
    ⟨(h c a0' (by decide)).trans (V5_a0 m blendV c), (h c a1' (by decide)).trans (V5_a1 m blendV c), (h c a2' (by decide)).trans (V5_a2 m blendV c),
      (h c a3' (by decide)).trans (V5_a3 m blendV c), (h c a4' (by decide)).trans (V5_a4 m blendV c)⟩) (run m ρ)

/-- The result named: the program's result array at its composed contents, beside the frame. -/
theorem value_of_run [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_v10) = V5 m blendV c v10'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.Kernel.defs (F := F)) _ _).mono (fun r h c =>
    ⟨h c v10' (by decide), (h c a0' (by decide)).trans (V5_a0 m blendV c), (h c a1' (by decide)).trans (V5_a1 m blendV c), (h c a2' (by decide)).trans (V5_a2 m blendV c),
      (h c a3' (by decide)).trans (V5_a3 m blendV c), (h c a4' (by decide)).trans (V5_a4 m blendV c)⟩) (run m ρ)

end Cert.Proof.KB

end
-- ==== Proof.KICommon.lean ====
/-
  Shared set-up for the idealized kernel's run: the program as the SparseCore launch theorem sees it, the ghost
  state (the handshakes' rounds beside the pipeline's rounds and the local transfers' counters), the mask as one
  function of the padded grammar words, and what the one SparseCore call hands its tiles and takes back.
-/
import proofs.«207473_g17575006175289_fold_wed_c4_317_29_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207473_g17575006175289_fold_wed_c4_317_29_alg».proof.Proof.Gen.KernelIdeal
import proofs.«207473_g17575006175289_fold_wed_c4_317_29_alg».proof.Proof.Gen.KernelIdeal.Skeleton
import proofs.«207473_g17575006175289_fold_wed_c4_317_29_alg».proof.Proof.Gen.KernelIdeal.Launch
import proofs.«207473_g17575006175289_fold_wed_c4_317_29_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev URC : Type := UP × Counters
abbrev UU : Type := UH × URC

/-- The handshakes' rounds: the left factor. -/
abbrev EH : Emb UH (MT nD τ sig (HIx 1) (Elt F) ℕ UU ℕ) := embL
/-- The pipeline's rounds: the left factor of the right factor. -/
def EP : Emb UP (MT nD τ sig (HIx 1) (Elt F) ℕ UU ℕ) :=
  ((Emb.inl : Emb UP URC).trans (Emb.inr : Emb URC UU)).trans (uEmb (nD := nD) (sig := sig) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by unfold EP; infer_instance

/-! ## The arrays -/

abbrev gLoc (d : Dev nD) : Loc nD τ sig := (SparseCore.T d).loc main_v2
abbrev kLoc (d : Dev nD) : Loc nD τ sig := (SparseCore.T d).loc main_v3

/-- The flat position of an entry of the [1024,128] mask. -/
def flat (j : S1024x128.Idx) : ℤ := ((j 0).val * 128 + (j 1).val : ℕ)

open Classical in
/-- The mask as one function of the padded words: one where some word, read signed, is the entry's flat position,
    zero elsewhere. -/
def maskOf [FloatOps F] (gp : S40x128.Idx → BitVec 32) : S1024x128.Idx → F .f32 :=
  fun j => if ∃ e, (gp e).toInt = flat j then Scalar.ofBits .f32 0x3F800000#32 else Scalar.ofBits .f32 0x00000000#32

/-- The read share of the words that tile `i` of SparseCore `c` is lent. -/
abbrev coreShare (c : Fin 2) : PosShare TreeShare := Transfers.shareTok fullShare 2 c
abbrev tileShare (c : Fin 2) (i : Fin 16) : PosShare TreeShare := Transfers.shareTok (coreShare c) 16 i

theorem hdiv32 : 32 ∣ S1024x128.size 0 := ⟨32, rfl⟩
/-- The rows of the mask that worker `w = 2 i + c` writes: block `w` of thirty-two. -/
abbrev wid (c : Fin 2) (i : Fin 16) : Fin 32 := ⟨2 * i.val + c.val, by omega⟩
abbrev rowsRect (w : Fin 32) : Rect S1024x128 := Rect.part (s := S1024x128) (a₀ := 0) hdiv32 w
abbrev rowsSet (w : Fin 32) : Finset S1024x128.Idx := ((Memref.whole main_v3_scv : Memref sig .scVector .hbm S1024x128 .f32).view.slice (rowsRect w)).set

/-! ## What the one SparseCore call carries -/

section Pay

variable [FloatOps F] (gp : (d : Dev nD) → Buf (Elt F) (gLoc d))

local notation "𝕄" => MT nD τ sig (HIx 1) (Elt F) ℕ UU ℕ

/-- What a tile is lent and handed: a read share of the padded words, and its thirty-two rows of the mask at
    whatever they hold. -/
def tileGo (d : Dev nD) (c : Fin 2) (i : Fin 16) : sProp 𝕄 :=
  iprop((gLoc d ↦{tileShare c i} gp d) ∗ ∃ f, kLoc d ↦[rowsSet (wid c i)]{fullShare} f)
/-- What it gives back: the share, and its rows at the mask of the words. -/
def tileTd (d : Dev nD) (c : Fin 2) (i : Fin 16) : sProp 𝕄 :=
  iprop((gLoc d ↦{tileShare c i} gp d) ∗ kLoc d ↦[rowsSet (wid c i)]{fullShare} (maskOf (F := F) (gp d)))

/-- The call hands each SparseCore its sixteen tiles' parts as they are, and takes them back so. -/
def P : (K (F := F)).Pay (nD := nD) (Val := Elt F) (Name := ℕ) (U := UU) where
  st := fun q d c => match q with | 0 => bigSep Finset.univ fun i : Fin 16 => tileGo gp d (Fin.cast nCore_zero c) i
  dn := fun q d c => match q with | 0 => bigSep Finset.univ fun i : Fin 16 => tileTd gp d (Fin.cast nCore_zero c) i
  go := fun q d c i => match q with | 0 => tileGo gp d (Fin.cast nCore_zero c) (Fin.cast nSub_zero i)
  td := fun q d c i => match q with | 0 => tileTd gp d (Fin.cast nCore_zero c) (Fin.cast nSub_zero i)
  x := fun _ _ => iprop(emp)

instance P_storable : (P (F := F) gp).IsStorable where
  st q d c := match q with | 0 => by unfold P tileGo; infer_instance
  dn q d c := match q with | 0 => by unfold P tileTd; infer_instance
  go q d c i := match q with | 0 => by unfold P tileGo; infer_instance
  td q d c i := match q with | 0 => by unfold P tileTd; infer_instance

end Pay

end Cert.Proof.KI

end
-- ==== Proof.KISplit.lean ====
/-
  How the one SparseCore call's operands are dealt: the padded words' array as thirty-two read shares, the mask
  array as thirty-two blocks of thirty-two rows; and the blocks and shares put together again.
-/
import proofs.«207473_g17575006175289_fold_wed_c4_317_29_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (gp : (d : Dev nD) → Buf (Elt F) (gLoc d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles' parts side by side: nothing to split. -/
theorem vecSplit : (K (F := F)).VecSplit' (P gp) 0 := by
  intro d c
  show (bigSep Finset.univ fun i : Fin 16 => tileGo gp d (Fin.cast nCore_zero c) i) ⊢ |={Set.univ}=> iprop(
      (bigSep Finset.univ fun i : Fin ((K (F := F)).nSub 0) => tileGo gp d (Fin.cast nCore_zero c) (Fin.cast nSub_zero i))
      ∗ ((bigSep Finset.univ fun i : Fin ((K (F := F)).nSub 0) => tileTd gp d (Fin.cast nCore_zero c) (Fin.cast nSub_zero i))
          -∗ bigSep Finset.univ fun i : Fin 16 => tileTd gp d (Fin.cast nCore_zero c) i))
  rw [bigSep_tasks (F := F) (fun i => tileGo gp d (Fin.cast nCore_zero c) i), bigSep_tasks (F := F) (fun i => tileTd gp d (Fin.cast nCore_zero c) i)]
  iintro H; imodintro
  isplitl [H]; · iexact H
  iintro H; iexact H

/-! ## The mask's rows -/

omit [FloatOps F] in
theorem rowsSet_eq (w : Fin 32) : rowsSet w = (rowsRect w).set := by
  show ((View.whole (main_v3_scv : Ref sig .scVector)).slice (rowsRect w)).set = _
  rw [View.set_slice]; exact Finset.map_refl
omit [FloatOps F] in
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv32 h
omit [FloatOps F] in
theorem rows_cover : (Finset.univ : Finset (Fin 32)).biUnion rowsSet = Finset.univ :=
  (Finset.biUnion_congr rfl fun i _ => rowsSet_eq i).trans (Rect.biUnion_part hdiv32)

omit [FloatOps F] in
theorem kPts_rows (d : Dev nD) (f : Buf (Elt F) (kLoc d)) :
    (kLoc d ↦{fullShare} f : sProp 𝕄) = bigSep Finset.univ fun w : Fin 32 => kLoc d ↦[rowsSet w]{fullShare} f := by
  rw [← pointsTo_biUnion Finset.univ (ℓ := kLoc d) rowsSet rows_disjoint, rows_cover]; try rfl

end Cert.Proof.KI

end
-- ==== Proof.KIDeal.lean ====
/-
  The one SparseCore call's operands dealt from the two whole arrays and gathered back: the padded words' array as
  read shares (two for the SparseCores, each again sixteen for its tiles, the remainders kept aside), the mask array
  as its thirty-two blocks of rows, block 2 i + c to tile i of SparseCore c.
-/
import proofs.«207473_g17575006175289_fold_wed_c4_317_29_alg».proof.Proof.KICommon
import proofs.«207473_g17575006175289_fold_wed_c4_317_29_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (gp : (d : Dev nD) → Buf (Elt F) (gLoc d))

/-- The blocks of rows, numbered by worker, are the blocks numbered by SparseCore and tile. -/
theorem bigSep_workers (Φ : Fin 32 → sProp 𝕄) :
    bigSep Finset.univ Φ = bigSep Finset.univ fun c : Fin 2 => bigSep Finset.univ fun i : Fin 16 => Φ (wid c i) := by
  have himg : (Finset.univ : Finset (Fin 32)) = ((Finset.univ : Finset (Fin 2)) ×ˢ (Finset.univ : Finset (Fin 16))).image fun p => wid p.1 p.2 := by
    ext w
    simp only [Finset.mem_univ, Finset.mem_image, Finset.mem_product, true_and, Prod.exists, true_iff]
    exact ⟨⟨w.val % 2, by omega⟩, ⟨w.val / 2, by omega⟩, Fin.ext (by simp only [wid]; omega)⟩
  have hinj : Set.InjOn (fun p : Fin 2 × Fin 16 => wid p.1 p.2) (↑((Finset.univ : Finset (Fin 2)) ×ˢ (Finset.univ : Finset (Fin 16))) : Set (Fin 2 × Fin 16)) := by
    rintro ⟨c, i⟩ - ⟨c', i'⟩ - e
    have e' : 2 * i.val + c.val = 2 * i'.val + c'.val := Fin.mk.inj e
    exact Prod.ext (Fin.ext (show c.val = c'.val by omega)) (Fin.ext (show i.val = i'.val by omega))
  rw [himg, SparseCore.bigSep_image_of_injOn hinj, SparseCore.bigSep_product]

/-- What is kept aside of the words' array while the tiles hold their shares. -/
def Rem (d : Dev nD) : sProp 𝕄 :=
  iprop((gLoc d ↦{Transfers.shareDrop fullShare 2} gp d) ∗ bigSep Finset.univ fun c : Fin 2 => gLoc d ↦{Transfers.shareDrop (coreShare c) 16} gp d)

theorem words_split (d : Dev nD) :
    (gLoc d ↦{fullShare} gp d : sProp 𝕄)
      ⊢ iprop((bigSep Finset.univ fun c : Fin 2 => bigSep Finset.univ fun i : Fin 16 => gLoc d ↦{tileShare c i} gp d) ∗ Rem gp d) := by
  have h1 : (gLoc d ↦{fullShare} gp d : sProp 𝕄)
      ⊢ iprop((gLoc d ↦{Transfers.shareDrop fullShare 2} gp d) ∗ bigSep Finset.univ fun c : Fin 2 => gLoc d ↦{coreShare c} gp d) :=
    Transfers.pointsTo_toks_split fullShare 2
  have h2 : (bigSep Finset.univ fun c : Fin 2 => (gLoc d ↦{coreShare c} gp d : sProp 𝕄))
      ⊢ bigSep Finset.univ fun c : Fin 2 => iprop((gLoc d ↦{Transfers.shareDrop (coreShare c) 16} gp d) ∗ bigSep Finset.univ fun i : Fin 16 => gLoc d ↦{tileShare c i} gp d) :=
    bigSep_mono fun c _ => Transfers.pointsTo_toks_split (coreShare c) 16
  rw [bigSep_sep'] at h2
  unfold Rem
  iintro Hwd
  ihave Hsp := h1 $$ Hwd
  icases Hsp with ⟨Hr, Hcs⟩
  ihave Hcs' := h2 $$ Hcs
  icases Hcs' with ⟨Hrc, Hts⟩
  isplitl [Hts]; · iexact Hts
  isplitl [Hr] <;> iassumption

theorem words_join (d : Dev nD) :
    iprop((bigSep Finset.univ fun c : Fin 2 => bigSep Finset.univ fun i : Fin 16 => gLoc d ↦{tileShare c i} gp d) ∗ Rem gp d)
      ⊢ (gLoc d ↦{fullShare} gp d : sProp 𝕄) := by
  have h1 : iprop((gLoc d ↦{Transfers.shareDrop fullShare 2} gp d) ∗ bigSep Finset.univ fun c : Fin 2 => gLoc d ↦{coreShare c} gp d)
      ⊢ (gLoc d ↦{fullShare} gp d : sProp 𝕄) :=
    Transfers.pointsTo_toks_join fullShare 2
  have h2 : (bigSep Finset.univ fun c : Fin 2 => iprop((gLoc d ↦{Transfers.shareDrop (coreShare c) 16} gp d) ∗ bigSep Finset.univ fun i : Fin 16 => gLoc d ↦{tileShare c i} gp d))
      ⊢ bigSep Finset.univ fun c : Fin 2 => (gLoc d ↦{coreShare c} gp d : sProp 𝕄) :=
    bigSep_mono fun c _ => Transfers.pointsTo_toks_join (coreShare c) 16
  rw [bigSep_sep'] at h2
  unfold Rem
  iintro ⟨Hts, Hr, Hrc⟩
  iapply h1
  isplitl [Hr]; · iexact Hr
  iapply h2
  isplitl [Hrc] <;> iassumption

theorem deal (d : Dev nD) (f0 : Buf (Elt F) (kLoc d)) :
    iprop((gLoc d ↦{fullShare} gp d) ∗ kLoc d ↦{fullShare} f0)
      ⊢ (iprop((bigSep Finset.univ fun c : Fin 2 => bigSep Finset.univ fun i : Fin 16 => tileGo gp d c i) ∗ Rem gp d) : sProp 𝕄) := by
  have hk : (bigSep Finset.univ fun c : Fin 2 => bigSep Finset.univ fun i : Fin 16 => (kLoc d ↦[rowsSet (wid c i)]{fullShare} f0 : sProp 𝕄))
      ⊢ bigSep Finset.univ fun c : Fin 2 => bigSep Finset.univ fun i : Fin 16 => iprop(∃ f, kLoc d ↦[rowsSet (wid c i)]{fullShare} f) :=
    bigSep_mono fun c _ => bigSep_mono fun i _ => show (kLoc d ↦[rowsSet (wid c i)]{fullShare} f0 : sProp 𝕄) ⊢ iprop(∃ f, kLoc d ↦[rowsSet (wid c i)]{fullShare} f) from by
      iintro H; iexists f0; iexact H
  unfold tileGo
  simp only [bigSep_sep']
  rw [kPts_rows, bigSep_workers]
  iintro ⟨Hwd, Hk⟩
  ihave Hsp := (words_split gp d) $$ Hwd
  icases Hsp with ⟨Hts, Hrem⟩
  isplitl [Hts Hk]
  · isplitl [Hts]; · iexact Hts
    iapply hk; iexact Hk
  · iexact Hrem

theorem gather (d : Dev nD) :
    iprop((bigSep Finset.univ fun c : Fin 2 => bigSep Finset.univ fun i : Fin 16 => tileTd gp d c i) ∗ Rem gp d)
      ⊢ (iprop((gLoc d ↦{fullShare} gp d) ∗ kLoc d ↦{fullShare} (maskOf (F := F) (gp d))) : sProp 𝕄) := by
  unfold tileTd
  simp only [bigSep_sep']
  rw [kPts_rows, bigSep_workers]
  iintro ⟨⟨Hts, Hk⟩, Hrem⟩
  isplitl [Hts Hrem]
  · iapply (words_join gp d)
    isplitl [Hts] <;> iassumption
  · iexact Hk

end Cert.Proof.KI

end
-- ==== Proof.KIMain.lean ====
/-
  @main on the TensorCore: the host operations before the SparseCore call, the call, the host operations after it,
  the TensorCore kernel region and the two layout operations that close the program.
-/
import proofs.«207473_g17575006175289_fold_wed_c4_317_29_alg».proof.Proof.KICommon
import proofs.«207473_g17575006175289_fold_wed_c4_317_29_alg».proof.Proof.KISplit
import proofs.«207473_g17575006175289_fold_wed_c4_317_29_alg».proof.Proof.KIDeal
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]

/-- The four operations that pad the grammar's words to [40,128]. -/
abbrev ops1 : List (HloOp τ sig (Elt F)) :=
  [ nullary main_c (constantI S_ 32 4294967295#32),
    unary main_c main_v0 (broadcastInDim S120 ![] bcast_S_S120 : (⟨S_, .i32⟩ : BufTy).Contents (Elt F) → (⟨S120, .i32⟩ : BufTy).Contents (Elt F)),
    binary main_arg2 main_v0 main_v1 ((fun a b => concatenate S5120 0 [⟨S5000, a⟩, ⟨S120, b⟩] concatenates_S5000_S120_S5120_d0) : (⟨S5000, .i32⟩ : BufTy).Contents (Elt F) → (⟨S120, .i32⟩ : BufTy).Contents (Elt F) → (⟨S5120, .i32⟩ : BufTy).Contents (Elt F)),
    StableHlo.reshape main_v1 main_v2 rfl shapeCasts_S5120_S40x128 ]
/-- The four layout operations between the SparseCore call and the TensorCore kernel. -/
abbrev ops2 : List (HloOp τ sig (Elt F)) :=
  [ unary main_arg0 main_v4 ((transpose S1x100000x128 [1, 2, 0] · transposes_S128x1x100000_S1x100000x128_1_2_0) : (⟨S128x1x100000, .f32⟩ : BufTy).Contents (Elt F) → (⟨S1x100000x128, .f32⟩ : BufTy).Contents (Elt F)),
    StableHlo.reshape main_v4 main_v5 rfl shapeCasts_S1x100000x128_S100000x128,
    StableHlo.reshape main_arg1 main_v6 rfl shapeCasts_S1x128x1024_S128x1024,
    StableHlo.reshape main_arg4 main_v7 rfl shapeCasts_S1_S1x1 ]
/-- The two layout operations after it. -/
abbrev ops3 : List (HloOp τ sig (Elt F)) :=
  [ StableHlo.reshape main_v8 main_v9 rfl shapeCasts_S100000x128_S1x100000x128,
    unary main_v9 main_v10 ((transpose S128x1x100000 [2, 0, 1] · transposes_S1x100000x128_S128x1x100000_2_0_1) : (⟨S1x100000x128, .f32⟩ : BufTy).Contents (Elt F) → (⟨S128x1x100000, .f32⟩ : BufTy).Contents (Elt F)) ]

theorem main_eq (d : Dev nD) :
    main (F := F) d = (seq ops1 >>= fun _ => sc.run d 0 >>= fun _ => seq ops2 >>= fun _ =>
      (Prog.lift (.customCall (SparseCore.inner (Pipeline.entry 0)) ()) >>= fun _ => seq ops3 >>= fun _ => pure ⟨⟩)) := rfl

/-! ## The arrays along @main -/

variable (m : (ℓ : Loc nD τ sig) → Buf (Elt F) ℓ) (ρ : Dev nD → PrngReg)

abbrev g' : DevRef τ sig := Proc.devRef .tc (main_v2 : Ref sig .tc)
abbrev k' : DevRef τ sig := Proc.devRef .tc (main_v3 : Ref sig .tc)
abbrev o' : DevRef τ sig := Proc.devRef .tc (main_v8 : Ref sig .tc)

/-- The arrays at the launch; after the padding; -/
abbrev V0 (d : Dev nD) : Valuation τ sig (Elt F) := launchContents m d
abbrev V1 (d : Dev nD) : Valuation τ sig (Elt F) := after ops1 (V0 m d)
/-- the padded words; -/
abbrev gpad (d : Dev nD) : Buf (Elt F) (gLoc d) := V1 m d g'
/-- after the SparseCore call, the mask array at the mask of the padded words; after the layout operations; -/
abbrev V2 (d : Dev nD) : Valuation τ sig (Elt F) := Function.update (V1 m d) k' (maskOf (F := F) (gpad m d))
abbrev V3 (d : Dev nD) : Valuation τ sig (Elt F) := after ops2 (V2 m d)

variable (blend : Valuation τ sig (Elt F) → (⟨S100000x128, .f32⟩ : BufTy).Contents (Elt F))

/-- after the TensorCore kernel, its result array at `blend` of the arrays it read; at the end. -/
abbrev V4 (d : Dev nD) : Valuation τ sig (Elt F) := Function.update (V3 m d) o' (blend (V3 m d))
abbrev V5 (d : Dev nD) : Valuation τ sig (Elt F) := after ops3 (V4 m blend d)

/-- What the TensorCore kernel's region is asked to do, continuation-passing: from the boundary, the unscoped arrays
    at any contents, the core owing nothing, the level facts and the pipeline's ghost state, the call runs on to the
    boundary, the arrays unchanged but the result array, which holds `blend` of them, the core owing nothing and
    having recorded waits at no index of a call. -/
def RegionSpec (Gst : Dev nD → sProp 𝕄) : Prop :=
  ∀ (d : Dev nD) (V : Valuation τ sig (Elt F)) (W : Waits sig (HIx 1)) {α : Type}
    (k : PUnit → Prog (TpuEff nD τ sig (Elt F) (SparseCore.Sig (ΛP (F := F)) 1) .tc) α) (Q : α → sProp 𝕄),
    iprop((iprop(boundary (T d) ∗ held (T d) (Pipeline.ucRefs τ sig) (Function.update V o' (blend V))
            ∗ ∃ W', ⌜∀ p ∈ W', p ∈ W ∨ p.2 = none⌝ ∗ owes (T d) (0 : CellTallies nD τ sig (HIx 1)) W')
          -∗ wp frame (wpE ((K (F := F)).defs (D (F := F))) 𝒱 (T d) none) Set.univ (k ⟨⟩) Q)
        ∗ boundary (T d) ∗ held (T d) (Pipeline.ucRefs τ sig) V ∗ owes (T d) (0 : CellTallies nD τ sig (HIx 1)) W
        ∗ levAts (K (F := F)).L (K (F := F)).lev ∗ Gst d)
      ⊢ wp frame (wpE ((K (F := F)).defs (D (F := F))) 𝒱 (T d) none) Set.univ
          (.op (.customCall (SparseCore.inner (Pipeline.entry 0)) ()) k) Q

theorem ops1_sub : ∀ op ∈ (ops1 : List (HloOp τ sig (Elt F))), op.bufs ⊆ Pipeline.ucRefs τ sig := by
  intro op hop
  simp only [ops1, List.mem_cons, List.mem_nil_iff, _root_.or_false] at hop
  rcases hop with rfl | rfl | rfl | rfl
  · exact Pipeline.sub_ucRefs _ (nullary_bufs_sub ..)
  · exact Pipeline.sub_ucRefs _ (unary_bufs_sub ..)
  · exact Pipeline.sub_ucRefs _ (binary_bufs_sub ..)
  · exact Pipeline.sub_ucRefs _ (reshape_bufs_sub ..)
theorem ops2_sub : ∀ op ∈ (ops2 : List (HloOp τ sig (Elt F))), op.bufs ⊆ Pipeline.ucRefs τ sig := by
  intro op hop
  simp only [ops2, List.mem_cons, List.mem_nil_iff, _root_.or_false] at hop
  rcases hop with rfl | rfl | rfl | rfl
  · exact Pipeline.sub_ucRefs _ (unary_bufs_sub ..)
  · exact Pipeline.sub_ucRefs _ (reshape_bufs_sub ..)
  · exact Pipeline.sub_ucRefs _ (reshape_bufs_sub ..)
  · exact Pipeline.sub_ucRefs _ (reshape_bufs_sub ..)
theorem ops3_sub : ∀ op ∈ (ops3 : List (HloOp τ sig (Elt F))), op.bufs ⊆ Pipeline.ucRefs τ sig := by
  intro op hop
  simp only [ops3, List.mem_cons, List.mem_nil_iff, _root_.or_false] at hop
  rcases hop with rfl | rfl
  · exact Pipeline.sub_ucRefs _ (reshape_bufs_sub ..)
  · exact Pipeline.sub_ucRefs _ (unary_bufs_sub ..)
theorem ops1_fresh : ∀ op ∈ (ops1 : List (HloOp τ sig (Elt F))), op.fresh = ∅ := by
  intro op hop
  simp only [ops1, List.mem_cons, List.mem_nil_iff, _root_.or_false] at hop
  rcases hop with rfl | rfl | rfl | rfl <;> rfl
theorem ops2_fresh : ∀ op ∈ (ops2 : List (HloOp τ sig (Elt F))), op.fresh = ∅ := by
  intro op hop
  simp only [ops2, List.mem_cons, List.mem_nil_iff, _root_.or_false] at hop
  rcases hop with rfl | rfl | rfl | rfl <;> rfl
theorem ops3_fresh : ∀ op ∈ (ops3 : List (HloOp τ sig (Elt F))), op.fresh = ∅ := by
  intro op hop
  simp only [ops3, List.mem_cons, List.mem_nil_iff, _root_.or_false] at hop
  rcases hop with rfl | rfl <;> rfl

/-! ## The pieces of the TensorCore's state that @main opens -/

theorem pair_sub : ({g', k'} : Finset (DevRef τ sig)) ⊆ Pipeline.ucRefs τ sig := by decide

omit [FloatOps F] in
theorem held_pair (d : Dev nD) (V : Valuation τ sig (Elt F)) :
    (held (T d) ({g', k'} : Finset (DevRef τ sig)) V : sProp 𝕄) = iprop((gLoc d ↦{fullShare} V g') ∗ kLoc d ↦{fullShare} V k') := by
  unfold held
  rw [SparseCore.bigSep_insert' (by decide), bigSep_singleton]

omit [FloatOps F] in
theorem held_rest (d : Dev nD) (V : Valuation τ sig (Elt F)) (f : Buf (Elt F) (kLoc d)) :
    (held (T d) (Pipeline.ucRefs τ sig \ {g', k'}) (Function.update V k' f) : sProp 𝕄) = held (T d) (Pipeline.ucRefs τ sig \ {g', k'}) V :=
  held_congr (T d) fun b hb => Function.update_of_ne (fun e => (Finset.mem_sdiff.mp hb).2 (by subst e; decide)) _ _

theorem st0_eq (gp : (d : Dev nD) → Buf (Elt F) (gLoc d)) (d : Dev nD) :
    (bigSep Finset.univ fun c : Fin ((K (F := F)).nCore 0) => (P gp).st 0 d c)
      = bigSep Finset.univ fun c : Fin 2 => bigSep Finset.univ fun i : Fin 16 => tileGo gp d c i :=
  bigSep_cores (F := F) fun c => bigSep Finset.univ fun i : Fin 16 => tileGo gp d c i
theorem dn0_eq (gp : (d : Dev nD) → Buf (Elt F) (gLoc d)) (d : Dev nD) :
    (bigSep Finset.univ fun c : Fin ((K (F := F)).nCore 0) => (P gp).dn 0 d c)
      = bigSep Finset.univ fun c : Fin 2 => bigSep Finset.univ fun i : Fin 16 => tileTd gp d c i :=
  bigSep_cores (F := F) fun c => bigSep Finset.univ fun i : Fin 16 => tileTd gp d c i

/-- What is left of the TensorCore's handshake state after the one call, beside what it owes. -/
def tcRest (gp : (d : Dev nD) → Buf (Elt F) (gLoc d)) (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_one (gp : (d : Dev nD) → Buf (Elt F) (gLoc d)) (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcRest gp d) := by
  unfold SparseCore.Cfg.tcSt tcRest
  rw [(K (F := F)).Otc_end d (le_refl 1)]

theorem held_V2 (d : Dev nD) :
    (held (T d) (Pipeline.ucRefs τ sig) (V2 m d) : sProp 𝕄)
      = iprop(((gLoc d ↦{fullShare} gpad m d) ∗ kLoc d ↦{fullShare} (maskOf (F := F) (gpad m d))) ∗ held (T d) (Pipeline.ucRefs τ sig \ {g', k'}) (V1 m d)) := by
  rw [held_sub_split (T d) pair_sub (V2 m d), held_pair, held_rest,
    show V2 m d g' = gpad m d from Function.update_of_ne (by decide) _ _,
    show V2 m d k' = maskOf (F := F) (gpad m d) from Function.update_self _ _ _]

theorem tcSt_one' (gp : (d : Dev nD) → Buf (Elt F) (gLoc d)) (d : Dev nD) :
    ((K (F := F)).tcSt EH d ((0 : Fin 1).val + 1) : sProp 𝕄)
      = iprop((∃ W, ⌜(K (F := F)).WBelow (T d) W (8 * 1)⌝ ∗ owes (T d) (0 : CellTallies nD τ sig (HIx 1)) W) ∗ tcRest gp d) :=
  tcSt_one gp d

/-! ## @main -/

/-- @main on the TensorCore: the padding, the SparseCore call (the words' array dealt as read shares, the mask
    array as blocks of rows, both gathered back), the layout operations, the kernel region, the closing layout
    operations; every unscoped array ends at the composed contents. -/
theorem hmain (Gst : Dev nD → sProp 𝕄) (hreg : RegionSpec blend Gst) (κ : GSem nD τ sig → ℕ) (d : Dev nD) :
    iprop((K (F := F)).ctx EH (P (gpad m)) κ ∗ (K (F := F)).tcSt EH d 0 ∗ (K (F := F)).tcRes m ρ d ∗ Gst d)
      ⊢ wp frame (wpE ((K (F := F)).defs (D (F := F))) 𝒱 (SparseCore.T d) none) Set.univ (main d)
          fun _ => iprop((K (F := F)).tcSt EH d 1 ∗ held (T d) (Pipeline.ucRefs τ sig) (V5 m blend d)) := by
  unfold SparseCore.Cfg.tcRes
  rw [show (unscopedBufs d (fun b => m ((SparseCore.T d).loc b)) : sProp 𝕄) = held (T d) (Pipeline.ucRefs τ sig) (V0 m d)
      from Pipeline.unscopedBufs_held d (launchContents m d), main_eq]
  iintro ⟨#Hctx, Hst, ⟨Hb, Hheld, -, -⟩, HG⟩
  -- the padding
  iapply (wp_seq 𝒱 none Set.univ d (Pipeline.ucRefs τ sig) _ ops1 ops1_sub ops1_fresh (V0 m d)) $$ [Hb Hheld]
  · isplitl [Hb] <;> iassumption
  iintro ⟨Hb, Hheld⟩
  -- the SparseCore call
  rw [wp_bind]
  ihave Hsp := (Entails.of_eq (held_sub_split (T d) pair_sub (V1 m d))) $$ Hheld
  icases Hsp with ⟨Hpair, Hrest⟩
  ihave Hp := (Entails.of_eq (held_pair d (V1 m d))) $$ Hpair
  icases Hp with ⟨Hwd, Hk⟩
  ihave Hdl := (deal (gpad m) d (V1 m d k')) $$ [Hwd Hk]
  · isplitl [Hwd] <;> iassumption
  icases Hdl with ⟨Hgo, Hrem⟩
  iapply ((K (F := F)).wp_run (D (F := F)) 𝒱 (EH := EH) (P := P (gpad m)) κ d 0) $$ [Hst Hgo Hb Hrest Hrem HG]
  isplitr; · iexact Hctx
  isplitl [Hst]; · iexact Hst
  isplitl [Hgo]; · iapply (Entails.of_eq (st0_eq (gpad m) d).symm); iexact Hgo
  iintro ⟨Hst, Hdn⟩
  ihave Hdn' := (Entails.of_eq (dn0_eq (gpad m) d)) $$ Hdn
  ihave Hga := (gather (gpad m) d) $$ [Hdn' Hrem]
  · isplitl [Hdn'] <;> iassumption
  ihave Hheld := (Entails.of_eq (held_V2 m d).symm) $$ [Hga Hrest]
  · isplitl [Hga] <;> iassumption
  -- the layout operations
  iapply (wp_seq 𝒱 none Set.univ d (Pipeline.ucRefs τ sig) _ ops2 ops2_sub ops2_fresh (V2 m d)) $$ [Hb Hheld]
  · isplitl [Hb] <;> iassumption
  iintro ⟨Hb, Hheld⟩
  -- the kernel region
  ihave Hst' := (Entails.of_eq (tcSt_one' (gpad m) d)) $$ Hst
  icases Hst' with ⟨⟨%W, %hW, HO⟩, Hrst⟩
  ihave Hlev := ((K (F := F)).ctx_levAts κ) $$ Hctx
  iapply (hreg d (V3 m d) W _ _) $$ [Hb Hheld HO HG Hrst]
  isplitl [Hrst]
  · iintro ⟨Hb, Hheld, %W', %hW', HO⟩
    iapply (wp_seq 𝒱 none Set.univ d (Pipeline.ucRefs τ sig) _ ops3 ops3_sub ops3_fresh (V4 m blend d)) $$ [Hb Hheld]
    · isplitl [Hb] <;> iassumption
    iintro ⟨Hb, Hheld⟩
    rw [wp_pure]
    imodintro
    isplitl [HO Hrst]
    · iapply (Entails.of_eq (tcSt_one (gpad m) d).symm)
      isplitl [HO]
      · iexists W'; isplitr
        · ipureintro
          intro p hp
          rcases hW' p hp with h | h
          · exact hW p h
          · rw [h, (K (F := F)).lev_none]; exact Nat.zero_le _
        · iexact HO
      · iexact Hrst
    · iexact Hheld
  · isplitl [Hb]; · iexact Hb
    isplitl [Hheld]; · iexact Hheld
    isplitl [HO]; · iexact HO
    isplitr; · iexact Hlev
    iexact HG

end Cert.Proof.KI

end
-- ==== Proof.KIRun.lean ====
/-
  The program's run: the launch element of the ghost state (the handshakes' rounds, the pipeline's staging cells
  funded, the counters dropped), what the final memory is read to hold, and the launch theorem applied.
-/
import proofs.«207473_g17575006175289_fold_wed_c4_317_29_alg».proof.Proof.KICommon
import proofs.«207473_g17575006175289_fold_wed_c4_317_29_alg».proof.Proof.KISplit
import proofs.«207473_g17575006175289_fold_wed_c4_317_29_alg».proof.Proof.KIDeal
import proofs.«207473_g17575006175289_fold_wed_c4_317_29_alg».proof.Proof.KIMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]
variable (a : (p : Fin 1) → (pcfgs (F := F) p).Adm)
  (hinj : Function.Injective (Pipeline.cellOf (nD := nD) (τ := τ) (Pipeline.pin (pcfgs (F := F)) a)))

/-- The pipeline's ghost state on a core: its staging cells' and its duty tokens. -/
def Gst (d : Dev nD) : sProp 𝕄 :=
  iprop(Pipeline.cellsGhost (Pipeline.pin (pcfgs (F := F)) a) EP 0 d ∗ Pipeline.toksInit (Pipeline.pin (pcfgs (F := F)) a) EP 0 d)

def u₀ : UU :=
  (initOf (K (F := F)).hsCells (K (F := F)).hsToks,
    (initOf (Pipeline.cells (Pipeline.pin (pcfgs (F := F)) a) hinj) (Pipeline.launchToks (Pipeline.pin (pcfgs (F := F)) a) hinj), 1))

omit [FloatOps F] in
theorem bigSep_emp' {I : Type} (s : Finset I) : (bigSep s fun _ => iprop(emp)) = (iprop(emp) : sProp 𝕄) := bigSep_emp_const s

theorem bigSep_fin1 (Φ : Fin 1 → sProp 𝕄) : bigSep Finset.univ Φ = Φ 0 := by
  rw [show (Finset.univ : Finset (Fin 1)) = {0} by decide, bigSep_singleton]

theorem hu₀ (gp : (d : Dev nD) → Buf (Elt F) (gLoc d)) : (ownU (u₀ (F := F) a hinj) : sProp 𝕄)
    ⊢ |={Set.univ}=> iprop(BI.own (EH (initOf (K (F := F)).hsCells (K (F := F)).hsToks)) ∗ (bigSep Finset.univ fun d : Dev nD => Gst a d)
        ∗ bigSep Finset.univ fun thr : Thread nD τ => bigSep Finset.univ fun q : Fin 1 => (P gp).x q thr) := by
  unfold u₀
  iintro Hu
  ihave H := (ownU_pair _ _) $$ Hu
  icases H with ⟨HH, HR⟩
  have hsplit : (BI.own ((embR : Emb URC 𝕄)
        (initOf (Pipeline.cells (Pipeline.pin (pcfgs (F := F)) a) hinj) (Pipeline.launchToks (Pipeline.pin (pcfgs (F := F)) a) hinj), (1 : Counters))) : sProp 𝕄)
      ⊢ iprop(BI.own ((EP (F := F)) (initOf (Pipeline.cells (Pipeline.pin (pcfgs (F := F)) a) hinj) (Pipeline.launchToks (Pipeline.pin (pcfgs (F := F)) a) hinj)))
          ∗ BI.own (((Emb.inr : Emb Counters URC).trans (embR : Emb URC 𝕄)) 1)) :=
    own_pair_emb (embR : Emb URC 𝕄) _ _
  ihave HR' := (hsplit) $$ HR
  icases HR' with ⟨HP, -⟩
  imod (Pipeline.fund_ghost (Pipeline.pin (pcfgs (F := F)) a) (EP (F := F)) hinj) $$ HP with ⟨Hg, Ht⟩
  imodintro
  isplitl [HH]; · iexact HH
  isplitl [Hg Ht]
  · unfold Gst
    rw [bigSep_sep']
    isplitl [Hg]
    · iapply (Entails.of_eq (show (bigSep Finset.univ fun c : Dev nD => bigSep Finset.univ fun p : Fin 1 => (Pipeline.cellsGhost (Pipeline.pin (pcfgs (F := F)) a) EP p c : sProp 𝕄))
          = bigSep Finset.univ fun c : Dev nD => Pipeline.cellsGhost (Pipeline.pin (pcfgs (F := F)) a) EP 0 c from bigSep_congr fun c _ => bigSep_fin1 _))
      iexact Hg
    · iapply (Entails.of_eq (show (bigSep Finset.univ fun c : Dev nD => bigSep Finset.univ fun p : Fin 1 => (Pipeline.toksInit (Pipeline.pin (pcfgs (F := F)) a) EP p c : sProp 𝕄))
          = bigSep Finset.univ fun c : Dev nD => Pipeline.toksInit (Pipeline.pin (pcfgs (F := F)) a) EP 0 c from bigSep_congr fun c _ => bigSep_fin1 _))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

/-- Arrays held at contents `V`, beside the state interpretation of a final state, are that state's. -/
theorem held_read (d : Dev nD) (V : Valuation τ sig (Elt F)) (s' : Phys nD τ sig (Elt F)) :
    ∀ S : Finset (DevRef τ sig), iprop(held (T d) S V ∗ SI s') ⊢ (⌜∀ b ∈ S, s'.mem.mem (d, b) = V b⌝ : sProp 𝕄) := by
  intro S
  induction S using Finset.induction_on with
  | empty => iintro -; ipureintro; exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (d, b)) (I := Finset.univ) (q := fullShare) (f := V b))) $$ [HSI Hb]
    · isplitl [HSI] <;> iassumption
    icases H with ⟨%h1, HSI, Hb⟩
    ihave %h2 := (ih) $$ [HS HSI]
    · isplitl [HS] <;> iassumption
    ipureintro
    intro b' hb'
    rcases Finset.mem_insert.mp hb' with rfl | hb'
    · exact funext fun i => h1 i (Finset.mem_univ i)
    · exact h2 b' hb'

variable (m : (ℓ : Loc nD τ sig) → Buf (Elt F) ℓ) (ρ : Dev nD → PrngReg)
variable (blend : Valuation τ sig (Elt F) → (⟨S100000x128, .f32⟩ : BufTy).Contents (Elt F))

/-- What @main leaves: every unscoped array at the composed contents. -/
abbrev FIN (d : Dev nD) : sProp 𝕄 := held (T d) (Pipeline.ucRefs τ sig) (V5 m blend d)
def fq (d : Dev nD) (s' : Phys nD τ sig (Elt F)) : Prop := ∀ b ∈ Pipeline.ucRefs τ sig, s'.mem.mem (d, b) = V5 m blend d b
theorem hfin (d : Dev nD) (s' : Phys nD τ sig (Elt F)) : iprop(FIN m blend d ∗ SI s') ⊢ (⌜fq m blend d s'⌝ : sProp 𝕄) :=
  held_read d _ s' _

/-- The run's post: on every device every unscoped array holds the composed contents. -/
def QC : PUnit × MemSt nD τ sig (Elt F) → Prop := fun r => ∀ c : Dev nD, ∀ b ∈ Pipeline.ucRefs τ sig, r.2.mem (c, b) = V5 m blend c b

include hinj in
/-- The launch theorem, from the tile's task and the kernel region. -/
theorem run_main [∀ e, Nonempty (Elt F e)] (htile : (K (F := F)).TileObl (D (F := F)) 𝒱 (P (gpad m)) v₀ 0) (hreg : RegionSpec blend (Gst a)) :
    θ_run (Cert.KernelIdeal.defs (F := F)) (Cert.KernelIdeal.threads (F := F)) ⟨m, fun _ => 0, ρ⟩ (QC m blend) :=
  SparseCore.Cfg.θ_run_sc (K := K (F := F)) (D := D (F := F)) (𝒱 := 𝒱) (EH := EH) (P := P (gpad m)) facts v₀
    (fun q hq => match q with | 0 => nomatch hq)
    (fun q _ => match q with | 0 => htile)
    (fun q _ => match q with | 0 => SparseCore.Cfg.VecSplit.of_plain (vecSplit (gpad m)))
    m ρ main (Gst a) (FIN m blend) (u₀ a hinj) (sep_elim_left.trans (hu₀ a hinj (gpad m))) (hmain m ρ blend (Gst a) hreg)
    (fq m blend) (hfin m blend) (QC m blend) (fun _ h => h)

end Cert.Proof.KI

end
-- ==== Proof.KIVals.lean ====
/-
  The arrays along @main as terms of the arrays before: each stretch of host operations read off, over any contents
  it starts from.
-/
import proofs.«207473_g17575006175289_fold_wed_c4_317_29_alg».proof.Proof.KICommon
import proofs.«207473_g17575006175289_fold_wed_c4_317_29_alg».proof.Proof.KIMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v10' : DevRef τ sig := Proc.devRef .tc (main_v10 : Ref sig .tc)

variable (W : Valuation τ sig (Elt F))

/-! ### The padding -/
theorem ops1_g : (after ops1 W g' : (⟨S40x128, .i32⟩ : BufTy).Contents (Elt F))
    = shapeCast S40x128 (concatenate S5120 0 [⟨S5000, W a2'⟩, ⟨S120, broadcastInDim S120 ![] bcast_S_S120 (constantI S_ 32 4294967295#32)⟩] concatenates_S5000_S120_S5120_d0) shapeCasts_S5120_S40x128 := by
  after_results; rfl
theorem ops1_a0 : after ops1 W a0' = W a0' := by after_results
theorem ops1_a1 : after ops1 W a1' = W a1' := by after_results
theorem ops1_a2 : after ops1 W a2' = W a2' := by after_results
theorem ops1_a3 : after ops1 W a3' = W a3' := by after_results
theorem ops1_a4 : after ops1 W a4' = W a4' := by after_results

/-! ### The layout operations before the kernel -/
theorem ops2_v5 : (after ops2 W v5' : (⟨S100000x128, .f32⟩ : BufTy).Contents (Elt F))
    = shapeCast S100000x128 (transpose S1x100000x128 [1, 2, 0] (W a0') transposes_S128x1x100000_S1x100000x128_1_2_0) shapeCasts_S1x100000x128_S100000x128 := by
  after_results; rfl
theorem ops2_v6 : (after ops2 W v6' : (⟨S128x1024, .f32⟩ : BufTy).Contents (Elt F)) = shapeCast S128x1024 (W a1') shapeCasts_S1x128x1024_S128x1024 := by
  after_results; rfl
theorem ops2_v7 : (after ops2 W v7' : (⟨S1x1, .f32⟩ : BufTy).Contents (Elt F)) = shapeCast S1x1 (W a4') shapeCasts_S1_S1x1 := by
  after_results; rfl
theorem ops2_k : after ops2 W k' = W k' := by after_results
theorem ops2_a0 : after ops2 W a0' = W a0' := by after_results
theorem ops2_a1 : after ops2 W a1' = W a1' := by after_results
theorem ops2_a2 : after ops2 W a2' = W a2' := by after_results
theorem ops2_a3 : after ops2 W a3' = W a3' := by after_results
theorem ops2_a4 : after ops2 W a4' = W a4' := by after_results

/-! ### The layout operations after it -/
theorem ops3_v10 : (after ops3 W v10' : (⟨S128x1x100000, .f32⟩ : BufTy).Contents (Elt F))
    = transpose S128x1x100000 [2, 0, 1] (shapeCast S1x100000x128 (W o') shapeCasts_S100000x128_S1x100000x128) transposes_S1x100000x128_S128x1x100000_2_0_1 := by
  after_results; rfl
theorem ops3_a0 : after ops3 W a0' = W a0' := by after_results
theorem ops3_a1 : after ops3 W a1' = W a1' := by after_results
theorem ops3_a2 : after ops3 W a2' = W a2' := by after_results
theorem ops3_a3 : after ops3 W a3' = W a3' := by after_results
theorem ops3_a4 : after ops3 W a4' = W a4' := by after_results

/-! ### The arrays at the end -/

variable (m : (ℓ : Loc nD τ sig) → Buf (Elt F) ℓ)
variable (blend : Valuation τ sig (Elt F) → (⟨S100000x128, .f32⟩ : BufTy).Contents (Elt F))

theorem V5_a0 (d : Dev nD) : V5 m blend d a0' = m (d, a0') := by
  rw [show V5 m blend d a0' = V4 m blend d a0' from ops3_a0 _, show V4 m blend d a0' = V3 m d a0' from Function.update_of_ne (by decide) _ _,
    show V3 m d a0' = V2 m d a0' from ops2_a0 _, show V2 m d a0' = V1 m d a0' from Function.update_of_ne (by decide) _ _,
    show V1 m d a0' = V0 m d a0' from ops1_a0 _]
theorem V5_a1 (d : Dev nD) : V5 m blend d a1' = m (d, a1') := by
  rw [show V5 m blend d a1' = V4 m blend d a1' from ops3_a1 _, show V4 m blend d a1' = V3 m d a1' from Function.update_of_ne (by decide) _ _,
    show V3 m d a1' = V2 m d a1' from ops2_a1 _, show V2 m d a1' = V1 m d a1' from Function.update_of_ne (by decide) _ _,
    show V1 m d a1' = V0 m d a1' from ops1_a1 _]
theorem V5_a2 (d : Dev nD) : V5 m blend d a2' = m (d, a2') := by
  rw [show V5 m blend d a2' = V4 m blend d a2' from ops3_a2 _, show V4 m blend d a2' = V3 m d a2' from Function.update_of_ne (by decide) _ _,
    show V3 m d a2' = V2 m d a2' from ops2_a2 _, show V2 m d a2' = V1 m d a2' from Function.update_of_ne (by decide) _ _,
    show V1 m d a2' = V0 m d a2' from ops1_a2 _]
theorem V5_a3 (d : Dev nD) : V5 m blend d a3' = m (d, a3') := by
  rw [show V5 m blend d a3' = V4 m blend d a3' from ops3_a3 _, show V4 m blend d a3' = V3 m d a3' from Function.update_of_ne (by decide) _ _,
    show V3 m d a3' = V2 m d a3' from ops2_a3 _, show V2 m d a3' = V1 m d a3' from Function.update_of_ne (by decide) _ _,
    show V1 m d a3' = V0 m d a3' from ops1_a3 _]
theorem V5_a4 (d : Dev nD) : V5 m blend d a4' = m (d, a4') := by
  rw [show V5 m blend d a4' = V4 m blend d a4' from ops3_a4 _, show V4 m blend d a4' = V3 m d a4' from Function.update_of_ne (by decide) _ _,
    show V3 m d a4' = V2 m d a4' from ops2_a4 _, show V2 m d a4' = V1 m d a4' from Function.update_of_ne (by decide) _ _,
    show V1 m d a4' = V0 m d a4' from ops1_a4 _]

end Cert.Proof.KI

end
-- ==== Proof.KIWords.lean ====
/-
  Word arithmetic of the mask kernel's tile body: the trips' offsets in closed form, the indexed store of one
  constant read at one element, and what one lane of a trip decides: a word read signed lies in the tile's
  window of 4096 flat positions exactly when the lane's mask bit is set, and then its row and column words are
  the position's quotient and remainder by 128.
-/
import proofs.«207473_g17575006175289_fold_wed_c4_317_29_alg».proof.Proof.KICommon

noncomputable section

namespace Cert.Proof.KI

open Cert.KernelIdeal Cert.KernelIdeal.Gen

open Idealize.ShloMosaic

variable {F : FTy → Type}

/-! ## The loops' trip counts and offsets, closed -/

theorem trips1 : k0_t1_loop.trips = 256 := by decide +kernel
theorem trips2 : k0_t2_loop.trips = 320 := by decide +kernel
theorem k0_off1_cf : ∀ t : Fin k0_t1_loop.trips, k0_off1 t = ![t.val / 8, (t.val % 8) * 16] := by decide +kernel
theorem k0_off2_cf : ∀ t : Fin k0_t2_loop.trips, k0_off2 t = ![t.val / 8, (t.val % 8) * 16] := by decide +kernel

/-- The first flat position of the tile's window, as the body computes it. -/
def baseW (L : grid0.Coords) : BitVec 32 :=
  Scalar.muli (Scalar.addi (Scalar.muli (BitVec.ofNat 32 (L 1).val) 2#32) (BitVec.ofNat 32 (L 0).val)) 4096#32

theorem baseW_toNat : ∀ L : grid0.Coords, (baseW L).toNat = (2 * (L 1).val + (L 0).val) * 4096 := by decide +kernel

/-! ## The indexed store of one constant -/

section StoreIdx

variable [FloatOps F] {s : Shape} {e : EltTy} {d : Fin 1 → Nat}

/-- Storing one value at every enabled lane's index: an element holds that value if some enabled lane names it,
    else what it held. -/
theorem storeIdx_const (f : Vec F s e) (idxs : Fin s.rank → IVec ⟨1, d⟩ 32) (y : Elt F e) (mask : IVec ⟨1, d⟩ 1)
    (h : ∀ a x, (idxs a x).toNat < s.size a) (j : s.Idx) :
    storeIdx f idxs (fun _ => y) mask false h j
      = if ∃ k : Fin (d 0), mask (Shape.ofLane k) = 1 ∧ ∀ a, (j a).val = (idxs a (Shape.ofLane k)).toNat then y else f j := by
  have key : ∀ (l : List (Fin (d 0))) (g : Vec F s e),
      (l.foldl (fun (g : Vec F s e) (k : Fin (d 0)) =>
        if mask (Shape.ofLane k) = 1 then
          (fun j' : s.Idx => if (∀ a, (j' a).val = (idxs a (Shape.ofLane k)).toNat) then y else g j')
        else g) g) j
        = if ∃ k ∈ l, mask (Shape.ofLane k) = 1 ∧ ∀ a, (j a).val = (idxs a (Shape.ofLane k)).toNat then y else g j := by
    intro l
    induction l with
    | nil => intro g; simp
    | cons k l ih =>
      intro g
      rw [List.foldl_cons, ih]
      by_cases hl : ∃ k' ∈ l, mask (Shape.ofLane k') = 1 ∧ ∀ a, (j a).val = (idxs a (Shape.ofLane k')).toNat
      · have hl' : ∃ k' ∈ k :: l, mask (Shape.ofLane k') = 1 ∧ ∀ a, (j a).val = (idxs a (Shape.ofLane k')).toNat := by
          obtain ⟨k', hk', hc⟩ := hl
          exact ⟨k', List.mem_cons_of_mem _ hk', hc⟩
        rw [if_pos hl, if_pos hl']
      · rw [if_neg hl]
        by_cases hm : mask (Shape.ofLane k) = 1
        · rw [if_pos hm]
          by_cases hj : ∀ a, (j a).val = (idxs a (Shape.ofLane k)).toNat
          · have hl' : ∃ k' ∈ k :: l, mask (Shape.ofLane k') = 1 ∧ ∀ a, (j a).val = (idxs a (Shape.ofLane k')).toNat :=
              ⟨k, List.mem_cons_self, hm, hj⟩
            rw [if_pos hl']
            exact if_pos hj
          · have hl' : ¬ ∃ k' ∈ k :: l, mask (Shape.ofLane k') = 1 ∧ ∀ a, (j a).val = (idxs a (Shape.ofLane k')).toNat := by
              rintro ⟨k', hk', hm', hj'⟩
              rcases List.mem_cons.mp hk' with rfl | hk'
              · exact hj hj'
              · exact hl ⟨k', hk', hm', hj'⟩
            rw [if_neg hl']
            exact if_neg hj
        · rw [if_neg hm]
          have hl' : ¬ ∃ k' ∈ k :: l, mask (Shape.ofLane k') = 1 ∧ ∀ a, (j a).val = (idxs a (Shape.ofLane k')).toNat := by
            rintro ⟨k', hk', hm', hj'⟩
            rcases List.mem_cons.mp hk' with rfl | hk'
            · exact hm hm'
            · exact hl ⟨k', hk', hm', hj'⟩
          rw [if_neg hl']
  have h0 : storeIdx f idxs (fun _ => y) mask false h
      = (List.finRange (d 0)).foldl (fun (g : Vec F s e) (k : Fin (d 0)) =>
        if mask (Shape.ofLane k) = 1 then
          (fun j' : s.Idx => if (∀ a, (j' a).val = (idxs a (Shape.ofLane k)).toNat) then y else g j')
        else g) f := by
    unfold storeIdx idxAt
    simp only [Bool.false_eq_true, if_false]
  rw [h0, key]
  simp only [List.mem_finRange, true_and]

end StoreIdx

/-! ## One lane of a trip -/

/-- One lane's mask bit, window offset, row word and column word, from the window's first position and the lane's word. -/
def laneM (b idx : BitVec 32) : BitVec 1 := IntOp.andi (IntOp.cmpi .sge idx b) (IntOp.cmpi .slt idx (Scalar.addi b 4096#32))
def laneLoc (b idx : BitVec 32) : BitVec 32 := Scalar.select (laneM b idx) (IntOp.subi idx b) 0#32
def laneRow (b idx : BitVec 32) : BitVec 32 := IntOp.shrui .vector (laneLoc b idx) 7#32
def laneCol (b idx : BitVec 32) : BitVec 32 := IntOp.andi (laneLoc b idx) 127#32

theorem toNat_shr7 (x : BitVec 32) : (IntOp.shrui .vector x 7#32).toNat = x.toNat / 128 := by
  unfold IntOp.shrui
  rw [if_pos (by decide)]
  rw [BitVec.ushiftRight_eq', BitVec.toNat_ushiftRight, Nat.shiftRight_eq_div_pow]
  rfl

theorem toNat_and127 (x : BitVec 32) : (IntOp.andi x 127#32).toNat = x.toNat % 128 := by
  unfold IntOp.andi
  rw [BitVec.toNat_and]
  exact Nat.and_two_pow_sub_one_eq_mod x.toNat 7

/-- The mask bit is set exactly when the word, read signed, lies in the window. -/
theorem laneM_iff (b idx : BitVec 32) (w : ℕ) (hw : w < 32) (hb : b.toNat = w * 4096) :
    laneM b idx = 1 ↔ ((w * 4096 : ℕ) : ℤ) ≤ idx.toInt ∧ idx.toInt < ((w * 4096 + 4096 : ℕ) : ℤ) := by
  have hbI : b.toInt = ((w * 4096 : ℕ) : ℤ) := by
    rw [BitVec.toInt_eq_toNat_cond, hb]; split <;> omega
  have hb4 : (b + 4096#32).toInt = ((w * 4096 + 4096 : ℕ) : ℤ) := by
    rw [BitVec.toInt_eq_toNat_cond, BitVec.toNat_add, hb]
    simp only [BitVec.toNat_ofNat]
    split <;> omega
  rw [← hbI, ← hb4, ← BitVec.sle_iff_toInt_le, ← BitVec.slt_iff_toInt_lt]
  show (BitVec.ofBool (b.sle idx) &&& BitVec.ofBool (idx.slt (b + 4096#32))) = 1#1 ↔ _
  cases b.sle idx <;> cases idx.slt (b + 4096#32) <;> decide

/-- The window offset is below 4096, and in the window it is the word's distance from the window's first position. -/
theorem laneLoc_lt (b idx : BitVec 32) (w : ℕ) (hw : w < 32) (hb : b.toNat = w * 4096) : (laneLoc b idx).toNat < 4096 := by
  unfold laneLoc Scalar.select
  split
  · rename_i hm
    obtain ⟨h1, h2⟩ := (laneM_iff b idx w hw hb).mp hm
    rw [BitVec.toInt_eq_toNat_cond] at h1 h2
    show (idx - b).toNat < 4096
    rw [BitVec.toNat_sub, hb]
    split at h1 <;> omega
  · show (0#32).toNat < 4096; decide

theorem laneLoc_eq (b idx : BitVec 32) (w : ℕ) (hw : w < 32) (hb : b.toNat = w * 4096) (hm : laneM b idx = 1) :
    ((laneLoc b idx).toNat : ℤ) = idx.toInt - ((w * 4096 : ℕ) : ℤ) := by
  obtain ⟨h1, h2⟩ := (laneM_iff b idx w hw hb).mp hm
  unfold laneLoc Scalar.select
  rw [if_pos hm]
  show (((idx - b).toNat : ℕ) : ℤ) = _
  rw [BitVec.toInt_eq_toNat_cond] at h1 h2 ⊢
  rw [BitVec.toNat_sub, hb]
  split at h1 <;> omega

theorem laneRow_lt (b idx : BitVec 32) (w : ℕ) (hw : w < 32) (hb : b.toNat = w * 4096) : (laneRow b idx).toNat < 32 := by
  unfold laneRow; rw [toNat_shr7]; have := laneLoc_lt b idx w hw hb; omega
theorem laneCol_lt (b idx : BitVec 32) : (laneCol b idx).toNat < 128 := by
  unfold laneCol; rw [toNat_and127]; omega

/-- An enabled lane names element (r, q) of the tile's rows exactly when its word, read signed, is that element's flat
    position. -/
theorem lane_iff (b idx : BitVec 32) (w : ℕ) (hw : w < 32) (hb : b.toNat = w * 4096) (r q : ℕ) (hr : r < 32) (hq : q < 128) :
    (laneM b idx = 1 ∧ r = (laneRow b idx).toNat ∧ q = (laneCol b idx).toNat) ↔ idx.toInt = ((w * 4096 + r * 128 + q : ℕ) : ℤ) := by
  constructor
  · rintro ⟨hm, hr', hq'⟩
    have hl := laneLoc_eq b idx w hw hb hm
    unfold laneRow at hr'; unfold laneCol at hq'
    rw [toNat_shr7] at hr'; rw [toNat_and127] at hq'
    omega
  · intro hX
    have hm : laneM b idx = 1 := (laneM_iff b idx w hw hb).mpr (by omega)
    have hl := laneLoc_eq b idx w hw hb hm
    refine ⟨hm, ?_, ?_⟩
    · unfold laneRow; rw [toNat_shr7]; omega
    · unfold laneCol; rw [toNat_and127]; omega

/-! ## The payloads of a trip, lane by lane -/

section Pay
variable [FloatOps F]

def zeroF : F .f32 := Scalar.ofBits .f32 0x00000000#32
def oneF : F .f32 := Scalar.ofBits .f32 0x3F800000#32

theorem pay1_apply (x : S16.Idx) : k0_pay1 (F := F) x = zeroF := rfl
theorem pay2_eq : k0_pay2 (F := F) = fun _ => oneF := rfl
theorem pay6_apply (v2 : BitVec 32) (ld : Vec F S1x16 .i32) (x : S16.Idx) : k0_pay6 v2 ld x = laneM v2 (k0_pay5 ld x) := rfl
theorem pay3_apply (v2 : BitVec 32) (ld : Vec F S1x16 .i32) (x : S16.Idx) : k0_pay3 (k0_pay7 v2 ld) 7#32 x = laneRow v2 (k0_pay5 ld x) := rfl
theorem pay4_apply (v2 : BitVec 32) (ld : Vec F S1x16 .i32) (x : S16.Idx) : k0_pay4 (k0_pay7 v2 ld) x = laneCol v2 (k0_pay5 ld x) := rfl
theorem pay5_apply (ld : Vec F S1x16 .i32) (x : S16.Idx) : k0_pay5 ld x = ld (Shape.reshapeEquiv shapeCasts_S1x16_S16 x) := rfl

/-- The side condition the body assumes holds of every word: the row words are below 32, the column words below 128. -/
theorem chk_holds (v2 : BitVec 32) (w : ℕ) (hw : w < 32) (hb : v2.toNat = w * 4096) (ld : Vec F S1x16 .i32) :
    k0_chk1 (k0_pay3 (k0_pay7 v2 ld) 7#32) (k0_pay4 (k0_pay7 v2 ld)) := by
  intro a x
  match a with
  | 0 => exact laneRow_lt v2 _ w hw hb
  | 1 => exact laneCol_lt v2 _

end Pay

/-! ## Positions -/

/-- The 16-lane piece an element of the words, or of the tile's rows, lies in. -/
def piece40 (e : S40x128.Idx) : ℕ := (e 0).val * 8 + (e 1).val / 16
def piece32 (j : S32x128.Idx) : ℕ := (j 0).val * 8 + (j 1).val / 16

theorem piece40_lt (e : S40x128.Idx) : piece40 e < 320 := by
  have h0 : (e 0).val < 40 := (e 0).isLt
  have h1 : (e 1).val < 128 := (e 1).isLt
  unfold piece40; omega
theorem piece32_lt (j : S32x128.Idx) : piece32 j < 256 := by
  have h0 : (j 0).val < 32 := (j 0).isLt
  have h1 : (j 1).val < 128 := (j 1).isLt
  unfold piece32; omega

/-- Lane lane of piece k of the words. -/
def laneIdx (k : ℕ) (hk : k < 320) (lane : Fin 16) : S40x128.Idx := fun a =>
  ⟨(![k / 8, (k % 8) * 16 + lane.val] : Fin 2 → ℕ) a, by
    match a with
    | 0 => show k / 8 < 40; omega
    | 1 => show (k % 8) * 16 + lane.val < 128; omega⟩

theorem piece_split (k : ℕ) (hk : k < 320) (Q : S40x128.Idx → Prop) :
    (∃ e, piece40 e < k + 1 ∧ Q e) ↔ (∃ e, piece40 e < k ∧ Q e) ∨ ∃ lane : Fin 16, Q (laneIdx k hk lane) := by
  constructor
  · rintro ⟨e, he, hQ⟩
    by_cases h : piece40 e < k
    · exact .inl ⟨e, h, hQ⟩
    · right
      have hek : piece40 e = k := by omega
      have h0 : (e 0).val < 40 := (e 0).isLt
      have h1 : (e 1).val < 128 := (e 1).isLt
      unfold piece40 at hek
      refine ⟨⟨(e 1).val % 16, Nat.mod_lt _ (by decide)⟩, ?_⟩
      have : laneIdx k hk ⟨(e 1).val % 16, Nat.mod_lt _ (by decide)⟩ = e := by
        funext a; apply Fin.ext
        match a with
        | 0 => show k / 8 = (e 0).val; omega
        | 1 => show (k % 8) * 16 + (e 1).val % 16 = (e 1).val; omega
      rw [this]; exact hQ
  · rintro (⟨e, he, hQ⟩ | ⟨lane, hQ⟩)
    · exact ⟨e, by omega, hQ⟩
    · refine ⟨laneIdx k hk lane, ?_, hQ⟩
      have : piece40 (laneIdx k hk lane) = k := by
        show (k / 8) * 8 + ((k % 8) * 16 + lane.val) / 16 = k
        have := lane.isLt; omega
      omega

/-- The flat position of element j of the tile's rows, the window beginning at base. -/
def tgt (base : ℕ) (j : S32x128.Idx) : ℤ := ((base + (j 0).val * 128 + (j 1).val : ℕ) : ℤ)

/-- One trip of the second loop, on values: the elements that a word of piece k names are set, the rest kept. -/
theorem Z2_step {α : Type} (gpd : S40x128.Idx → BitVec 32) (base : ℕ) (k : ℕ) (hk : k < 320) (f f' : S32x128.Idx → α) (one zero : α)
    (hf : ∀ j, f j = open Classical in if ∃ e, piece40 e < k ∧ (gpd e).toInt = tgt base j then one else zero)
    (hf' : ∀ j, f' j = open Classical in if ∃ lane : Fin 16, (gpd (laneIdx k hk lane)).toInt = tgt base j then one else f j) :
    ∀ j, f' j = open Classical in if ∃ e, piece40 e < k + 1 ∧ (gpd e).toInt = tgt base j then one else zero := by
  intro j
  rw [hf', hf]
  by_cases hA : ∃ lane : Fin 16, (gpd (laneIdx k hk lane)).toInt = tgt base j
  · rw [if_pos hA, if_pos ((piece_split k hk _).mpr (.inr hA))]
  · rw [if_neg hA]
    by_cases hB : ∃ e, piece40 e < k ∧ (gpd e).toInt = tgt base j
    · rw [if_pos hB, if_pos ((piece_split k hk _).mpr (.inl hB))]
    · rw [if_neg hB, if_neg]
      intro h
      rcases (piece_split k hk _).mp h with h | h
      · exact hB h
      · exact hA h

end Cert.Proof.KI

end
-- ==== Proof.KITile.lean ====
/-
  The mask kernel as one vector subcore's task. The tile fetches the padded words whole into its word scratch, zeroes
  its mask scratch in 256 stores of sixteen lanes while the fetch is in flight, waits for the fetch, and then, sixteen
  words at a time, stores one at every element of the mask scratch whose flat position in the tile's window of 4096
  some word names (a word read signed; the window begins at 4096 times the tile's number, twice its subcore coordinate plus its core coordinate); at last it writes the mask
  scratch out into its thirty-two rows of the mask and waits for that. The value is carried in the two loops'
  invariants: after k trips of the first the first k pieces are zero; after k trips of the second an element is one
  exactly when some word of the first k pieces names it. At the end that is the mask of the words on the tile's rows.
-/
import proofs.«207473_g17575006175289_fold_wed_c4_317_29_alg».proof.Proof.KICommon
import proofs.«207473_g17575006175289_fold_wed_c4_317_29_alg».proof.Proof.KIWords

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Tile

variable [FloatOps F] (gp : (d : Dev nD) → Buf (Elt F) (gLoc d))

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

local notation "gW" => (Memref.whole Cert.KernelIdeal.main_v2_scv : Memref Cert.KernelIdeal.sig Kind.scVector Space.hbm Cert.KernelIdeal.S40x128 EltTy.i32)
local notation "kW" => (Memref.whole Cert.KernelIdeal.main_v3_scv : Memref Cert.KernelIdeal.sig Kind.scVector Space.hbm Cert.KernelIdeal.S1024x128 EltTy.f32)
local notation "s0W" => (Memref.whole Cert.KernelIdeal.cc0_scratch0 : Memref Cert.KernelIdeal.sig Kind.scVector Space.vmem Cert.KernelIdeal.S40x128 EltTy.i32)
local notation "s1W" => (Memref.whole Cert.KernelIdeal.cc0_scratch1 : Memref Cert.KernelIdeal.sig Kind.scVector Space.vmem Cert.KernelIdeal.S32x128 EltTy.f32)

abbrev rowsK (L : grid0.Coords) : Rect S1024x128 := Rect.unit (s := S1024x128) (k0_off3 L) S32x128.size (k0_off3_inb L)
abbrev kRows (L : grid0.Coords) : Memref sig .scVector .hbm S32x128 .f32 := (kW).slice (rowsK L) (fun _ => rfl)

omit [FloatOps F] in
theorem rowsK_eq (L : grid0.Coords) : rowsK L = rowsRect (wid (cL L) (sL L)) := by
  unfold rowsK rowsRect Rect.part Rect.block
  congr 1 <;> funext a
  · rw [k0_off3_eq]
    match a with
    | 0 => simp [Shape.partIx, Shape.partSize]; omega
    | 1 => simp [Shape.partIx, Shape.partSize]
  · match a with
    | 0 => simp [Shape.partSize]
    | 1 => simp [Shape.partSize]

omit [FloatOps F] in
theorem set_kRows (L : grid0.Coords) : (kRows L).view.set = rowsSet (wid (cL L) (sL L)) := by
  show ((kW).view.slice (rowsK L)).set = ((kW).view.slice (rowsRect (wid (cL L) (sL L)))).set
  rw [rowsK_eq]

abbrev aCell (d : Dev nD) (L : grid0.Coords) : GSem nD τ sig := (V d (cV L) (jV L), .dma cc0_scratch2.sem)
abbrev bCell (d : Dev nD) (L : grid0.Coords) : GSem nD τ sig := (V d (cV L) (jV L), .dma cc0_scoped0.sem)

omit [FloatOps F] in
theorem ownSems0_V (d : Dev nD) (L : grid0.Coords) :
    (ownSems0 (V d (cV L) (jV L)) : sProp 𝕄)
      = iprop(semVal (aCell d L) 0 ∗ semVal (bCell d L) 0
          ∗ bigSep (((ownCells (V d (cV L) (jV L))).erase (aCell d L)).erase (bCell d L)) fun g => semVal g 0) := by
  unfold SparseCore.Cfg.ownSems0
  rw [SparseCore.bigSep_erase' ((mem_ownCells (g := aCell d L)).mpr ⟨rfl, by
      show (SemLoc.dma cc0_scratch2.sem : SemLoc sig).isScoped .scVector = true; decide⟩),
    SparseCore.bigSep_erase' (Finset.mem_erase.mpr ⟨by simp [aCell, bCell]; decide, (mem_ownCells (g := bCell d L)).mpr ⟨rfl, by
      show (SemLoc.dma cc0_scoped0.sem : SemLoc sig).isScoped .scVector = true; decide⟩⟩)]

omit [FloatOps F] in
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_g (d : Dev nD) (L : grid0.Coords) (q : PosShare TreeShare) (f : Buf (Elt F) (gLoc d)) :
    ((gW).view.loc (V d (cV L) (jV L)) ↦{q} f : sProp 𝕄) = gLoc d ↦{q} f := by
  simp only [Memref.view_whole, View.set_whole]
omit [FloatOps F] in
theorem pts_kRows (d : Dev nD) (L : grid0.Coords) (f : Buf (Elt F) (kLoc d)) :
    ((kRows L).view.loc (V d (cV L) (jV L)) ↦[(kRows L).view.set]{fullShare} f : sProp 𝕄) = kLoc d ↦[rowsSet (wid (cL L) (sL L))]{fullShare} f := by
  rw [set_kRows]
omit [FloatOps F] in
theorem pts_s0 (d : Dev nD) (L : grid0.Coords) (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] in
theorem pts_s1 (d : Dev nD) (L : grid0.Coords) (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl

/-! ## The scratch's value, trip by trip -/

/-- The tile's number, twice its subcore coordinate plus its core coordinate: the window's first flat position divided by 4096. -/
def wN (L : grid0.Coords) : ℕ := 2 * (L 1).val + (L 0).val
omit [FloatOps F] in
theorem wN_lt (L : grid0.Coords) : wN L < 32 := by
  have h0 : (L 0).val < 2 := (L 0).isLt
  have h1 : (L 1).val < 16 := (L 1).isLt
  unfold wN; omega

/-- After k trips of the first loop the first k pieces of the mask scratch are zero. -/
def Z1 (d : Dev nD) (L : grid0.Coords) (k : ℕ) (f : Buf (Elt F) ((V d (cV L) (jV L)).loc cc0_scratch1)) : Prop :=
  ∀ j : S32x128.Idx, piece32 j < k → f j = zeroF (F := F)

open Classical in
/-- After k trips of the second loop an element of the mask scratch is one exactly when some word of the first k pieces,
    read signed, is its flat position. -/
def Z2 (gpd : S40x128.Idx → BitVec 32) (d : Dev nD) (L : grid0.Coords) (k : ℕ) (f : Buf (Elt F) ((V d (cV L) (jV L)).loc cc0_scratch1)) : Prop :=
  ∀ j : S32x128.Idx, f j = if ∃ e, piece40 e < k ∧ (gpd e).toInt = tgt (wN L * 4096) j then oneF (F := F) else zeroF

theorem Z2_zero (gpd : S40x128.Idx → BitVec 32) (d : Dev nD) (L : grid0.Coords) (f : Buf (Elt F) ((V d (cV L) (jV L)).loc cc0_scratch1))
    (h : Z1 d L 256 f) : Z2 gpd d L 0 f := by
  intro j
  rw [h j (piece32_lt j), if_neg]
  rintro ⟨e, he, -⟩
  exact absurd he (Nat.not_lt_zero _)

/-- One trip of the first loop: the piece stored is zero, the rest kept. -/
theorem trip1_val (d : Dev nD) (L : grid0.Coords) (k : Fin k0_t1_loop.trips) (f : Buf (Elt F) ((V d (cV L) (jV L)).loc cc0_scratch1))
    (hf : Z1 d L k.val f) :
    Z1 d L (k.val + 1) ((s1W).view.writes (Elt F) f
      [⟨Rect.unit (s := S32x128) (k0_off1 k) S1x16.size (k0_off1_inb k), shapeCast S1x16 (k0_pay1 (F := F)) shapeCasts_S16_S1x16⟩]) := by
  intro j hj
  by_cases hm : j ∈ (Rect.unit (s := S32x128) (k0_off1 k) S1x16.size (k0_off1_inb k)).set
  · obtain ⟨x, rfl⟩ := (Rect.unit (s := S32x128) (k0_off1 k) S1x16.size (k0_off1_inb k)).exists_idx_of_mem hm
    exact View.read_writes_cons_emb (s1W).view f (Rect.unit (s := S32x128) (k0_off1 k) S1x16.size (k0_off1_inb k))
      (shapeCast S1x16 (k0_pay1 (F := F)) shapeCasts_S16_S1x16) [] x
  · have h1 := View.read_writes_apply_of_forall_not_mem (s1W).view f j
      [⟨Rect.unit (s := S32x128) (k0_off1 k) S1x16.size (k0_off1_inb k), shapeCast S1x16 (k0_pay1 (F := F)) shapeCasts_S16_S1x16⟩]
      (by intro p hp; rw [List.mem_singleton] at hp; subst hp; exact hm)
    refine h1.trans (hf j ?_)
    by_contra hlt
    apply hm
    rw [Rect.mem_set_unit, k0_off1_cf]
    have h0 : (j 0).val < 32 := (j 0).isLt
    have h1 : (j 1).val < 128 := (j 1).isLt
    have hp : piece32 j = k.val := by omega
    unfold piece32 at hp
    intro a
    match a with
    | 0 => show k.val / 8 ≤ (j 0).val ∧ (j 0).val < k.val / 8 + 1; omega
    | 1 => show (k.val % 8) * 16 ≤ (j 1).val ∧ (j 1).val < (k.val % 8) * 16 + 16; omega

omit [FloatOps F] in
/-- The index vectors' re-indexing from a row of sixteen to sixteen lanes keeps the lane. -/
theorem reshape_lane : ∀ x : S16.Idx, ((Shape.reshapeEquiv shapeCasts_S1x16_S16 x) 0).val = 0
    ∧ ((Shape.reshapeEquiv shapeCasts_S1x16_S16 x) 1).val = (x 0).val := by decide +kernel

/-- The word a trip's lane reads off the word scratch. -/
theorem lane_word (c0 : S40x128.Idx → BitVec 32) (k : Fin k0_t2_loop.trips) (hk : k.val < 320) (lane : Fin 16) :
    k0_pay5 (F := F) ((s0W).view.readAt (Elt F) (Rect.unit (s := S40x128) (k0_off2 k) S1x16.size (k0_off2_inb k)).toLoadRect c0) (Shape.ofLane lane)
      = c0 (laneIdx k.val hk lane) := by
  have hidx : (Rect.unit (s := S40x128) (k0_off2 k) S1x16.size (k0_off2_inb k)).toLoadRect.idx
      (Shape.reshapeEquiv shapeCasts_S1x16_S16 (Shape.ofLane lane)) = laneIdx k.val hk lane := by
    obtain ⟨h0, h1⟩ := reshape_lane (Shape.ofLane lane)
    funext a; apply Fin.ext
    match a with
    | 0 =>
      show k0_off2 k 0 + 1 * ((Shape.reshapeEquiv shapeCasts_S1x16_S16 (Shape.ofLane lane)) 0).val = k.val / 8
      rw [h0, k0_off2_cf]; rfl
    | 1 =>
      show k0_off2 k 1 + 1 * ((Shape.reshapeEquiv shapeCasts_S1x16_S16 (Shape.ofLane lane)) 1).val = (k.val % 8) * 16 + lane.val
      rw [h1, k0_off2_cf]
      show (k.val % 8) * 16 + 1 * lane.val = (k.val % 8) * 16 + lane.val
      omega
  rw [pay5_apply, View.readAt_apply]
  show c0 _ = c0 _
  exact congrArg c0 hidx

/-- One trip of the second loop: the elements the trip's enabled lanes name are set to one, the rest kept. -/
theorem trip2_val (gpd : S40x128.Idx → BitVec 32) (d : Dev nD) (L : grid0.Coords) (k : Fin k0_t2_loop.trips)
    (c0 : Buf (Elt F) ((V d (cV L) (jV L)).loc cc0_scratch0)) (hc0 : ∀ e : S40x128.Idx, c0 e = gpd e)
    (f : Buf (Elt F) ((V d (cV L) (jV L)).loc cc0_scratch1)) (hf : Z2 gpd d L k.val f)
    (v50 v52 : IVec S16 32) (v44 : IVec S16 1)
    (h50 : v50 = k0_pay3 (k0_pay7 (baseW L) ((s0W).view.readAt (Elt F) (Rect.unit (s := S40x128) (k0_off2 k) S1x16.size (k0_off2_inb k)).toLoadRect c0)) 7#32)
    (h52 : v52 = k0_pay4 (k0_pay7 (baseW L) ((s0W).view.readAt (Elt F) (Rect.unit (s := S40x128) (k0_off2 k) S1x16.size (k0_off2_inb k)).toLoadRect c0)))
    (h44 : v44 = k0_pay6 (baseW L) ((s0W).view.readAt (Elt F) (Rect.unit (s := S40x128) (k0_off2 k) S1x16.size (k0_off2_inb k)).toLoadRect c0))
    (h : ∀ a x, ((![v50, v52] : Fin 2 → IVec S16 32) a x).toNat < S32x128.size a) :
    Z2 gpd d L (k.val + 1) ((s1W).view.writes (Elt F) f
      [⟨Rect.whole S32x128, storeIdx ((s1W).view.readAt (Elt F) (LoadRect.whole S32x128) f) ![v50, v52] (k0_pay2 (F := F)) v44 false h⟩]) := by
  have hk : k.val < 320 := Nat.lt_of_lt_of_eq k.isLt trips2
  refine Z2_step gpd (wN L * 4096) k.val hk f _ oneF zeroF hf ?_
  intro j
  have h1 := View.read_writes_cons_emb (s1W).view f (Rect.whole S32x128)
    (storeIdx ((s1W).view.readAt (Elt F) (LoadRect.whole S32x128) f) ![v50, v52] (k0_pay2 (F := F)) v44 false h) [] j
  have hw : (Rect.whole S32x128).emb j = j := Rect.emb_whole_apply S32x128 j
  refine ((congrArg (fun y : S32x128.Idx => View.read (Elt F) (s1W).view ((s1W).view.writes (Elt F) f
    [⟨Rect.whole S32x128, storeIdx ((s1W).view.readAt (Elt F) (LoadRect.whole S32x128) f) ![v50, v52] (k0_pay2 (F := F)) v44 false h⟩]) y)
    hw.symm).trans h1).trans ?_
  have hread : (s1W).view.readAt (Elt F) (LoadRect.whole S32x128) f j = f j := by
    rw [View.readAt_apply]
    show f ((Rect.whole S32x128).emb j) = f j
    exact congrArg f hw
  rw [pay2_eq, storeIdx_const, hread]
  have hj0 : (j 0).val < 32 := (j 0).isLt
  have hj1 : (j 1).val < 128 := (j 1).isLt
  have key : ∀ lane : Fin 16,
      (v44 (Shape.ofLane (d := ![16]) lane) = 1 ∧ ∀ a, (j a).val = ((![v50, v52] : Fin 2 → IVec S16 32) a (Shape.ofLane (d := ![16]) lane)).toNat)
        ↔ (gpd (laneIdx k.val hk lane)).toInt = tgt (wN L * 4096) j := by
    intro lane
    have e44 : v44 (Shape.ofLane (d := ![16]) lane) = laneM (baseW L) (gpd (laneIdx k.val hk lane)) := by
      rw [h44, pay6_apply, lane_word (F := F) c0 k hk lane, hc0]
    have e50 : (v50 (Shape.ofLane (d := ![16]) lane)).toNat = (laneRow (baseW L) (gpd (laneIdx k.val hk lane))).toNat := by
      rw [h50, pay3_apply, lane_word (F := F) c0 k hk lane, hc0]
    have e52 : (v52 (Shape.ofLane (d := ![16]) lane)).toNat = (laneCol (baseW L) (gpd (laneIdx k.val hk lane))).toNat := by
      rw [h52, pay4_apply, lane_word (F := F) c0 k hk lane, hc0]
    refine Iff.trans ?_ (lane_iff (baseW L) (gpd (laneIdx k.val hk lane)) (wN L) (wN_lt L) (baseW_toNat L) (j 0).val (j 1).val hj0 hj1)
    constructor
    · rintro ⟨hm, ha⟩
      exact ⟨e44 ▸ hm, (ha 0).trans e50, (ha 1).trans e52⟩
    · rintro ⟨hm, h0, h1⟩
      refine ⟨e44.trans hm, fun a => ?_⟩
      match a with
      | 0 => exact h0.trans e50.symm
      | 1 => exact h1.trans e52.symm
  exact if_congr ⟨fun ⟨lane, hl⟩ => ⟨lane, (key lane).mp hl⟩, fun ⟨lane, hl⟩ => ⟨lane, (key lane).mpr hl⟩⟩ rfl rfl

/-- What the write-out lands in the tile's rows of the mask: the mask of the words. -/
theorem final_val (d : Dev nD) (L : grid0.Coords) (fk : Buf (Elt F) (kLoc d)) (f : Buf (Elt F) ((V d (cV L) (jV L)).loc cc0_scratch1))
    (hf : Z2 (gp d) d L 320 f) :
    ∀ i ∈ (kRows L).view.set,
      ((kRows L).view.writes (Elt F) fk [⟨Rect.whole S32x128, ReadAs.same.apply ((s1W).view.read (Elt F) f)⟩]) i = maskOf (F := F) (gp d) i := by
  intro i hi
  obtain ⟨y, -, rfl⟩ := Finset.mem_map.mp hi
  have h1 := View.read_writes_cons_emb (kRows L).view fk (Rect.whole S32x128) (ReadAs.same.apply ((s1W).view.read (Elt F) f)) [] y
  have hw : (Rect.whole S32x128).emb y = y := Rect.emb_whole_apply S32x128 y
  have h2 := (View.read_apply (v := (kRows L).view)
    ((kRows L).view.writes (Elt F) fk [⟨Rect.whole S32x128, ReadAs.same.apply ((s1W).view.read (Elt F) f)⟩]) y).trans (cast_eq _ _)
  refine (h2.symm.trans ((congrArg (fun z : S32x128.Idx => View.read (Elt F) (kRows L).view ((kRows L).view.writes (Elt F) fk
    [⟨Rect.whole S32x128, ReadAs.same.apply ((s1W).view.read (Elt F) f)⟩]) z) hw.symm).trans h1)).trans ?_
  show f y = maskOf (F := F) (gp d) ((kRows L).view.emb y)
  have hflat : flat ((kRows L).view.emb y) = tgt (wN L * 4096) y := by
    unfold flat tgt wN
    have e0 : (((kRows L).view.emb y) 0).val = 64 * (L 1).val + 32 * (L 0).val + (y 0).val := by
      show k0_off3 L 0 + 1 * (y 0).val = _
      rw [k0_off3_eq]
      show (64 * (L 1).val + 32 * (L 0).val) + 1 * (y 0).val = _
      omega
    have e1 : (((kRows L).view.emb y) 1).val = (y 1).val := by
      show k0_off3 L 1 + 1 * (y 1).val = _
      rw [k0_off3_eq]
      show 0 + 1 * (y 1).val = _
      omega
    rw [e0, e1]
    congr 1
    omega
  rw [hf y]
  unfold maskOf
  rw [hflat]
  refine if_congr ?_ rfl rfl
  exact ⟨fun ⟨e, _, h⟩ => ⟨e, h⟩, fun ⟨e, h⟩ => ⟨e, piece40_lt e, h⟩⟩

/-! ## The task of one vector subcore -/

/-- The first loop's invariant: the mask scratch, its first pieces zero. -/
def inv1 (d : Dev nD) (L : grid0.Coords) (k : ℕ) (_ : Unit) : sProp 𝕄 :=
  iprop(∃ f : Buf (Elt F) ((V d (cV L) (jV L)).loc cc0_scratch1), ((s1W).view.loc (V d (cV L) (jV L)) ↦{fullShare} f) ∗ ⌜Z1 d L k f⌝)

/-- The second loop's invariant: the word scratch at the words, the mask scratch at the mask of the words read so far. -/
def inv2 (d : Dev nD) (L : grid0.Coords) (k : ℕ) (_ : Unit) : sProp 𝕄 :=
  iprop(∃ (f : Buf (Elt F) ((V d (cV L) (jV L)).loc cc0_scratch1)) (c0 : Buf (Elt F) ((V d (cV L) (jV L)).loc cc0_scratch0)),
    ((s1W).view.loc (V d (cV L) (jV L)) ↦{fullShare} f) ∗ ((s0W).view.loc (V d (cV L) (jV L)) ↦{fullShare} c0)
      ∗ ⌜(∀ e : S40x128.Idx, c0 e = gp d e) ∧ Z2 (gp d) d L k f⌝)

theorem tile_body (d : Dev nD) (L : grid0.Coords) (O : CellTallies nD τ sig (HIx 1)) (W : Waits sig (HIx 1)) (hO : ∀ g, O g none = 0) :
    iprop(levAts (K (F := F)).L (K (F := F)).lev ∗ emp ∗ tileGo gp d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_mask_kernel L gW (Memref.isWhole_whole _) kW (Memref.isWhole_whole _) s0W (Memref.isWhole_whole _) s1W (Memref.isWhole_whole _) cc0_scratch2 cc0_scoped0)
          fun _ => iprop(tileTd gp d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_mask_kernel_eq_skeleton]; unfold cc0_mask_kernel_skel
  rw [(K (F := F)).scopedBufs_V facts d (cV L) (jV L), SparseCore.Cfg.scopedSems0_V (Val := Elt F) d (cV L) (jV L), ownSems0_V, ownBufs_V]
  unfold tileGo
  iintro ⟨#Hlv, -, ⟨Hg, %fk, Hk⟩, ⟨⟨%f0, Hs0⟩, ⟨%f1, Hs1⟩, Hbufs⟩, ⟨HsemA, HsemB, Hsems⟩, HO⟩
  ihave Hmw := ((K (F := F)).mayWaits_none (thr := V d (cV L) (jV L)) hO) $$ Hlv
  ihave Hg' := (Entails.of_eq (pts_g (F := F) d L _ _).symm) $$ Hg
  ihave Hk' := (Entails.of_eq (pts_kRows (F := F) d L _).symm) $$ Hk
  ihave Hs0' := (Entails.of_eq (pts_s0 (F := F) d L _).symm) $$ Hs0
  ihave Hs1' := (Entails.of_eq (pts_s1 (F := F) d L _).symm) $$ Hs1
  -- the fetch of the words is issued
  sl_exec
  -- the first loop zeroes the mask scratch, piece by piece
  sl_for (inv1 (F := F) d L) $$ [Hs1']
  case region =>
    intro k _
    unfold inv1
    iintro ⟨%f, Hs, %hf⟩
    sl_exec
    sl_step
    iexists _
    isplitl [Hs]
    · iexact Hs
    · ipureintro; exact trip1_val d L k f hf
  · unfold inv1
    iexists f1
    isplitl [Hs1']
    · iexact Hs1'
    · ipureintro; intro j hj; exact absurd hj (Nat.not_lt_zero _)
  iintro %_ HI
  unfold inv1
  icases HI with ⟨%f1', Hs1, %hf1⟩
  have hf1' : Z1 d L 256 f1' := by
    have h := hf1
    rw [show Scf.trips k0_t1_loop.lb k0_t1_loop.ub k0_t1_loop.st = 256 from trips1] at h
    exact h
  -- the fetch is waited for: the word scratch holds the words
  sl_exec
  have hc0 : ∀ e : S40x128.Idx, View.write (Elt F) (s0W).view f0 (tile_body.sl.dma0 gp d) Finset.univ e = gp d e := by
    intro e; unfold tile_body.sl.dma0; rw [View.write_whole_univ]; rfl
  -- the second loop sets the elements its words name
  sl_for (inv2 (F := F) gp d L) $$ [Hs1 Hs0']
  case region =>
    intro k _
    unfold inv2
    iintro ⟨%f, %c0, Hs1, Hs0, %hh⟩
    obtain ⟨hc0, hf⟩ := hh
    sl_exec
    have hchk : k0_chk1 (tile_body.sl.v50 d L k c0) (tile_body.sl.v52 d L k c0) :=
      chk_holds (baseW L) (wN L) (wN_lt L) (baseW_toNat L)
        ((s0W).view.readAt (Elt F) (Rect.unit (s := S40x128) (k0_off2 k) S1x16.size (k0_off2_inb k)).toLoadRect c0)
    rw [wp_assume_of _ _ _ _ hchk]
    rw [SparseCore.vectorStoreIdx_bind (V d (cV L) (jV L))]
    sl_exec
    sl_step
    iexists _, c0
    isplitl [Hs1]; · iexact Hs1
    isplitl [Hs0]; · iexact Hs0
    ipureintro; exact ⟨hc0, trip2_val (gp d) d L k c0 hc0 f hf _ _ _ rfl rfl rfl _⟩
  · unfold inv2
    iexists f1', _
    isplitl [Hs1]; · iexact Hs1
    isplitl [Hs0']; · iexact Hs0'
    ipureintro; exact ⟨hc0, Z2_zero (gp d) d L f1' hf1'⟩
  iintro %_ HI
  unfold inv2
  icases HI with ⟨%f1'', %c0, Hs1, Hs0, %hh⟩
  obtain ⟨-, hf2⟩ := hh
  have hf2' : Z2 (gp d) d L 320 f1'' := by
    have h := hf2
    rw [show Scf.trips k0_t2_loop.lb k0_t2_loop.ub k0_t2_loop.st = 320 from trips2] at h
    exact h
  -- the write-out of the mask scratch into the tile's rows, and its wait
  sl_exec
  sl_step
  have hfv : ∀ i ∈ (kRows L).view.set,
      ((kRows L).view.writes (Elt F) fk [⟨Rect.whole S32x128, tile_body.sl.dma0_1 d L f1''⟩]) i = maskOf (F := F) (gp d) i :=
    final_val gp d L fk f1'' hf2'
  ihave Hk := (Entails.of_eq ((pointsTo_congr hfv).trans (pts_kRows (F := F) d L _))) $$ Hk'
  ihave Hg := (Entails.of_eq (pts_g (F := F) d L _ _)) $$ Hg'
  unfold tileTd
  isplitl [Hg Hk]
  · isplitl [Hg]; · iexact Hg
    iexact Hk
  isplitl [Hs0 Hs1 Hbufs]
  · isplitl [Hs0]; · iexists _; iexact Hs0
    isplitl [Hs1]; · iexists _; iexact Hs1
    iexact Hbufs
  isplitl [HsemA HsemB Hsems]
  · isplitl [HsemA]; · iexact HsemA
    isplitl [HsemB]; · iexact HsemB
    iexact Hsems
  iexists _; isplitr
  rotate_left
  · iexact HO
  ipureintro; intro p hp
  rcases Finset.mem_insert.mp hp with hp | hp
  · exact .inr (by subst hp; rfl)
  rcases Finset.mem_insert.mp hp with hp | hp
  · exact .inr (by subst hp; rfl)
  · exact .inl hp

/-! ## The launch theorem's obligation -/

theorem defs₀_vector (c : Fin τ.nSC) (s : Fin τ.nSub) :
    defs₀ (F := F) (.scVector c s) 0 ()
      = SparseCore.onTile hcore0 hsub0 (fun c s => cc0_mask_kernel (coordsV c s)
          gW (Memref.isWhole_whole _) kW (Memref.isWhole_whole _) s0W (Memref.isWhole_whole _) s1W (Memref.isWhole_whole _) cc0_scratch2 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The mask kernel as one vector subcore's task: from a read share of the words and the tile's rows of the mask at
    anything, to the share back and the rows at the mask of the words. -/
theorem tileObl : (K (F := F)).TileObl (D (F := F)) 𝒱 (P gp) v₀ 0 := by
  intro d c i O W hO _ _
  simp only [show (P gp).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body gp d (coordsV ⟨_, hc.1⟩ ⟨_, hc.2⟩) O W hO).trans (wp_mono frame _ _ fun _ => obl_post)

end Tile

end Cert.Proof.KI

end
-- ==== Proof.KIRegionDefs.lean ====
/-
  The TensorCore call of the idealized kernel: the functions its result is stated with (the gate, one block's blend,
  the whole blended array), the operations of its body read at an index, and a tactic that opens the names a run
  of the body introduces.
-/
import proofs.«207473_g17575006175289_fold_wed_c4_317_29_alg».proof.Proof.KICommon
import Idealize.ShloMosaic.Lib.WholeRead
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## What the call computes -/

/-- The gate: the logistic of the weights against every batch row of the state, plus the bias; one entry per batch row. -/
def gate (A6 : Vec F S128x1024 .f32) (A3 : Vec F S1x1024 .f32) (A7 : Vec F S1x1 .f32) : FVec F S1x128 .f32 :=
  logistic (addf (matmul dot_S1x1024_S128x1024_S1x128_1_1_0_0_n_n none A3 A6 (constant S1x128 .f32 0x00000000#32))
    (broadcastTo S1x128 A7 broadcasts_S1x1_S1x128))

theorem hrow (v : Fin 100000) : v.val / 128 < 1024 := by omega
theorem hcol (v : Fin 100000) : v.val % 128 < 128 := by omega

/-- The blended array, entry by entry: where the mask at the entry's row (read as row / 128, row % 128) is not zero the
    input scaled by the gate of its column, elsewhere the input. -/
def blendOut (A6 : Vec F S128x1024 .f32) (A3 : Vec F S1x1024 .f32) (A7 : Vec F S1x1 .f32)
    (A5 : Vec F S100000x128 .f32) (Am : Vec F S1024x128 .f32) : Vec F S100000x128 .f32 := fun y =>
  Scalar.select (FloatOps.cmpf .one (Am (ix2 (⟨(y 0).val / 128, hrow (y 0)⟩ : Fin 1024) (⟨(y 0).val % 128, hcol (y 0)⟩ : Fin 128))) (Scalar.ofBits .f32 0x00000000#32))
    (FloatOps.mulf (A5 y) (gate A6 A3 A7 (ix2 (0 : Fin 1) (y 1)))) (A5 y)

/-- The one admissible contents of each pipeline (none has a prefetched table). -/
abbrev adm : (p : Fin 1) → (pcfgs (F := F) p).Adm := fun p => (cfgs p).toPCfg_adm

/-- The valuation after the call: the result array at the blend of the five inputs as `V` holds them. -/
def VAfter (V : Valuation τ sig (Elt F)) : Valuation τ sig (Elt F) :=
  Function.update V (Proc.devRef .tc main_v8)
    (blendOut (V (Proc.devRef .tc main_v6)) (V (Proc.devRef .tc main_arg3)) (V (Proc.devRef .tc main_v7))
      (V (Proc.devRef .tc main_v5)) (V (Proc.devRef .tc main_v3)))

theorem hq128 (v : Fin 14336) : v.val / 128 < 112 := by omega
theorem hr128 (v : Fin 14336) : v.val % 128 < 128 := by omega

/-- One block's blend, entry by entry: `v3` the gate, `v6` the block's mask columns (entry (j, t) speaks for the
    block's row 128 t + j), `X` the block's inputs. -/
def blendBlk (v3 : S1x128.Idx → F .f32) (v6 : S128x112.Idx → F .f32) (X : S14336x128.Idx → F .f32) : S14336x128.Idx → F .f32 := fun y =>
  Scalar.select (FloatOps.cmpf .one (v6 (ix2 (⟨(y 0).val % 128, hr128 (y 0)⟩ : Fin 128) (⟨(y 0).val / 128, hq128 (y 0)⟩ : Fin 112))) (Scalar.ofBits .f32 0x00000000#32))
    (FloatOps.mulf (X y) (v3 (ix2 (0 : Fin 1) (y 1)))) (X y)

/-- The block's blend under the 128 rows from row 128 t. -/
theorem blendBlk_idx (v3 : S1x128.Idx → F .f32) (v6 : S128x112.Idx → F .f32) (X : S14336x128.Idx → F .f32) (t : ℕ) (ht : t < 112)
    (inb : ∀ a, (![128 * t, 0] : Fin 2 → ℕ) a + S128x128.size a ≤ S14336x128.size a) (x : S128x128.Idx) :
    blendBlk v3 v6 X ((Rect.unit (s := S14336x128) ![128 * t, 0] S128x128.size inb).toLoadRect.idx x)
      = Scalar.select (FloatOps.cmpf .one (v6 (ix2 (x 0) (⟨t, ht⟩ : Fin 112))) (Scalar.ofBits .f32 0x00000000#32))
          (FloatOps.mulf (X ((Rect.unit (s := S14336x128) ![128 * t, 0] S128x128.size inb).toLoadRect.idx x)) (v3 (ix2 (0 : Fin 1) (x 1))))
          (X ((Rect.unit (s := S14336x128) ![128 * t, 0] S128x128.size inb).toLoadRect.idx x)) := by
  have hx0 := idx2_lt0 x
  have h0 : (((Rect.unit (s := S14336x128) ![128 * t, 0] S128x128.size inb).toLoadRect.idx x) 0).val = 128 * t + (x 0).val := by
    show 128 * t + 1 * (x 0).val = _; omega
  have h1 : ((Rect.unit (s := S14336x128) ![128 * t, 0] S128x128.size inb).toLoadRect.idx x) 1 = x 1 :=
    Fin.ext (by show 0 + 1 * (x 1).val = _; omega)
  have em : (ix2 (⟨(((Rect.unit (s := S14336x128) ![128 * t, 0] S128x128.size inb).toLoadRect.idx x) 0).val % 128, hr128 _⟩ : Fin 128)
      (⟨(((Rect.unit (s := S14336x128) ![128 * t, 0] S128x128.size inb).toLoadRect.idx x) 0).val / 128, hq128 _⟩ : Fin 112) : S128x112.Idx)
      = ix2 (x 0) (⟨t, ht⟩ : Fin 112) := by
    funext a
    match a with
    | ⟨0, _⟩ => exact Fin.ext (by show _ % 128 = (x 0).val; rw [h0]; omega)
    | ⟨1, _⟩ => exact Fin.ext (by show _ / 128 = t; rw [h0]; omega)
  unfold blendBlk
  rw [em, h1]
  try rfl

/-! ## The body's operations read at an index -/

theorem mulf_at {s : Shape} {φ : FTy} (a b : FVec F s φ) (i : s.Idx) : mulf a b i = FloatOps.mulf (a i) (b i) := rfl

theorem bcast_row {α : Type} (v : S1x128.Idx → α) (h : S1x128.Broadcasts S128x128) (j : S128x128.Idx) :
    broadcastTo S128x128 v h j = v (ix2 (0 : Fin 1) (j 1)) :=
  broadcastTo_apply v h j _ fun a => match a with | ⟨0, _⟩ => rfl | ⟨1, _⟩ => rfl

theorem bcast_col {α : Type} (v : S128x1.Idx → α) (h : S128x1.Broadcasts S128x128) (j : S128x128.Idx) :
    broadcastTo S128x128 v h j = v (ix2 (j 0) (0 : Fin 1)) :=
  broadcastTo_apply v h j _ fun a => match a with | ⟨0, _⟩ => rfl | ⟨1, _⟩ => rfl

theorem slice_lt {t : ℕ} (h : S128x112.Slices ![0, t] S128x1) : t < 112 := by
  have := h.2 (1 : Fin 2); change t + 1 ≤ 112 at this; omega

theorem slice_col {α : Type} (t : ℕ) (v : S128x112.Idx → α) (h : S128x112.Slices ![0, t] S128x1) (j : S128x1.Idx) :
    extractStridedSlice S128x1 ![0, t] v h j = v (ix2 (j 0) (⟨t, slice_lt h⟩ : Fin 112)) :=
  extractStridedSlice_apply _ v h j _ fun a => match a with
    | ⟨0, _⟩ => by show (j 0).val = 0 + (j 0).val; omega
    | ⟨1, _⟩ => by have := idx2_lt1 j; show t = t + (j 1).val; omega

/-! ## Opening a run's names -/

open Lean Elab Tactic Meta in
/-- Unfold, in the goal, every auxiliary constant a run of the body introduced (those under a `.sl.` name),
    through nested ones. -/
elab "sl_delta" : tactic => do
  let g ← getMainGoal
  let t ← instantiateMVars (← g.getType)
  let t' ← Meta.deltaExpand t (fun n => (n.toString.splitOn ".sl.").length > 1)
  let g' ← g.replaceTargetDefEq t'
  replaceMainGoal [g']

/-! ## The body's conditional -/

/-- The condition of the body's conditional, from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 7 = 0 :=
  (by decide +kernel : ∀ t : Fin grid1.N, cond1_0 (grid1.coords t) ↔ t.val % 7 = 0)

end Cert.Proof.KI

end
-- ==== Proof.KIBlend.lean ====
/-
  The kernel region's result array as one function of the arrays it reads.
-/
import proofs.«207473_g17575006175289_fold_wed_c4_317_29_alg».proof.Proof.KICommon
import proofs.«207473_g17575006175289_fold_wed_c4_317_29_alg».proof.Proof.KIMain
import proofs.«207473_g17575006175289_fold_wed_c4_317_29_alg».proof.Proof.KIVals
import proofs.«207473_g17575006175289_fold_wed_c4_317_29_alg».proof.Proof.KIRegionDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The region's result array from the contents of the state, weight, bias, input and mask arrays. -/
abbrev blendV : Valuation τ sig (Elt F) → (⟨S100000x128, .f32⟩ : BufTy).Contents (Elt F) :=
  fun V => blendOut (V v6') (V a3') (V v7') (V v5') (V k')

end Cert.Proof.KI

end
-- ==== Proof.KIRegionRunB.lean ====
/-
  The body of the TensorCore call run at a grid point that is not the first: the two scratches are read, the
  hundred and twelve row tiles of the input block are blended into the result block.
-/
import proofs.«207473_g17575006175289_fold_wed_c4_317_29_alg».proof.Proof.KICommon
import Idealize.ShloMosaic.Lib.WholeRead
import proofs.«207473_g17575006175289_fold_wed_c4_317_29_alg».proof.Proof.KIRegionDefs
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- Every payload of the body and the operations they are made of, read at an index. -/
macro "kpay_simp" : tactic => `(tactic| simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, shapeCast_self, select_apply, cmpf_apply, mulf_at, broadcast_apply, bcast_row, bcast_col, slice_col, Memref.IsWhole.readAt_unread])

/-- The mask columns of block `i`: the scratch's slab at the block's coordinate, its leading unit axis dropped. -/
def mcols (xs1 : Vec F S7x128x112 .f32) (i : grid1.Coords) : FVec F S128x112 .f32 :=
  k1_pay11 (View.ld xs1 (Rect.unit (s := S7x128x112) (k1_off1 i) S1x128x112.size (Gen.k1_off1_inb i)))

set_option maxHeartbeats 8000000 in
/-- At a later point: the inputs' buffers and the two scratches stay as they are; the result's buffer ends at the
    blend of the input block by the gate scratch and the block's mask columns. -/
theorem runB (c : Dev nD) (i : grid1.Coords) (arg1 : Memref sig .tc .vmem S128x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S14336x128 .f32) (harg4 : arg4.IsWhole) (arg5 : Memref sig .tc .vmem S1024x128 .f32) (harg5 : arg5.IsWhole) (arg6 : Memref sig .tc .vmem S14336x128 .f32) (harg6 : arg6.IsWhole) (arg7 : Memref sig .tc .vmem S1x128 .f32) (harg7 : arg7.IsWhole) (arg8 : Memref sig .tc .vmem S7x128x112 .f32) (harg8 : arg8.IsWhole)
    (hc0 : ¬cond1_0 i)
    (x0 : Vec F S128x1024 .f32) (x1 : Vec F S1x1024 .f32) (x2 : Vec F S1x1 .f32) (x3 : Vec F S14336x128 .f32) (x4 : Vec F S1024x128 .f32)
    (xs0 : Vec F S1x128 .f32) (xs1 : Vec F S7x128x112 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blendBlk xs0 (mcols xs1 i) x3)
            ∗ owns (c : Thread nD τ) arg7 fullShare xs0 ∗ owns (c : Thread nD τ) arg8 fullShare xs1) -∗ K ⟨⟩))
      ⊢ wp frame (wpE (defs₀ (F := F)) Variants.none c none) E (cc1__blend_body i arg1 harg1 arg2 harg2 arg3 harg3 arg4 harg4 arg5 harg5 arg6 harg6 arg7 harg7 arg8 harg8) K := by
  simp only [cc1__blend_body_eq_skeleton]; unfold cc1__blend_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6; obtain rfl := harg8.eq_unread hf7
  sl_exec_parts (disch := first | exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitr [H6 H7]
  swap
  · isplitl [H6]; · iexists _; isplitr; · ipureintro; exact hf6
                    iexact H6
    iexists _; isplitr; · ipureintro; exact hf7
    iexact H7
  iexists _; isplitr
  swap; · iexact H5
  ipureintro
  sl_delta
  have hV3 : View.readAt (Elt F) arg7.view (Rect.unit (s := S1x128) ![0, 0] S1x128.size inb_S1x128_S1x128_0_0).toLoadRect (harg7.unread xs0) = xs0 := by
    rw [View.readAt_eq_ld, hf6]; exact View.ld_unit_zero (funext fun a => by fin_cases a <;> rfl) _ _
  have hV5 : View.readAt (Elt F) arg8.view (Rect.unit (s := S7x128x112) (k1_off1 i) S1x128x112.size (Gen.k1_off1_inb i)).toLoadRect (harg8.unread xs1)
      = View.ld xs1 (Rect.unit (s := S7x128x112) (k1_off1 i) S1x128x112.size (Gen.k1_off1_inb i)) := by
    rw [View.readAt_eq_ld, hf7]
  have hG : blendBlk xs0 (mcols xs1 i) x3
      = blendBlk (View.readAt (Elt F) arg7.view (Rect.unit (s := S1x128) ![0, 0] S1x128.size inb_S1x128_S1x128_0_0).toLoadRect (harg7.unread xs0))
          (k1_pay11 (View.readAt (Elt F) arg8.view (Rect.unit (s := S7x128x112) (k1_off1 i) S1x128x112.size (Gen.k1_off1_inb i)).toLoadRect (harg8.unread xs1))) x3 := by
    rw [hV3, hV5]; rfl
  rw [hG]
  funext y
  refine View.read_writes_apply_of_pieces _ _ _ _ ?pieces y ?cover
  case cover => exact View.cover_of_tiledL (s := S14336x128) _ S128x128.size (by sl_kernel_rfl) y
  case pieces =>
    refine List.forall_mem_cons.2 ⟨?_, ?_⟩
    · intro x; refine Eq.trans ?_ (blendBlk_idx _ _ _ 111 (by omega) (by decide) x).symm; kpay_simp
    refine List.forall_mem_cons.2 ⟨?_, ?_⟩
    · intro x; refine Eq.trans ?_ (blendBlk_idx _ _ _ 110 (by omega) (by decide) x).symm; kpay_simp
    refine List.forall_mem_cons.2 ⟨?_, ?_⟩
    · intro x; refine Eq.trans ?_ (blendBlk_idx _ _ _ 109 (by omega) (by decide) x).symm; kpay_simp
    refine List.forall_mem_cons.2 ⟨?_, ?_⟩
    · intro x; refine Eq.trans ?_ (blendBlk_idx _ _ _ 108 (by omega) (by decide) x).symm; kpay_simp
    refine List.forall_mem_cons.2 ⟨?_, ?_⟩
    · intro x; refine Eq.trans ?_ (blendBlk_idx _ _ _ 107 (by omega) (by decide) x).symm; kpay_simp
    refine List.forall_mem_cons.2 ⟨?_, ?_⟩
    · intro x; refine Eq.trans ?_ (blendBlk_idx _ _ _ 106 (by omega) (by decide) x).symm; kpay_simp
    refine List.forall_mem_cons.2 ⟨?_, ?_⟩
    · intro x; refine Eq.trans ?_ (blendBlk_idx _ _ _ 105 (by omega) (by decide) x).symm; kpay_simp
    refine List.forall_mem_cons.2 ⟨?_, ?_⟩
    · intro x; refine Eq.trans ?_ (blendBlk_idx _ _ _ 104 (by omega) (by decide) x).symm; kpay_simp
    refine List.forall_mem_cons.2 ⟨?_, ?_⟩
    · intro x; refine Eq.trans ?_ (blendBlk_idx _ _ _ 103 (by omega) (by decide) x).symm; kpay_simp
    refine List.forall_mem_cons.2 ⟨?_, ?_⟩
    · intro x; refine Eq.trans ?_ (blendBlk_idx _ _ _ 102 (by omega) (by decide) x).symm; kpay_simp
    refine List.forall_mem_cons.2 ⟨?_, ?_⟩
    · intro x; refine Eq.trans ?_ (blendBlk_idx _ _ _ 101 (by omega) (by decide) x).symm; kpay_simp
    refine List.forall_mem_cons.2 ⟨?_, ?_⟩
    · intro x; refine Eq.trans ?_ (blendBlk_idx _ _ _ 100 (by omega) (by decide) x).symm; kpay_simp
    refine List.forall_mem_cons.2 ⟨?_, ?_⟩
    · intro x; refine Eq.trans ?_ (blendBlk_idx _ _ _ 99 (by omega) (by decide) x).symm; kpay_simp
    refine List.forall_mem_cons.2 ⟨?_, ?_⟩
    · intro x; refine Eq.trans ?_ (blendBlk_idx _ _ _ 98 (by omega) (by decide) x).symm; kpay_simp
    refine List.forall_mem_cons.2 ⟨?_, ?_⟩
    · intro x; refine Eq.trans ?_ (blendBlk_idx _ _ _ 97 (by omega) (by decide) x).symm; kpay_simp
    refine List.forall_mem_cons.2 ⟨?_, ?_⟩
    · intro x; refine Eq.trans ?_ (blendBlk_idx _ _ _ 96 (by omega) (by decide) x).symm; kpay_simp
    refine List.forall_mem_cons.2 ⟨?_, ?_⟩
    · intro x; refine Eq.trans ?_ (blendBlk_idx _ _ _ 95 (by omega) (by decide) x).symm; kpay_simp
    refine List.forall_mem_cons.2 ⟨?_, ?_⟩
    · intro x; refine Eq.trans ?_ (blendBlk_idx _ _ _ 94 (by omega) (by decide) x).symm; kpay_simp
    refine List.forall_mem_cons.2 ⟨?_, ?_⟩
    · intro x; refine Eq.trans ?_ (blendBlk_idx _ _ _ 93 (by omega) (by decide) x).symm; kpay_simp
    refine List.forall_mem_cons.2 ⟨?_, ?_⟩
    · intro x; refine Eq.trans ?_ (blendBlk_idx _ _ _ 92 (by omega) (by decide) x).symm; kpay_simp
    refine List.forall_mem_cons.2 ⟨?_, ?_⟩
    · intro x; refine Eq.trans ?_ (blendBlk_idx _ _ _ 91 (by omega) (by decide) x).symm; kpay_simp
    refine List.forall_mem_cons.2 ⟨?_, ?_⟩
    · intro x; refine Eq.trans ?_ (blendBlk_idx _ _ _ 90 (by omega) (by decide) x).symm; kpay_simp
    refine List.forall_mem_cons.2 ⟨?_, ?_⟩
    · intro x; refine Eq.trans ?_ (blendBlk_idx _ _ _ 89 (by omega) (by decide) x).symm; kpay_simp
    refine List.forall_mem_cons.2 ⟨?_, ?_⟩
    · intro x; refine Eq.trans ?_ (blendBlk_idx _ _ _ 88 (by omega) (by decide) x).symm; kpay_simp
    refine List.forall_mem_cons.2 ⟨?_, ?_⟩
    · intro x; refine Eq.trans ?_ (blendBlk_idx _ _ _ 87 (by omega) (by decide) x).symm; kpay_simp
    refine List.forall_mem_cons.2 ⟨?_, ?_⟩
    · intro x; refine Eq.trans ?_ (blendBlk_idx _ _ _ 86 (by omega) (by decide) x).symm; kpay_simp
    refine List.forall_mem_cons.2 ⟨?_, ?_⟩
    · intro x; refine Eq.trans ?_ (blendBlk_idx _ _ _ 85 (by omega) (by decide) x).symm; kpay_simp
    refine List.forall_mem_cons.2 ⟨?_, ?_⟩
    · intro x; refine Eq.trans ?_ (blendBlk_idx _ _ _ 84 (by omega) (by decide) x).symm; kpay_simp
    refine List.forall_mem_cons.2 ⟨?_, ?_⟩
    · intro x; refine Eq.trans ?_ (blendBlk_idx _ _ _ 83 (by omega) (by decide) x).symm; kpay_simp
    refine List.forall_mem_cons.2 ⟨?_, ?_⟩
    · intro x; refine Eq.trans ?_ (blendBlk_idx _ _ _ 82 (by omega) (by decide) x).symm; kpay_simp
    refine List.forall_mem_cons.2 ⟨?_, ?_⟩
    · intro x; refine Eq.trans ?_ (blendBlk_idx _ _ _ 81 (by omega) (by decide) x).symm; kpay_simp
    refine List.forall_mem_cons.2 ⟨?_, ?_⟩
    · intro x; refine Eq.trans ?_ (blendBlk_idx _ _ _ 80 (by omega) (by decide) x).symm; kpay_simp
    refine List.forall_mem_cons.2 ⟨?_, ?_⟩
    · intro x; refine Eq.trans ?_ (blendBlk_idx _ _ _ 79 (by omega) (by decide) x).symm; kpay_simp
    refine List.forall_mem_cons.2 ⟨?_, ?_⟩
    · intro x; refine Eq.trans ?_ (blendBlk_idx _ _ _ 78 (by omega) (by decide) x).symm; kpay_simp
    refine List.forall_mem_cons.2 ⟨?_, ?_⟩
    · intro x; refine Eq.trans ?_ (blendBlk_idx _ _ _ 77 (by omega) (by decide) x).symm; kpay_simp
    refine List.forall_mem_cons.2 ⟨?_, ?_⟩
    · intro x; refine Eq.trans ?_ (blendBlk_idx _ _ _ 76 (by omega) (by decide) x).symm; kpay_simp
    refine List.forall_mem_cons.2 ⟨?_, ?_⟩
    · intro x; refine Eq.trans ?_ (blendBlk_idx _ _ _ 75 (by omega) (by decide) x).symm; kpay_simp
    refine List.forall_mem_cons.2 ⟨?_, ?_⟩
    · intro x; refine Eq.trans ?_ (blendBlk_idx _ _ _ 74 (by omega) (by decide) x).symm; kpay_simp
    refine List.forall_mem_cons.2 ⟨?_, ?_⟩
    · intro x; refine Eq.trans ?_ (blendBlk_idx _ _ _ 73 (by omega) (by decide) x).symm; kpay_simp
    refine List.forall_mem_cons.2 ⟨?_, ?_⟩
    · intro x; refine Eq.trans ?_ (blendBlk_idx _ _ _ 72 (by omega) (by decide) x).symm; kpay_simp
    refine List.forall_mem_cons.2 ⟨?_, ?_⟩
    · intro x; refine Eq.trans ?_ (blendBlk_idx _ _ _ 71 (by omega) (by decide) x).symm; kpay_simp
    refine List.forall_mem_cons.2 ⟨?_, ?_⟩
    · intro x; refine Eq.trans ?_ (blendBlk_idx _ _ _ 70 (by omega) (by decide) x).symm; kpay_simp
    refine List.forall_mem_cons.2 ⟨?_, ?_⟩
    · intro x; refine Eq.trans ?_ (blendBlk_idx _ _ _ 69 (by omega) (by decide) x).symm; kpay_simp
    refine List.forall_mem_cons.2 ⟨?_, ?_⟩
    · intro x; refine Eq.trans ?_ (blendBlk_idx _ _ _ 68 (by omega) (by decide) x).symm; kpay_simp
    refine List.forall_mem_cons.2 ⟨?_, ?_⟩
    · intro x; refine Eq.trans ?_ (blendBlk_idx _ _ _ 67 (by omega) (by decide) x).symm; kpay_simp
    refine List.forall_mem_cons.2 ⟨?_, ?_⟩
    · intro x; refine Eq.trans ?_ (blendBlk_idx _ _ _ 66 (by omega) (by decide) x).symm; kpay_simp
    refine List.forall_mem_cons.2 ⟨?_, ?_⟩
    · intro x; refine Eq.trans ?_ (blendBlk_idx _ _ _ 65 (by omega) (by decide) x).symm; kpay_simp
    refine List.forall_mem_cons.2 ⟨?_, ?_⟩
    · intro x; refine Eq.trans ?_ (blendBlk_idx _ _ _ 64 (by omega) (by decide) x).symm; kpay_simp
    refine List.forall_mem_cons.2 ⟨?_, ?_⟩
    · intro x; refine Eq.trans ?_ (blendBlk_idx _ _ _ 63 (by omega) (by decide) x).symm; kpay_simp
    refine List.forall_mem_cons.2 ⟨?_, ?_⟩
    · intro x; refine Eq.trans ?_ (blendBlk_idx _ _ _ 62 (by omega) (by decide) x).symm; kpay_simp
    refine List.forall_mem_cons.2 ⟨?_, ?_⟩
    · intro x; refine Eq.trans ?_ (blendBlk_idx _ _ _ 61 (by omega) (by decide) x).symm; kpay_simp
    refine List.forall_mem_cons.2 ⟨?_, ?_⟩
    · intro x; refine Eq.trans ?_ (blendBlk_idx _ _ _ 60 (by omega) (by decide) x).symm; kpay_simp
    refine List.forall_mem_cons.2 ⟨?_, ?_⟩
    · intro x; refine Eq.trans ?_ (blendBlk_idx _ _ _ 59 (by omega) (by decide) x).symm; kpay_simp
    refine List.forall_mem_cons.2 ⟨?_, ?_⟩
    · intro x; refine Eq.trans ?_ (blendBlk_idx _ _ _ 58 (by omega) (by decide) x).symm; kpay_simp
    refine List.forall_mem_cons.2 ⟨?_, ?_⟩
    · intro x; refine Eq.trans ?_ (blendBlk_idx _ _ _ 57 (by omega) (by decide) x).symm; kpay_simp
    refine List.forall_mem_cons.2 ⟨?_, ?_⟩
    · intro x; refine Eq.trans ?_ (blendBlk_idx _ _ _ 56 (by omega) (by decide) x).symm; kpay_simp
    refine List.forall_mem_cons.2 ⟨?_, ?_⟩
    · intro x; refine Eq.trans ?_ (blendBlk_idx _ _ _ 55 (by omega) (by decide) x).symm; kpay_simp
    refine List.forall_mem_cons.2 ⟨?_, ?_⟩
    · intro x; refine Eq.trans ?_ (blendBlk_idx _ _ _ 54 (by omega) (by decide) x).symm; kpay_simp
    refine List.forall_mem_cons.2 ⟨?_, ?_⟩
    · intro x; refine Eq.trans ?_ (blendBlk_idx _ _ _ 53 (by omega) (by decide) x).symm; kpay_simp
    refine List.forall_mem_cons.2 ⟨?_, ?_⟩
    · intro x; refine Eq.trans ?_ (blendBlk_idx _ _ _ 52 (by omega) (by decide) x).symm; kpay_simp
    refine List.forall_mem_cons.2 ⟨?_, ?_⟩
    · intro x; refine Eq.trans ?_ (blendBlk_idx _ _ _ 51 (by omega) (by decide) x).symm; kpay_simp
    refine List.forall_mem_cons.2 ⟨?_, ?_⟩
    · intro x; refine Eq.trans ?_ (blendBlk_idx _ _ _ 50 (by omega) (by decide) x).symm; kpay_simp
    refine List.forall_mem_cons.2 ⟨?_, ?_⟩
    · intro x; refine Eq.trans ?_ (blendBlk_idx _ _ _ 49 (by omega) (by decide) x).symm; kpay_simp
    refine List.forall_mem_cons.2 ⟨?_, ?_⟩
    · intro x; refine Eq.trans ?_ (blendBlk_idx _ _ _ 48 (by omega) (by decide) x).symm; kpay_simp
    refine List.forall_mem_cons.2 ⟨?_, ?_⟩
    · intro x; refine Eq.trans ?_ (blendBlk_idx _ _ _ 47 (by omega) (by decide) x).symm; kpay_simp
    refine List.forall_mem_cons.2 ⟨?_, ?_⟩
    · intro x; refine Eq.trans ?_ (blendBlk_idx _ _ _ 46 (by omega) (by decide) x).symm; kpay_simp
    refine List.forall_mem_cons.2 ⟨?_, ?_⟩
    · intro x; refine Eq.trans ?_ (blendBlk_idx _ _ _ 45 (by omega) (by decide) x).symm; kpay_simp
    refine List.forall_mem_cons.2 ⟨?_, ?_⟩
    · intro x; refine Eq.trans ?_ (blendBlk_idx _ _ _ 44 (by omega) (by decide) x).symm; kpay_simp
    refine List.forall_mem_cons.2 ⟨?_, ?_⟩
    · intro x; refine Eq.trans ?_ (blendBlk_idx _ _ _ 43 (by omega) (by decide) x).symm; kpay_simp
    refine List.forall_mem_cons.2 ⟨?_, ?_⟩
    · intro x; refine Eq.trans ?_ (blendBlk_idx _ _ _ 42 (by omega) (by decide) x).symm; kpay_simp
    refine List.forall_mem_cons.2 ⟨?_, ?_⟩
    · intro x; refine Eq.trans ?_ (blendBlk_idx _ _ _ 41 (by omega) (by decide) x).symm; kpay_simp
    refine List.forall_mem_cons.2 ⟨?_, ?_⟩
    · intro x; refine Eq.trans ?_ (blendBlk_idx _ _ _ 40 (by omega) (by decide) x).symm; kpay_simp
    refine List.forall_mem_cons.2 ⟨?_, ?_⟩
    · intro x; refine Eq.trans ?_ (blendBlk_idx _ _ _ 39 (by omega) (by decide) x).symm; kpay_simp
    refine List.forall_mem_cons.2 ⟨?_, ?_⟩
    · intro x; refine Eq.trans ?_ (blendBlk_idx _ _ _ 38 (by omega) (by decide) x).symm; kpay_simp
    refine List.forall_mem_cons.2 ⟨?_, ?_⟩
    · intro x; refine Eq.trans ?_ (blendBlk_idx _ _ _ 37 (by omega) (by decide) x).symm; kpay_simp
    refine List.forall_mem_cons.2 ⟨?_, ?_⟩
    · intro x; refine Eq.trans ?_ (blendBlk_idx _ _ _ 36 (by omega) (by decide) x).symm; kpay_simp
    refine List.forall_mem_cons.2 ⟨?_, ?_⟩
    · intro x; refine Eq.trans ?_ (blendBlk_idx _ _ _ 35 (by omega) (by decide) x).symm; kpay_simp
    refine List.forall_mem_cons.2 ⟨?_, ?_⟩
    · intro x; refine Eq.trans ?_ (blendBlk_idx _ _ _ 34 (by omega) (by decide) x).symm; kpay_simp
    refine List.forall_mem_cons.2 ⟨?_, ?_⟩
    · intro x; refine Eq.trans ?_ (blendBlk_idx _ _ _ 33 (by omega) (by decide) x).symm; kpay_simp
    refine List.forall_mem_cons.2 ⟨?_, ?_⟩
    · intro x; refine Eq.trans ?_ (blendBlk_idx _ _ _ 32 (by omega) (by decide) x).symm; kpay_simp
    refine List.forall_mem_cons.2 ⟨?_, ?_⟩
    · intro x; refine Eq.trans ?_ (blendBlk_idx _ _ _ 31 (by omega) (by decide) x).symm; kpay_simp
    refine List.forall_mem_cons.2 ⟨?_, ?_⟩
    · intro x; refine Eq.trans ?_ (blendBlk_idx _ _ _ 30 (by omega) (by decide) x).symm; kpay_simp
    refine List.forall_mem_cons.2 ⟨?_, ?_⟩
    · intro x; refine Eq.trans ?_ (blendBlk_idx _ _ _ 29 (by omega) (by decide) x).symm; kpay_simp
    refine List.forall_mem_cons.2 ⟨?_, ?_⟩
    · intro x; refine Eq.trans ?_ (blendBlk_idx _ _ _ 28 (by omega) (by decide) x).symm; kpay_simp
    refine List.forall_mem_cons.2 ⟨?_, ?_⟩
    · intro x; refine Eq.trans ?_ (blendBlk_idx _ _ _ 27 (by omega) (by decide) x).symm; kpay_simp
    refine List.forall_mem_cons.2 ⟨?_, ?_⟩
    · intro x; refine Eq.trans ?_ (blendBlk_idx _ _ _ 26 (by omega) (by decide) x).symm; kpay_simp
    refine List.forall_mem_cons.2 ⟨?_, ?_⟩
    · intro x; refine Eq.trans ?_ (blendBlk_idx _ _ _ 25 (by omega) (by decide) x).symm; kpay_simp
    refine List.forall_mem_cons.2 ⟨?_, ?_⟩
    · intro x; refine Eq.trans ?_ (blendBlk_idx _ _ _ 24 (by omega) (by decide) x).symm; kpay_simp
    refine List.forall_mem_cons.2 ⟨?_, ?_⟩
    · intro x; refine Eq.trans ?_ (blendBlk_idx _ _ _ 23 (by omega) (by decide) x).symm; kpay_simp
    refine List.forall_mem_cons.2 ⟨?_, ?_⟩
    · intro x; refine Eq.trans ?_ (blendBlk_idx _ _ _ 22 (by omega) (by decide) x).symm; kpay_simp
    refine List.forall_mem_cons.2 ⟨?_, ?_⟩
    · intro x; refine Eq.trans ?_ (blendBlk_idx _ _ _ 21 (by omega) (by decide) x).symm; kpay_simp
    refine List.forall_mem_cons.2 ⟨?_, ?_⟩
    · intro x; refine Eq.trans ?_ (blendBlk_idx _ _ _ 20 (by omega) (by decide) x).symm; kpay_simp
    refine List.forall_mem_cons.2 ⟨?_, ?_⟩
    · intro x; refine Eq.trans ?_ (blendBlk_idx _ _ _ 19 (by omega) (by decide) x).symm; kpay_simp
    refine List.forall_mem_cons.2 ⟨?_, ?_⟩
    · intro x; refine Eq.trans ?_ (blendBlk_idx _ _ _ 18 (by omega) (by decide) x).symm; kpay_simp
    refine List.forall_mem_cons.2 ⟨?_, ?_⟩
    · intro x; refine Eq.trans ?_ (blendBlk_idx _ _ _ 17 (by omega) (by decide) x).symm; kpay_simp
    refine List.forall_mem_cons.2 ⟨?_, ?_⟩
    · intro x; refine Eq.trans ?_ (blendBlk_idx _ _ _ 16 (by omega) (by decide) x).symm; kpay_simp
    refine List.forall_mem_cons.2 ⟨?_, ?_⟩
    · intro x; refine Eq.trans ?_ (blendBlk_idx _ _ _ 15 (by omega) (by decide) x).symm; kpay_simp
    refine List.forall_mem_cons.2 ⟨?_, ?_⟩
    · intro x; refine Eq.trans ?_ (blendBlk_idx _ _ _ 14 (by omega) (by decide) x).symm; kpay_simp
    refine List.forall_mem_cons.2 ⟨?_, ?_⟩
    · intro x; refine Eq.trans ?_ (blendBlk_idx _ _ _ 13 (by omega) (by decide) x).symm; kpay_simp
    refine List.forall_mem_cons.2 ⟨?_, ?_⟩
    · intro x; refine Eq.trans ?_ (blendBlk_idx _ _ _ 12 (by omega) (by decide) x).symm; kpay_simp
    refine List.forall_mem_cons.2 ⟨?_, ?_⟩
    · intro x; refine Eq.trans ?_ (blendBlk_idx _ _ _ 11 (by omega) (by decide) x).symm; kpay_simp
    refine List.forall_mem_cons.2 ⟨?_, ?_⟩
    · intro x; refine Eq.trans ?_ (blendBlk_idx _ _ _ 10 (by omega) (by decide) x).symm; kpay_simp
    refine List.forall_mem_cons.2 ⟨?_, ?_⟩
    · intro x; refine Eq.trans ?_ (blendBlk_idx _ _ _ 9 (by omega) (by decide) x).symm; kpay_simp
    refine List.forall_mem_cons.2 ⟨?_, ?_⟩
    · intro x; refine Eq.trans ?_ (blendBlk_idx _ _ _ 8 (by omega) (by decide) x).symm; kpay_simp
    refine List.forall_mem_cons.2 ⟨?_, ?_⟩
    · intro x; refine Eq.trans ?_ (blendBlk_idx _ _ _ 7 (by omega) (by decide) x).symm; kpay_simp
    refine List.forall_mem_cons.2 ⟨?_, ?_⟩
    · intro x; refine Eq.trans ?_ (blendBlk_idx _ _ _ 6 (by omega) (by decide) x).symm; kpay_simp
    refine List.forall_mem_cons.2 ⟨?_, ?_⟩
    · intro x; refine Eq.trans ?_ (blendBlk_idx _ _ _ 5 (by omega) (by decide) x).symm; kpay_simp
    refine List.forall_mem_cons.2 ⟨?_, ?_⟩
    · intro x; refine Eq.trans ?_ (blendBlk_idx _ _ _ 4 (by omega) (by decide) x).symm; kpay_simp
    refine List.forall_mem_cons.2 ⟨?_, ?_⟩
    · intro x; refine Eq.trans ?_ (blendBlk_idx _ _ _ 3 (by omega) (by decide) x).symm; kpay_simp
    refine List.forall_mem_cons.2 ⟨?_, ?_⟩
    · intro x; refine Eq.trans ?_ (blendBlk_idx _ _ _ 2 (by omega) (by decide) x).symm; kpay_simp
    refine List.forall_mem_cons.2 ⟨?_, ?_⟩
    · intro x; refine Eq.trans ?_ (blendBlk_idx _ _ _ 1 (by omega) (by decide) x).symm; kpay_simp
    refine List.forall_mem_cons.2 ⟨?_, ?_⟩
    · intro x; refine Eq.trans ?_ (blendBlk_idx _ _ _ 0 (by omega) (by decide) x).symm; kpay_simp
    exact fun _ h => absurd h List.not_mem_nil

end Cert.Proof.KI

end
-- ==== Proof.KIRegionRunA.lean ====
/-
  The body of the TensorCore call run at the first grid point: the gate and the transposed mask are computed into
  the two scratches, read back, and the hundred and twelve row tiles of the input block are blended.
-/
import proofs.«207473_g17575006175289_fold_wed_c4_317_29_alg».proof.Proof.KICommon
import Idealize.ShloMosaic.Lib.WholeRead
import proofs.«207473_g17575006175289_fold_wed_c4_317_29_alg».proof.Proof.KIRegionRunB
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- What the first point stores in the gate scratch. -/
def gateS (x1 : Vec F S1x1024 .f32) (x0 : Vec F S128x1024 .f32) (x2 : Vec F S1x1 .f32) : Vec F S1x128 .f32 := k1_pay3 x1 x0 x2

theorem hmt (j : S7x128x112.Idx) : 112 * (j 0).val + (j 2).val < 1024 := by
  have h0 : (j 0).val < 7 := (j 0).isLt
  have h2 : (j 2).val < 112 := (j 2).isLt
  omega

/-- What the first point leaves in the mask scratch: slab `ib` is rows 112 ib … 112 ib + 111 of the mask, transposed. -/
def mtS (x4 : Vec F S1024x128 .f32) : Vec F S7x128x112 .f32 := fun j =>
  x4 (ix2 (⟨112 * (j 0).val + (j 2).val, hmt j⟩ : Fin 1024) (j 1))

/-- The scratch's slab `ib` under the slab's own indices. -/
theorem mtS_idx (x4 : Vec F S1024x128 .f32) (ib : ℕ) (hib : ib < 7)
    (inb : ∀ a, (![ib, 0, 0] : Fin 3 → ℕ) a + S1x128x112.size a ≤ S7x128x112.size a)
    (inb' : ∀ a, (![112 * ib, 0] : Fin 2 → ℕ) a + S112x128.size a ≤ S1024x128.size a) (x : S1x128x112.Idx) :
    mtS x4 ((Rect.unit (s := S7x128x112) ![ib, 0, 0] S1x128x112.size inb).toLoadRect.idx x)
      = x4 ((Rect.unit (s := S1024x128) ![112 * ib, 0] S112x128.size inb').toLoadRect.idx (ix2 (x 2) (x 1))) := by
  have hx0 : (x 0).val = 0 := by have : (x 0).val < 1 := (x 0).isLt; omega
  unfold mtS
  congr 1
  funext a
  match a with
  | ⟨0, _⟩ => exact Fin.ext (by show 112 * (ib + 1 * (x 0).val) + (0 + 1 * (x 2).val) = 112 * ib + 1 * (x 2).val; rw [hx0]; omega)
  | ⟨1, _⟩ => exact Fin.ext (by show 0 + 1 * (x 1).val = 0 + 1 * (x 1).val; rfl)

/-- A tile of the mask transposed and given a leading unit axis, read at an index. -/
theorem tr_at {α : Type} (v : S112x128.Idx → α) (h1 : S112x128.ShapeCasts S112x128) (h2 : S112x128.Transposes [1, 0] S128x112)
    (h3 : S128x112.ShapeCasts S1x128x112) (x : S1x128x112.Idx) :
    shapeCast S1x128x112 (transpose S128x112 [1, 0] (shapeCast S112x128 v h1) h2) h3 x = v (ix2 (x 2) (x 1)) := by
  rw [shapeCast_self]
  refine (shapeCast_addUnit_apply ![128, 112] _ h3 x).trans ?_
  exact transpose_apply [1, 0] v h2 _ (ix2 (x 2) (x 1)) fun b => match b with | ⟨0, _⟩ => rfl | ⟨1, _⟩ => rfl

/-- A load of what listed stores left over junk reads, where the stores all agree with one function of the buffer's
    index and cover it, that function at the load's indices. -/
theorem readAt_writes_junk {sig' : RefSig} {κ : Kind} {sp : Space} {s : Shape} {e : EltTy} (v : View sig' κ sp s e)
    (L : List (View.Piece (Elt F) s e)) (G : s.Idx → Elt F e)
    (hp : ∀ p ∈ L, ∀ x : p.1.shape.Idx, p.2 x = G (p.1.emb x)) (hc : ∀ y : s.Idx, ∃ p ∈ L, y ∈ p.1.set) (B : LoadRect s) :
    v.readAt (Elt F) B (v.writes (Elt F) v.junk L) = fun x => G (B.idx x) :=
  funext fun x => View.read_writes_apply_of_pieces v _ G L hp (B.idx x) (hc _)

open Lean Elab Tactic Meta in
/-- Name, in the goal, the gate as the run read it back from its scratch (`V3`) and the mask slab as the run loaded
    it from its scratch (`V5`). -/
elab "gen_scr" : tactic => withMainContext do
  let g ← getMainGoal
  let t ← instantiateMVars (← g.getType)
  let some e3 := t.find? (fun e => e.isAppOf ``Idealize.ShloMosaic.View.readCov && !e.hasLooseBVars)
    | throwError "gen_scr: no covered read"
  let (_, g) ← g.generalize #[{ expr := e3, xName? := `V3, hName? := `hV3 }]
  let t ← instantiateMVars (← g.getType)
  let some e5 := t.find? (fun e => e.isAppOf ``Idealize.ShloMosaic.View.readAt && e.getAppNumArgs > 0 && e.appArg!.isAppOf ``Idealize.ShloMosaic.View.writes && !e.hasLooseBVars)
    | throwError "gen_scr: no load of written contents"
  let (_, g) ← g.generalize #[{ expr := e5, xName? := `V5, hName? := `hV5 }]
  replaceMainGoal [g]

set_option maxHeartbeats 16000000 in
/-- At the first point: the inputs' buffers stay as they are; the scratches end at the gate and the transposed mask;
    the result's buffer at the blend of the input block by them. -/
theorem runA (c : Dev nD) (i : grid1.Coords) (arg1 : Memref sig .tc .vmem S128x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S14336x128 .f32) (harg4 : arg4.IsWhole) (arg5 : Memref sig .tc .vmem S1024x128 .f32) (harg5 : arg5.IsWhole) (arg6 : Memref sig .tc .vmem S14336x128 .f32) (harg6 : arg6.IsWhole) (arg7 : Memref sig .tc .vmem S1x128 .f32) (harg7 : arg7.IsWhole) (arg8 : Memref sig .tc .vmem S7x128x112 .f32) (harg8 : arg8.IsWhole)
    (hc0 : cond1_0 i)
    (x0 : Vec F S128x1024 .f32) (x1 : Vec F S1x1024 .f32) (x2 : Vec F S1x1 .f32) (x3 : Vec F S14336x128 .f32) (x4 : Vec F S1024x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blendBlk (gateS x1 x0 x2) (mcols (mtS x4) i) x3)
            ∗ owns (c : Thread nD τ) arg7 fullShare (gateS x1 x0 x2) ∗ owns (c : Thread nD τ) arg8 fullShare (mtS x4)) -∗ K ⟨⟩))
      ⊢ wp frame (wpE (defs₀ (F := F)) Variants.none c none) E (cc1__blend_body i arg1 harg1 arg2 harg2 arg3 harg3 arg4 harg4 arg5 harg5 arg6 harg6 arg7 harg7 arg8 harg8) K := by
  simp only [cc1__blend_body_eq_skeleton]; unfold cc1__blend_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4
  sl_exec_parts (disch := first | exact hc0)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  have hz2 : (![0, 0] : Fin 2 → ℕ) = fun _ => 0 := funext fun a => by fin_cases a <;> rfl
  have hW1 : View.readAt (Elt F) arg2.view (Rect.unit (s := S1x1024) ![0, 0] S1x1024.size inb_S1x1024_S1x1024_0_0).toLoadRect (harg2.unread x1) = x1 := by
    rw [View.readAt_eq_ld, hf1]; exact View.ld_unit_zero hz2 _ _
  have hW0 : View.readAt (Elt F) arg1.view (Rect.unit (s := S128x1024) ![0, 0] S128x1024.size inb_S128x1024_S128x1024_0_0).toLoadRect (harg1.unread x0) = x0 := by
    rw [View.readAt_eq_ld, hf0]; exact View.ld_unit_zero hz2 _ _
  have hW2 : View.readAt (Elt F) arg3.view (Rect.unit (s := S1x1) ![0, 0] S1x1.size inb_S1x1_S1x1_0_0).toLoadRect (harg3.unread x2) = x2 := by
    rw [View.readAt_eq_ld, hf2]; exact View.ld_unit_zero hz2 _ _
  isplitl [H5]
  · iexists _; isplitr
    swap; · iexact H5
    ipureintro
    sl_delta
    gen_scr
    have e3 : V3 = gateS x1 x0 x2 := by
      rw [← hV3, View.readCov_unit_zero _ hz2, hW1, hW0, hW2]; rfl
    have e5 : (fun x => mtS x4 ((Rect.unit (s := S7x128x112) (k1_off1 i) S1x128x112.size (Gen.k1_off1_inb i)).toLoadRect.idx x)) = V5 := by
      refine (readAt_writes_junk arg8.view _ (mtS x4) ?p8 ?c8 _).symm.trans hV5
      case c8 => exact View.cover_of_tiledL (s := S7x128x112) _ S1x128x112.size (by sl_kernel_rfl)
      case p8 =>
        refine List.forall_mem_cons.2 ⟨?_, ?_⟩
        · intro x; refine Eq.trans ?_ (mtS_idx _ 6 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 5 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 4 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 3 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 2 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 1 (by omega) (by decide) (by decide) x).symm; simp only [k1_pay4, k1_pay5, k1_pay6, k1_pay7, k1_pay8, k1_pay9, k1_pay10]; refine (tr_at _ _ _ _ x).trans ?_; exact harg5.readAt_unread x4 _ _
        refine List.forall_mem_cons.2 ⟨?_, ?_⟩
        · intro x; refine Eq.trans ?_ (mtS_idx _ 0 (by omega) (by decide) (by decide) x).symm; simp only [k1_pay4, k1_pay5, k1_pay6, k1_pay7, k1_pay8, k1_pay9, k1_pay10]; refine (tr_at _ _ _ _ x).trans ?_; exact harg5.readAt_unread x4 _ _
        exact fun _ h => absurd h List.not_mem_nil
    have hG : blendBlk (gateS x1 x0 x2) (mcols (mtS x4) i) x3 = blendBlk V3 (k1_pay11 V5) x3 := by
      rw [e3, ← e5]; rfl
    rw [hG]
    clear hV3 hV5 e3 e5 hG
    funext y
    refine View.read_writes_apply_of_pieces _ _ _ _ ?pieces y ?cover
    case cover => exact View.cover_of_tiledL (s := S14336x128) _ S128x128.size (by sl_kernel_rfl) y
    case pieces =>
      refine List.forall_mem_cons.2 ⟨?_, ?_⟩
      · intro x; refine Eq.trans ?_ (blendBlk_idx _ _ _ 111 (by omega) (by decide) x).symm; kpay_simp
      refine List.forall_mem_cons.2 ⟨?_, ?_⟩
      · intro x; refine Eq.trans ?_ (blendBlk_idx _ _ _ 110 (by omega) (by decide) x).symm; kpay_simp
      refine List.forall_mem_cons.2 ⟨?_, ?_⟩
      · intro x; refine Eq.trans ?_ (blendBlk_idx _ _ _ 109 (by omega) (by decide) x).symm; kpay_simp
      refine List.forall_mem_cons.2 ⟨?_, ?_⟩
      · intro x; refine Eq.trans ?_ (blendBlk_idx _ _ _ 108 (by omega) (by decide) x).symm; kpay_simp
      refine List.forall_mem_cons.2 ⟨?_, ?_⟩
      · intro x; refine Eq.trans ?_ (blendBlk_idx _ _ _ 107 (by omega) (by decide) x).symm; kpay_simp
      refine List.forall_mem_cons.2 ⟨?_, ?_⟩
      · intro x; refine Eq.trans ?_ (blendBlk_idx _ _ _ 106 (by omega) (by decide) x).symm; kpay_simp
      refine List.forall_mem_cons.2 ⟨?_, ?_⟩
      · intro x; refine Eq.trans ?_ (blendBlk_idx _ _ _ 105 (by omega) (by decide) x).symm; kpay_simp
      refine List.forall_mem_cons.2 ⟨?_, ?_⟩
      · intro x; refine Eq.trans ?_ (blendBlk_idx _ _ _ 104 (by omega) (by decide) x).symm; kpay_simp
      refine List.forall_mem_cons.2 ⟨?_, ?_⟩
      · intro x; refine Eq.trans ?_ (blendBlk_idx _ _ _ 103 (by omega) (by decide) x).symm; kpay_simp
      refine List.forall_mem_cons.2 ⟨?_, ?_⟩
      · intro x; refine Eq.trans ?_ (blendBlk_idx _ _ _ 102 (by omega) (by decide) x).symm; kpay_simp
      refine List.forall_mem_cons.2 ⟨?_, ?_⟩
      · intro x; refine Eq.trans ?_ (blendBlk_idx _ _ _ 101 (by omega) (by decide) x).symm; kpay_simp
      refine List.forall_mem_cons.2 ⟨?_, ?_⟩
      · intro x; refine Eq.trans ?_ (blendBlk_idx _ _ _ 100 (by omega) (by decide) x).symm; kpay_simp
      refine List.forall_mem_cons.2 ⟨?_, ?_⟩
      · intro x; refine Eq.trans ?_ (blendBlk_idx _ _ _ 99 (by omega) (by decide) x).symm; kpay_simp
      refine List.forall_mem_cons.2 ⟨?_, ?_⟩
      · intro x; refine Eq.trans ?_ (blendBlk_idx _ _ _ 98 (by omega) (by decide) x).symm; kpay_simp
      refine List.forall_mem_cons.2 ⟨?_, ?_⟩
      · intro x; refine Eq.trans ?_ (blendBlk_idx _ _ _ 97 (by omega) (by decide) x).symm; kpay_simp
      refine List.forall_mem_cons.2 ⟨?_, ?_⟩
      · intro x; refine Eq.trans ?_ (blendBlk_idx _ _ _ 96 (by omega) (by decide) x).symm; kpay_simp
      refine List.forall_mem_cons.2 ⟨?_, ?_⟩
      · intro x; refine Eq.trans ?_ (blendBlk_idx _ _ _ 95 (by omega) (by decide) x).symm; kpay_simp
      refine List.forall_mem_cons.2 ⟨?_, ?_⟩
      · intro x; refine Eq.trans ?_ (blendBlk_idx _ _ _ 94 (by omega) (by decide) x).symm; kpay_simp
      refine List.forall_mem_cons.2 ⟨?_, ?_⟩
      · intro x; refine Eq.trans ?_ (blendBlk_idx _ _ _ 93 (by omega) (by decide) x).symm; kpay_simp
      refine List.forall_mem_cons.2 ⟨?_, ?_⟩
      · intro x; refine Eq.trans ?_ (blendBlk_idx _ _ _ 92 (by omega) (by decide) x).symm; kpay_simp
      refine List.forall_mem_cons.2 ⟨?_, ?_⟩
      · intro x; refine Eq.trans ?_ (blendBlk_idx _ _ _ 91 (by omega) (by decide) x).symm; kpay_simp
      refine List.forall_mem_cons.2 ⟨?_, ?_⟩
      · intro x; refine Eq.trans ?_ (blendBlk_idx _ _ _ 90 (by omega) (by decide) x).symm; kpay_simp
      refine List.forall_mem_cons.2 ⟨?_, ?_⟩
      · intro x; refine Eq.trans ?_ (blendBlk_idx _ _ _ 89 (by omega) (by decide) x).symm; kpay_simp
      refine List.forall_mem_cons.2 ⟨?_, ?_⟩
      · intro x; refine Eq.trans ?_ (blendBlk_idx _ _ _ 88 (by omega) (by decide) x).symm; kpay_simp
      refine List.forall_mem_cons.2 ⟨?_, ?_⟩
      · intro x; refine Eq.trans ?_ (blendBlk_idx _ _ _ 87 (by omega) (by decide) x).symm; kpay_simp
      refine List.forall_mem_cons.2 ⟨?_, ?_⟩
      · intro x; refine Eq.trans ?_ (blendBlk_idx _ _ _ 86 (by omega) (by decide) x).symm; kpay_simp
      refine List.forall_mem_cons.2 ⟨?_, ?_⟩
      · intro x; refine Eq.trans ?_ (blendBlk_idx _ _ _ 85 (by omega) (by decide) x).symm; kpay_simp
      refine List.forall_mem_cons.2 ⟨?_, ?_⟩
      · intro x; refine Eq.trans ?_ (blendBlk_idx _ _ _ 84 (by omega) (by decide) x).symm; kpay_simp
      refine List.forall_mem_cons.2 ⟨?_, ?_⟩
      · intro x; refine Eq.trans ?_ (blendBlk_idx _ _ _ 83 (by omega) (by decide) x).symm; kpay_simp
      refine List.forall_mem_cons.2 ⟨?_, ?_⟩
      · intro x; refine Eq.trans ?_ (blendBlk_idx _ _ _ 82 (by omega) (by decide) x).symm; kpay_simp
      refine List.forall_mem_cons.2 ⟨?_, ?_⟩
      · intro x; refine Eq.trans ?_ (blendBlk_idx _ _ _ 81 (by omega) (by decide) x).symm; kpay_simp
      refine List.forall_mem_cons.2 ⟨?_, ?_⟩
      · intro x; refine Eq.trans ?_ (blendBlk_idx _ _ _ 80 (by omega) (by decide) x).symm; kpay_simp
      refine List.forall_mem_cons.2 ⟨?_, ?_⟩
      · intro x; refine Eq.trans ?_ (blendBlk_idx _ _ _ 79 (by omega) (by decide) x).symm; kpay_simp
      refine List.forall_mem_cons.2 ⟨?_, ?_⟩
      · intro x; refine Eq.trans ?_ (blendBlk_idx _ _ _ 78 (by omega) (by decide) x).symm; kpay_simp
      refine List.forall_mem_cons.2 ⟨?_, ?_⟩
      · intro x; refine Eq.trans ?_ (blendBlk_idx _ _ _ 77 (by omega) (by decide) x).symm; kpay_simp
      refine List.forall_mem_cons.2 ⟨?_, ?_⟩
      · intro x; refine Eq.trans ?_ (blendBlk_idx _ _ _ 76 (by omega) (by decide) x).symm; kpay_simp
      refine List.forall_mem_cons.2 ⟨?_, ?_⟩
      · intro x; refine Eq.trans ?_ (blendBlk_idx _ _ _ 75 (by omega) (by decide) x).symm; kpay_simp
      refine List.forall_mem_cons.2 ⟨?_, ?_⟩
      · intro x; refine Eq.trans ?_ (blendBlk_idx _ _ _ 74 (by omega) (by decide) x).symm; kpay_simp
      refine List.forall_mem_cons.2 ⟨?_, ?_⟩
      · intro x; refine Eq.trans ?_ (blendBlk_idx _ _ _ 73 (by omega) (by decide) x).symm; kpay_simp
      refine List.forall_mem_cons.2 ⟨?_, ?_⟩
      · intro x; refine Eq.trans ?_ (blendBlk_idx _ _ _ 72 (by omega) (by decide) x).symm; kpay_simp
      refine List.forall_mem_cons.2 ⟨?_, ?_⟩
      · intro x; refine Eq.trans ?_ (blendBlk_idx _ _ _ 71 (by omega) (by decide) x).symm; kpay_simp
      refine List.forall_mem_cons.2 ⟨?_, ?_⟩
      · intro x; refine Eq.trans ?_ (blendBlk_idx _ _ _ 70 (by omega) (by decide) x).symm; kpay_simp
      refine List.forall_mem_cons.2 ⟨?_, ?_⟩
      · intro x; refine Eq.trans ?_ (blendBlk_idx _ _ _ 69 (by omega) (by decide) x).symm; kpay_simp
      refine List.forall_mem_cons.2 ⟨?_, ?_⟩
      · intro x; refine Eq.trans ?_ (blendBlk_idx _ _ _ 68 (by omega) (by decide) x).symm; kpay_simp
      refine List.forall_mem_cons.2 ⟨?_, ?_⟩
      · intro x; refine Eq.trans ?_ (blendBlk_idx _ _ _ 67 (by omega) (by decide) x).symm; kpay_simp
      refine List.forall_mem_cons.2 ⟨?_, ?_⟩
      · intro x; refine Eq.trans ?_ (blendBlk_idx _ _ _ 66 (by omega) (by decide) x).symm; kpay_simp
      refine List.forall_mem_cons.2 ⟨?_, ?_⟩
      · intro x; refine Eq.trans ?_ (blendBlk_idx _ _ _ 65 (by omega) (by decide) x).symm; kpay_simp
      refine List.forall_mem_cons.2 ⟨?_, ?_⟩
      · intro x; refine Eq.trans ?_ (blendBlk_idx _ _ _ 64 (by omega) (by decide) x).symm; kpay_simp
      refine List.forall_mem_cons.2 ⟨?_, ?_⟩
      · intro x; refine Eq.trans ?_ (blendBlk_idx _ _ _ 63 (by omega) (by decide) x).symm; kpay_simp
      refine List.forall_mem_cons.2 ⟨?_, ?_⟩
      · intro x; refine Eq.trans ?_ (blendBlk_idx _ _ _ 62 (by omega) (by decide) x).symm; kpay_simp
      refine List.forall_mem_cons.2 ⟨?_, ?_⟩
      · intro x; refine Eq.trans ?_ (blendBlk_idx _ _ _ 61 (by omega) (by decide) x).symm; kpay_simp
      refine List.forall_mem_cons.2 ⟨?_, ?_⟩
      · intro x; refine Eq.trans ?_ (blendBlk_idx _ _ _ 60 (by omega) (by decide) x).symm; kpay_simp
      refine List.forall_mem_cons.2 ⟨?_, ?_⟩
      · intro x; refine Eq.trans ?_ (blendBlk_idx _ _ _ 59 (by omega) (by decide) x).symm; kpay_simp
      refine List.forall_mem_cons.2 ⟨?_, ?_⟩
      · intro x; refine Eq.trans ?_ (blendBlk_idx _ _ _ 58 (by omega) (by decide) x).symm; kpay_simp
      refine List.forall_mem_cons.2 ⟨?_, ?_⟩
      · intro x; refine Eq.trans ?_ (blendBlk_idx _ _ _ 57 (by omega) (by decide) x).symm; kpay_simp
      refine List.forall_mem_cons.2 ⟨?_, ?_⟩
      · intro x; refine Eq.trans ?_ (blendBlk_idx _ _ _ 56 (by omega) (by decide) x).symm; kpay_simp
      refine List.forall_mem_cons.2 ⟨?_, ?_⟩
      · intro x; refine Eq.trans ?_ (blendBlk_idx _ _ _ 55 (by omega) (by decide) x).symm; kpay_simp
      refine List.forall_mem_cons.2 ⟨?_, ?_⟩
      · intro x; refine Eq.trans ?_ (blendBlk_idx _ _ _ 54 (by omega) (by decide) x).symm; kpay_simp
      refine List.forall_mem_cons.2 ⟨?_, ?_⟩
      · intro x; refine Eq.trans ?_ (blendBlk_idx _ _ _ 53 (by omega) (by decide) x).symm; kpay_simp
      refine List.forall_mem_cons.2 ⟨?_, ?_⟩
      · intro x; refine Eq.trans ?_ (blendBlk_idx _ _ _ 52 (by omega) (by decide) x).symm; kpay_simp
      refine List.forall_mem_cons.2 ⟨?_, ?_⟩
      · intro x; refine Eq.trans ?_ (blendBlk_idx _ _ _ 51 (by omega) (by decide) x).symm; kpay_simp
      refine List.forall_mem_cons.2 ⟨?_, ?_⟩
      · intro x; refine Eq.trans ?_ (blendBlk_idx _ _ _ 50 (by omega) (by decide) x).symm; kpay_simp
      refine List.forall_mem_cons.2 ⟨?_, ?_⟩
      · intro x; refine Eq.trans ?_ (blendBlk_idx _ _ _ 49 (by omega) (by decide) x).symm; kpay_simp
      refine List.forall_mem_cons.2 ⟨?_, ?_⟩
      · intro x; refine Eq.trans ?_ (blendBlk_idx _ _ _ 48 (by omega) (by decide) x).symm; kpay_simp
      refine List.forall_mem_cons.2 ⟨?_, ?_⟩
      · intro x; refine Eq.trans ?_ (blendBlk_idx _ _ _ 47 (by omega) (by decide) x).symm; kpay_simp
      refine List.forall_mem_cons.2 ⟨?_, ?_⟩
      · intro x; refine Eq.trans ?_ (blendBlk_idx _ _ _ 46 (by omega) (by decide) x).symm; kpay_simp
      refine List.forall_mem_cons.2 ⟨?_, ?_⟩
      · intro x; refine Eq.trans ?_ (blendBlk_idx _ _ _ 45 (by omega) (by decide) x).symm; kpay_simp
      refine List.forall_mem_cons.2 ⟨?_, ?_⟩
      · intro x; refine Eq.trans ?_ (blendBlk_idx _ _ _ 44 (by omega) (by decide) x).symm; kpay_simp
      refine List.forall_mem_cons.2 ⟨?_, ?_⟩
      · intro x; refine Eq.trans ?_ (blendBlk_idx _ _ _ 43 (by omega) (by decide) x).symm; kpay_simp
      refine List.forall_mem_cons.2 ⟨?_, ?_⟩
      · intro x; refine Eq.trans ?_ (blendBlk_idx _ _ _ 42 (by omega) (by decide) x).symm; kpay_simp
      refine List.forall_mem_cons.2 ⟨?_, ?_⟩
      · intro x; refine Eq.trans ?_ (blendBlk_idx _ _ _ 41 (by omega) (by decide) x).symm; kpay_simp
      refine List.forall_mem_cons.2 ⟨?_, ?_⟩
      · intro x; refine Eq.trans ?_ (blendBlk_idx _ _ _ 40 (by omega) (by decide) x).symm; kpay_simp
      refine List.forall_mem_cons.2 ⟨?_, ?_⟩
      · intro x; refine Eq.trans ?_ (blendBlk_idx _ _ _ 39 (by omega) (by decide) x).symm; kpay_simp
      refine List.forall_mem_cons.2 ⟨?_, ?_⟩
      · intro x; refine Eq.trans ?_ (blendBlk_idx _ _ _ 38 (by omega) (by decide) x).symm; kpay_simp
      refine List.forall_mem_cons.2 ⟨?_, ?_⟩
      · intro x; refine Eq.trans ?_ (blendBlk_idx _ _ _ 37 (by omega) (by decide) x).symm; kpay_simp
      refine List.forall_mem_cons.2 ⟨?_, ?_⟩
      · intro x; refine Eq.trans ?_ (blendBlk_idx _ _ _ 36 (by omega) (by decide) x).symm; kpay_simp
      refine List.forall_mem_cons.2 ⟨?_, ?_⟩
      · intro x; refine Eq.trans ?_ (blendBlk_idx _ _ _ 35 (by omega) (by decide) x).symm; kpay_simp
      refine List.forall_mem_cons.2 ⟨?_, ?_⟩
      · intro x; refine Eq.trans ?_ (blendBlk_idx _ _ _ 34 (by omega) (by decide) x).symm; kpay_simp
      refine List.forall_mem_cons.2 ⟨?_, ?_⟩
      · intro x; refine Eq.trans ?_ (blendBlk_idx _ _ _ 33 (by omega) (by decide) x).symm; kpay_simp
      refine List.forall_mem_cons.2 ⟨?_, ?_⟩
      · intro x; refine Eq.trans ?_ (blendBlk_idx _ _ _ 32 (by omega) (by decide) x).symm; kpay_simp
      refine List.forall_mem_cons.2 ⟨?_, ?_⟩
      · intro x; refine Eq.trans ?_ (blendBlk_idx _ _ _ 31 (by omega) (by decide) x).symm; kpay_simp
      refine List.forall_mem_cons.2 ⟨?_, ?_⟩
      · intro x; refine Eq.trans ?_ (blendBlk_idx _ _ _ 30 (by omega) (by decide) x).symm; kpay_simp
      refine List.forall_mem_cons.2 ⟨?_, ?_⟩
      · intro x; refine Eq.trans ?_ (blendBlk_idx _ _ _ 29 (by omega) (by decide) x).symm; kpay_simp
      refine List.forall_mem_cons.2 ⟨?_, ?_⟩
      · intro x; refine Eq.trans ?_ (blendBlk_idx _ _ _ 28 (by omega) (by decide) x).symm; kpay_simp
      refine List.forall_mem_cons.2 ⟨?_, ?_⟩
      · intro x; refine Eq.trans ?_ (blendBlk_idx _ _ _ 27 (by omega) (by decide) x).symm; kpay_simp
      refine List.forall_mem_cons.2 ⟨?_, ?_⟩
      · intro x; refine Eq.trans ?_ (blendBlk_idx _ _ _ 26 (by omega) (by decide) x).symm; kpay_simp
      refine List.forall_mem_cons.2 ⟨?_, ?_⟩
      · intro x; refine Eq.trans ?_ (blendBlk_idx _ _ _ 25 (by omega) (by decide) x).symm; kpay_simp
      refine List.forall_mem_cons.2 ⟨?_, ?_⟩
      · intro x; refine Eq.trans ?_ (blendBlk_idx _ _ _ 24 (by omega) (by decide) x).symm; kpay_simp
      refine List.forall_mem_cons.2 ⟨?_, ?_⟩
      · intro x; refine Eq.trans ?_ (blendBlk_idx _ _ _ 23 (by omega) (by decide) x).symm; kpay_simp
      refine List.forall_mem_cons.2 ⟨?_, ?_⟩
      · intro x; refine Eq.trans ?_ (blendBlk_idx _ _ _ 22 (by omega) (by decide) x).symm; kpay_simp
      refine List.forall_mem_cons.2 ⟨?_, ?_⟩
      · intro x; refine Eq.trans ?_ (blendBlk_idx _ _ _ 21 (by omega) (by decide) x).symm; kpay_simp
      refine List.forall_mem_cons.2 ⟨?_, ?_⟩
      · intro x; refine Eq.trans ?_ (blendBlk_idx _ _ _ 20 (by omega) (by decide) x).symm; kpay_simp
      refine List.forall_mem_cons.2 ⟨?_, ?_⟩
      · intro x; refine Eq.trans ?_ (blendBlk_idx _ _ _ 19 (by omega) (by decide) x).symm; kpay_simp
      refine List.forall_mem_cons.2 ⟨?_, ?_⟩
      · intro x; refine Eq.trans ?_ (blendBlk_idx _ _ _ 18 (by omega) (by decide) x).symm; kpay_simp
      refine List.forall_mem_cons.2 ⟨?_, ?_⟩
      · intro x; refine Eq.trans ?_ (blendBlk_idx _ _ _ 17 (by omega) (by decide) x).symm; kpay_simp
      refine List.forall_mem_cons.2 ⟨?_, ?_⟩
      · intro x; refine Eq.trans ?_ (blendBlk_idx _ _ _ 16 (by omega) (by decide) x).symm; kpay_simp
      refine List.forall_mem_cons.2 ⟨?_, ?_⟩
      · intro x; refine Eq.trans ?_ (blendBlk_idx _ _ _ 15 (by omega) (by decide) x).symm; kpay_simp
      refine List.forall_mem_cons.2 ⟨?_, ?_⟩
      · intro x; refine Eq.trans ?_ (blendBlk_idx _ _ _ 14 (by omega) (by decide) x).symm; kpay_simp
      refine List.forall_mem_cons.2 ⟨?_, ?_⟩
      · intro x; refine Eq.trans ?_ (blendBlk_idx _ _ _ 13 (by omega) (by decide) x).symm; kpay_simp
      refine List.forall_mem_cons.2 ⟨?_, ?_⟩
      · intro x; refine Eq.trans ?_ (blendBlk_idx _ _ _ 12 (by omega) (by decide) x).symm; kpay_simp
      refine List.forall_mem_cons.2 ⟨?_, ?_⟩
      · intro x; refine Eq.trans ?_ (blendBlk_idx _ _ _ 11 (by omega) (by decide) x).symm; kpay_simp
      refine List.forall_mem_cons.2 ⟨?_, ?_⟩
      · intro x; refine Eq.trans ?_ (blendBlk_idx _ _ _ 10 (by omega) (by decide) x).symm; kpay_simp
      refine List.forall_mem_cons.2 ⟨?_, ?_⟩
      · intro x; refine Eq.trans ?_ (blendBlk_idx _ _ _ 9 (by omega) (by decide) x).symm; kpay_simp
      refine List.forall_mem_cons.2 ⟨?_, ?_⟩
      · intro x; refine Eq.trans ?_ (blendBlk_idx _ _ _ 8 (by omega) (by decide) x).symm; kpay_simp
      refine List.forall_mem_cons.2 ⟨?_, ?_⟩
      · intro x; refine Eq.trans ?_ (blendBlk_idx _ _ _ 7 (by omega) (by decide) x).symm; kpay_simp
      refine List.forall_mem_cons.2 ⟨?_, ?_⟩
      · intro x; refine Eq.trans ?_ (blendBlk_idx _ _ _ 6 (by omega) (by decide) x).symm; kpay_simp
      refine List.forall_mem_cons.2 ⟨?_, ?_⟩
      · intro x; refine Eq.trans ?_ (blendBlk_idx _ _ _ 5 (by omega) (by decide) x).symm; kpay_simp
      refine List.forall_mem_cons.2 ⟨?_, ?_⟩
      · intro x; refine Eq.trans ?_ (blendBlk_idx _ _ _ 4 (by omega) (by decide) x).symm; kpay_simp
      refine List.forall_mem_cons.2 ⟨?_, ?_⟩
      · intro x; refine Eq.trans ?_ (blendBlk_idx _ _ _ 3 (by omega) (by decide) x).symm; kpay_simp
      refine List.forall_mem_cons.2 ⟨?_, ?_⟩
      · intro x; refine Eq.trans ?_ (blendBlk_idx _ _ _ 2 (by omega) (by decide) x).symm; kpay_simp
      refine List.forall_mem_cons.2 ⟨?_, ?_⟩
      · intro x; refine Eq.trans ?_ (blendBlk_idx _ _ _ 1 (by omega) (by decide) x).symm; kpay_simp
      refine List.forall_mem_cons.2 ⟨?_, ?_⟩
      · intro x; refine Eq.trans ?_ (blendBlk_idx _ _ _ 0 (by omega) (by decide) x).symm; kpay_simp
      exact fun _ h => absurd h List.not_mem_nil
  isplitl [H6]
  · iexists _; isplitr
    swap; · iexact H6
    ipureintro
    sl_delta
    rw [hW1, hW0, hW2]
    funext y
    refine View.read_writes_apply_of_pieces _ _ (gateS x1 x0 x2) _ ?p7 y ?c7
    case c7 => exact ⟨_, List.mem_singleton_self _, View.mem_set_unit_zero hz2 inb_S1x128_S1x128_0_0 y⟩
    case p7 =>
      refine List.forall_mem_cons.2 ⟨?_, fun _ h => absurd h List.not_mem_nil⟩
      intro x
      exact (congrFun (View.ld_unit_zero hz2 inb_S1x128_S1x128_0_0 (gateS x1 x0 x2)) x).symm
  · iexists _; isplitr
    swap; · iexact H7
    ipureintro
    sl_delta
    funext y
    refine View.read_writes_apply_of_pieces _ _ (mtS x4) _ ?p8 y ?c8
    case c8 => exact View.cover_of_tiledL (s := S7x128x112) _ S1x128x112.size (by sl_kernel_rfl) y
    case p8 =>
      refine List.forall_mem_cons.2 ⟨?_, ?_⟩
      · intro x; refine Eq.trans ?_ (mtS_idx _ 6 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 5 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 4 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 3 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 2 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 1 (by omega) (by decide) (by decide) x).symm; simp only [k1_pay4, k1_pay5, k1_pay6, k1_pay7, k1_pay8, k1_pay9, k1_pay10]; refine (tr_at _ _ _ _ x).trans ?_; exact harg5.readAt_unread x4 _ _
      refine List.forall_mem_cons.2 ⟨?_, ?_⟩
      · intro x; refine Eq.trans ?_ (mtS_idx _ 0 (by omega) (by decide) (by decide) x).symm; simp only [k1_pay4, k1_pay5, k1_pay6, k1_pay7, k1_pay8, k1_pay9, k1_pay10]; refine (tr_at _ _ _ _ x).trans ?_; exact harg5.readAt_unread x4 _ _
      exact fun _ h => absurd h List.not_mem_nil

end Cert.Proof.KI

end
-- ==== Proof.KIRegionDat.lean ====
/-
  The proof data of the TensorCore call's pipeline on one device: the arrays as the call finds them, what each
  window's staging buffer holds after the body at each grid point, the two scratches between points, and the body
  obligation at every point.
-/
import proofs.«207473_g17575006175289_fold_wed_c4_317_29_alg».proof.Proof.KICommon
import Idealize.ShloMosaic.Lib.WholeRead
import proofs.«207473_g17575006175289_fold_wed_c4_317_29_alg».proof.Proof.KIRegionRunA
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : Valuation τ sig (Elt F)) (W : Waits sig (HIx 1))

/-- Device `d`'s TensorCore buffers when the call is entered. -/
abbrev Vtc (d : Dev nD) (b : Ref sig .tc) : Buf (Elt F) ((d.tc : Thread nD τ).loc b) := V b

/-- Window `w`'s block at point `t`, read off its array as the call finds it. -/
def iblk (d : Dev nD) (w : Fin cfg1.W) (t : Fin cfg1.N) : ((cfg1.win w).xblock (cfg1.grid.coords t)).Idx → Elt F (cfg1.win w).elt :=
  ((cfg1.win w).blk t).view.read (Elt F) (Vtc V d (Pipeline.arrRef spec1 w))

/-- What the first point leaves in the two scratches: the gate, and the mask's tiles transposed. -/
def gateV (d : Dev nD) : Vec F S1x128 .f32 := gateS (iblk V d 1 t1_0) (iblk V d 0 t1_0) (iblk V d 2 t1_0)
def mtV (d : Dev nD) : Vec F S7x128x112 .f32 := mtS (iblk V d 4 t1_0)

/-- The input block at point `t` as a whole staging buffer: the block's rows inside the array, a fixed word past them. -/
def xblk (d : Dev nD) (t : Fin cfg1.N) : S14336x128.Idx → Elt F .f32 :=
  win1_3.fill (grid1.coords t) (fun _ => Scalar.ofBits .f32 0#32) (iblk V d 3 t)

/-- The result block at point `t`. -/
def outBlk (d : Dev nD) (t : Fin cfg1.N) : S14336x128.Idx → Elt F .f32 :=
  blendBlk (gateV V d) (mcols (mtV V d) (grid1.coords t)) (xblk V d t)

/-- The two scratches at what the first point leaves in them. -/
def scr (d : Dev nD) : sProp 𝕄 :=
  iprop(owns (d : Thread nD τ) (Memref.whole cc1_scratch0) fullShare (gateV V d) ∗ owns (d : Thread nD τ) (Memref.whole cc1_scratch1) fullShare (mtV V d))

/-- The proof data: the inputs' buffers keep their blocks, the result's holds the blend; between points the scratches
    hold the gate and the transposed mask (before the first point, anything); nothing owed; full shares. -/
def rdat (d : Dev nD) : Dat τ (Elt F) (HIx 1) ℕ UU ℕ cfg1 d where
  A w := Vtc V d (Pipeline.arrRef spec1 w)
  after w t := match w with
    | ⟨0, _⟩ => iblk V d 0 t
    | ⟨1, _⟩ => iblk V d 1 t
    | ⟨2, _⟩ => iblk V d 2 t
    | ⟨3, _⟩ => xblk V d t
    | ⟨4, _⟩ => iblk V d 4 t
    | ⟨5, _⟩ => outBlk V d t
  Φ t := if t.val = 0 then Pipeline.scopedRest spec1 d else scr V d
  q _ := fullShare
  owed _ := 0
  recorded _ := (↑W : Set (SemLoc sig × HIx 1))

theorem A_eq (d : Dev nD) (w : Fin cfg1.W) : (rdat V W d).A w = Vtc V d (Pipeline.arrRef spec1 w) := by dsimp only [rdat]
theorem after_0 (d : Dev nD) (t : Fin cfg1.N) : (rdat V W d).after 0 t = iblk V d 0 t := by dsimp only [rdat]
theorem after_1 (d : Dev nD) (t : Fin cfg1.N) : (rdat V W d).after 1 t = iblk V d 1 t := by dsimp only [rdat]
theorem after_2 (d : Dev nD) (t : Fin cfg1.N) : (rdat V W d).after 2 t = iblk V d 2 t := by dsimp only [rdat]
theorem after_3 (d : Dev nD) (t : Fin cfg1.N) : (rdat V W d).after 3 t = xblk V d t := by dsimp only [rdat]
theorem after_4 (d : Dev nD) (t : Fin cfg1.N) : (rdat V W d).after 4 t = iblk V d 4 t := by dsimp only [rdat]
theorem after_5 (d : Dev nD) (t : Fin cfg1.N) : (rdat V W d).after 5 t = outBlk V d t := by dsimp only [rdat]

/-- Each whole-array input's staging buffer holds its block at every point, fetched there or not. -/
theorem before_0 (d : Dev nD) (t : Fin cfg1.N) (x) : (rdat V W d).before 0 t x = iblk V d 0 t :=
  ((rdat V W d).before_in_eq_fetched 0 rfl (fun _ => rfl) (fun _ _ _ => rfl) (fun t => by rw [after_0]; unfold Dat.blockOf iblk; rw [A_eq]; try rfl) t x).trans
    (by unfold Dat.fetched Dat.blockOf iblk; rw [A_eq]; try rfl)
theorem before_1 (d : Dev nD) (t : Fin cfg1.N) (x) : (rdat V W d).before 1 t x = iblk V d 1 t :=
  ((rdat V W d).before_in_eq_fetched 1 rfl (fun _ => rfl) (fun _ _ _ => rfl) (fun t => by rw [after_1]; unfold Dat.blockOf iblk; rw [A_eq]; try rfl) t x).trans
    (by unfold Dat.fetched Dat.blockOf iblk; rw [A_eq]; try rfl)
theorem before_2 (d : Dev nD) (t : Fin cfg1.N) (x) : (rdat V W d).before 2 t x = iblk V d 2 t :=
  ((rdat V W d).before_in_eq_fetched 2 rfl (fun _ => rfl) (fun _ _ _ => rfl) (fun t => by rw [after_2]; unfold Dat.blockOf iblk; rw [A_eq]; try rfl) t x).trans
    (by unfold Dat.fetched Dat.blockOf iblk; rw [A_eq]; try rfl)
theorem before_4 (d : Dev nD) (t : Fin cfg1.N) (x) : (rdat V W d).before 4 t x = iblk V d 4 t :=
  ((rdat V W d).before_in_eq_fetched 4 rfl (fun _ => rfl) (fun _ _ _ => rfl) (fun t => by rw [after_4]; unfold Dat.blockOf iblk; rw [A_eq]; try rfl) t x).trans
    (by unfold Dat.fetched Dat.blockOf iblk; rw [A_eq]; try rfl)

/-- The input block's buffer, fetched at every point: the block on the rows inside the array, what it held elsewhere. -/
theorem before_3 (d : Dev nD) (t : Fin cfg1.N) (x) : (rdat V W d).before 3 t x = win1_3.fill (grid1.coords t) x (iblk V d 3 t) := by
  unfold Dat.before; rw [if_pos (fetch1_3 t)]; unfold Dat.fetched Dat.blockOf iblk; rw [A_eq]; try rfl

theorem fetch1_5 : ∀ t : Fin cfg1.N, (cfg1.win 5).fetch t = false :=
  (by decide +kernel : ∀ t : Fin grid1.N, win1_5.fetch t = false)

/-- The result's buffer at contents nothing names: never fetched, written back at every point. -/
theorem before_5 (d : Dev nD) (t : Fin cfg1.N) (x) : (rdat V W d).before 5 t x = x := by
  unfold Dat.before
  rw [if_neg (by rw [fetch1_5 t]; exact Bool.false_ne_true)]
  by_cases h0 : t.val = 0
  · rw [if_pos h0]
  · rw [if_neg h0]; exact if_pos (flush1_5 _)

/-- Past the array's end the blend reads only the input buffer's own rows: two input buffers that agree inside the
    array give result buffers that agree there. -/
theorem cut_blend (v3 : S1x128.Idx → F .f32) (v6 : S128x112.Idx → F .f32) (i : grid1.Coords) (x x' : S14336x128.Idx → Elt F .f32)
    (g : (win1_3.xblock i).Idx → Elt F .f32) :
    win1_5.cut i (blendBlk v3 v6 (win1_3.fill i x g)) = win1_5.cut i (blendBlk v3 v6 (win1_3.fill i x' g)) := by
  funext j
  have e : win1_3.fill i x g (win1_3.xinj i j) = win1_3.fill i x' g (win1_3.xinj i j) :=
    (win1_3.fill_xinj i x g j).trans (win1_3.fill_xinj i x' g j).symm
  show blendBlk v3 v6 (win1_3.fill i x g) (win1_3.xinj i j) = blendBlk v3 v6 (win1_3.fill i x' g) (win1_3.xinj i j)
  unfold blendBlk
  simp only [e]

/-! ## The body obligation -/

/-- What the body is called with at point `t`, the windows one by one, -/
def bodyPre (d : Dev nD) (t : Fin cfg1.N) : sProp 𝕄 :=
  iprop((rdat V W d).Φ t.castSucc ∗ (rdat V W d).owesAt (none : HIx 1) t.castSucc
    ∗ (∃ x, owns (d : Thread nD τ) (win1_0.stage (cfg1.slots t 0)) fullShare ((rdat V W d).before 0 t x))
    ∗ (∃ x, owns (d : Thread nD τ) (win1_1.stage (cfg1.slots t 1)) fullShare ((rdat V W d).before 1 t x))
    ∗ (∃ x, owns (d : Thread nD τ) (win1_2.stage (cfg1.slots t 2)) fullShare ((rdat V W d).before 2 t x))
    ∗ (∃ x, owns (d : Thread nD τ) (win1_3.stage (cfg1.slots t 3)) fullShare ((rdat V W d).before 3 t x))
    ∗ (∃ x, owns (d : Thread nD τ) (win1_4.stage (cfg1.slots t 4)) fullShare ((rdat V W d).before 4 t x))
    ∗ (∃ x, owns (d : Thread nD τ) (win1_5.stage (cfg1.slots t 5)) fullShare ((rdat V W d).before 5 t x)))

/-- and what it returns: the two clipped windows' buffers stated on the rows inside the array. -/
def bodyPost (d : Dev nD) (t : Fin cfg1.N) : sProp 𝕄 :=
  iprop((rdat V W d).Φ t.succ ∗ (rdat V W d).owesAt (none : HIx 1) t.succ
    ∗ owns (d : Thread nD τ) (win1_0.stage (cfg1.slots t 0)) fullShare ((rdat V W d).after 0 t)
    ∗ owns (d : Thread nD τ) (win1_1.stage (cfg1.slots t 1)) fullShare ((rdat V W d).after 1 t)
    ∗ owns (d : Thread nD τ) (win1_2.stage (cfg1.slots t 2)) fullShare ((rdat V W d).after 2 t)
    ∗ (∃ x, owns (d : Thread nD τ) (win1_3.stage (cfg1.slots t 3)) fullShare (win1_3.fill (grid1.coords t) x (win1_3.cut (grid1.coords t) ((rdat V W d).after 3 t))))
    ∗ owns (d : Thread nD τ) (win1_4.stage (cfg1.slots t 4)) fullShare ((rdat V W d).after 4 t)
    ∗ (∃ x, owns (d : Thread nD τ) (win1_5.stage (cfg1.slots t 5)) fullShare (win1_5.fill (grid1.coords t) x (win1_5.cut (grid1.coords t) ((rdat V W d).after 5 t)))))

theorem Φ_zero (d : Dev nD) (t : Fin (cfg1.N + 1)) (h : t.val = 0) : (rdat V W d).Φ t = Pipeline.scopedRest spec1 d := by
  dsimp only [rdat]; exact if_pos h
theorem Φ_pos (d : Dev nD) (t : Fin (cfg1.N + 1)) (h : ¬t.val = 0) : (rdat V W d).Φ t = scr V d := by
  dsimp only [rdat]; exact if_neg h

set_option maxHeartbeats 1600000 in
/-- The body at any point: at the first, the scratches are filled and read back; at a later one, they hold what the
    first left; either way the result's buffer ends at the blend on the rows inside the array. -/
theorem sound_body (d : Dev nD) (t : Fin cfg1.N) :
    bodyPre V W d t ⊢ wp frame (wpE (defs₀ (F := F)) Variants.none d none) Set.univ (bodyAt1 t) (fun _ => bodyPost V W d t) := by
  unfold bodyPre bodyPost bodyAt1
  simp only [before_0, before_1, before_2, before_3, before_4, before_5]
  rw [show (rdat V W d).owesAt (none : HIx 1) t.succ = (rdat V W d).owesAt (none : HIx 1) t.castSucc from rfl,
    after_0, after_1, after_2, after_3, after_4, after_5]
  have hN : t.val < 7 := lt_of_lt_of_eq t.isLt (show cfg1.N = 7 from N_1)
  have hcut3 : win1_3.cut (grid1.coords t) (xblk V d t) = iblk V d 3 t := win1_3.cut_fill _ _ _
  by_cases h0 : t.val % 7 = 0
  · have ht0 : t.val = 0 := by omega
    obtain rfl : t = t1_0 := Fin.ext ht0
    rw [Φ_zero V W d _ rfl, Φ_pos V W d t1_0.succ (by decide), scopedRest1_eq]
    iintro ⟨⟨⟨%g0, Hs0⟩, ⟨%g1, Hs1⟩⟩, Ho, ⟨%d0, H0⟩, ⟨%d1, H1⟩, ⟨%d2, H2⟩, ⟨%d3, H3⟩, ⟨%d4, H4⟩, ⟨%d5, H5⟩⟩
    iapply (runA d (grid1.coords t1_0) _ _ _ _ _ _ _ _ _ _ _ _ _ _ _ _ ((hcond1_0 t1_0).mpr h0)
      (iblk V d 0 t1_0) (iblk V d 1 t1_0) (iblk V d 2 t1_0) (win1_3.fill (grid1.coords t1_0) d3 (iblk V d 3 t1_0)) (iblk V d 4 t1_0) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs0]
    · iexists g0; rw [owns_whole_eq]; iexists g0; isplitr; · ipureintro; rfl
      iexact Hs0
    isplitl [Hs1]
    · iexists g1; rw [owns_whole_eq]; iexists g1; isplitr; · ipureintro; rfl
      iexact Hs1
    iintro ⟨H0, H1, H2, H3, H4, H5, H6, H7⟩
    isplitl [H6 H7]
    · unfold scr gateV mtV; isplitl [H6]; · iexact H6
      iexact H7
    isplitl [Ho]; · iexact Ho
    isplitl [H0]; · iexact H0
    isplitl [H1]; · iexact H1
    isplitl [H2]; · iexact H2
    isplitl [H3]
    · iexists d3; rw [hcut3]; iexact H3
    isplitl [H4]; · iexact H4
    iexists _
    rw [win1_5.fill_congr_cut (grid1.coords t1_0) (show win1_5.cut (grid1.coords t1_0) (blendBlk (gateS (iblk V d 1 t1_0) (iblk V d 0 t1_0) (iblk V d 2 t1_0)) (mcols (mtS (iblk V d 4 t1_0)) (grid1.coords t1_0)) (win1_3.fill (grid1.coords t1_0) d3 (iblk V d 3 t1_0)))
        = win1_5.cut (grid1.coords t1_0) (outBlk V d t1_0) from cut_blend _ _ _ _ _ _)]
    iexact H5
  · have ht0 : ¬t.val = 0 := by omega
    rw [Φ_pos V W d t.castSucc ht0, Φ_pos V W d t.succ (Nat.succ_ne_zero _)]
    unfold scr
    iintro ⟨⟨Hs0, Hs1⟩, Ho, ⟨%d0, H0⟩, ⟨%d1, H1⟩, ⟨%d2, H2⟩, ⟨%d3, H3⟩, ⟨%d4, H4⟩, ⟨%d5, H5⟩⟩
    iapply (runB d (grid1.coords t) _ _ _ _ _ _ _ _ _ _ _ _ _ _ _ _ (fun h => h0 ((hcond1_0 t).mp h))
      (iblk V d 0 t) (iblk V d 1 t) (iblk V d 2 t) (win1_3.fill (grid1.coords t) d3 (iblk V d 3 t)) (iblk V d 4 t) (gateV V d) (mtV V d) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs0]; · iexact Hs0
    isplitl [Hs1]; · iexact Hs1
    iintro ⟨H0, H1, H2, H3, H4, H5, H6, H7⟩
    isplitl [H6 H7]
    · isplitl [H6]; · iexact H6
      iexact H7
    isplitl [Ho]; · iexact Ho
    isplitl [H0]; · iexact H0
    isplitl [H1]; · iexact H1
    isplitl [H2]; · iexact H2
    isplitl [H3]
    · iexists d3; rw [hcut3]; iexact H3
    isplitl [H4]; · iexact H4
    iexists _
    rw [win1_5.fill_congr_cut (grid1.coords t) (show win1_5.cut (grid1.coords t) (blendBlk (gateV V d) (mcols (mtV V d) (grid1.coords t)) (win1_3.fill (grid1.coords t) d3 (iblk V d 3 t)))
        = win1_5.cut (grid1.coords t) (outBlk V d t) from cut_blend _ _ _ _ _ _)]
    iexact H5

/-- The library's body obligation, at every point. -/
theorem body_obligation (d : Dev nD) : BodyObligationLoose (rdat V W d) (defs₀ (F := F)) Variants.none (none : HIx 1) Set.univ := fun t => by
  rw [bigSep_W1, bigSep_W1]
  exact sound_body V W d t

end Cert.Proof.KI

end
-- ==== Proof.KIRegion.lean ====
/-
  The TensorCore call as one step of the TensorCore thread's proof: the region record of the pipeline library
  (the layout, the body obligation, how the call's resources are sorted on entry and put back on exit), and the
  call's rule under the SparseCore program's table.
-/
import proofs.«207473_g17575006175289_fold_wed_c4_317_29_alg».proof.Proof.KICommon
import Idealize.ShloMosaic.Lib.WholeRead
import proofs.«207473_g17575006175289_fold_wed_c4_317_29_alg».proof.Proof.KIRegionDat
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : Valuation τ sig (Elt F)) (W : Waits sig (HIx 1))

/-- What the write-backs leave in the windowed arrays: each input as it was, the result at the blend. -/
abbrev ArrFinal : Prop := ∀ (d : Dev nD) (w : Fin cfg1.W), (rdat V W d).arrAt w cfg1.N = VAfter V (Pipeline.arrRef spec1 w)

/-- The proof data of the program's one pipeline. -/
def dats (p : Fin 1) (d : Dev nD) : Dat τ (Elt F) (HIx 1) ℕ UU ℕ (Pipeline.pin (pcfgs (F := F)) (adm (F := F)) p) d := rdat V W d

theorem share_full (d : Dev nD) (w : Fin cfg1.W) : (rdat V W d).share w = fullShare := (rdat V W d).share_full (fun _ => rfl) w

/-- The valuation after the call agrees with the one before it off the result array. -/
theorem VAfter_ne (b : DevRef τ sig) (h : b ≠ Proc.devRef .tc main_v8) : VAfter V b = V b := by
  unfold VAfter; exact Function.update_of_ne h _ _

/-- What the core owes after the call: nothing; its recorded waits are those it had and the pipeline's own. -/
def owesAfter (d : Dev nD) : sProp 𝕄 :=
  iprop(∃ W' : Waits sig (HIx 1), ⌜∀ p ∈ W', p ∈ W ∨ p.2 = none⌝ ∗ owes (T d : Thread nD τ) 0 W')

/-- On exit: the windowed arrays after the write-backs and the other unscoped buffers are the unscoped buffers at the
    valuation after the call. -/
theorem exit_bufs (harr : ArrFinal V W) (d : Dev nD) :
    iprop((dats V W 0 d).arrays ((dats V W 0 d).arrAt · (Pipeline.pin (pcfgs (F := F)) (adm (F := F)) 0).N) ∗ Pipeline.unscopedRest spec1 d (fun b => V b))
      ⊢ (unscopedBufs d (fun b => VAfter V b) : sProp 𝕄) := by
  rw [Pipeline.unscopedBufs_split (Pipeline.pin (pcfgs (F := F)) (adm (F := F))) 0 winFacts1.arr_unscoped winFacts1.arr_inj d (fun b => VAfter V b),
    Pipeline.arrays_eq (Pipeline.pin (pcfgs (F := F)) (adm (F := F))) (dats V W) 0 d arr_whole1 (share_full V W d)]
  refine sep_mono (Entails.of_eq (bigSep_congr fun w _ => ?_)) (Entails.of_eq ?_)
  · exact congrArg _ (harr d w)
  · show Pipeline.unscopedRest spec1 d (fun b => V b) = Pipeline.unscopedRest spec1 d (fun b => VAfter V b)
    rw [unscopedRest1_eq, unscopedRest1_eq]
    rw [VAfter_ne V main_arg0 (by decide), VAfter_ne V main_arg1 (by decide), VAfter_ne V main_arg2 (by decide), VAfter_ne V main_arg4 (by decide),
      VAfter_ne V main_c (by decide), VAfter_ne V main_v0 (by decide), VAfter_ne V main_v1 (by decide), VAfter_ne V main_v2 (by decide),
      VAfter_ne V main_v4 (by decide), VAfter_ne V main_v9 (by decide), VAfter_ne V main_v10 (by decide)]

set_option maxHeartbeats 1600000 in
/-- The region record. -/
def seg (harr : ArrFinal V W) : Pipeline.RegionSeg (pcfgs (F := F)) (adm (F := F)) (dats V W) (none : HIx 1) (defs₀ (F := F)) 𝒱₀ (K (F := F)).L (K (F := F)).lev (0 : Fin 1) where
  win := winFacts1.to₀
  block_pos := block_pos1
  stage_whole := stage_whole1
  K := PEmpty
  osem := fun k => k.elim
  ho := Pipeline.OwnSemFacts.none _
  hbody := fun d => body_obligation V W d
  hwaits := Pipeline.hwaits_of_owed_zero (pcfgs (F := F)) (adm (F := F)) (dats V W) (none : HIx 1) (K (F := F)).L (K (F := F)).lev 0 (fun _ _ => rfl)
  pre := fun d => iprop(unscopedBufs d (fun b => V b) ∗ owes (T d : Thread nD τ) 0 W)
  post := fun d => iprop(unscopedBufs d (fun b => VAfter V b) ∗ owesAfter W d)
  X := fun _ => iprop(emp)
  Y := fun _ => iprop(emp)
  Z := fun d => Pipeline.unscopedRest spec1 d (fun b => V b)
  hentry := fun d => by
    iintro ⟨⟨Hb, Ho⟩, -, -⟩
    imodintro
    ihave Ha := (Pipeline.arrays_of_unscopedBufs (pcfgs (F := F)) (adm (F := F)) (dats V W) (p := 0) winFacts1 arr_whole1 d (share_full V W d) (fun b => V b) (fun w => A_eq V W d w)) $$ Hb
    icases Ha with ⟨Ha, Hr⟩
    isplitl [Ha]; · iexact Ha
    isplitr
    · unfold Pipeline.prefHeld; rw [Finset.univ_eq_empty, BI.bigSep_empty]; iempintro
    isplitl [Ho]
    · iexists W; isplitr
      · ipureintro; exact fun p hp => Or.inl hp
      iexact Ho
    isplitr; · iempintro
    iexact Hr
  hin := fun d => by
    show _ ⊢ (rdat V W d).Φ 0
    rw [Φ_zero V W d 0 rfl]
    iintro ⟨-, -, Hr⟩; iexact Hr
  hout := fun d => by
    show (rdat V W d).Φ (Fin.last cfg1.N) ⊢ _
    rw [Pipeline.ownSems0_none, Φ_pos V W d _ (by decide), scopedRest1_eq]
    unfold scr
    rw [owns_whole_eq, owns_whole_eq]
    iintro ⟨⟨%f0, -, H0⟩, ⟨%f1, -, H1⟩⟩
    isplitr; · iempintro
    isplitr; · iempintro
    isplitl [H0]; · iexists f0; iexact H0
    iexists f1; iexact H1
  hexit := fun d => by
    iintro ⟨Ha, Ho, -, Hr⟩
    imodintro
    isplitl [Ha Hr]
    · iapply (exit_bufs V W harr d)
      isplitl [Ha]; · iexact Ha
      iexact Hr
    · icases Ho with ⟨%W', %hW', Ho⟩
      unfold owesAfter
      iexists W'; isplitr
      · ipureintro
        intro p hp
        rcases hW' hp with h | ⟨w, s, rfl⟩
        · exact Or.inl h
        · exact Or.inr rfl
      iexact Ho

set_option backward.isDefEq.respectTransparency.types false in
/-- THE CALL. From the region boundary, the TensorCore's unscoped buffers at a valuation, the core owing nothing, the
    level facts and the pipeline's ghost state, the call runs to the boundary and the buffers at the valuation with the
    result array at the blend, the core owing nothing with its recorded waits its own and the pipeline's. -/
theorem region_wp_of (harr : ArrFinal V W) (d : Dev nD) {α : Type}
    (k : PUnit → Prog (TpuEff nD τ sig (Elt F) (SparseCore.Sig (ΛP (F := F)) 1) .tc) α) (Q : α → sProp 𝕄) :
    iprop((iprop(boundary (T d : Thread nD τ) ∗ StableHlo.held (T d : Thread nD τ) (Pipeline.ucRefs τ sig) (VAfter V)
              ∗ (∃ W' : Waits sig (HIx 1), ⌜∀ p ∈ W', p ∈ W ∨ p.2 = none⌝ ∗ owes (T d : Thread nD τ) 0 W'))
            -∗ wp frame (wpE ((K (F := F)).defs D) 𝒱 (T d : Thread nD τ) none) Set.univ (k ⟨⟩) Q)
        ∗ boundary (T d : Thread nD τ) ∗ StableHlo.held (T d : Thread nD τ) (Pipeline.ucRefs τ sig) V
        ∗ owes (T d : Thread nD τ) 0 W ∗ levAts (K (F := F)).L (K (F := F)).lev
        ∗ Pipeline.cellsGhost (Pipeline.pin (pcfgs (F := F)) (adm (F := F))) EP 0 d ∗ Pipeline.toksInit (Pipeline.pin (pcfgs (F := F)) (adm (F := F))) EP 0 d)
      ⊢ wp frame (wpE ((K (F := F)).defs D) 𝒱 (T d : Thread nD τ) none) Set.univ
          (.op (.customCall (SparseCore.inner (Pipeline.entry 0)) ()) k) Q := by
  rw [show (Prog.op (.customCall (SparseCore.inner (Pipeline.entry (0 : Fin 1))) ()) k
        : Prog (TpuEff nD τ sig (Elt F) (SparseCore.Sig (ΛP (F := F)) 1) .tc) α)
      = (SparseCore.liftProg (Q := 1) (Prog.op (.customCall (Pipeline.entry (0 : Fin 1)) ()) fun _ => .ret PUnit.unit)) >>= k from rfl,
    wp_bind]
  iintro ⟨Hk, Hbd, Hh, Ho, #Hla, Hg, Ht⟩
  iapply (wp_wand_r frame _ Set.univ)
  isplitr [Hk]
  · iapply ((K (F := F)).wp_liftProg D 𝒱 (T d) Set.univ none _ _)
    iapply (Pipeline.RegionSeg.wp (pcfgs (F := F)) (adm (F := F)) (dats V W) (none : HIx 1) cellOf_inj EP (defs₀ (F := F)) 𝒱₀ (K (F := F)).L (K (F := F)).lev
      (seg V W harr) d none (fun _ h => nomatch h) (fun _ => .ret PUnit.unit)
      (fun _ => iprop(boundary (T d : Thread nD τ) ∗ StableHlo.held (T d : Thread nD τ) (Pipeline.ucRefs τ sig) (VAfter V) ∗ owesAfter W d)))
    isplitr [Hbd Hh Ho Hg Ht]
    · iintro ⟨Hbd, Hpost⟩
      iapply (le_wp_ret frame _ Set.univ PUnit.unit _)
      isplitl [Hbd]; · iexact Hbd
      ihave Hp := (show (seg V W harr).post d ⊢ iprop(unscopedBufs d (fun b => VAfter V b) ∗ owesAfter W d) from BI.Entails.refl _) $$ Hpost
      icases Hp with ⟨Hb, Ho⟩
      isplitl [Hb]
      · rw [← Pipeline.unscopedBufs_held]; iexact Hb
      iexact Ho
    isplitl [Hbd]; · iexact Hbd
    isplitl [Hh Ho]
    · iapply (show iprop(unscopedBufs d (fun b => V b) ∗ owes (T d : Thread nD τ) 0 W) ⊢ (seg V W harr).pre d from BI.Entails.refl _)
      isplitl [Hh]
      · rw [Pipeline.unscopedBufs_held]; iexact Hh
      iexact Ho
    isplitr; · iexact Hla
    isplitl [Hg]; · iexact Hg
    iexact Ht
  · iintro %_ Hpost
    iapply Hk
    iexact Hpost

end Cert.Proof.KI

end
-- ==== Proof.KIRegionVal.lean ====
/-
  What the pipeline's write-backs leave in the result array: the blend of the five input arrays, entry by entry;
  every other windowed array as the call found it.
-/
import proofs.«207473_g17575006175289_fold_wed_c4_317_29_alg».proof.Proof.KICommon
import Idealize.ShloMosaic.Lib.WholeRead
import proofs.«207473_g17575006175289_fold_wed_c4_317_29_alg».proof.Proof.KIRegionDat
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (V : Valuation τ sig (Elt F)) (W : Waits sig (HIx 1))

/-! ## The windows' blocks as entries of their arrays -/

theorem index_0 : ∀ (t : Fin grid1.N) (a : Fin 2), win1_0.index t a = 0 := by decide +kernel
theorem index_1 : ∀ (t : Fin grid1.N) (a : Fin 2), win1_1.index t a = 0 := by decide +kernel
theorem index_2 : ∀ (t : Fin grid1.N) (a : Fin 2), win1_2.index t a = 0 := by decide +kernel
theorem index_4 : ∀ (t : Fin grid1.N) (a : Fin 2), win1_4.index t a = 0 := by decide +kernel
theorem index_3 : ∀ (t : Fin grid1.N), win1_3.index t 0 = t.val ∧ win1_3.index t 1 = 0 := by decide +kernel
theorem index_5 : ∀ (t : Fin grid1.N), win1_5.index t 0 = t.val ∧ win1_5.index t 1 = 0 := by decide +kernel
theorem coords_0 : ∀ (t : Fin grid1.N), (grid1.coords t 0).val = t.val := by decide +kernel

/-- A whole-array window's block is the array. -/
theorem iblk_0 (d : Dev nD) (t : Fin cfg1.N) : iblk V d 0 t = V (Proc.devRef .tc main_v6) := by
  funext j
  show V (Proc.devRef .tc main_v6) ((win1_0.rect t).emb j) = V (Proc.devRef .tc main_v6) j
  congr 1; funext a; exact Fin.ext (win1_0.rect_emb_val_of_index_zero t a (index_0 t a) j)
theorem iblk_1 (d : Dev nD) (t : Fin cfg1.N) : iblk V d 1 t = V (Proc.devRef .tc main_arg3) := by
  funext j
  show V (Proc.devRef .tc main_arg3) ((win1_1.rect t).emb j) = V (Proc.devRef .tc main_arg3) j
  congr 1; funext a; exact Fin.ext (win1_1.rect_emb_val_of_index_zero t a (index_1 t a) j)
theorem iblk_2 (d : Dev nD) (t : Fin cfg1.N) : iblk V d 2 t = V (Proc.devRef .tc main_v7) := by
  funext j
  show V (Proc.devRef .tc main_v7) ((win1_2.rect t).emb j) = V (Proc.devRef .tc main_v7) j
  congr 1; funext a; exact Fin.ext (win1_2.rect_emb_val_of_index_zero t a (index_2 t a) j)
theorem iblk_4 (d : Dev nD) (t : Fin cfg1.N) : iblk V d 4 t = V (Proc.devRef .tc main_v3) := by
  funext j
  show V (Proc.devRef .tc main_v3) ((win1_4.rect t).emb j) = V (Proc.devRef .tc main_v3) j
  congr 1; funext a; exact Fin.ext (win1_4.rect_emb_val_of_index_zero t a (index_4 t a) j)

/-- The gate scratch holds the gate of the arrays. -/
theorem gateV_eq (d : Dev nD) : gateV V d = gate (V (Proc.devRef .tc main_v6)) (V (Proc.devRef .tc main_arg3)) (V (Proc.devRef .tc main_v7)) := by
  unfold gateV gateS k1_pay3 gate
  rw [iblk_0, iblk_1, iblk_2]
  simp only [shapeCast_self]

/-- The mask columns the body reads at block `i`, as entries of the mask scratch's source. -/
theorem mcols_mtS (x4 : Vec F S1024x128 .f32) (i : grid1.Coords) (a : Fin 128) (b : Fin 112) (h : 112 * (i 0).val + b.val < 1024) :
    mcols (mtS x4) i (ix2 a b) = x4 (ix2 (⟨112 * (i 0).val + b.val, h⟩ : Fin 1024) a) := by
  unfold mcols k1_pay11
  refine (shapeCast_dropUnit_apply ![128, 112] _ _ (ix2 a b)).trans ?_
  have h0 : k1_off1 i 0 = (i 0).val := congrFun (k1_off1_eq i) 0
  have h1 : k1_off1 i 1 = 0 := congrFun (k1_off1_eq i) 1
  have h2 : k1_off1 i 2 = 0 := congrFun (k1_off1_eq i) 2
  show mtS x4 ((Rect.unit (s := S7x128x112) (k1_off1 i) S1x128x112.size (Gen.k1_off1_inb i)).toLoadRect.idx (Fin.cons ⟨0, Nat.one_pos⟩ (ix2 a b))) = _
  unfold mtS
  congr 1
  funext a'
  match a' with
  | ⟨0, _⟩ => exact Fin.ext (by show 112 * (k1_off1 i 0 + 1 * 0) + (k1_off1 i 2 + 1 * b.val) = 112 * (i 0).val + b.val; rw [h0, h2]; omega)
  | ⟨1, _⟩ => exact Fin.ext (by show k1_off1 i 1 + 1 * a.val = a.val; rw [h1]; omega)

/-! ## The result array -/

/-- The blend of the arrays as `V` holds them. -/
abbrev outV : Vec F S100000x128 .f32 :=
  blendOut (V (Proc.devRef .tc main_v6)) (V (Proc.devRef .tc main_arg3)) (V (Proc.devRef .tc main_v7))
    (V (Proc.devRef .tc main_v5)) (V (Proc.devRef .tc main_v3))

/-- What each point writes back is its block of the blend. -/
theorem flushed_5 (d : Dev nD) (t : Fin cfg1.N) :
    (rdat V W d).flushed 5 t = ((cfg1.win 5).blk t).view.read (Elt F) (outV V) := by
  funext j
  have hN : t.val < 7 := lt_of_lt_of_eq t.isLt (show cfg1.N = 7 from N_1)
  have hj0 : (j 0).val < 14336 := lt_of_lt_of_le (j 0).isLt (win1_5.xsize_le (grid1.coords t) 0)
  -- the entry of the array under the block's index
  have hI0 : (((win1_5.rect t).emb j) 0).val = 14336 * t.val + (j 0).val := by
    rw [win1_5.rect_emb_val t j 0, (index_5 t).1]; show t.val * 14336 + _ = _; omega
  have hI1 : (((win1_5.rect t).emb j) 1).val = (j 1).val := by
    rw [win1_5.rect_emb_val t j 1, (index_5 t).2]; show 0 * 128 + _ = _; omega
  have h30 : (((win1_3.rect t).emb j) 0).val = 14336 * t.val + (j 0).val := by
    refine (win1_3.rect_emb_val t j 0).trans ?_
    rw [(index_3 t).1]; show t.val * 14336 + (j 0).val = _; omega
  have h31 : (((win1_3.rect t).emb j) 1).val = (j 1).val := by
    refine (win1_3.rect_emb_val t j 1).trans ?_
    rw [(index_3 t).2]; show 0 * 128 + (j 1).val = _; omega
  have hI3 : (win1_3.rect t).emb j = (win1_5.rect t).emb j := by
    funext a
    match a with
    | ⟨0, _⟩ => exact Fin.ext (h30.trans hI0.symm)
    | ⟨1, _⟩ => exact Fin.ext (h31.trans hI1.symm)
  show outBlk V d t (win1_3.xinj (grid1.coords t) j) = outV V ((win1_5.rect t).emb j)
  unfold outBlk outV blendBlk blendOut
  -- the input entry
  have hx : xblk V d t (win1_3.xinj (grid1.coords t) j) = V (Proc.devRef .tc main_v5) ((win1_5.rect t).emb j) := by
    unfold xblk
    refine (win1_3.fill_xinj (grid1.coords t) _ _ j).trans ?_
    show V (Proc.devRef .tc main_v5) ((win1_3.rect t).emb j) = _
    rw [hI3]
  -- the gate entry
  have hg : (ix2 (0 : Fin 1) ((win1_3.xinj (grid1.coords t) j) 1) : S1x128.Idx) = ix2 (0 : Fin 1) (((win1_5.rect t).emb j) 1) := by
    congr 1; exact Fin.ext hI1.symm
  -- the mask entry
  have hm : mcols (mtV V d) (grid1.coords t) (ix2 (⟨((win1_3.xinj (grid1.coords t) j) 0).val % 128, hr128 _⟩ : Fin 128) (⟨((win1_3.xinj (grid1.coords t) j) 0).val / 128, hq128 _⟩ : Fin 112))
      = V (Proc.devRef .tc main_v3) (ix2 (⟨(((win1_5.rect t).emb j) 0).val / 128, hrow _⟩ : Fin 1024) (⟨(((win1_5.rect t).emb j) 0).val % 128, hcol _⟩ : Fin 128)) := by
    unfold mtV
    rw [mcols_mtS _ _ _ _ (by show 112 * (grid1.coords t 0).val + (j 0).val / 128 < 1024; rw [coords_0 t]; omega), iblk_4]
    congr 1
    funext a
    match a with
    | ⟨0, _⟩ => exact Fin.ext (by show 112 * (grid1.coords t 0).val + (j 0).val / 128 = (((win1_5.rect t).emb j) 0).val / 128; rw [coords_0 t, hI0]; omega)
    | ⟨1, _⟩ => exact Fin.ext (by show (j 0).val % 128 = (((win1_5.rect t).emb j) 0).val % 128; rw [hI0]; omega)
  rw [hx, hg, hm, gateV_eq]
  rfl

/-- The points' blocks cover the array. -/
theorem cover_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 14336 < cfg1.N := by rw [show cfg1.N = 7 from N_1]; omega
  refine ⟨⟨(i 0).val / 14336, hlt⟩, flush1_5 _, ?_⟩
  show i ∈ ((View.whole main_v8).slice (win1_5.rect ⟨(i 0).val / 14336, hlt⟩)).set
  rw [View.set_slice_whole, Rect.mem_set_unit]
  intro a
  have hx : ∀ t : Fin grid1.N, win1_5.xsize (grid1.coords t) 0 = (if t.val = 6 then 13984 else 14336) ∧ win1_5.xsize (grid1.coords t) 1 = 128 := by decide +kernel
  match a with
  | ⟨0, _⟩ =>
    show win1_5.index ⟨(i 0).val / 14336, hlt⟩ 0 * 14336 ≤ (i 0).val ∧ (i 0).val < win1_5.index ⟨(i 0).val / 14336, hlt⟩ 0 * 14336 + win1_5.xsize (grid1.coords ⟨(i 0).val / 14336, hlt⟩) 0
    rw [(index_5 _).1, (hx _).1]
    show (i 0).val / 14336 * 14336 ≤ (i 0).val ∧ (i 0).val < (i 0).val / 14336 * 14336 + (if (i 0).val / 14336 = 6 then 13984 else 14336)
    split <;> omega
  | ⟨1, _⟩ =>
    show win1_5.index ⟨(i 0).val / 14336, hlt⟩ 1 * 128 ≤ (i 1).val ∧ (i 1).val < win1_5.index ⟨(i 0).val / 14336, hlt⟩ 1 * 128 + win1_5.xsize (grid1.coords ⟨(i 0).val / 14336, hlt⟩) 1
    rw [(index_5 _).2, (hx _).2]; omega

/-- The result array ends at the blend. -/
theorem arrAt_5 (d : Dev nD) : (rdat V W d).arrAt 5 cfg1.N = outV V :=
  (rdat V W d).arrAt_eq_of_cover 5 (outV V) (fun t _ => flushed_5 V W d t) (cover_5)

/-- Every windowed array after the call: an input as it was, the result at the blend. -/
theorem arrAt_final (d : Dev nD) (w : Fin cfg1.W) : (rdat V W d).arrAt w cfg1.N = VAfter V (Pipeline.arrRef spec1 w) := by
  have hne : ∀ b : DevRef τ sig, b ≠ Proc.devRef .tc main_v8 → VAfter V b = V b := fun b h => by
    unfold VAfter; exact Function.update_of_ne h _ _
  match w with
  | ⟨0, _⟩ => exact ((rdat V W d).arrAt_in 0 rfl _).trans (hne _ (by decide)).symm
  | ⟨1, _⟩ => exact ((rdat V W d).arrAt_in 1 rfl _).trans (hne _ (by decide)).symm
  | ⟨2, _⟩ => exact ((rdat V W d).arrAt_in 2 rfl _).trans (hne _ (by decide)).symm
  | ⟨3, _⟩ => exact ((rdat V W d).arrAt_in 3 rfl _).trans (hne _ (by decide)).symm
  | ⟨4, _⟩ => exact ((rdat V W d).arrAt_in 4 rfl _).trans (hne _ (by decide)).symm
  | ⟨5, _⟩ =>
    refine (arrAt_5 V W d).trans ?_
    unfold VAfter outV
    show _ = Function.update V (Proc.devRef .tc main_v8) _ (Proc.devRef .tc main_v8)
    rw [Function.update_self]

end Cert.Proof.KI

end
-- ==== Proof.KIClaims.lean ====
/-
  The program's run with the tile's task and the kernel region put in, and its two readings: the frame (the
  arguments end unchanged) and the named result.
-/
import proofs.«207473_g17575006175289_fold_wed_c4_317_29_alg».proof.Proof.KICommon
import proofs.«207473_g17575006175289_fold_wed_c4_317_29_alg».proof.Proof.KIMain
import proofs.«207473_g17575006175289_fold_wed_c4_317_29_alg».proof.Proof.KIRun
import proofs.«207473_g17575006175289_fold_wed_c4_317_29_alg».proof.Proof.KIVals
import proofs.«207473_g17575006175289_fold_wed_c4_317_29_alg».proof.Proof.KITile
import proofs.«207473_g17575006175289_fold_wed_c4_317_29_alg».proof.Proof.KIRegionDefs
import proofs.«207473_g17575006175289_fold_wed_c4_317_29_alg».proof.Proof.KIBlend
import proofs.«207473_g17575006175289_fold_wed_c4_317_29_alg».proof.Proof.KIRegion
import proofs.«207473_g17575006175289_fold_wed_c4_317_29_alg».proof.Proof.KIRegionVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo

variable [FloatOps F]

theorem hinj_adm : Function.Injective (Pipeline.cellOf (nD := nD) (τ := τ) (Pipeline.pin (pcfgs (F := F)) adm)) := cellOf_inj

theorem hreg : RegionSpec (F := F) blendV (Gst adm) := fun d V W _ k Q => region_wp_of V W (fun d w => arrAt_final V W d w) d k Q

variable (m : (ℓ : Loc nD τ sig) → Buf (Elt F) ℓ) (ρ : Dev nD → PrngReg)

/-- Every weakly fair execution of the device's threads terminates, nothing faulting, every unscoped array at its
    composed contents. -/
theorem run [∀ e, Nonempty (Elt F e)] :
    θ_run (Cert.KernelIdeal.defs (F := F)) (Cert.KernelIdeal.threads (F := F)) ⟨m, fun _ => 0, ρ⟩ (QC m blendV) :=
  run_main adm hinj_adm m ρ blendV (tileObl (gpad m)) hreg

/-- The frame: the five arguments end as they began. -/
theorem frame_of_run [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun r h c =>
    ⟨(h c a0' (by decide)).trans (V5_a0 m blendV c), (h c a1' (by decide)).trans (V5_a1 m blendV c), (h c a2' (by decide)).trans (V5_a2 m blendV c),
      (h c a3' (by decide)).trans (V5_a3 m blendV c), (h c a4' (by decide)).trans (V5_a4 m blendV c)⟩) (run m ρ)

/-- The result named: the program's result array at its composed contents, beside the frame. -/
theorem value_of_run [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_v10) = V5 m blendV c v10'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun r h c =>
    ⟨h c v10' (by decide), (h c a0' (by decide)).trans (V5_a0 m blendV c), (h c a1' (by decide)).trans (V5_a1 m blendV c), (h c a2' (by decide)).trans (V5_a2 m blendV c),
      (h c a3' (by decide)).trans (V5_a3 m blendV c), (h c a4' (by decide)).trans (V5_a4 m blendV c)⟩) (run m ρ)

end Cert.Proof.KI

end
-- ==== Proof.KIRegionIdeal.lean ====
/-
  The TensorCore call's result at the ideal values, read at one entry: where the mask at the entry's row is not zero,
  the input times the logistic of the weights' sum of products against the entry's column of the state plus the bias;
  elsewhere the input.
-/
import proofs.«207473_g17575006175289_fold_wed_c4_317_29_alg».proof.Proof.KIRegionDefs
import Idealize.ShloMosaic.PureOps.Ideal.Laws
import Idealize.ShloMosaic.Lib.ValueIdx
import Idealize.ShloMosaic.Lib.Pipeline.Value

set_option maxRecDepth 16384

noncomputable section

namespace Cert.Proof.KI

open Cert.KernelIdeal Cert.KernelIdeal.Gen
open Idealize.ShloMosaic Idealize.ShloMosaic.ValueIdx

/-! ## The gate's contraction, index by index -/

theorem gate_lhs_0 (j : S1x128.Idx) (q : dot_S1x1024_S128x1024_S1x128_1_1_0_0_n_n.contr.Idx) :
    (dot_S1x1024_S128x1024_S1x128_1_1_0_0_n_n.lhsIdx j q 0).val = (j 0).val := by
  unfold DotDims.lhsIdx
  rw [dif_neg (show ¬(0 : Fin S1x1024.rank) ∈ dot_S1x1024_S128x1024_S1x128_1_1_0_0_n_n.lhsBatch by decide), dif_pos (show (0 : Fin S1x1024.rank) ∈ dot_S1x1024_S128x1024_S1x128_1_1_0_0_n_n.lhsNonContracting by decide)]
  rfl
theorem gate_lhs_1 (j : S1x128.Idx) (q : dot_S1x1024_S128x1024_S1x128_1_1_0_0_n_n.contr.Idx) :
    (dot_S1x1024_S128x1024_S1x128_1_1_0_0_n_n.lhsIdx j q 1).val = (q ⟨0, by decide⟩).val :=
  dot_S1x1024_S128x1024_S1x128_1_1_0_0_n_n.lhsIdx_val_of_single rfl j q
theorem gate_rhs_0 (j : S1x128.Idx) (q : dot_S1x1024_S128x1024_S1x128_1_1_0_0_n_n.contr.Idx) :
    (dot_S1x1024_S128x1024_S1x128_1_1_0_0_n_n.rhsIdx j q 0).val = (j 1).val := by
  unfold DotDims.rhsIdx
  rw [dif_neg (show ¬(0 : Fin S128x1024.rank) ∈ dot_S1x1024_S128x1024_S1x128_1_1_0_0_n_n.rhsBatch by decide), dif_pos (show (0 : Fin S128x1024.rank) ∈ dot_S1x1024_S128x1024_S1x128_1_1_0_0_n_n.rhsNonContracting by decide)]
  rfl
theorem gate_rhs_1 (j : S1x128.Idx) (q : dot_S1x1024_S128x1024_S1x128_1_1_0_0_n_n.contr.Idx) :
    (dot_S1x1024_S128x1024_S1x128_1_1_0_0_n_n.rhsIdx j q 1).val = (q ⟨0, by decide⟩).val :=
  dot_S1x1024_S128x1024_S1x128_1_1_0_0_n_n.rhsIdx_val_of_single rfl j q

/-- The gate at one column: the logistic of the weights' sum of products against that column's row of the state, plus the bias. -/
theorem gate_ideal (A6 : Vec Ideal S128x1024 .f32) (A3 : Vec Ideal S1x1024 .f32) (A7 : Vec Ideal S1x1 .f32) (b : Fin 128) :
    gate (F := Ideal) A6 A3 A7 (ix2 (0 : Fin 1) b)
      = Ideal.logistic ((∑ h : Fin 1024, A3 (ix2 (0 : Fin 1) h) * A6 (ix2 b h)) + A7 (ix2 (0 : Fin 1) (0 : Fin 1))) := by
  unfold gate
  show Ideal.logistic (FloatOps.matmul (F := Ideal) dot_S1x1024_S128x1024_S1x128_1_1_0_0_n_n none A3 A6 (constant S1x128 .f32 0x00000000#32) (ix2 (0 : Fin 1) b)
      + broadcastTo S1x128 A7 broadcasts_S1x1_S1x128 (ix2 (0 : Fin 1) b)) = _
  rw [Ideal.matmul_constant_zero_apply,
    broadcastTo_apply A7 broadcasts_S1x1_S1x128 (ix2 (0 : Fin 1) b) (ix2 (0 : Fin 1) (0 : Fin 1)) (fun a => match a with
      | ⟨0, _⟩ => by show 0 = if (1 : Nat) = 1 then 0 else _; rw [if_pos rfl]
      | ⟨1, _⟩ => by show 0 = if (1 : Nat) = 1 then 0 else _; rw [if_pos rfl]),
    ← Equiv.sum_comp (ValueIdx.contrEquiv1 dot_S1x1024_S128x1024_S1x128_1_1_0_0_n_n 1024 rfl rfl).symm]
  congr 2
  refine Finset.sum_congr rfl fun k _ => ?_
  have hk := ValueIdx.contrEquiv1_symm_val dot_S1x1024_S128x1024_S1x128_1_1_0_0_n_n 1024 rfl rfl k
  have el : dot_S1x1024_S128x1024_S1x128_1_1_0_0_n_n.lhsIdx (ix2 (0 : Fin 1) b) ((ValueIdx.contrEquiv1 dot_S1x1024_S128x1024_S1x128_1_1_0_0_n_n 1024 rfl rfl).symm k)
      = ix2 (0 : Fin 1) k := funext fun a => Fin.ext (by
    match a with
    | ⟨0, _⟩ => exact gate_lhs_0 _ _
    | ⟨1, _⟩ => exact (gate_lhs_1 _ _).trans hk)
  have er : dot_S1x1024_S128x1024_S1x128_1_1_0_0_n_n.rhsIdx (ix2 (0 : Fin 1) b) ((ValueIdx.contrEquiv1 dot_S1x1024_S128x1024_S1x128_1_1_0_0_n_n 1024 rfl rfl).symm k)
      = ix2 b k := funext fun a => Fin.ext (by
    match a with
    | ⟨0, _⟩ => exact gate_rhs_0 _ _
    | ⟨1, _⟩ => exact (gate_rhs_1 _ _).trans hk)
  rw [el, er]

/-! ## The blended array at one entry -/

theorem blendOut_ideal (A6 : Vec Ideal S128x1024 .f32) (A3 : Vec Ideal S1x1024 .f32) (A7 : Vec Ideal S1x1 .f32)
    (A5 : Vec Ideal S100000x128 .f32) (Am : Vec Ideal S1024x128 .f32) (v : Fin 100000) (b : Fin 128) :
    blendOut (F := Ideal) A6 A3 A7 A5 Am (ix2 v b)
      = if Am (ix2 (⟨v.val / 128, hrow v⟩ : Fin 1024) (⟨v.val % 128, hcol v⟩ : Fin 128)) ≠ 0
        then A5 (ix2 v b) * Ideal.logistic ((∑ h : Fin 1024, A3 (ix2 (0 : Fin 1) h) * A6 (ix2 b h)) + A7 (ix2 (0 : Fin 1) (0 : Fin 1)))
        else A5 (ix2 v b) := by
  unfold blendOut
  show Scalar.select (Ideal.cmp .one (Am (ix2 (⟨v.val / 128, hrow v⟩ : Fin 1024) (⟨v.val % 128, hcol v⟩ : Fin 128))) (Ideal.ofBits .f32 0x00000000#32))
      (A5 (ix2 v b) * gate (F := Ideal) A6 A3 A7 (ix2 (0 : Fin 1) b)) (A5 (ix2 v b)) = _
  rw [Ideal.ofBits_zero_f32, gate_ideal]
  by_cases hx : Am (ix2 (⟨v.val / 128, hrow v⟩ : Fin 1024) (⟨v.val % 128, hcol v⟩ : Fin 128)) ≠ 0
  · rw [if_pos hx]
    have hc : Ideal.cmp .one (Am (ix2 (⟨v.val / 128, hrow v⟩ : Fin 1024) (⟨v.val % 128, hcol v⟩ : Fin 128))) 0 = 1#1 := by
      unfold Ideal.cmp; simp only [hx, ne_eq, not_false_eq_true, decide_true]; rfl
    rw [hc, select_one]
  · rw [if_neg hx]
    have hc : Ideal.cmp .one (Am (ix2 (⟨v.val / 128, hrow v⟩ : Fin 1024) (⟨v.val % 128, hcol v⟩ : Fin 128))) 0 = 0#1 := by
      unfold Ideal.cmp; simp only [hx, decide_false]; rfl
    rw [hc, select_zero]

end Cert.Proof.KI

end
-- ==== Proof.KIReads.lean ====
/-
  The layout operations around the two kernels read at an index: the transposed and flattened input, the state and
  bias views, the result carried back to [128,1,100000], and which words the padded [40,128] array holds.
-/
import proofs.«207473_g17575006175289_fold_wed_c4_317_29_alg».proof.Proof.KICommon
import proofs.«207473_g17575006175289_fold_wed_c4_317_29_alg».proof.Proof.KIMain
import proofs.«207473_g17575006175289_fold_wed_c4_317_29_alg».proof.Proof.KIVals
import Idealize.ShloMosaic.Lib.ValueIdx
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo Idealize.ShloMosaic.ValueIdx

variable [FloatOps F] (W : Valuation τ sig (Elt F))

/-- The kernel's input block array at (v, b) is the input at (b, 0, v). -/
theorem x_at (v : Fin 100000) (b : Fin 128) :
    (after ops2 W v5' : (⟨S100000x128, .f32⟩ : BufTy).Contents (Elt F)) (ix2 v b) = (W a0' : (⟨S128x1x100000, .f32⟩ : BufTy).Contents (Elt F)) (ix3 b (0 : Fin 1) v) := by
  rw [ops2_v5, shapeCast_1ab_ab_apply]
  exact transpose_apply [1, 2, 0] _ _ _ _ fun c => match c with | ⟨0, _⟩ => rfl | ⟨1, _⟩ => rfl | ⟨2, _⟩ => rfl

/-- The state as a matrix at (b, h) is the state at (0, b, h). -/
theorem state_at (b : Fin 128) (h : Fin 1024) :
    (after ops2 W v6' : (⟨S128x1024, .f32⟩ : BufTy).Contents (Elt F)) (ix2 b h) = (W a1' : (⟨S1x128x1024, .f32⟩ : BufTy).Contents (Elt F)) (ix3 (0 : Fin 1) b h) := by
  rw [ops2_v6, shapeCast_1ab_ab_apply]

/-- The bias as a [1,1] matrix is the bias. -/
theorem bias_at :
    (after ops2 W v7' : (⟨S1x1, .f32⟩ : BufTy).Contents (Elt F)) (ix2 (0 : Fin 1) (0 : Fin 1)) = (W a4' : (⟨S1, .f32⟩ : BufTy).Contents (Elt F)) (ix1 (0 : Fin 1)) := by
  rw [ops2_v7, shapeCast_a_1a_apply]

/-- The program's result at (b, 0, v) is the kernel's result array at (v, b). -/
theorem out_at (b : Fin 128) (v : Fin 100000) :
    (after ops3 W v10' : (⟨S128x1x100000, .f32⟩ : BufTy).Contents (Elt F)) (ix3 b (0 : Fin 1) v) = (W o' : (⟨S100000x128, .f32⟩ : BufTy).Contents (Elt F)) (ix2 v b) := by
  rw [ops3_v10]
  refine (transpose_apply [2, 0, 1] _ _ _ (ix3 (0 : Fin 1) v b) fun c => match c with | ⟨0, _⟩ => rfl | ⟨1, _⟩ => rfl | ⟨2, _⟩ => rfl).trans ?_
  rw [shapeCast_ab_1ab_apply]

/-! ### The padded words -/

/-- The padded [40,128] array at (r, q) is the padded vector at 128 r + q. -/
theorem pad_at (x : (⟨S5120, .i32⟩ : BufTy).Contents (Elt F)) (r : Fin 40) (q : Fin 128) :
    shapeCast S40x128 x shapeCasts_S5120_S40x128 (ix2 r q) = x (ix1 ⟨128 * r.val + q.val, by omega⟩) :=
  shapeCast_apply x _ _ _ (by
    rw [Shape.rowMajor_val_two, Shape.rowMajor_val_one]
    show 128 * r.val + q.val = r.val * 128 + q.val
    omega)

/-- The padded vector below 5000 is the grammar's word; -/
theorem cat_lo (x2 : (⟨S5000, .i32⟩ : BufTy).Contents (Elt F)) (y : (⟨S120, .i32⟩ : BufTy).Contents (Elt F)) (n : Fin 5120) (h : n.val < 5000) :
    concatenate S5120 0 [⟨S5000, x2⟩, ⟨S120, y⟩] concatenates_S5000_S120_S5120_d0 (ix1 n) = x2 (ix1 ⟨n.val, h⟩) :=
  concatenate_pair_apply_left (t := S5120) (s₁ := S5000) (s₂ := S120) 0 x2 y concatenates_S5000_S120_S5120_d0 (ix1 n) rfl (ix1 ⟨n.val, h⟩)
    fun b => match b with | ⟨0, _⟩ => rfl
/-- from 5000 on it is the padding word. -/
theorem cat_hi (x2 : (⟨S5000, .i32⟩ : BufTy).Contents (Elt F)) (y : (⟨S120, .i32⟩ : BufTy).Contents (Elt F)) (n : Fin 5120) (h : 5000 ≤ n.val) :
    concatenate S5120 0 [⟨S5000, x2⟩, ⟨S120, y⟩] concatenates_S5000_S120_S5120_d0 (ix1 n) = y (ix1 ⟨n.val - 5000, by omega⟩) :=
  concatenate_pair_apply_right (t := S5120) (s₁ := S5000) (s₂ := S120) 0 x2 y concatenates_S5000_S120_S5120_d0 (ix1 n) rfl rfl (ix1 ⟨n.val - 5000, by omega⟩)
    (fun b hb => match b with | ⟨0, _⟩ => absurd rfl hb)
    (show (n.val - 5000) + 5000 = n.val by omega)

/-- Some padded word, read signed, is a nonnegative `v` exactly when some word of the grammar is: the padding words
    read as minus one. -/
theorem pad_exists (x2 : (⟨S5000, .i32⟩ : BufTy).Contents (Elt F)) (v : ℤ) (hv : 0 ≤ v) :
    (∃ e : S40x128.Idx, ((shapeCast S40x128 (concatenate S5120 0 [⟨S5000, x2⟩, ⟨S120, broadcastInDim S120 ![] bcast_S_S120 (constantI S_ 32 4294967295#32)⟩] concatenates_S5000_S120_S5120_d0) shapeCasts_S5120_S40x128 e : BitVec 32)).toInt = v)
      ↔ ∃ i : S5000.Idx, (x2 i : BitVec 32).toInt = v := by
  constructor
  · rintro ⟨e, he⟩
    obtain ⟨r, q, rfl⟩ : ∃ (r : Fin 40) (q : Fin 128), e = ix2 r q := ⟨e 0, e 1, eq_ix2 e⟩
    rw [pad_at (F := F)] at he
    by_cases h : 128 * r.val + q.val < 5000
    · rw [cat_lo _ _ _ h] at he; exact ⟨_, he⟩
    · rw [cat_hi _ _ _ (Nat.le_of_not_lt h)] at he
      exfalso
      have : (4294967295#32 : BitVec 32).toInt = -1 := by decide
      have he' : (4294967295#32 : BitVec 32).toInt = v := he
      omega
  · rintro ⟨i, hi⟩
    obtain ⟨n, rfl⟩ : ∃ n : Fin 5000, i = ix1 n := ⟨i 0, eq_ix1 i⟩
    have hn : n.val < 5000 := n.isLt
    refine ⟨ix2 ⟨n.val / 128, by omega⟩ ⟨n.val % 128, Nat.mod_lt _ (by omega)⟩, ?_⟩
    rw [pad_at (F := F), cat_lo _ _ _ (show 128 * (n.val / 128) + n.val % 128 < 5000 by omega), ← hi]
    exact congrArg (fun k : Fin 5000 => ((x2 (ix1 k) : BitVec 32)).toInt) (Fin.ext (show 128 * (n.val / 128) + n.val % 128 = n.val by omega))

end Cert.Proof.KI

end
-- ==== Proof.KIValue.lean ====
/-
  The idealized kernel's result at an index, on the extended reals: the input entry scaled by the logistic gate of
  its batch row where some word of the grammar, read signed, is the entry's vocabulary position, and the input entry
  itself elsewhere.
-/
import proofs.«207473_g17575006175289_fold_wed_c4_317_29_alg».proof.Proof.KICommon
import proofs.«207473_g17575006175289_fold_wed_c4_317_29_alg».proof.Proof.KIMain
import proofs.«207473_g17575006175289_fold_wed_c4_317_29_alg».proof.Proof.KIVals
import proofs.«207473_g17575006175289_fold_wed_c4_317_29_alg».proof.Proof.KIReads
import proofs.«207473_g17575006175289_fold_wed_c4_317_29_alg».proof.Proof.KIRegionDefs
import proofs.«207473_g17575006175289_fold_wed_c4_317_29_alg».proof.Proof.KIBlend
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo Idealize.ShloMosaic.ValueIdx

theorem one_bits : Ideal.ofBits .f32 0x3F800000#32 = 1 := by simp [Ideal.ofBits, Ideal.ieee, -EReal.coe_mul]; norm_num

/-- The mask at the row and lane of vocabulary position `v` is nonzero exactly when some padded word reads `v`. -/
theorem mask_at (gp : S40x128.Idx → BitVec 32) (v : Fin 100000) :
    maskOf (F := Ideal) gp (ix2 (⟨v.val / 128, hrow v⟩ : Fin 1024) (⟨v.val % 128, hcol v⟩ : Fin 128)) ≠ 0 ↔ ∃ e, (gp e).toInt = (v.val : ℤ) := by
  have hflat : flat (ix2 (⟨v.val / 128, hrow v⟩ : Fin 1024) (⟨v.val % 128, hcol v⟩ : Fin 128)) = (v.val : ℤ) := by
    unfold flat
    show ((v.val / 128 * 128 + v.val % 128 : ℕ) : ℤ) = _
    congr 1; omega
  unfold maskOf
  rw [hflat]
  by_cases h : ∃ e, (gp e).toInt = (v.val : ℤ)
  · rw [if_pos h]
    exact ⟨fun _ => h, fun _ => by show Ideal.ofBits .f32 0x3F800000#32 ≠ 0; rw [one_bits]; exact one_ne_zero⟩
  · rw [if_neg h]
    exact ⟨fun h0 => absurd (show Ideal.ofBits .f32 0x00000000#32 = 0 from Ideal.ofBits_zero_f32) h0, fun h' => absurd h' h⟩

variable (m : (ℓ : Loc nD τ sig) → Buf (Elt Ideal) ℓ)

/-- The five arguments on a device, and the three views and the mask the kernel region reads. -/
abbrev x0 (d : Dev nD) : (⟨S128x1x100000, .f32⟩ : BufTy).Contents (Elt Ideal) := m (d, a0')
abbrev x1 (d : Dev nD) : (⟨S1x128x1024, .f32⟩ : BufTy).Contents (Elt Ideal) := m (d, a1')
abbrev x2 (d : Dev nD) : (⟨S5000, .i32⟩ : BufTy).Contents (Elt Ideal) := m (d, a2')
abbrev x3 (d : Dev nD) : (⟨S1x1024, .f32⟩ : BufTy).Contents (Elt Ideal) := m (d, a3')
abbrev x4 (d : Dev nD) : (⟨S1, .f32⟩ : BufTy).Contents (Elt Ideal) := m (d, a4')
abbrev A5 (d : Dev nD) : Vec Ideal S100000x128 .f32 := V3 m d v5'
abbrev A6 (d : Dev nD) : Vec Ideal S128x1024 .f32 := V3 m d v6'
abbrev A7 (d : Dev nD) : Vec Ideal S1x1 .f32 := V3 m d v7'

theorem V2_a0 (d : Dev nD) : V2 m d a0' = m (d, a0') := (Function.update_of_ne (by decide) _ _).trans (ops1_a0 _)
theorem V2_a1 (d : Dev nD) : V2 m d a1' = m (d, a1') := (Function.update_of_ne (by decide) _ _).trans (ops1_a1 _)
theorem V2_a3 (d : Dev nD) : V2 m d a3' = m (d, a3') := (Function.update_of_ne (by decide) _ _).trans (ops1_a3 _)
theorem V2_a4 (d : Dev nD) : V2 m d a4' = m (d, a4') := (Function.update_of_ne (by decide) _ _).trans (ops1_a4 _)
theorem V3_k (d : Dev nD) : V3 m d k' = maskOf (F := Ideal) (gpad m d) := (ops2_k _).trans (Function.update_self _ _ _)
theorem V3_a3 (d : Dev nD) : V3 m d a3' = m (d, a3') := (ops2_a3 _).trans (V2_a3 m d)

/-- What the idealized kernel's region computes, read at an index (the reading of `blendOut` on the extended reals). -/
def BlendReads : Prop :=
  ∀ (A6 : Vec Ideal S128x1024 .f32) (A3 : Vec Ideal S1x1024 .f32) (A7 : Vec Ideal S1x1 .f32) (A5 : Vec Ideal S100000x128 .f32) (Am : Vec Ideal S1024x128 .f32)
    (v : Fin 100000) (b : Fin 128),
    blendOut (F := Ideal) A6 A3 A7 A5 Am (ix2 v b)
      = if Am (ix2 (⟨v.val / 128, hrow v⟩ : Fin 1024) (⟨v.val % 128, hcol v⟩ : Fin 128)) ≠ 0
        then A5 (ix2 v b) * Ideal.logistic ((∑ h : Fin 1024, A3 (ix2 (0 : Fin 1) h) * A6 (ix2 b h)) + A7 (ix2 (0 : Fin 1) (0 : Fin 1)))
        else A5 (ix2 v b)

open Classical in
/-- The program's result at (b, 0, v). -/
theorem kernel_at (hB : BlendReads) (d : Dev nD) (b : Fin 128) (v : Fin 100000) :
    (V5 m blendV d v10' : (⟨S128x1x100000, .f32⟩ : BufTy).Contents (Elt Ideal)) (ix3 b (0 : Fin 1) v)
      = if ∃ i : S5000.Idx, (x2 m d i).toInt = (v.val : ℤ)
        then x0 m d (ix3 b (0 : Fin 1) v)
          * Ideal.logistic ((∑ h : Fin 1024, x3 m d (ix2 (0 : Fin 1) h) * x1 m d (ix3 (0 : Fin 1) b h)) + x4 m d (ix1 (0 : Fin 1)))
        else x0 m d (ix3 b (0 : Fin 1) v) := by
  have h1 : (V5 m blendV d v10' : (⟨S128x1x100000, .f32⟩ : BufTy).Contents (Elt Ideal)) (ix3 b (0 : Fin 1) v)
      = blendOut (F := Ideal) (A6 m d) (x3 m d) (A7 m d) (A5 m d) (maskOf (F := Ideal) (gpad m d)) (ix2 v b) := by
    rw [show V5 m blendV d v10' = after ops3 (V4 m blendV d) v10' from rfl, out_at,
      show V4 m blendV d o' = blendV (V3 m d) from Function.update_self _ _ _]
    show blendOut (F := Ideal) (V3 m d v6') (V3 m d a3') (V3 m d v7') (V3 m d v5') (V3 m d k') (ix2 v b) = _
    rw [V3_k, V3_a3]
  rw [h1, hB]
  have e5 : A5 m d (ix2 v b) = x0 m d (ix3 b (0 : Fin 1) v) := by
    show (after ops2 (V2 m d) v5' : (⟨S100000x128, .f32⟩ : BufTy).Contents (Elt Ideal)) (ix2 v b) = _
    rw [x_at, V2_a0]
  have e6 : ∀ h : Fin 1024, A6 m d (ix2 b h) = x1 m d (ix3 (0 : Fin 1) b h) := by
    intro h
    show (after ops2 (V2 m d) v6' : (⟨S128x1024, .f32⟩ : BufTy).Contents (Elt Ideal)) (ix2 b h) = _
    rw [state_at, V2_a1]
  have e7 : A7 m d (ix2 (0 : Fin 1) (0 : Fin 1)) = x4 m d (ix1 (0 : Fin 1)) := by
    show (after ops2 (V2 m d) v7' : (⟨S1x1, .f32⟩ : BufTy).Contents (Elt Ideal)) (ix2 (0 : Fin 1) (0 : Fin 1)) = _
    rw [bias_at, V2_a4]
  have ek : (maskOf (F := Ideal) (gpad m d) (ix2 (⟨v.val / 128, hrow v⟩ : Fin 1024) (⟨v.val % 128, hcol v⟩ : Fin 128)) ≠ 0)
      ↔ ∃ i : S5000.Idx, (x2 m d i).toInt = (v.val : ℤ) := by
    rw [mask_at, show gpad m d = after ops1 (V0 m d) g' from rfl, ops1_g]
    exact pad_exists (F := Ideal) (V0 m d a2') (v.val : ℤ) (Int.natCast_nonneg _)
  rw [e5, e7]
  simp only [e6]
  by_cases hx : ∃ i : S5000.Idx, (x2 m d i).toInt = (v.val : ℤ)
  · rw [if_pos (ek.mpr hx), if_pos hx]
  · rw [if_neg (fun h => hx (ek.mp h)), if_neg hx]

end Cert.Proof.KI

end
-- ==== Proof.KRefScatter.lean ====
/-
  A scatter whose body returns the update, with every update the same value, read at one element.

  The host's scatter is a left fold, over the update indices in row-major order, of the step "the
  update that lands at operand index j replaces the entry j; an update that lands nowhere changes
  nothing". When every update is the one value c, an entry is c after the fold exactly when some
  update lands on it, and keeps the operand's value otherwise: the order of the steps and repeated
  landings do not matter. For the scatter of 5000 scalars into a vector of 100000 entries by a
  [5000, 1] array of start indices, update e lands on entry v exactly when its start index, read
  signed, is v.
-/
import proofs.«207473_g17575006175289_fold_wed_c4_317_29_alg».proof.Proof.Gen.ReferenceIdeal.Run
import Idealize.ShloMosaic.Lib.ValueIdx
import Idealize.ShloMosaic.Lib.Pipeline.Value
import Idealize.ShloMosaic.PureOps.Ideal.Laws

noncomputable section

namespace Cert.Proof.Ref

open Cert.ReferenceIdeal Cert.ReferenceIdeal.Gen Idealize.ShloMosaic Idealize.ShloMosaic.ValueIdx

/-! ## A left fold of steps that each set an entry to one value or keep it -/

/-- If each step sets entry i to c when it hits i and keeps it otherwise, then after the fold entry i is c
    when some step of the list hits i, and is the initial entry when none does. -/
theorem foldl_set_or_keep {ι κ α : Type} (step : (ι → α) → κ → (ι → α)) (hit : κ → ι → Prop) (c : α)
    (hhit : ∀ r n i, hit n i → step r n i = c) (hmiss : ∀ r n i, ¬hit n i → step r n i = r i) (i : ι) :
    ∀ (l : List κ) (x : ι → α),
      ((∃ n ∈ l, hit n i) → l.foldl step x i = c) ∧ ((¬∃ n ∈ l, hit n i) → l.foldl step x i = x i)
  | [], x => ⟨fun ⟨_, hn, _⟩ => (nomatch hn), fun _ => rfl⟩
  | n :: l, x => by
    obtain ⟨ih1, ih2⟩ := foldl_set_or_keep step hit c hhit hmiss i l (step x n)
    rw [List.foldl_cons]
    constructor
    · rintro ⟨m, hm, hmi⟩
      by_cases hl : ∃ m ∈ l, hit m i
      · exact ih1 hl
      · rw [ih2 hl]
        rcases List.mem_cons.1 hm with rfl | hm'
        · exact hhit x m i hmi
        · exact absurd ⟨m, hm', hmi⟩ hl
    · intro hno
      have hl : ¬∃ m ∈ l, hit m i := fun ⟨m, hm, hmi⟩ => hno ⟨m, List.mem_cons.2 (Or.inr hm), hmi⟩
      rw [ih2 hl]
      exact hmiss x n i (fun hn => hno ⟨n, List.mem_cons.2 (Or.inl rfl), hn⟩)

/-! ## The scatter with the overwrite body and constant updates -/

/-- Entry i of the scatter is c when some update lands on i, and the operand's entry when none does. -/
theorem scatter_set {s si u : Shape} {w : Nat} {α : Type} (d : ScatterDims s si u) (x : s.Idx → α) (idx : IVec si w)
    (upd : u.Idx → α) (c : α) (hu : ∀ j, upd j = c) (i : s.Idx) :
    ((∃ j : u.Idx, d.resultIdx? j idx = some i) → Host.scatter d (fun _ b => b) x idx upd i = c) ∧
      ((¬∃ j : u.Idx, d.resultIdx? j idx = some i) → Host.scatter d (fun _ b => b) x idx upd i = x i) := by
  have hex : (∃ j : u.Idx, d.resultIdx? j idx = some i) ↔
      ∃ n ∈ List.finRange u.numel, d.resultIdx? (u.rowMajor.symm n) idx = some i := by
    constructor
    · rintro ⟨j, hj⟩
      exact ⟨u.rowMajor j, List.mem_finRange _, by rw [Equiv.symm_apply_apply]; exact hj⟩
    · rintro ⟨n, _, hn⟩
      exact ⟨_, hn⟩
  rw [hex]
  unfold Host.scatter
  refine foldl_set_or_keep _ (fun n i => d.resultIdx? (u.rowMajor.symm n) idx = some i) c ?_ ?_ i _ x
  · intro r n i' hh
    have hh' : d.resultIdx? (u.rowMajor.symm n) idx = some i' := hh
    rw [hh']
    show (if i' = i' then upd (u.rowMajor.symm n) else r i') = c
    rw [if_pos rfl]
    exact hu _
  · intro r n i' hh
    have hh' : ¬d.resultIdx? (u.rowMajor.symm n) idx = some i' := hh
    cases hm : d.resultIdx? (u.rowMajor.symm n) idx with
    | none => rfl
    | some j =>
      have hne : i' ≠ j := fun e => hh' (by rw [hm, e])
      show (if i' = j then upd (u.rowMajor.symm n) else r i') = r i'
      rw [if_neg hne]

/-! ## Where an update lands: scalars into a vector by a column of start indices -/

/-- The start of update e's window on the operand's one axis is its start index, read signed. -/
theorem start_vec (idx : IVec S5000x1 32) (e : Fin 5000) :
    scatter_S100000_S5000x1_S5000_n_0_0_1.start (ix1 e) idx 0 = (idx (ix2 e (0 : Fin 1))).toInt := by
  unfold ScatterDims.start
  rw [dif_pos (show (0 : Fin 1) ∈ scatter_S100000_S5000x1_S5000_n_0_0_1.scatterDimsToOperandDims from
    List.mem_singleton.mpr rfl)]
  have hsi : scatter_S100000_S5000x1_S5000_n_0_0_1.siIdx (ix1 e)
      ⟨List.idxOf (0 : Fin 1) scatter_S100000_S5000x1_S5000_n_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The window coordinate on the operand's one axis is zero: the axis is an inserted one. -/
theorem window_vec (e : Fin 5000) : scatter_S100000_S5000x1_S5000_n_0_0_1.window (ix1 e) 0 = 0 := by
  unfold ScatterDims.window
  rw [dif_neg (show (0 : Fin 1) ∉ scatter_S100000_S5000x1_S5000_n_0_0_1.sKept from
    (by decide : (0 : Fin 1) ∉ (List.finRange 1).filter (· ∉ [(0 : Fin 1)])))]

/-- Update e lands on entry v exactly when its start index, read signed, is v. -/
theorem resultIdx_vec_iff (idx : IVec S5000x1 32) (e : Fin 5000) (v : Fin 100000) :
    scatter_S100000_S5000x1_S5000_n_0_0_1.resultIdx? (ix1 e) idx = some (ix1 v) ↔
      (idx (ix2 e (0 : Fin 1))).toInt = (v.val : ℤ) := by
  unfold ScatterDims.resultIdx?
  constructor
  · intro h
    split at h
    · rename_i hin
      have hi := Option.some.inj h
      have h0 := congrArg Fin.val (congrFun hi 0)
      have hin0 := (hin 0).1
      simp only at h0
      rw [start_vec, window_vec] at h0 hin0
      have hv : ((ix1 v : S100000.Idx) 0).val = v.val := rfl
      rw [hv] at h0
      omega
    · exact absurd h (by simp)
  · intro h
    have hin : ∀ a : Fin S100000.rank,
        0 ≤ scatter_S100000_S5000x1_S5000_n_0_0_1.start (ix1 e) idx a + (scatter_S100000_S5000x1_S5000_n_0_0_1.window (ix1 e) a : ℤ) ∧
          scatter_S100000_S5000x1_S5000_n_0_0_1.start (ix1 e) idx a + (scatter_S100000_S5000x1_S5000_n_0_0_1.window (ix1 e) a : ℤ)
            < (S100000.size a : ℤ) := by
      intro a
      have ha : a = 0 := Fin.ext (Nat.lt_one_iff.1 a.isLt)
      subst ha
      rw [start_vec, window_vec, h]
      have hv := v.isLt
      have hs : S100000.size 0 = 100000 := rfl
      rw [hs]
      constructor <;> omega
    rw [dif_pos hin]
    congr 1
    funext a
    have ha : a = 0 := Fin.ext (Nat.lt_one_iff.1 a.isLt)
    subst ha
    refine Fin.ext ?_
    show (scatter_S100000_S5000x1_S5000_n_0_0_1.start (ix1 e) idx 0 + (scatter_S100000_S5000x1_S5000_n_0_0_1.window (ix1 e) 0 : ℤ)).toNat = v.val
    rw [start_vec, window_vec, h]
    omega

end Cert.Proof.Ref

end
-- ==== Proof.KRefAt.lean ====
/-
  The reference's result read at one element (b, 0, v), at the extended reals.

  The reference computes gate[b] = 1 / (1 + exp (-(Σ_k state[0, b, k] · W[0, k] + bias[0]))), the vector
  memory = zeros(100000) with the entries named by the index argument set to one, and
  result[b, 0, v] = gate[b] · (out[b, 0, v] · memory[v]) + out[b, 0, v] · (1 − memory[v]).
  With every index in [0, 99999] the negative-index normalisation keeps it, so memory[v] is one when some
  index equals v and zero otherwise. In the extended reals x · 1 = x, x · 0 = 0, 0 + x = x, x + 0 = x,
  1 − 1 = 0 and 1 − 0 = 1 hold for every x, infinite ones included, so the result is out · gate on the
  named entries and out elsewhere, with no finiteness needed.
-/
import proofs.«207473_g17575006175289_fold_wed_c4_317_29_alg».proof.Proof.Gen.ReferenceIdeal.Run
import proofs.«207473_g17575006175289_fold_wed_c4_317_29_alg».proof.Proof.Gen.ReferenceIdeal.Read
import proofs.«207473_g17575006175289_fold_wed_c4_317_29_alg».proof.Proof.KRefScatter
import Idealize.ShloMosaic.Lib.ValueIdx
import Idealize.ShloMosaic.Lib.Pipeline.Value
import Idealize.ShloMosaic.PureOps.Ideal.Laws

noncomputable section

namespace Cert.Proof.Ref

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The f32 pattern 0x3F800000 denotes the extended real one. -/
theorem ofBits_one_f32 : Ideal.ofBits .f32 0x3F800000#32 = 1 := by
  simp [Ideal.ofBits, Ideal.ieee, -EReal.coe_mul]; norm_num

/-- A one-bit word that is not one is zero. -/
theorem bit_eq_zero_of_ne_one : ∀ c : BitVec 1, c ≠ 1#1 → c = 0#1 := by decide

/-! ## The gate -/

/-- The gate at row b: the logistic of the row's dot product with the weights plus the bias. -/
theorem gate_at (x1 : (⟨S1x128x1024, .f32⟩ : BufTy).Contents (Elt Ideal)) (x3 : (⟨S1x1024, .f32⟩ : BufTy).Contents (Elt Ideal))
    (x4 : (⟨S1, .f32⟩ : BufTy).Contents (Elt Ideal)) (b : Fin 128) :
    val_main_v10 (F := Ideal) x1 x3 x4 (ix3 b (0 : Fin 1) (0 : Fin 1))
      = Ideal.logistic ((∑ k : Fin 1024, x1 (ix3 (0 : Fin 1) b k) * x3 (ix2 (0 : Fin 1) k)) + x4 (ix1 (0 : Fin 1))) := by
  have hl : ∀ k : Fin 1024, idx_main_v0 (lidx_main_v1 (ix3 b (0 : Fin 1) (0 : Fin 1)) k) = ix3 (0 : Fin 1) b k := fun k => by
    funext a
    match a with
    | ⟨0, _⟩ => rfl
    | ⟨1, _⟩ => rfl
    | ⟨2, _⟩ => rfl
  have hrr : ∀ k : Fin 1024, ridx_main_v1 (ix3 b (0 : Fin 1) (0 : Fin 1)) k = ix2 (0 : Fin 1) k := fun k => by
    funext a
    match a with
    | ⟨0, _⟩ => rfl
    | ⟨1, _⟩ => rfl
  have hb : idx_main_v2 (idx_main_v3 (ix3 b (0 : Fin 1) (0 : Fin 1))) = ix1 (0 : Fin 1) := by
    funext a
    match a with
    | ⟨0, _⟩ => rfl
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply, hb]
  simp only [val_main_v0_apply, hl, hrr]
  simp only [Ideal.hostDivf_def, Ideal.ofBits_def, ofBits_one_f32, Ideal.addf_def, Ideal.hostUnary_exp_def, Ideal.hostNegf_def,
    Ideal.negf_def]
  rfl

/-! ## The memory vector -/

/-- An index in [0, 99999] is kept by the negative-index normalisation: row e of the start indices is the index. -/
theorem idx_at (x2 : (⟨S5000, .i32⟩ : BufTy).Contents (Elt Ideal))
    (hr : ∀ e : S5000.Idx, 0 ≤ (x2 e).toInt ∧ (x2 e).toInt ≤ 99999) (e : Fin 5000) :
    val_main_v17 (F := Ideal) x2 (ix2 e (0 : Fin 1)) = x2 (ix1 e) := by
  have hi : idx_main_v17 (ix2 e (0 : Fin 1)) = ix1 e := by
    funext a
    match a with
    | ⟨0, _⟩ => rfl
  have hc : IntOp.cmpi .slt (x2 (ix1 e)) (0#32) = 0#1 :=
    bit_eq_zero_of_ne_one _ fun h1 => by
      have h2 := IntOp.cmpi_slt.1 h1
      rw [show (0#32 : BitVec 32).toInt = 0 from by decide] at h2
      have := (hr (ix1 e)).1
      omega
  rw [val_main_v17_apply, val_main_v16_apply, val_main_v13_apply, val_main_v12_apply, val_main_c_apply, hi, hc, select_zero]

/-- Entry v of the memory vector: one when some index equals v, zero when none does. -/
theorem mem_at (x2 : (⟨S5000, .i32⟩ : BufTy).Contents (Elt Ideal))
    (hr : ∀ e : S5000.Idx, 0 ≤ (x2 e).toInt ∧ (x2 e).toInt ≤ 99999) (v : Fin 100000) :
    ((∃ e : S5000.Idx, (x2 e).toInt = (v.val : ℤ)) → val_main_v19 (F := Ideal) x2 (ix1 v) = (1 : EReal)) ∧
      ((¬∃ e : S5000.Idx, (x2 e).toInt = (v.val : ℤ)) → val_main_v19 (F := Ideal) x2 (ix1 v) = (0 : EReal)) := by
  have hu : ∀ j : S5000.Idx, val_main_v18 (F := Ideal) j = (1 : EReal) := fun j => by
    rw [val_main_v18_apply, val_main_cst_3_apply]; exact ofBits_one_f32
  have hz : val_main_v11 (F := Ideal) (ix1 v) = (0 : EReal) := by
    rw [val_main_v11_apply, val_main_cst_1_apply]; exact Ideal.ofBits_zero_f32
  have hex : (∃ j : S5000.Idx, scatter_S100000_S5000x1_S5000_n_0_0_1.resultIdx? j (val_main_v17 (F := Ideal) x2) = some (ix1 v)) ↔
      ∃ e : S5000.Idx, (x2 e).toInt = (v.val : ℤ) := by
    constructor
    · rintro ⟨j, hj⟩
      obtain ⟨e, rfl⟩ : ∃ e : Fin 5000, j = ix1 e := ⟨j 0, eq_ix1 j⟩
      rw [resultIdx_vec_iff, idx_at x2 hr] at hj
      exact ⟨ix1 e, hj⟩
    · rintro ⟨j, hj⟩
      obtain ⟨e, rfl⟩ : ∃ e : Fin 5000, j = ix1 e := ⟨j 0, eq_ix1 j⟩
      refine ⟨ix1 e, ?_⟩
      rw [resultIdx_vec_iff, idx_at x2 hr]
      exact hj
  have key := scatter_set (α := EReal) scatter_S100000_S5000x1_S5000_n_0_0_1 (val_main_v11 (F := Ideal))
    (val_main_v17 (F := Ideal) x2) (val_main_v18 (F := Ideal)) (1 : EReal) hu (ix1 v)
  rw [hex, hz] at key
  exact key

/-! ## The result -/

theorem ref_at (x0 : (⟨S128x1x100000, .f32⟩ : BufTy).Contents (Elt Ideal)) (x1 : (⟨S1x128x1024, .f32⟩ : BufTy).Contents (Elt Ideal))
    (x2 : (⟨S5000, .i32⟩ : BufTy).Contents (Elt Ideal)) (x3 : (⟨S1x1024, .f32⟩ : BufTy).Contents (Elt Ideal))
    (x4 : (⟨S1, .f32⟩ : BufTy).Contents (Elt Ideal))
    (hr : ∀ e : S5000.Idx, 0 ≤ (x2 e).toInt ∧ (x2 e).toInt ≤ 99999) (b : Fin 128) (v : Fin 100000) :
    Cert.ReferenceIdeal.Read.val_main_v28 (F := Ideal) x0 x1 x2 x3 x4 (ix3 b 0 v)
      = if ∃ e : S5000.Idx, (x2 e).toInt = (v.val : ℤ) then
          x0 (ix3 b 0 v) * Ideal.logistic ((∑ k : Fin 1024, x1 (ix3 0 b k) * x3 (ix2 0 k)) + x4 (ix1 0))
        else x0 (ix3 b 0 v) := by
  have h20 : idx_main_v20 (idx_main_v21 (ix3 b (0 : Fin 1) v)) = ix1 v := by
    funext a
    match a with
    | ⟨0, _⟩ => rfl
  have h25 : idx_main_v25 (ix3 b (0 : Fin 1) v) = ix3 b (0 : Fin 1) (0 : Fin 1) := by
    funext a
    match a with
    | ⟨0, _⟩ => rfl
    | ⟨1, _⟩ => rfl
    | ⟨2, _⟩ => rfl
  rw [val_main_v28_apply, val_main_v26_apply, val_main_v27_apply, val_main_v25_apply, val_main_v24_apply, val_main_v23_apply,
    val_main_v22_apply, val_main_cst_4_apply, val_main_v21_apply, val_main_v20_apply, h20, h25, gate_at]
  simp only [Ideal.ofBits_def, ofBits_one_f32, Ideal.addf_def, Ideal.mulf_def, Ideal.subf_def]
  generalize Ideal.logistic ((∑ k : Fin 1024, x1 (ix3 0 b k) * x3 (ix2 0 k)) + x4 (ix1 0)) = g
  generalize x0 (ix3 b 0 v) = y
  by_cases h : ∃ e : S5000.Idx, (x2 e).toInt = (v.val : ℤ)
  · rw [if_pos h, (mem_at x2 hr v).1 h]
    have h11 : (1 : EReal) - 1 = 0 := by
      rw [← EReal.coe_one, ← EReal.coe_sub, sub_self, EReal.coe_zero]
    rw [h11, mul_one, mul_zero, add_zero, mul_comm]
  · rw [if_neg h, (mem_at x2 hr v).2 h]
    rw [sub_zero, mul_zero, mul_zero, zero_add, mul_one]

end Cert.Proof.Ref

end
-- ==== Proof.KIBridge.lean ====
/-
  The two idealized programs compute one function: at every batch row and vocabulary position the reference's
  gate·(x·memory) + x·(1 − memory), with memory the 0/1 indicator that some word of the grammar is the position, is the
  kernel's select between x·gate and x on the mask of those words.
-/
import proofs.«207473_g17575006175289_fold_wed_c4_317_29_alg».proof.Proof.KICommon
import proofs.«207473_g17575006175289_fold_wed_c4_317_29_alg».proof.Proof.KIMain
import proofs.«207473_g17575006175289_fold_wed_c4_317_29_alg».proof.Proof.KIVals
import proofs.«207473_g17575006175289_fold_wed_c4_317_29_alg».proof.Proof.KIBlend
import proofs.«207473_g17575006175289_fold_wed_c4_317_29_alg».proof.Proof.KIValue
import proofs.«207473_g17575006175289_fold_wed_c4_317_29_alg».proof.Proof.KRefAt
import proofs.«207473_g17575006175289_fold_wed_c4_317_29_alg».proof.Proof.KIRegionIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.StableHlo Idealize.ShloMosaic.ValueIdx

variable (m : (ℓ : Loc nD τ sig) → Buf (Elt Ideal) ℓ)

theorem result_eq (hB : BlendReads) (c : Dev nD) (hr : ∀ e : S5000.Idx, 0 ≤ (x2 m c e).toInt ∧ (x2 m c e).toInt ≤ 99999) :
    Cert.ReferenceIdeal.Read.val_main_v28 (F := Ideal) (x0 m c) (x1 m c) (x2 m c) (x3 m c) (x4 m c) = V5 m blendV c v10' := by
  funext i
  obtain ⟨b, u, v, rfl⟩ : ∃ (b : Fin 128) (u : Fin 1) (v : Fin 100000), i = ix3 b u v := ⟨i 0, i 1, i 2, eq_ix3 i⟩
  obtain rfl : u = 0 := Subsingleton.elim _ _
  rw [Cert.Proof.Ref.ref_at _ _ _ _ _ hr b v, kernel_at m hB c b v]
  have hsum : (∑ k : Fin 1024, x1 m c (ix3 (0 : Fin 1) b k) * x3 m c (ix2 (0 : Fin 1) k)) = ∑ h : Fin 1024, x3 m c (ix2 (0 : Fin 1) h) * x1 m c (ix3 (0 : Fin 1) b h) :=
    Finset.sum_congr rfl fun k _ => mul_comm _ _
  by_cases hx : ∃ e : S5000.Idx, (x2 m c e).toInt = (v.val : ℤ)
  · rw [if_pos hx, if_pos hx, hsum]
  · rw [if_neg hx, if_neg hx]

/-- The region's value read on the extended reals, as the bridge consumes it. -/
theorem blendReads : BlendReads := blendOut_ideal

end Cert.Proof.KI

end
-- ==== Proof.KRefPre.lean ====
/-
  The integer argument's range, read off the precondition. The precondition is a conjunction (an
  and of i1 words) whose last conjunct is the and-reduction over all 5000 entries e of
  (0 ≤ g[e]) and (g[e] ≤ 99999), both comparisons signed; the conjunction being one, every entry's
  two comparisons are one, and a signed comparison that is one is the order of the signed values.
-/
import proofs.«207473_g17575006175289_fold_wed_c4_317_29_alg».proof.Defs
import proofs.«207473_g17575006175289_fold_wed_c4_317_29_alg».proof.Proof.Gen.Pre_input_domain
import Idealize.ShloMosaic.Lib.ReduceAll
import Idealize.ShloMosaic.Lib.ValueIdx

noncomputable section

namespace Cert.Proof.Ref

open Idealize.ShloMosaic Idealize.ShloMosaic.TcCoe Idealize.SL.Sem

/-- The rank-zero shape has one index. -/
instance subsingleton_scalar_idx : Subsingleton Cert.Pre_input_domain.S_.Idx :=
  ⟨fun a b => funext fun d => d.elim0⟩

theorem pre_range (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S5000.Idx) :
    0 ≤ (m ((c.tc : Thread Cert.KernelIdeal.nD Cert.KernelIdeal.τ).loc Cert.KernelIdeal.main_arg2) e).toInt ∧
      (m ((c.tc : Thread Cert.KernelIdeal.nD Cert.KernelIdeal.τ).loc Cert.KernelIdeal.main_arg2) e).toInt ≤ 99999 := by
  have e0 := congrFun (h c) ValueIdx.ix0
  dsimp only [Cert.Pre_input_domain.fn, Cert.Pre_input_domain.fn_part1] at e0
  obtain ⟨-, h24⟩ := IntOp.andi_eq_one.1 e0
  have h23 := Host.reduce_andi_all _ _ _ _ _ h24 e
  obtain ⟨hge, hle⟩ := IntOp.andi_eq_one.1 h23
  have h0 : (0#32 : BitVec 32).toInt ≤ _ := IntOp.cmpi_sge.1 hge
  have h1 : _ ≤ (99999#32 : BitVec 32).toInt := IntOp.cmpi_sle.1 hle
  rw [show (0#32 : BitVec 32).toInt = 0 from by decide] at h0
  rw [show (99999#32 : BitVec 32).toInt = 99999 from by decide] at h1
  exact ⟨h0, h1⟩

end Cert.Proof.Ref

end
-- ==== Proof.lean ====
/-
  The five claims. The kernel's program — a SparseCore mask kernel on thirty-two vector subcores, host layout
  operations, a TensorCore blend kernel over a grid of seven, two closing layout operations — runs to the end on
  every weakly fair schedule of the device's thirty-five threads, faults nowhere and leaves its arguments unchanged,
  at the word level and on the extended reals (one proof, read at both instances); the reference's host program runs
  likewise; the idealization rewrote nothing; and on the extended reals both programs end with the same result:
  x·gate where some word of the grammar is the vocabulary position, x elsewhere, gate the logistic of the batch row's
  state against the weights plus the bias — which is the reference's gate·(x·memory) + x·(1 − memory) because memory is
  that 0/1 indicator and multiplication by zero and one is exact on the extended reals.
-/
import proofs.«207473_g17575006175289_fold_wed_c4_317_29_alg».proof.Defs
import proofs.«207473_g17575006175289_fold_wed_c4_317_29_alg».proof.Proof.Gen.Kernel
import proofs.«207473_g17575006175289_fold_wed_c4_317_29_alg».proof.Proof.Gen.Kernel.Skeleton
import proofs.«207473_g17575006175289_fold_wed_c4_317_29_alg».proof.Proof.Gen.Kernel.Launch
import proofs.«207473_g17575006175289_fold_wed_c4_317_29_alg».proof.Proof.Gen.Kernel.Points
import proofs.«207473_g17575006175289_fold_wed_c4_317_29_alg».proof.Proof.Gen.KernelIdeal
import proofs.«207473_g17575006175289_fold_wed_c4_317_29_alg».proof.Proof.Gen.KernelIdeal.Skeleton
import proofs.«207473_g17575006175289_fold_wed_c4_317_29_alg».proof.Proof.Gen.KernelIdeal.Launch
import proofs.«207473_g17575006175289_fold_wed_c4_317_29_alg».proof.Proof.Gen.KernelIdeal.Points
import proofs.«207473_g17575006175289_fold_wed_c4_317_29_alg».proof.Proof.Gen.ReferenceIdeal
import proofs.«207473_g17575006175289_fold_wed_c4_317_29_alg».proof.Proof.Gen.Pre_input_domain
import proofs.«207473_g17575006175289_fold_wed_c4_317_29_alg».proof.Proof.Gen.ReferenceIdeal.Run
import proofs.«207473_g17575006175289_fold_wed_c4_317_29_alg».proof.Proof.Gen.ReferenceIdeal.Read
import proofs.«207473_g17575006175289_fold_wed_c4_317_29_alg».proof.Proof.KBClaims
import proofs.«207473_g17575006175289_fold_wed_c4_317_29_alg».proof.Proof.KIClaims
import proofs.«207473_g17575006175289_fold_wed_c4_317_29_alg».proof.Proof.KIRegionIdeal
import proofs.«207473_g17575006175289_fold_wed_c4_317_29_alg».proof.Proof.KIBridge
import proofs.«207473_g17575006175289_fold_wed_c4_317_29_alg».proof.Proof.KRefPre
import Idealize.ShloMosaic.Adequacy
import Idealize.ShloMosaic.Init

noncomputable section

namespace Cert.Proof

open Idealize.ShloMosaic Idealize.SL.Sem

/-- The kernel as printed: it runs and keeps its arguments. -/
theorem frame_k : Cert.frame_Kernel := fun m ρ _ => Cert.Proof.KB.frame_of_run (F := Bits) m ρ

/-- The idealized kernel: the same run read on the extended reals. -/
theorem frame_ki : Cert.frame_KernelIdeal := fun m ρ _ => Cert.Proof.KI.frame_of_run (F := Ideal) m ρ

/-- The reference: its host program's run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at one result: the kernel's composed contents, which the reference's term equals
    index by index once the grammar's words are known to lie in the vocabulary. -/
theorem algebraic : Cert.algebraic_KernelIdeal_ReferenceIdeal := by
  intro m ρ m' ρ' hpre hagree
  refine ⟨fun c => Cert.Proof.KI.V5 m Cert.Proof.KI.blendV c Cert.Proof.KI.v10', Cert.Proof.KI.value_of_run (F := Ideal) m ρ, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2.1, (hagree c).2.2.2.2]
  exact (Cert.ReferenceIdeal.Read.val_main_v28_eq _ _ _ _ _).trans
    (Cert.Proof.KI.result_eq m Cert.Proof.KI.blendOut_ideal c (Cert.Proof.Ref.pre_range m hpre c))

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
